-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64x64 : Shape := ⟨4, ![16, 1024, 64, 64]⟩
abbrev S_ : Shape := ⟨0, ![]⟩

class Facts : Prop where
  bcast_S_S16x1024x64x64 : S_.BroadcastsInDim S16x1024x64x64 (![] : Fin 0 → Fin S16x1024x64x64.rank)
  reducesTo_S16x1024x64x64_S_d0_1_2_3 : S16x1024x64x64.ReducesTo [0, 1, 2, 3] S_
  h_S_ : 0 < S_.numel

variable [Facts]

def fn {F : FTy → Type} [FloatOps F] (main_arg0 : FVec F S16x1024x64x64 .f32) : IVec S_ 1 :=
  let main_v0 : FVec F S16x1024x64x64 .f32 := Host.absf main_arg0
  let main_cst : FVec F S_ .f32 := constant S_ .f32 0x7F800000#32
  let main_v1 : FVec F S16x1024x64x64 .f32 := broadcastInDim S16x1024x64x64 ![] bcast_S_S16x1024x64x64 main_cst
  let main_v2 : IVec S16x1024x64x64 1 := cmpf .olt main_v0 main_v1
  let main_c : IVec S_ 1 := constantI S_ 1 1#1
  let main_v3 : IVec S_ 1 := (fun x v => Host.reduce IntOp.andi x v reducesTo_S16x1024x64x64_S_d0_1_2_3 h_S_) main_v2 main_c
  main_v3
-- ==== Kernel.lean ====
abbrev S16x1024x64x64 : Shape := ⟨4, ![16, 1024, 64, 64]⟩
abbrev S16x64x64 : Shape := ⟨3, ![16, 64, 64]⟩
abbrev S16x15x1024 : Shape := ⟨3, ![16, 15, 1024]⟩
abbrev S1x1024x64x64 : Shape := ⟨4, ![1, 1024, 64, 64]⟩
abbrev S1x64x64 : Shape := ⟨3, ![1, 64, 64]⟩
abbrev S1x15x1024 : Shape := ⟨3, ![1, 15, 1024]⟩
abbrev S1024x64x64 : Shape := ⟨3, ![1024, 64, 64]⟩
abbrev S64x64 : Shape := ⟨2, ![64, 64]⟩
abbrev S1024x64 : Shape := ⟨2, ![1024, 64]⟩
abbrev S1024 : Shape := ⟨1, ![1024]⟩
abbrev S1x1x1024 : Shape := ⟨3, ![1, 1, 1024]⟩
abbrev S1x1024x42x42 : Shape := ⟨4, ![1, 1024, 42, 42]⟩
abbrev S1024x42x42 : Shape := ⟨3, ![1024, 42, 42]⟩
abbrev S1024x42 : Shape := ⟨2, ![1024, 42]⟩
abbrev S1x1024x32x32 : Shape := ⟨4, ![1, 1024, 32, 32]⟩
abbrev S1024x32x32 : Shape := ⟨3, ![1024, 32, 32]⟩
abbrev S1024x32 : Shape := ⟨2, ![1024, 32]⟩
abbrev S_ : Shape := ⟨0, ![]⟩
abbrev S16x42x42 : Shape := ⟨3, ![16, 42, 42]⟩
abbrev S16x32x32 : Shape := ⟨3, ![16, 32, 32]⟩
abbrev S1 : Shape := ⟨1, ![1]⟩
abbrev S15 : Shape := ⟨1, ![15]⟩
abbrev S16x15 : Shape := ⟨2, ![16, 15]⟩
abbrev S16x15x1 : Shape := ⟨3, ![16, 15, 1]⟩
abbrev S1x15x1 : Shape := ⟨3, ![1, 15, 1]⟩
abbrev S16x1024 : Shape := ⟨2, ![16, 1024]⟩
abbrev S16x1024x1x1 : Shape := ⟨4, ![16, 1024, 1, 1]⟩

abbrev nBuf : Space → Nat
  | .hbm => 207
  | .vmem => 6
  | .smem => 0
  | _ => 0

abbrev hbmTy0_0 (i : Nat) : BufTy := match i % 128 with
  | 0 => ⟨S16x1024x64x64, .f32⟩
  | 1 => ⟨S16x64x64, .f32⟩
  | 2 => ⟨S16x15x1024, .f32⟩
  | 3 => ⟨S_, .f32⟩
  | 4 => ⟨S_, .f32⟩
  | 5 => ⟨S_, .f32⟩
  | 6 => ⟨S_, .f32⟩
  | 7 => ⟨S16x64x64, .f32⟩
  | 8 => ⟨S16x64x64, .f32⟩
  | 9 => ⟨S_, .f32⟩
  | 10 => ⟨S16x64x64, .f32⟩
  | 11 => ⟨S16x64x64, .i1⟩
  | 12 => ⟨S16x64x64, .i32⟩
  | 13 => ⟨S_, .i32⟩
  | 14 => ⟨S_, .i32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S16x64x64, .i32⟩
  | 23 => ⟨S_, .i32⟩
  | 24 => ⟨S_, .i32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S16x42x42, .i1⟩
  | 33 => ⟨S16x42x42, .i32⟩
  | 34 => ⟨S_, .i32⟩
  | 35 => ⟨S_, .i32⟩
  | 36 => ⟨S_, .f32⟩
  | 37 => ⟨S_, .f32⟩
  | 38 => ⟨S_, .f32⟩
  | 39 => ⟨S_, .f32⟩
  | 40 => ⟨S_, .i1⟩
  | 41 => ⟨S_, .f32⟩
  | 42 => ⟨S_, .f32⟩
  | 43 => ⟨S16x42x42, .i1⟩
  | 44 => ⟨S16x42x42, .i32⟩
  | 45 => ⟨S_, .i32⟩
  | 46 => ⟨S_, .i32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S16x42x42, .i1⟩
  | 55 => ⟨S16x42x42, .i32⟩
  | 56 => ⟨S_, .i32⟩
  | 57 => ⟨S_, .i32⟩
  | 58 => ⟨S_, .f32⟩
  | 59 => ⟨S_, .f32⟩
  | 60 => ⟨S_, .f32⟩
  | 61 => ⟨S_, .f32⟩
  | 62 => ⟨S_, .i1⟩
  | 63 => ⟨S_, .f32⟩
  | 64 => ⟨S_, .f32⟩
  | 65 => ⟨S16x42x42, .i1⟩
  | 66 => ⟨S16x42x42, .i32⟩
  | 67 => ⟨S_, .i32⟩
  | 68 => ⟨S_, .i32⟩
  | 69 => ⟨S_, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S16x32x32, .i1⟩
  | 77 => ⟨S16x32x32, .i32⟩
  | 78 => ⟨S_, .i32⟩
  | 79 => ⟨S_, .i32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S16x32x32, .i1⟩
  | 88 => ⟨S16x32x32, .i32⟩
  | 89 => ⟨S_, .i32⟩
  | 90 => ⟨S_, .i32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S16x32x32, .i1⟩
  | 99 => ⟨S16x32x32, .i32⟩
  | 100 => ⟨S_, .i32⟩
  | 101 => ⟨S_, .i32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S16x32x32, .i1⟩
  | 110 => ⟨S16x32x32, .i32⟩
  | 111 => ⟨S_, .i32⟩
  | 112 => ⟨S_, .i32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S16x32x32, .i1⟩
  | 121 => ⟨S16x32x32, .i32⟩
  | 122 => ⟨S_, .i32⟩
  | 123 => ⟨S_, .i32⟩
  | 124 => ⟨S_, .f32⟩
  | 125 => ⟨S_, .f32⟩
  | 126 => ⟨S_, .f32⟩
  | 127 => ⟨S_, .f32⟩
  | _ => ⟨S16x1024x64x64, .f32⟩

abbrev hbmTy0_1 (i : Nat) : BufTy := match i % 128 with
  | 0 => ⟨S_, .i1⟩
  | 1 => ⟨S_, .f32⟩
  | 2 => ⟨S_, .f32⟩
  | 3 => ⟨S16x32x32, .i1⟩
  | 4 => ⟨S16x32x32, .i32⟩
  | 5 => ⟨S_, .i32⟩
  | 6 => ⟨S_, .i32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S16x32x32, .i1⟩
  | 15 => ⟨S16x32x32, .i32⟩
  | 16 => ⟨S_, .i32⟩
  | 17 => ⟨S_, .i32⟩
  | 18 => ⟨S_, .f32⟩
  | 19 => ⟨S_, .f32⟩
  | 20 => ⟨S_, .f32⟩
  | 21 => ⟨S_, .f32⟩
  | 22 => ⟨S_, .i1⟩
  | 23 => ⟨S_, .f32⟩
  | 24 => ⟨S_, .f32⟩
  | 25 => ⟨S16x32x32, .i1⟩
  | 26 => ⟨S16x32x32, .i32⟩
  | 27 => ⟨S_, .i32⟩
  | 28 => ⟨S_, .i32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S16x32x32, .i1⟩
  | 37 => ⟨S16x32x32, .i32⟩
  | 38 => ⟨S_, .i32⟩
  | 39 => ⟨S_, .i32⟩
  | 40 => ⟨S_, .f32⟩
  | 41 => ⟨S_, .f32⟩
  | 42 => ⟨S_, .f32⟩
  | 43 => ⟨S_, .f32⟩
  | 44 => ⟨S_, .i1⟩
  | 45 => ⟨S_, .f32⟩
  | 46 => ⟨S_, .f32⟩
  | 47 => ⟨S1, .f32⟩
  | 48 => ⟨S1, .f32⟩
  | 49 => ⟨S1, .f32⟩
  | 50 => ⟨S1, .f32⟩
  | 51 => ⟨S1, .f32⟩
  | 52 => ⟨S1, .f32⟩
  | 53 => ⟨S1, .f32⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S15, .f32⟩
  | 63 => ⟨S16x15x1024, .f32⟩
  | 64 => ⟨S_, .f32⟩
  | 65 => ⟨S16x15, .f32⟩
  | 66 => ⟨S16x15x1, .f32⟩
  | 67 => ⟨S16x15x1, .f32⟩
  | 68 => ⟨S_, .f32⟩
  | 69 => ⟨S16x15x1, .f32⟩
  | 70 => ⟨S16x15x1, .f32⟩
  | 71 => ⟨S16x15x1024, .f32⟩
  | 72 => ⟨S16x15x1024, .f32⟩
  | 73 => ⟨S1x15x1, .f32⟩
  | 74 => ⟨S16x15x1024, .f32⟩
  | 75 => ⟨S16x15x1024, .f32⟩
  | 76 => ⟨S_, .f32⟩
  | 77 => ⟨S16x1024, .f32⟩
  | 78 => ⟨S16x1024x1x1, .f32⟩
  | _ => ⟨S16x1024x64x64, .f32⟩

abbrev hbmTy (i : Nat) : BufTy := match i / 128 with
  | 0 => hbmTy0_0 i
  | 1 => hbmTy0_1 i
  | _ => ⟨S16x1024x64x64, .f32⟩

abbrev bufTy : (tb : Table) → Fin (tcTables nBuf tb) → BufTy
  | .hbm, ⟨i, _⟩ => hbmTy i
  | .local _ .vmem, ⟨0, _⟩ => ⟨S1x1024x64x64, .f32⟩
  | .local _ .vmem, ⟨1, _⟩ => ⟨S1x1024x64x64, .f32⟩
  | .local _ .vmem, ⟨2, _⟩ => ⟨S1x64x64, .f32⟩
  | .local _ .vmem, ⟨3, _⟩ => ⟨S1x64x64, .f32⟩
  | .local _ .vmem, ⟨4, _⟩ => ⟨S1x15x1024, .f32⟩
  | .local _ .vmem, ⟨5, _⟩ => ⟨S1x15x1024, .f32⟩
  | _, _ => ⟨S16x1024x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_9 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_cst_11 : Ref sig .tc := ⟨.hbm, 39, rfl⟩
abbrev main_v24 : Ref sig .tc := ⟨.hbm, 40, rfl⟩
abbrev main_cst_12 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_13 : Ref sig .tc := ⟨.hbm, 45, rfl⟩
abbrev main_v28 : Ref sig .tc := ⟨.hbm, 46, rfl⟩
abbrev main_v29 : Ref sig .tc := ⟨.hbm, 47, rfl⟩
abbrev main_cst_14 : Ref sig .tc := ⟨.hbm, 48, rfl⟩
abbrev main_v30 : Ref sig .tc := ⟨.hbm, 49, rfl⟩
abbrev main_cst_15 : Ref sig .tc := ⟨.hbm, 50, rfl⟩
abbrev main_v31 : Ref sig .tc := ⟨.hbm, 51, rfl⟩
abbrev main_cst_16 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_17 : Ref sig .tc := ⟨.hbm, 56, rfl⟩
abbrev main_v35 : Ref sig .tc := ⟨.hbm, 57, rfl⟩
abbrev main_v36 : Ref sig .tc := ⟨.hbm, 58, rfl⟩
abbrev main_cst_18 : Ref sig .tc := ⟨.hbm, 59, rfl⟩
abbrev main_v37 : Ref sig .tc := ⟨.hbm, 60, rfl⟩
abbrev main_cst_19 : Ref sig .tc := ⟨.hbm, 61, rfl⟩
abbrev main_v38 : Ref sig .tc := ⟨.hbm, 62, rfl⟩
abbrev main_cst_20 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_21 : Ref sig .tc := ⟨.hbm, 67, rfl⟩
abbrev main_v42 : Ref sig .tc := ⟨.hbm, 68, rfl⟩
abbrev main_v43 : Ref sig .tc := ⟨.hbm, 69, rfl⟩
abbrev main_cst_22 : Ref sig .tc := ⟨.hbm, 70, rfl⟩
abbrev main_v44 : Ref sig .tc := ⟨.hbm, 71, rfl⟩
abbrev main_cst_23 : Ref sig .tc := ⟨.hbm, 72, rfl⟩
abbrev main_v45 : Ref sig .tc := ⟨.hbm, 73, rfl⟩
abbrev main_cst_24 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_25 : Ref sig .tc := ⟨.hbm, 78, rfl⟩
abbrev main_v49 : Ref sig .tc := ⟨.hbm, 79, rfl⟩
abbrev main_v50 : Ref sig .tc := ⟨.hbm, 80, rfl⟩
abbrev main_cst_26 : Ref sig .tc := ⟨.hbm, 81, rfl⟩
abbrev main_v51 : Ref sig .tc := ⟨.hbm, 82, rfl⟩
abbrev main_cst_27 : Ref sig .tc := ⟨.hbm, 83, rfl⟩
abbrev main_v52 : Ref sig .tc := ⟨.hbm, 84, rfl⟩
abbrev main_cst_28 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_29 : Ref sig .tc := ⟨.hbm, 89, rfl⟩
abbrev main_v56 : Ref sig .tc := ⟨.hbm, 90, rfl⟩
abbrev main_v57 : Ref sig .tc := ⟨.hbm, 91, rfl⟩
abbrev main_cst_30 : Ref sig .tc := ⟨.hbm, 92, rfl⟩
abbrev main_v58 : Ref sig .tc := ⟨.hbm, 93, rfl⟩
abbrev main_cst_31 : Ref sig .tc := ⟨.hbm, 94, rfl⟩
abbrev main_v59 : Ref sig .tc := ⟨.hbm, 95, rfl⟩
abbrev main_cst_32 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_33 : Ref sig .tc := ⟨.hbm, 100, rfl⟩
abbrev main_v63 : Ref sig .tc := ⟨.hbm, 101, rfl⟩
abbrev main_v64 : Ref sig .tc := ⟨.hbm, 102, rfl⟩
abbrev main_cst_34 : Ref sig .tc := ⟨.hbm, 103, rfl⟩
abbrev main_v65 : Ref sig .tc := ⟨.hbm, 104, rfl⟩
abbrev main_cst_35 : Ref sig .tc := ⟨.hbm, 105, rfl⟩
abbrev main_v66 : Ref sig .tc := ⟨.hbm, 106, rfl⟩
abbrev main_cst_36 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_37 : Ref sig .tc := ⟨.hbm, 111, rfl⟩
abbrev main_v70 : Ref sig .tc := ⟨.hbm, 112, rfl⟩
abbrev main_v71 : Ref sig .tc := ⟨.hbm, 113, rfl⟩
abbrev main_cst_38 : Ref sig .tc := ⟨.hbm, 114, rfl⟩
abbrev main_v72 : Ref sig .tc := ⟨.hbm, 115, rfl⟩
abbrev main_cst_39 : Ref sig .tc := ⟨.hbm, 116, rfl⟩
abbrev main_v73 : Ref sig .tc := ⟨.hbm, 117, rfl⟩
abbrev main_cst_40 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_41 : Ref sig .tc := ⟨.hbm, 122, rfl⟩
abbrev main_v77 : Ref sig .tc := ⟨.hbm, 123, rfl⟩
abbrev main_v78 : Ref sig .tc := ⟨.hbm, 124, rfl⟩
abbrev main_cst_42 : Ref sig .tc := ⟨.hbm, 125, rfl⟩
abbrev main_v79 : Ref sig .tc := ⟨.hbm, 126, rfl⟩
abbrev main_cst_43 : Ref sig .tc := ⟨.hbm, 127, rfl⟩
abbrev main_v80 : Ref sig .tc := ⟨.hbm, 128, rfl⟩
abbrev main_cst_44 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_45 : Ref sig .tc := ⟨.hbm, 133, rfl⟩
abbrev main_v84 : Ref sig .tc := ⟨.hbm, 134, rfl⟩
abbrev main_v85 : Ref sig .tc := ⟨.hbm, 135, rfl⟩
abbrev main_cst_46 : Ref sig .tc := ⟨.hbm, 136, rfl⟩
abbrev main_v86 : Ref sig .tc := ⟨.hbm, 137, rfl⟩
abbrev main_cst_47 : Ref sig .tc := ⟨.hbm, 138, rfl⟩
abbrev main_v87 : Ref sig .tc := ⟨.hbm, 139, rfl⟩
abbrev main_cst_48 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_49 : Ref sig .tc := ⟨.hbm, 144, rfl⟩
abbrev main_v91 : Ref sig .tc := ⟨.hbm, 145, rfl⟩
abbrev main_v92 : Ref sig .tc := ⟨.hbm, 146, rfl⟩
abbrev main_cst_50 : Ref sig .tc := ⟨.hbm, 147, rfl⟩
abbrev main_v93 : Ref sig .tc := ⟨.hbm, 148, rfl⟩
abbrev main_cst_51 : Ref sig .tc := ⟨.hbm, 149, rfl⟩
abbrev main_v94 : Ref sig .tc := ⟨.hbm, 150, rfl⟩
abbrev main_cst_52 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_c_53 : Ref sig .tc := ⟨.hbm, 155, rfl⟩
abbrev main_v98 : Ref sig .tc := ⟨.hbm, 156, rfl⟩
abbrev main_v99 : Ref sig .tc := ⟨.hbm, 157, rfl⟩
abbrev main_cst_54 : Ref sig .tc := ⟨.hbm, 158, rfl⟩
abbrev main_v100 : Ref sig .tc := ⟨.hbm, 159, rfl⟩
abbrev main_cst_55 : Ref sig .tc := ⟨.hbm, 160, rfl⟩
abbrev main_v101 : Ref sig .tc := ⟨.hbm, 161, rfl⟩
abbrev main_cst_56 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c_57 : Ref sig .tc := ⟨.hbm, 166, rfl⟩
abbrev main_v105 : Ref sig .tc := ⟨.hbm, 167, rfl⟩
abbrev main_v106 : Ref sig .tc := ⟨.hbm, 168, rfl⟩
abbrev main_cst_58 : Ref sig .tc := ⟨.hbm, 169, rfl⟩
abbrev main_v107 : Ref sig .tc := ⟨.hbm, 170, rfl⟩
abbrev main_cst_59 : Ref sig .tc := ⟨.hbm, 171, rfl⟩
abbrev main_v108 : Ref sig .tc := ⟨.hbm, 172, rfl⟩
abbrev main_cst_60 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_call15_v0 : Ref sig .tc := ⟨.hbm, 191, rfl⟩
abbrev main_call15_cst : Ref sig .tc := ⟨.hbm, 192, rfl⟩
abbrev main_call15_v1 : Ref sig .tc := ⟨.hbm, 193, rfl⟩
abbrev main_call15_v2 : Ref sig .tc := ⟨.hbm, 194, rfl⟩
abbrev main_v126 : Ref sig .tc := ⟨.hbm, 195, rfl⟩
abbrev main_cst_61 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_62 : Ref sig .tc := ⟨.hbm, 204, rfl⟩
abbrev main_v134 : Ref sig .tc := ⟨.hbm, 205, rfl⟩
abbrev main_v135 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x15x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x64x64_S1x1024x64x64_0_0_0_0 : ∀ a, (![0, 0, 0, 0] : Fin 4 → Nat) a + S1x1024x64x64.size a ≤ S1x1024x64x64.size a
  h_S1x1024x64x64 : 0 < S1x1024x64x64.numel
  shapeCasts_S1x1024x64x64_S1024x64x64 : S1x1024x64x64.ShapeCasts S1024x64x64
  reduces_S1024x64x64_S64x64 : S1024x64x64.Reduces [0] S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reduces_S1024x64x64_S1024x64 : S1024x64x64.Reduces [2] S1024x64
  reduces_S1024x64_S1024 : S1024x64.Reduces [1] S1024
  inb_S1x15x1024_S1x1x1024_0_0_0 : ∀ a, (![0, 0, 0] : Fin 3 → Nat) a + S1x1x1024.size a ≤ S1x15x1024.size a
  h_S1x1x1024 : 0 < S1x1x1024.numel
  shapeCasts_S1x1x1024_S1024 : S1x1x1024.ShapeCasts S1024
  shapeCasts_S1024_S1x1x1024 : S1024.ShapeCasts S1x1x1024
  inb_S1x15x1024_S1x1x1024_0_1_0 : ∀ a, (![0, 1, 0] : Fin 3 → Nat) a + S1x1x1024.size a ≤ S1x15x1024.size a
  inb_S1x1024x64x64_S1x1024x42x42_0_0_0_0 : ∀ a, (![0, 0, 0, 0] : Fin 4 → Nat) a + S1x1024x42x42.size a ≤ S1x1024x64x64.size a
  h_S1x1024x42x42 : 0 < S1x1024x42x42.numel
  shapeCasts_S1x1024x42x42_S1024x42x42 : S1x1024x42x42.ShapeCasts S1024x42x42
  reduces_S1024x42x42_S1024x42 : S1024x42x42.Reduces [2] S1024x42
  reduces_S1024x42_S1024 : S1024x42.Reduces [1] S1024
  inb_S1x15x1024_S1x1x1024_0_2_0 : ∀ a, (![0, 2, 0] : Fin 3 → Nat) a + S1x1x1024.size a ≤ S1x15x1024.size a
  inb_S1x1024x64x64_S1x1024x42x42_0_0_0_22 : ∀ a, (![0, 0, 0, 22] : Fin 4 → Nat) a + S1x1024x42x42.size a ≤ S1x1024x64x64.size a
  inb_S1x15x1024_S1x1x1024_0_3_0 : ∀ a, (![0, 3, 0] : Fin 3 → Nat) a + S1x1x1024.size a ≤ S1x15x1024.size a
  inb_S1x1024x64x64_S1x1024x42x42_0_0_22_0 : ∀ a, (![0, 0, 22, 0] : Fin 4 → Nat) a + S1x1024x42x42.size a ≤ S1x1024x64x64.size a
  inb_S1x15x1024_S1x1x1024_0_4_0 : ∀ a, (![0, 4, 0] : Fin 3 → Nat) a + S1x1x1024.size a ≤ S1x15x1024.size a
  inb_S1x1024x64x64_S1x1024x42x42_0_0_22_22 : ∀ a, (![0, 0, 22, 22] : Fin 4 → Nat) a + S1x1024x42x42.size a ≤ S1x1024x64x64.size a
  inb_S1x15x1024_S1x1x1024_0_5_0 : ∀ a, (![0, 5, 0] : Fin 3 → Nat) a + S1x1x1024.size a ≤ S1x15x1024.size a
  inb_S1x1024x64x64_S1x1024x32x32_0_0_0_0 : ∀ a, (![0, 0, 0, 0] : Fin 4 → Nat) a + S1x1024x32x32.size a ≤ S1x1024x64x64.size a
  h_S1x1024x32x32 : 0 < S1x1024x32x32.numel
  shapeCasts_S1x1024x32x32_S1024x32x32 : S1x1024x32x32.ShapeCasts S1024x32x32
  reduces_S1024x32x32_S1024x32 : S1024x32x32.Reduces [2] S1024x32
  reduces_S1024x32_S1024 : S1024x32.Reduces [1] S1024
  inb_S1x15x1024_S1x1x1024_0_6_0 : ∀ a, (![0, 6, 0] : Fin 3 → Nat) a + S1x1x1024.size a ≤ S1x15x1024.size a
  inb_S1x1024x64x64_S1x1024x32x32_0_0_0_16 : ∀ a, (![0, 0, 0, 16] : Fin 4 → Nat) a + S1x1024x32x32.size a ≤ S1x1024x64x64.size a
  inb_S1x15x1024_S1x1x1024_0_7_0 : ∀ a, (![0, 7, 0] : Fin 3 → Nat) a + S1x1x1024.size a ≤ S1x15x1024.size a
  inb_S1x1024x64x64_S1x1024x32x32_0_0_0_32 : ∀ a, (![0, 0, 0, 32] : Fin 4 → Nat) a + S1x1024x32x32.size a ≤ S1x1024x64x64.size a
  inb_S1x15x1024_S1x1x1024_0_8_0 : ∀ a, (![0, 8, 0] : Fin 3 → Nat) a + S1x1x1024.size a ≤ S1x15x1024.size a
  inb_S1x1024x64x64_S1x1024x32x32_0_0_16_0 : ∀ a, (![0, 0, 16, 0] : Fin 4 → Nat) a + S1x1024x32x32.size a ≤ S1x1024x64x64.size a
  inb_S1x15x1024_S1x1x1024_0_9_0 : ∀ a, (![0, 9, 0] : Fin 3 → Nat) a + S1x1x1024.size a ≤ S1x15x1024.size a
  inb_S1x1024x64x64_S1x1024x32x32_0_0_16_16 : ∀ a, (![0, 0, 16, 16] : Fin 4 → Nat) a + S1x1024x32x32.size a ≤ S1x1024x64x64.size a
  inb_S1x15x1024_S1x1x1024_0_10_0 : ∀ a, (![0, 10, 0] : Fin 3 → Nat) a + S1x1x1024.size a ≤ S1x15x1024.size a
  inb_S1x1024x64x64_S1x1024x32x32_0_0_16_32 : ∀ a, (![0, 0, 16, 32] : Fin 4 → Nat) a + S1x1024x32x32.size a ≤ S1x1024x64x64.size a
  inb_S1x15x1024_S1x1x1024_0_11_0 : ∀ a, (![0, 11, 0] : Fin 3 → Nat) a + S1x1x1024.size a ≤ S1x15x1024.size a
  inb_S1x1024x64x64_S1x1024x32x32_0_0_32_0 : ∀ a, (![0, 0, 32, 0] : Fin 4 → Nat) a + S1x1024x32x32.size a ≤ S1x1024x64x64.size a
  inb_S1x15x1024_S1x1x1024_0_12_0 : ∀ a, (![0, 12, 0] : Fin 3 → Nat) a + S1x1x1024.size a ≤ S1x15x1024.size a
  inb_S1x1024x64x64_S1x1024x32x32_0_0_32_16 : ∀ a, (![0, 0, 32, 16] : Fin 4 → Nat) a + S1x1024x32x32.size a ≤ S1x1024x64x64.size a
  inb_S1x15x1024_S1x1x1024_0_13_0 : ∀ a, (![0, 13, 0] : Fin 3 → Nat) a + S1x1x1024.size a ≤ S1x15x1024.size a
  inb_S1x1024x64x64_S1x1024x32x32_0_0_32_32 : ∀ a, (![0, 0, 32, 32] : Fin 4 → Nat) a + S1x1024x32x32.size a ≤ S1x1024x64x64.size a
  inb_S1x15x1024_S1x1x1024_0_14_0 : ∀ a, (![0, 14, 0] : Fin 3 → Nat) a + S1x1x1024.size a ≤ S1x15x1024.size a
  reducesTo_S16x64x64_S_d0_1_2 : S16x64x64.ReducesTo [0, 1, 2] S_
  h_S_ : 0 < S_.numel
  bcast_S_S16x64x64 : S_.BroadcastsInDim S16x64x64 (![] : Fin 0 → Fin S16x64x64.rank)
  natLt_1_32 : 1 < 32
  slices_S16x64x64_S16x42x42_0_0_0 : S16x64x64.Slices ![0, 0, 0] S16x42x42
  reducesTo_S16x42x42_S_d0_1_2 : S16x42x42.ReducesTo [0, 1, 2] S_
  slices_S16x64x64_S16x42x42_0_0_22 : S16x64x64.Slices ![0, 0, 22] S16x42x42
  slices_S16x64x64_S16x42x42_0_22_0 : S16x64x64.Slices ![0, 22, 0] S16x42x42
  slices_S16x64x64_S16x42x42_0_22_22 : S16x64x64.Slices ![0, 22, 22] S16x42x42
  slices_S16x64x64_S16x32x32_0_0_0 : S16x64x64.Slices ![0, 0, 0] S16x32x32
  reducesTo_S16x32x32_S_d0_1_2 : S16x32x32.ReducesTo [0, 1, 2] S_
  slices_S16x64x64_S16x32x32_0_0_16 : S16x64x64.Slices ![0, 0, 16] S16x32x32
  slices_S16x64x64_S16x32x32_0_0_32 : S16x64x64.Slices ![0, 0, 32] S16x32x32
  slices_S16x64x64_S16x32x32_0_16_0 : S16x64x64.Slices ![0, 16, 0] S16x32x32
  slices_S16x64x64_S16x32x32_0_16_16 : S16x64x64.Slices ![0, 16, 16] S16x32x32
  slices_S16x64x64_S16x32x32_0_16_32 : S16x64x64.Slices ![0, 16, 32] S16x32x32
  slices_S16x64x64_S16x32x32_0_32_0 : S16x64x64.Slices ![0, 32, 0] S16x32x32
  slices_S16x64x64_S16x32x32_0_32_16 : S16x64x64.Slices ![0, 32, 16] S16x32x32
  slices_S16x64x64_S16x32x32_0_32_32 : S16x64x64.Slices ![0, 32, 32] S16x32x32
  bcast_S_S1 : S_.BroadcastsInDim S1 (![] : Fin 0 → Fin S1.rank)
  concatenates_S1_S1_S1_S1_S1_S1_S1_S1_S1_S1_S1_S1_S1_S1_S1_S15_d0 : Shape.Concatenates [S1, S1, S1, S1, S1, S1, S1, S1, S1, S1, S1, S1, S1, S1, S1] S15 0
  reducesTo_S16x15x1024_S16x15_d2 : S16x15x1024.ReducesTo [2] S16x15
  bcast_S16x15_S16x15x1_0_1 : S16x15.BroadcastsInDim S16x15x1 (![0, 1] : Fin 2 → Fin S16x15x1.rank)
  bcast_S_S16x15x1 : S_.BroadcastsInDim S16x15x1 (![] : Fin 0 → Fin S16x15x1.rank)
  bcast_S16x15x1_S16x15x1024_0_1_2 : S16x15x1.BroadcastsInDim S16x15x1024 (![0, 1, 2] : Fin 3 → Fin S16x15x1024.rank)
  bcast_S15_S1x15x1_1 : S15.BroadcastsInDim S1x15x1 (![1] : Fin 1 → Fin S1x15x1.rank)
  bcast_S1x15x1_S16x15x1024_0_1_2 : S1x15x1.BroadcastsInDim S16x15x1024 (![0, 1, 2] : Fin 3 → Fin S16x15x1024.rank)
  reducesTo_S16x15x1024_S16x1024_d1 : S16x15x1024.ReducesTo [1] S16x1024
  shapeCasts_S16x1024_S16x1024x1x1 : S16x1024.ShapeCasts S16x1024x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64x64.size a ≤ S16x1024x64x64.size a
  hwx0_0 : ∀ i : grid0.Coords, EltTy.bits .f32 = 32 ∨ (Rect.block (s := S16x1024x64x64) S1x1024x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x64x64.size a
  hwx0_1 : ∀ i : grid0.Coords, EltTy.bits .f32 = 32 ∨ (Rect.block (s := S16x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x1024.size a ≤ S16x15x1024.size a
  hwx0_2 : ∀ i : grid0.Coords, EltTy.bits .f32 = 32 ∨ (Rect.block (s := S16x15x1024) S1x15x1024.size (cc0_transform_2 i) (hinb0_2 i)).WholeWords (EltTy.packing .f32)

variable [Facts₀]

abbrev win0_0 : Pipeline.Window sig grid0 :=
  Pipeline.Window.ofSpec (Memref.whole main_arg0) S1x1024x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x15x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x64x64 : Shape := ⟨4, ![16, 1024, 64, 64]⟩
abbrev S_ : Shape := ⟨0, ![]⟩
abbrev S16x64x64 : Shape := ⟨3, ![16, 64, 64]⟩
abbrev S16x1024 : Shape := ⟨2, ![16, 1024]⟩
abbrev S16 : Shape := ⟨1, ![16]⟩
abbrev S16x1 : Shape := ⟨2, ![16, 1]⟩
abbrev S16x1024x42x42 : Shape := ⟨4, ![16, 1024, 42, 42]⟩
abbrev S16x42x42 : Shape := ⟨3, ![16, 42, 42]⟩
abbrev S16x1024x32x32 : Shape := ⟨4, ![16, 1024, 32, 32]⟩
abbrev S16x32x32 : Shape := ⟨3, ![16, 32, 32]⟩
abbrev S16x1024x1x1 : Shape := ⟨4, ![16, 1024, 1, 1]⟩

abbrev nBuf : Space → Nat
  | .hbm => 413
  | .vmem => 0
  | .smem => 0
  | _ => 0

abbrev hbmTy0_0 (i : Nat) : BufTy := match i % 128 with
  | 0 => ⟨S16x1024x64x64, .f32⟩
  | 1 => ⟨S_, .f32⟩
  | 2 => ⟨S16x64x64, .f32⟩
  | 3 => ⟨S_, .f32⟩
  | 4 => ⟨S_, .f32⟩
  | 5 => ⟨S_, .f32⟩
  | 6 => ⟨S_, .f32⟩
  | 7 => ⟨S16x64x64, .f32⟩
  | 8 => ⟨S16x64x64, .f32⟩
  | 9 => ⟨S_, .f32⟩
  | 10 => ⟨S16x64x64, .f32⟩
  | 11 => ⟨S16x64x64, .i1⟩
  | 12 => ⟨S_, .f32⟩
  | 13 => ⟨S16x1024, .f32⟩
  | 14 => ⟨S16x64x64, .i32⟩
  | 15 => ⟨S_, .i32⟩
  | 16 => ⟨S_, .i32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S16x1024, .f32⟩
  | 25 => ⟨S_, .f32⟩
  | 26 => ⟨S16, .f32⟩
  | 27 => ⟨S16x1, .f32⟩
  | 28 => ⟨S16x1, .f32⟩
  | 29 => ⟨S_, .f32⟩
  | 30 => ⟨S16x1, .f32⟩
  | 31 => ⟨S16x1, .f32⟩
  | 32 => ⟨S16x1024, .f32⟩
  | 33 => ⟨S16x1024, .f32⟩
  | 34 => ⟨S16x1024, .f32⟩
  | 35 => ⟨S16x1024, .f32⟩
  | 36 => ⟨S_, .f32⟩
  | 37 => ⟨S16x1024, .f32⟩
  | 38 => ⟨S16x64x64, .i32⟩
  | 39 => ⟨S_, .i32⟩
  | 40 => ⟨S_, .i32⟩
  | 41 => ⟨S_, .f32⟩
  | 42 => ⟨S_, .f32⟩
  | 43 => ⟨S_, .f32⟩
  | 44 => ⟨S_, .f32⟩
  | 45 => ⟨S_, .i1⟩
  | 46 => ⟨S_, .f32⟩
  | 47 => ⟨S_, .f32⟩
  | 48 => ⟨S16x1024, .f32⟩
  | 49 => ⟨S_, .f32⟩
  | 50 => ⟨S16, .f32⟩
  | 51 => ⟨S16x1, .f32⟩
  | 52 => ⟨S16x1, .f32⟩
  | 53 => ⟨S_, .f32⟩
  | 54 => ⟨S16x1, .f32⟩
  | 55 => ⟨S16x1, .f32⟩
  | 56 => ⟨S16x1024, .f32⟩
  | 57 => ⟨S16x1024, .f32⟩
  | 58 => ⟨S16x1024, .f32⟩
  | 59 => ⟨S16x1024, .f32⟩
  | 60 => ⟨S16x1024, .f32⟩
  | 61 => ⟨S16x1024x42x42, .f32⟩
  | 62 => ⟨S16x42x42, .i1⟩
  | 63 => ⟨S_, .f32⟩
  | 64 => ⟨S16x1024, .f32⟩
  | 65 => ⟨S16x42x42, .i32⟩
  | 66 => ⟨S_, .i32⟩
  | 67 => ⟨S_, .i32⟩
  | 68 => ⟨S_, .f32⟩
  | 69 => ⟨S_, .f32⟩
  | 70 => ⟨S_, .f32⟩
  | 71 => ⟨S_, .f32⟩
  | 72 => ⟨S_, .i1⟩
  | 73 => ⟨S_, .f32⟩
  | 74 => ⟨S_, .f32⟩
  | 75 => ⟨S16x1024, .f32⟩
  | 76 => ⟨S_, .f32⟩
  | 77 => ⟨S16, .f32⟩
  | 78 => ⟨S16x1, .f32⟩
  | 79 => ⟨S16x1, .f32⟩
  | 80 => ⟨S_, .f32⟩
  | 81 => ⟨S16x1, .f32⟩
  | 82 => ⟨S16x1, .f32⟩
  | 83 => ⟨S16x1024, .f32⟩
  | 84 => ⟨S16x1024, .f32⟩
  | 85 => ⟨S16x1024, .f32⟩
  | 86 => ⟨S16x1024, .f32⟩
  | 87 => ⟨S16x1024, .f32⟩
  | 88 => ⟨S16x1024x42x42, .f32⟩
  | 89 => ⟨S16x42x42, .i1⟩
  | 90 => ⟨S_, .f32⟩
  | 91 => ⟨S16x1024, .f32⟩
  | 92 => ⟨S16x42x42, .i32⟩
  | 93 => ⟨S_, .i32⟩
  | 94 => ⟨S_, .i32⟩
  | 95 => ⟨S_, .f32⟩
  | 96 => ⟨S_, .f32⟩
  | 97 => ⟨S_, .f32⟩
  | 98 => ⟨S_, .f32⟩
  | 99 => ⟨S_, .i1⟩
  | 100 => ⟨S_, .f32⟩
  | 101 => ⟨S_, .f32⟩
  | 102 => ⟨S16x1024, .f32⟩
  | 103 => ⟨S_, .f32⟩
  | 104 => ⟨S16, .f32⟩
  | 105 => ⟨S16x1, .f32⟩
  | 106 => ⟨S16x1, .f32⟩
  | 107 => ⟨S_, .f32⟩
  | 108 => ⟨S16x1, .f32⟩
  | 109 => ⟨S16x1, .f32⟩
  | 110 => ⟨S16x1024, .f32⟩
  | 111 => ⟨S16x1024, .f32⟩
  | 112 => ⟨S16x1024, .f32⟩
  | 113 => ⟨S16x1024, .f32⟩
  | 114 => ⟨S16x1024, .f32⟩
  | 115 => ⟨S16x1024x42x42, .f32⟩
  | 116 => ⟨S16x42x42, .i1⟩
  | 117 => ⟨S_, .f32⟩
  | 118 => ⟨S16x1024, .f32⟩
  | 119 => ⟨S16x42x42, .i32⟩
  | 120 => ⟨S_, .i32⟩
  | 121 => ⟨S_, .i32⟩
  | 122 => ⟨S_, .f32⟩
  | 123 => ⟨S_, .f32⟩
  | 124 => ⟨S_, .f32⟩
  | 125 => ⟨S_, .f32⟩
  | 126 => ⟨S_, .i1⟩
  | 127 => ⟨S_, .f32⟩
  | _ => ⟨S16x1024x64x64, .f32⟩

abbrev hbmTy0_1 (i : Nat) : BufTy := match i % 128 with
  | 0 => ⟨S_, .f32⟩
  | 1 => ⟨S16x1024, .f32⟩
  | 2 => ⟨S_, .f32⟩
  | 3 => ⟨S16, .f32⟩
  | 4 => ⟨S16x1, .f32⟩
  | 5 => ⟨S16x1, .f32⟩
  | 6 => ⟨S_, .f32⟩
  | 7 => ⟨S16x1, .f32⟩
  | 8 => ⟨S16x1, .f32⟩
  | 9 => ⟨S16x1024, .f32⟩
  | 10 => ⟨S16x1024, .f32⟩
  | 11 => ⟨S16x1024, .f32⟩
  | 12 => ⟨S16x1024, .f32⟩
  | 13 => ⟨S16x1024, .f32⟩
  | 14 => ⟨S16x1024x42x42, .f32⟩
  | 15 => ⟨S16x42x42, .i1⟩
  | 16 => ⟨S_, .f32⟩
  | 17 => ⟨S16x1024, .f32⟩
  | 18 => ⟨S16x42x42, .i32⟩
  | 19 => ⟨S_, .i32⟩
  | 20 => ⟨S_, .i32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S16x1024, .f32⟩
  | 29 => ⟨S_, .f32⟩
  | 30 => ⟨S16, .f32⟩
  | 31 => ⟨S16x1, .f32⟩
  | 32 => ⟨S16x1, .f32⟩
  | 33 => ⟨S_, .f32⟩
  | 34 => ⟨S16x1, .f32⟩
  | 35 => ⟨S16x1, .f32⟩
  | 36 => ⟨S16x1024, .f32⟩
  | 37 => ⟨S16x1024, .f32⟩
  | 38 => ⟨S16x1024, .f32⟩
  | 39 => ⟨S16x1024, .f32⟩
  | 40 => ⟨S16x1024, .f32⟩
  | 41 => ⟨S16x1024x32x32, .f32⟩
  | 42 => ⟨S16x32x32, .i1⟩
  | 43 => ⟨S_, .f32⟩
  | 44 => ⟨S16x1024, .f32⟩
  | 45 => ⟨S16x32x32, .i32⟩
  | 46 => ⟨S_, .i32⟩
  | 47 => ⟨S_, .i32⟩
  | 48 => ⟨S_, .f32⟩
  | 49 => ⟨S_, .f32⟩
  | 50 => ⟨S_, .f32⟩
  | 51 => ⟨S_, .f32⟩
  | 52 => ⟨S_, .i1⟩
  | 53 => ⟨S_, .f32⟩
  | 54 => ⟨S_, .f32⟩
  | 55 => ⟨S16x1024, .f32⟩
  | 56 => ⟨S_, .f32⟩
  | 57 => ⟨S16, .f32⟩
  | 58 => ⟨S16x1, .f32⟩
  | 59 => ⟨S16x1, .f32⟩
  | 60 => ⟨S_, .f32⟩
  | 61 => ⟨S16x1, .f32⟩
  | 62 => ⟨S16x1, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024x32x32, .f32⟩
  | 69 => ⟨S16x32x32, .i1⟩
  | 70 => ⟨S_, .f32⟩
  | 71 => ⟨S16x1024, .f32⟩
  | 72 => ⟨S16x32x32, .i32⟩
  | 73 => ⟨S_, .i32⟩
  | 74 => ⟨S_, .i32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S16x1024, .f32⟩
  | 83 => ⟨S_, .f32⟩
  | 84 => ⟨S16, .f32⟩
  | 85 => ⟨S16x1, .f32⟩
  | 86 => ⟨S16x1, .f32⟩
  | 87 => ⟨S_, .f32⟩
  | 88 => ⟨S16x1, .f32⟩
  | 89 => ⟨S16x1, .f32⟩
  | 90 => ⟨S16x1024, .f32⟩
  | 91 => ⟨S16x1024, .f32⟩
  | 92 => ⟨S16x1024, .f32⟩
  | 93 => ⟨S16x1024, .f32⟩
  | 94 => ⟨S16x1024, .f32⟩
  | 95 => ⟨S16x1024x32x32, .f32⟩
  | 96 => ⟨S16x32x32, .i1⟩
  | 97 => ⟨S_, .f32⟩
  | 98 => ⟨S16x1024, .f32⟩
  | 99 => ⟨S16x32x32, .i32⟩
  | 100 => ⟨S_, .i32⟩
  | 101 => ⟨S_, .i32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S16x1024, .f32⟩
  | 110 => ⟨S_, .f32⟩
  | 111 => ⟨S16, .f32⟩
  | 112 => ⟨S16x1, .f32⟩
  | 113 => ⟨S16x1, .f32⟩
  | 114 => ⟨S_, .f32⟩
  | 115 => ⟨S16x1, .f32⟩
  | 116 => ⟨S16x1, .f32⟩
  | 117 => ⟨S16x1024, .f32⟩
  | 118 => ⟨S16x1024, .f32⟩
  | 119 => ⟨S16x1024, .f32⟩
  | 120 => ⟨S16x1024, .f32⟩
  | 121 => ⟨S16x1024, .f32⟩
  | 122 => ⟨S16x1024x32x32, .f32⟩
  | 123 => ⟨S16x32x32, .i1⟩
  | 124 => ⟨S_, .f32⟩
  | 125 => ⟨S16x1024, .f32⟩
  | 126 => ⟨S16x32x32, .i32⟩
  | 127 => ⟨S_, .i32⟩
  | _ => ⟨S16x1024x64x64, .f32⟩

abbrev hbmTy0_2 (i : Nat) : BufTy := match i % 128 with
  | 0 => ⟨S_, .i32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S16x1024, .f32⟩
  | 9 => ⟨S_, .f32⟩
  | 10 => ⟨S16, .f32⟩
  | 11 => ⟨S16x1, .f32⟩
  | 12 => ⟨S16x1, .f32⟩
  | 13 => ⟨S_, .f32⟩
  | 14 => ⟨S16x1, .f32⟩
  | 15 => ⟨S16x1, .f32⟩
  | 16 => ⟨S16x1024, .f32⟩
  | 17 => ⟨S16x1024, .f32⟩
  | 18 => ⟨S16x1024, .f32⟩
  | 19 => ⟨S16x1024, .f32⟩
  | 20 => ⟨S16x1024, .f32⟩
  | 21 => ⟨S16x1024x32x32, .f32⟩
  | 22 => ⟨S16x32x32, .i1⟩
  | 23 => ⟨S_, .f32⟩
  | 24 => ⟨S16x1024, .f32⟩
  | 25 => ⟨S16x32x32, .i32⟩
  | 26 => ⟨S_, .i32⟩
  | 27 => ⟨S_, .i32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S16x1024, .f32⟩
  | 36 => ⟨S_, .f32⟩
  | 37 => ⟨S16, .f32⟩
  | 38 => ⟨S16x1, .f32⟩
  | 39 => ⟨S16x1, .f32⟩
  | 40 => ⟨S_, .f32⟩
  | 41 => ⟨S16x1, .f32⟩
  | 42 => ⟨S16x1, .f32⟩
  | 43 => ⟨S16x1024, .f32⟩
  | 44 => ⟨S16x1024, .f32⟩
  | 45 => ⟨S16x1024, .f32⟩
  | 46 => ⟨S16x1024, .f32⟩
  | 47 => ⟨S16x1024, .f32⟩
  | 48 => ⟨S16x1024x32x32, .f32⟩
  | 49 => ⟨S16x32x32, .i1⟩
  | 50 => ⟨S_, .f32⟩
  | 51 => ⟨S16x1024, .f32⟩
  | 52 => ⟨S16x32x32, .i32⟩
  | 53 => ⟨S_, .i32⟩
  | 54 => ⟨S_, .i32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S16x1024, .f32⟩
  | 63 => ⟨S_, .f32⟩
  | 64 => ⟨S16, .f32⟩
  | 65 => ⟨S16x1, .f32⟩
  | 66 => ⟨S16x1, .f32⟩
  | 67 => ⟨S_, .f32⟩
  | 68 => ⟨S16x1, .f32⟩
  | 69 => ⟨S16x1, .f32⟩
  | 70 => ⟨S16x1024, .f32⟩
  | 71 => ⟨S16x1024, .f32⟩
  | 72 => ⟨S16x1024, .f32⟩
  | 73 => ⟨S16x1024, .f32⟩
  | 74 => ⟨S16x1024, .f32⟩
  | 75 => ⟨S16x1024x32x32, .f32⟩
  | 76 => ⟨S16x32x32, .i1⟩
  | 77 => ⟨S_, .f32⟩
  | 78 => ⟨S16x1024, .f32⟩
  | 79 => ⟨S16x32x32, .i32⟩
  | 80 => ⟨S_, .i32⟩
  | 81 => ⟨S_, .i32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S16x1024, .f32⟩
  | 90 => ⟨S_, .f32⟩
  | 91 => ⟨S16, .f32⟩
  | 92 => ⟨S16x1, .f32⟩
  | 93 => ⟨S16x1, .f32⟩
  | 94 => ⟨S_, .f32⟩
  | 95 => ⟨S16x1, .f32⟩
  | 96 => ⟨S16x1, .f32⟩
  | 97 => ⟨S16x1024, .f32⟩
  | 98 => ⟨S16x1024, .f32⟩
  | 99 => ⟨S16x1024, .f32⟩
  | 100 => ⟨S16x1024, .f32⟩
  | 101 => ⟨S16x1024, .f32⟩
  | 102 => ⟨S16x1024x32x32, .f32⟩
  | 103 => ⟨S16x32x32, .i1⟩
  | 104 => ⟨S_, .f32⟩
  | 105 => ⟨S16x1024, .f32⟩
  | 106 => ⟨S16x32x32, .i32⟩
  | 107 => ⟨S_, .i32⟩
  | 108 => ⟨S_, .i32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S16x1024, .f32⟩
  | 117 => ⟨S_, .f32⟩
  | 118 => ⟨S16, .f32⟩
  | 119 => ⟨S16x1, .f32⟩
  | 120 => ⟨S16x1, .f32⟩
  | 121 => ⟨S_, .f32⟩
  | 122 => ⟨S16x1, .f32⟩
  | 123 => ⟨S16x1, .f32⟩
  | 124 => ⟨S16x1024, .f32⟩
  | 125 => ⟨S16x1024, .f32⟩
  | 126 => ⟨S16x1024, .f32⟩
  | 127 => ⟨S16x1024, .f32⟩
  | _ => ⟨S16x1024x64x64, .f32⟩

abbrev hbmTy0_3 (i : Nat) : BufTy := match i % 128 with
  | 0 => ⟨S16x1024, .f32⟩
  | 1 => ⟨S16x1024x32x32, .f32⟩
  | 2 => ⟨S16x32x32, .i1⟩
  | 3 => ⟨S_, .f32⟩
  | 4 => ⟨S16x1024, .f32⟩
  | 5 => ⟨S16x32x32, .i32⟩
  | 6 => ⟨S_, .i32⟩
  | 7 => ⟨S_, .i32⟩
  | 8 => ⟨S_, .f32⟩
  | 9 => ⟨S_, .f32⟩
  | 10 => ⟨S_, .f32⟩
  | 11 => ⟨S_, .f32⟩
  | 12 => ⟨S_, .i1⟩
  | 13 => ⟨S_, .f32⟩
  | 14 => ⟨S_, .f32⟩
  | 15 => ⟨S16x1024, .f32⟩
  | 16 => ⟨S_, .f32⟩
  | 17 => ⟨S16, .f32⟩
  | 18 => ⟨S16x1, .f32⟩
  | 19 => ⟨S16x1, .f32⟩
  | 20 => ⟨S_, .f32⟩
  | 21 => ⟨S16x1, .f32⟩
  | 22 => ⟨S16x1, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1024x1x1, .f32⟩
  | _ => ⟨S16x1024x64x64, .f32⟩

abbrev hbmTy (i : Nat) : BufTy := match i / 128 with
  | 0 => hbmTy0_0 i
  | 1 => hbmTy0_1 i
  | 2 => hbmTy0_2 i
  | 3 => hbmTy0_3 i
  | _ => ⟨S16x1024x64x64, .f32⟩

abbrev bufTy : (tb : Table) → Fin (tcTables nBuf tb) → BufTy
  | .hbm, ⟨i, _⟩ => hbmTy i
  | _, _ => ⟨S16x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev main_cst_12 : Ref sig .tc := ⟨.hbm, 46, rfl⟩
abbrev main_v27 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v28 : Ref sig .tc := ⟨.hbm, 52, rfl⟩
abbrev main_cst_13 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_14 : Ref sig .tc := ⟨.hbm, 63, rfl⟩
abbrev main_v38 : Ref sig .tc := ⟨.hbm, 64, rfl⟩
abbrev main_v39 : Ref sig .tc := ⟨.hbm, 65, rfl⟩
abbrev main_c_15 : Ref sig .tc := ⟨.hbm, 66, rfl⟩
abbrev main_v40 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩
abbrev main_cst_17 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_call5_v0 : Ref sig .tc := ⟨.hbm, 75, rfl⟩
abbrev main_call5_cst : Ref sig .tc := ⟨.hbm, 76, rfl⟩
abbrev main_call5_v1 : Ref sig .tc := ⟨.hbm, 77, rfl⟩
abbrev main_call5_v2 : Ref sig .tc := ⟨.hbm, 78, rfl⟩
abbrev main_v45 : Ref sig .tc := ⟨.hbm, 79, rfl⟩
abbrev main_cst_19 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_20 : Ref sig .tc := ⟨.hbm, 90, rfl⟩
abbrev main_v55 : Ref sig .tc := ⟨.hbm, 91, rfl⟩
abbrev main_v56 : Ref sig .tc := ⟨.hbm, 92, rfl⟩
abbrev main_c_21 : Ref sig .tc := ⟨.hbm, 93, rfl⟩
abbrev main_v57 : Ref sig .tc := ⟨.hbm, 94, rfl⟩
abbrev main_v58 : Ref sig .tc := ⟨.hbm, 95, rfl⟩
abbrev main_cst_22 : Ref sig .tc := ⟨.hbm, 96, rfl⟩
abbrev main_v59 : Ref sig .tc := ⟨.hbm, 97, rfl⟩
abbrev main_cst_23 : Ref sig .tc := ⟨.hbm, 98, rfl⟩
abbrev main_v60 : Ref sig .tc := ⟨.hbm, 99, rfl⟩
abbrev main_cst_24 : Ref sig .tc := ⟨.hbm, 100, rfl⟩
abbrev main_v61 : Ref sig .tc := ⟨.hbm, 101, rfl⟩
abbrev main_call7_v0 : Ref sig .tc := ⟨.hbm, 102, rfl⟩
abbrev main_call7_cst : Ref sig .tc := ⟨.hbm, 103, rfl⟩
abbrev main_call7_v1 : Ref sig .tc := ⟨.hbm, 104, rfl⟩
abbrev main_call7_v2 : Ref sig .tc := ⟨.hbm, 105, rfl⟩
abbrev main_v62 : Ref sig .tc := ⟨.hbm, 106, rfl⟩
abbrev main_cst_25 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_26 : Ref sig .tc := ⟨.hbm, 117, rfl⟩
abbrev main_v72 : Ref sig .tc := ⟨.hbm, 118, rfl⟩
abbrev main_v73 : Ref sig .tc := ⟨.hbm, 119, rfl⟩
abbrev main_c_27 : Ref sig .tc := ⟨.hbm, 120, rfl⟩
abbrev main_v74 : Ref sig .tc := ⟨.hbm, 121, rfl⟩
abbrev main_v75 : Ref sig .tc := ⟨.hbm, 122, rfl⟩
abbrev main_cst_28 : Ref sig .tc := ⟨.hbm, 123, rfl⟩
abbrev main_v76 : Ref sig .tc := ⟨.hbm, 124, rfl⟩
abbrev main_cst_29 : Ref sig .tc := ⟨.hbm, 125, rfl⟩
abbrev main_v77 : Ref sig .tc := ⟨.hbm, 126, rfl⟩
abbrev main_cst_30 : Ref sig .tc := ⟨.hbm, 127, rfl⟩
abbrev main_v78 : Ref sig .tc := ⟨.hbm, 128, rfl⟩
abbrev main_call9_v0 : Ref sig .tc := ⟨.hbm, 129, rfl⟩
abbrev main_call9_cst : Ref sig .tc := ⟨.hbm, 130, rfl⟩
abbrev main_call9_v1 : Ref sig .tc := ⟨.hbm, 131, rfl⟩
abbrev main_call9_v2 : Ref sig .tc := ⟨.hbm, 132, rfl⟩
abbrev main_v79 : Ref sig .tc := ⟨.hbm, 133, rfl⟩
abbrev main_cst_31 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_32 : Ref sig .tc := ⟨.hbm, 144, rfl⟩
abbrev main_v89 : Ref sig .tc := ⟨.hbm, 145, rfl⟩
abbrev main_v90 : Ref sig .tc := ⟨.hbm, 146, rfl⟩
abbrev main_c_33 : Ref sig .tc := ⟨.hbm, 147, rfl⟩
abbrev main_v91 : Ref sig .tc := ⟨.hbm, 148, rfl⟩
abbrev main_v92 : Ref sig .tc := ⟨.hbm, 149, rfl⟩
abbrev main_cst_34 : Ref sig .tc := ⟨.hbm, 150, rfl⟩
abbrev main_v93 : Ref sig .tc := ⟨.hbm, 151, rfl⟩
abbrev main_cst_35 : Ref sig .tc := ⟨.hbm, 152, rfl⟩
abbrev main_v94 : Ref sig .tc := ⟨.hbm, 153, rfl⟩
abbrev main_cst_36 : Ref sig .tc := ⟨.hbm, 154, rfl⟩
abbrev main_v95 : Ref sig .tc := ⟨.hbm, 155, rfl⟩
abbrev main_call11_v0 : Ref sig .tc := ⟨.hbm, 156, rfl⟩
abbrev main_call11_cst : Ref sig .tc := ⟨.hbm, 157, rfl⟩
abbrev main_call11_v1 : Ref sig .tc := ⟨.hbm, 158, rfl⟩
abbrev main_call11_v2 : Ref sig .tc := ⟨.hbm, 159, rfl⟩
abbrev main_v96 : Ref sig .tc := ⟨.hbm, 160, rfl⟩
abbrev main_cst_37 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_38 : Ref sig .tc := ⟨.hbm, 171, rfl⟩
abbrev main_v106 : Ref sig .tc := ⟨.hbm, 172, rfl⟩
abbrev main_v107 : Ref sig .tc := ⟨.hbm, 173, rfl⟩
abbrev main_c_39 : Ref sig .tc := ⟨.hbm, 174, rfl⟩
abbrev main_v108 : Ref sig .tc := ⟨.hbm, 175, rfl⟩
abbrev main_v109 : Ref sig .tc := ⟨.hbm, 176, rfl⟩
abbrev main_cst_40 : Ref sig .tc := ⟨.hbm, 177, rfl⟩
abbrev main_v110 : Ref sig .tc := ⟨.hbm, 178, rfl⟩
abbrev main_cst_41 : Ref sig .tc := ⟨.hbm, 179, rfl⟩
abbrev main_v111 : Ref sig .tc := ⟨.hbm, 180, rfl⟩
abbrev main_cst_42 : Ref sig .tc := ⟨.hbm, 181, rfl⟩
abbrev main_v112 : Ref sig .tc := ⟨.hbm, 182, rfl⟩
abbrev main_call13_v0 : Ref sig .tc := ⟨.hbm, 183, rfl⟩
abbrev main_call13_cst : Ref sig .tc := ⟨.hbm, 184, rfl⟩
abbrev main_call13_v1 : Ref sig .tc := ⟨.hbm, 185, rfl⟩
abbrev main_call13_v2 : Ref sig .tc := ⟨.hbm, 186, rfl⟩
abbrev main_v113 : Ref sig .tc := ⟨.hbm, 187, rfl⟩
abbrev main_cst_43 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_44 : Ref sig .tc := ⟨.hbm, 198, rfl⟩
abbrev main_v123 : Ref sig .tc := ⟨.hbm, 199, rfl⟩
abbrev main_v124 : Ref sig .tc := ⟨.hbm, 200, rfl⟩
abbrev main_c_45 : Ref sig .tc := ⟨.hbm, 201, rfl⟩
abbrev main_v125 : Ref sig .tc := ⟨.hbm, 202, rfl⟩
abbrev main_v126 : Ref sig .tc := ⟨.hbm, 203, rfl⟩
abbrev main_cst_46 : Ref sig .tc := ⟨.hbm, 204, rfl⟩
abbrev main_v127 : Ref sig .tc := ⟨.hbm, 205, rfl⟩
abbrev main_cst_47 : Ref sig .tc := ⟨.hbm, 206, rfl⟩
abbrev main_v128 : Ref sig .tc := ⟨.hbm, 207, rfl⟩
abbrev main_cst_48 : Ref sig .tc := ⟨.hbm, 208, rfl⟩
abbrev main_v129 : Ref sig .tc := ⟨.hbm, 209, rfl⟩
abbrev main_call15_v0 : Ref sig .tc := ⟨.hbm, 210, rfl⟩
abbrev main_call15_cst : Ref sig .tc := ⟨.hbm, 211, rfl⟩
abbrev main_call15_v1 : Ref sig .tc := ⟨.hbm, 212, rfl⟩
abbrev main_call15_v2 : Ref sig .tc := ⟨.hbm, 213, rfl⟩
abbrev main_v130 : Ref sig .tc := ⟨.hbm, 214, rfl⟩
abbrev main_cst_49 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_cst_50 : Ref sig .tc := ⟨.hbm, 225, rfl⟩
abbrev main_v140 : Ref sig .tc := ⟨.hbm, 226, rfl⟩
abbrev main_v141 : Ref sig .tc := ⟨.hbm, 227, rfl⟩
abbrev main_c_51 : Ref sig .tc := ⟨.hbm, 228, rfl⟩
abbrev main_v142 : Ref sig .tc := ⟨.hbm, 229, rfl⟩
abbrev main_v143 : Ref sig .tc := ⟨.hbm, 230, rfl⟩
abbrev main_cst_52 : Ref sig .tc := ⟨.hbm, 231, rfl⟩
abbrev main_v144 : Ref sig .tc := ⟨.hbm, 232, rfl⟩
abbrev main_cst_53 : Ref sig .tc := ⟨.hbm, 233, rfl⟩
abbrev main_v145 : Ref sig .tc := ⟨.hbm, 234, rfl⟩
abbrev main_cst_54 : Ref sig .tc := ⟨.hbm, 235, rfl⟩
abbrev main_v146 : Ref sig .tc := ⟨.hbm, 236, rfl⟩
abbrev main_call17_v0 : Ref sig .tc := ⟨.hbm, 237, rfl⟩
abbrev main_call17_cst : Ref sig .tc := ⟨.hbm, 238, rfl⟩
abbrev main_call17_v1 : Ref sig .tc := ⟨.hbm, 239, rfl⟩
abbrev main_call17_v2 : Ref sig .tc := ⟨.hbm, 240, rfl⟩
abbrev main_v147 : Ref sig .tc := ⟨.hbm, 241, rfl⟩
abbrev main_cst_55 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_cst_56 : Ref sig .tc := ⟨.hbm, 252, rfl⟩
abbrev main_v157 : Ref sig .tc := ⟨.hbm, 253, rfl⟩
abbrev main_v158 : Ref sig .tc := ⟨.hbm, 254, rfl⟩
abbrev main_c_57 : Ref sig .tc := ⟨.hbm, 255, rfl⟩
abbrev main_v159 : Ref sig .tc := ⟨.hbm, 256, rfl⟩
abbrev main_v160 : Ref sig .tc := ⟨.hbm, 257, rfl⟩
abbrev main_cst_58 : Ref sig .tc := ⟨.hbm, 258, rfl⟩
abbrev main_v161 : Ref sig .tc := ⟨.hbm, 259, rfl⟩
abbrev main_cst_59 : Ref sig .tc := ⟨.hbm, 260, rfl⟩
abbrev main_v162 : Ref sig .tc := ⟨.hbm, 261, rfl⟩
abbrev main_cst_60 : Ref sig .tc := ⟨.hbm, 262, rfl⟩
abbrev main_v163 : Ref sig .tc := ⟨.hbm, 263, rfl⟩
abbrev main_call19_v0 : Ref sig .tc := ⟨.hbm, 264, rfl⟩
abbrev main_call19_cst : Ref sig .tc := ⟨.hbm, 265, rfl⟩
abbrev main_call19_v1 : Ref sig .tc := ⟨.hbm, 266, rfl⟩
abbrev main_call19_v2 : Ref sig .tc := ⟨.hbm, 267, rfl⟩
abbrev main_v164 : Ref sig .tc := ⟨.hbm, 268, rfl⟩
abbrev main_cst_61 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_cst_62 : Ref sig .tc := ⟨.hbm, 279, rfl⟩
abbrev main_v174 : Ref sig .tc := ⟨.hbm, 280, rfl⟩
abbrev main_v175 : Ref sig .tc := ⟨.hbm, 281, rfl⟩
abbrev main_c_63 : Ref sig .tc := ⟨.hbm, 282, rfl⟩
abbrev main_v176 : Ref sig .tc := ⟨.hbm, 283, rfl⟩
abbrev main_v177 : Ref sig .tc := ⟨.hbm, 284, rfl⟩
abbrev main_cst_64 : Ref sig .tc := ⟨.hbm, 285, rfl⟩
abbrev main_v178 : Ref sig .tc := ⟨.hbm, 286, rfl⟩
abbrev main_cst_65 : Ref sig .tc := ⟨.hbm, 287, rfl⟩
abbrev main_v179 : Ref sig .tc := ⟨.hbm, 288, rfl⟩
abbrev main_cst_66 : Ref sig .tc := ⟨.hbm, 289, rfl⟩
abbrev main_v180 : Ref sig .tc := ⟨.hbm, 290, rfl⟩
abbrev main_call21_v0 : Ref sig .tc := ⟨.hbm, 291, rfl⟩
abbrev main_call21_cst : Ref sig .tc := ⟨.hbm, 292, rfl⟩
abbrev main_call21_v1 : Ref sig .tc := ⟨.hbm, 293, rfl⟩
abbrev main_call21_v2 : Ref sig .tc := ⟨.hbm, 294, rfl⟩
abbrev main_v181 : Ref sig .tc := ⟨.hbm, 295, rfl⟩
abbrev main_cst_67 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_cst_68 : Ref sig .tc := ⟨.hbm, 306, rfl⟩
abbrev main_v191 : Ref sig .tc := ⟨.hbm, 307, rfl⟩
abbrev main_v192 : Ref sig .tc := ⟨.hbm, 308, rfl⟩
abbrev main_c_69 : Ref sig .tc := ⟨.hbm, 309, rfl⟩
abbrev main_v193 : Ref sig .tc := ⟨.hbm, 310, rfl⟩
abbrev main_v194 : Ref sig .tc := ⟨.hbm, 311, rfl⟩
abbrev main_cst_70 : Ref sig .tc := ⟨.hbm, 312, rfl⟩
abbrev main_v195 : Ref sig .tc := ⟨.hbm, 313, rfl⟩
abbrev main_cst_71 : Ref sig .tc := ⟨.hbm, 314, rfl⟩
abbrev main_v196 : Ref sig .tc := ⟨.hbm, 315, rfl⟩
abbrev main_cst_72 : Ref sig .tc := ⟨.hbm, 316, rfl⟩
abbrev main_v197 : Ref sig .tc := ⟨.hbm, 317, rfl⟩
abbrev main_call23_v0 : Ref sig .tc := ⟨.hbm, 318, rfl⟩
abbrev main_call23_cst : Ref sig .tc := ⟨.hbm, 319, rfl⟩
abbrev main_call23_v1 : Ref sig .tc := ⟨.hbm, 320, rfl⟩
abbrev main_call23_v2 : Ref sig .tc := ⟨.hbm, 321, rfl⟩
abbrev main_v198 : Ref sig .tc := ⟨.hbm, 322, rfl⟩
abbrev main_cst_73 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_cst_74 : Ref sig .tc := ⟨.hbm, 333, rfl⟩
abbrev main_v208 : Ref sig .tc := ⟨.hbm, 334, rfl⟩
abbrev main_v209 : Ref sig .tc := ⟨.hbm, 335, rfl⟩
abbrev main_c_75 : Ref sig .tc := ⟨.hbm, 336, rfl⟩
abbrev main_v210 : Ref sig .tc := ⟨.hbm, 337, rfl⟩
abbrev main_v211 : Ref sig .tc := ⟨.hbm, 338, rfl⟩
abbrev main_cst_76 : Ref sig .tc := ⟨.hbm, 339, rfl⟩
abbrev main_v212 : Ref sig .tc := ⟨.hbm, 340, rfl⟩
abbrev main_cst_77 : Ref sig .tc := ⟨.hbm, 341, rfl⟩
abbrev main_v213 : Ref sig .tc := ⟨.hbm, 342, rfl⟩
abbrev main_cst_78 : Ref sig .tc := ⟨.hbm, 343, rfl⟩
abbrev main_v214 : Ref sig .tc := ⟨.hbm, 344, rfl⟩
abbrev main_call25_v0 : Ref sig .tc := ⟨.hbm, 345, rfl⟩
abbrev main_call25_cst : Ref sig .tc := ⟨.hbm, 346, rfl⟩
abbrev main_call25_v1 : Ref sig .tc := ⟨.hbm, 347, rfl⟩
abbrev main_call25_v2 : Ref sig .tc := ⟨.hbm, 348, rfl⟩
abbrev main_v215 : Ref sig .tc := ⟨.hbm, 349, rfl⟩
abbrev main_cst_79 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_cst_80 : Ref sig .tc := ⟨.hbm, 360, rfl⟩
abbrev main_v225 : Ref sig .tc := ⟨.hbm, 361, rfl⟩
abbrev main_v226 : Ref sig .tc := ⟨.hbm, 362, rfl⟩
abbrev main_c_81 : Ref sig .tc := ⟨.hbm, 363, rfl⟩
abbrev main_v227 : Ref sig .tc := ⟨.hbm, 364, rfl⟩
abbrev main_v228 : Ref sig .tc := ⟨.hbm, 365, rfl⟩
abbrev main_cst_82 : Ref sig .tc := ⟨.hbm, 366, rfl⟩
abbrev main_v229 : Ref sig .tc := ⟨.hbm, 367, rfl⟩
abbrev main_cst_83 : Ref sig .tc := ⟨.hbm, 368, rfl⟩
abbrev main_v230 : Ref sig .tc := ⟨.hbm, 369, rfl⟩
abbrev main_cst_84 : Ref sig .tc := ⟨.hbm, 370, rfl⟩
abbrev main_v231 : Ref sig .tc := ⟨.hbm, 371, rfl⟩
abbrev main_call27_v0 : Ref sig .tc := ⟨.hbm, 372, rfl⟩
abbrev main_call27_cst : Ref sig .tc := ⟨.hbm, 373, rfl⟩
abbrev main_call27_v1 : Ref sig .tc := ⟨.hbm, 374, rfl⟩
abbrev main_call27_v2 : Ref sig .tc := ⟨.hbm, 375, rfl⟩
abbrev main_v232 : Ref sig .tc := ⟨.hbm, 376, rfl⟩
abbrev main_cst_85 : Ref sig .tc := ⟨.hbm, 377, rfl⟩
abbrev main_v233 : Ref sig .tc := ⟨.hbm, 378, rfl⟩
abbrev main_v234 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_v238 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_86 : Ref sig .tc := ⟨.hbm, 387, rfl⟩
abbrev main_v242 : Ref sig .tc := ⟨.hbm, 388, rfl⟩
abbrev main_v243 : Ref sig .tc := ⟨.hbm, 389, rfl⟩
abbrev main_c_87 : Ref sig .tc := ⟨.hbm, 390, rfl⟩
abbrev main_v244 : Ref sig .tc := ⟨.hbm, 391, rfl⟩
abbrev main_v245 : Ref sig .tc := ⟨.hbm, 392, rfl⟩
abbrev main_cst_88 : Ref sig .tc := ⟨.hbm, 393, rfl⟩
abbrev main_v246 : Ref sig .tc := ⟨.hbm, 394, rfl⟩
abbrev main_cst_89 : Ref sig .tc := ⟨.hbm, 395, rfl⟩
abbrev main_v247 : Ref sig .tc := ⟨.hbm, 396, rfl⟩
abbrev main_cst_90 : Ref sig .tc := ⟨.hbm, 397, rfl⟩
abbrev main_v248 : Ref sig .tc := ⟨.hbm, 398, rfl⟩
abbrev main_call29_v0 : Ref sig .tc := ⟨.hbm, 399, rfl⟩
abbrev main_call29_cst : Ref sig .tc := ⟨.hbm, 400, rfl⟩
abbrev main_call29_v1 : Ref sig .tc := ⟨.hbm, 401, rfl⟩
abbrev main_call29_v2 : Ref sig .tc := ⟨.hbm, 402, rfl⟩
abbrev main_v249 : Ref sig .tc := ⟨.hbm, 403, rfl⟩
abbrev main_cst_91 : Ref sig .tc := ⟨.hbm, 404, rfl⟩
abbrev main_v250 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_v254 : Ref sig .tc := ⟨.hbm, 409, rfl⟩
abbrev main_v255 : Ref sig .tc := ⟨.hbm, 410, rfl⟩
abbrev main_v256 : Ref sig .tc := ⟨.hbm, 411, rfl⟩
abbrev main_v257 : Ref sig .tc := ⟨.hbm, 412, rfl⟩

abbrev nD : Nat := 1
abbrev τ : Topo := Topo.v7x

variable {F : FTy → Type} [FloatOps F]

class Facts₀ : Prop where
  reducesTo_S16x1024x64x64_S16x64x64_d1 : S16x1024x64x64.ReducesTo [1] S16x64x64
  h_S_ : 0 < S_.numel
  reducesTo_S16x64x64_S_d0_1_2 : S16x64x64.ReducesTo [0, 1, 2] S_
  bcast_S_S16x64x64 : S_.BroadcastsInDim S16x64x64 (![] : Fin 0 → Fin S16x64x64.rank)
  reducesTo_S16x1024x64x64_S16x1024_d2_3 : S16x1024x64x64.ReducesTo [2, 3] S16x1024
  natLt_1_32 : 1 < 32
  reducesTo_S16x1024_S16_d1 : S16x1024.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x1024_0_1 : S16x1.BroadcastsInDim S16x1024 (![0, 1] : Fin 2 → Fin S16x1024.rank)
  bcast_S_S16x1024 : S_.BroadcastsInDim S16x1024 (![] : Fin 0 → Fin S16x1024.rank)
  slices_S16x1024x64x64_S16x1024x42x42_0_0_0_0 : S16x1024x64x64.Slices ![0, 0, 0, 0] S16x1024x42x42
  slices_S16x64x64_S16x42x42_0_0_0 : S16x64x64.Slices ![0, 0, 0] S16x42x42
  reducesTo_S16x1024x42x42_S16x1024_d2_3 : S16x1024x42x42.ReducesTo [2, 3] S16x1024
  reducesTo_S16x42x42_S_d0_1_2 : S16x42x42.ReducesTo [0, 1, 2] S_
  slices_S16x1024x64x64_S16x1024x42x42_0_0_0_22 : S16x1024x64x64.Slices ![0, 0, 0, 22] S16x1024x42x42
  slices_S16x64x64_S16x42x42_0_0_22 : S16x64x64.Slices ![0, 0, 22] S16x42x42
  slices_S16x1024x64x64_S16x1024x42x42_0_0_22_0 : S16x1024x64x64.Slices ![0, 0, 22, 0] S16x1024x42x42
  slices_S16x64x64_S16x42x42_0_22_0 : S16x64x64.Slices ![0, 22, 0] S16x42x42
  slices_S16x1024x64x64_S16x1024x42x42_0_0_22_22 : S16x1024x64x64.Slices ![0, 0, 22, 22] S16x1024x42x42
  slices_S16x64x64_S16x42x42_0_22_22 : S16x64x64.Slices ![0, 22, 22] S16x42x42
  slices_S16x1024x64x64_S16x1024x32x32_0_0_0_0 : S16x1024x64x64.Slices ![0, 0, 0, 0] S16x1024x32x32
  slices_S16x64x64_S16x32x32_0_0_0 : S16x64x64.Slices ![0, 0, 0] S16x32x32
  reducesTo_S16x1024x32x32_S16x1024_d2_3 : S16x1024x32x32.ReducesTo [2, 3] S16x1024
  reducesTo_S16x32x32_S_d0_1_2 : S16x32x32.ReducesTo [0, 1, 2] S_
  slices_S16x1024x64x64_S16x1024x32x32_0_0_0_16 : S16x1024x64x64.Slices ![0, 0, 0, 16] S16x1024x32x32
  slices_S16x64x64_S16x32x32_0_0_16 : S16x64x64.Slices ![0, 0, 16] S16x32x32
  slices_S16x1024x64x64_S16x1024x32x32_0_0_0_32 : S16x1024x64x64.Slices ![0, 0, 0, 32] S16x1024x32x32
  slices_S16x64x64_S16x32x32_0_0_32 : S16x64x64.Slices ![0, 0, 32] S16x32x32
  slices_S16x1024x64x64_S16x1024x32x32_0_0_16_0 : S16x1024x64x64.Slices ![0, 0, 16, 0] S16x1024x32x32
  slices_S16x64x64_S16x32x32_0_16_0 : S16x64x64.Slices ![0, 16, 0] S16x32x32
  slices_S16x1024x64x64_S16x1024x32x32_0_0_16_16 : S16x1024x64x64.Slices ![0, 0, 16, 16] S16x1024x32x32
  slices_S16x64x64_S16x32x32_0_16_16 : S16x64x64.Slices ![0, 16, 16] S16x32x32
  slices_S16x1024x64x64_S16x1024x32x32_0_0_16_32 : S16x1024x64x64.Slices ![0, 0, 16, 32] S16x1024x32x32
  slices_S16x64x64_S16x32x32_0_16_32 : S16x64x64.Slices ![0, 16, 32] S16x32x32
  slices_S16x1024x64x64_S16x1024x32x32_0_0_32_0 : S16x1024x64x64.Slices ![0, 0, 32, 0] S16x1024x32x32
  slices_S16x64x64_S16x32x32_0_32_0 : S16x64x64.Slices ![0, 32, 0] S16x32x32
  slices_S16x1024x64x64_S16x1024x32x32_0_0_32_16 : S16x1024x64x64.Slices ![0, 0, 32, 16] S16x1024x32x32
  slices_S16x64x64_S16x32x32_0_32_16 : S16x64x64.Slices ![0, 32, 16] S16x32x32
  slices_S16x1024x64x64_S16x1024x32x32_0_0_32_32 : S16x1024x64x64.Slices ![0, 0, 32, 32] S16x1024x32x32
  slices_S16x64x64_S16x32x32_0_32_32 : S16x64x64.Slices ![0, 32, 32] S16x32x32
  shapeCasts_S16x1024_S16x1024x1x1 : S16x1024.ShapeCasts S16x1024x1x1

variable [Facts₀]

class Facts : Prop extends Facts₀ where

variable [Facts]
-- ==== Proof.KFrameKit.lean ====
/-
  The program's entry function is the kernel launch followed by a straight line of host operations.  This module
  holds what is said about that line once and for all: the host operations after the launch touch only unscoped
  TensorCore buffers, allocate nothing, and never write one of the three arrays the launch stages (the argument
  and the two kernel results); and the block of the argument array that each grid point is handed.
-/
import proofs.«167076_j27771258536050_1_alg».proof.Proof.Gen.Kernel.Launch
import proofs.«167076_j27771258536050_1_alg».proof.Proof.Gen.Kernel.Skeleton
import proofs.«167076_j27771258536050_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The host operations after the launch, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- A core's buffers when the launch is reached: as the program was started (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The entry function reduces to the launch continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_21_fresh : (hostOps1_21 : List (HloOp τ sig (Elt F))).Forall fun op => op.fresh = ∅ := by
  simp only [List.Forall]; repeat' constructor
theorem hostOps1_21_keeps : (hostOps1_21 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_22_fresh : (hostOps1_22 : List (HloOp τ sig (Elt F))).Forall fun op => op.fresh = ∅ := by
  simp only [List.Forall]; repeat' constructor
theorem hostOps1_22_keeps : (hostOps1_22 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_23_fresh : (hostOps1_23 : List (HloOp τ sig (Elt F))).Forall fun op => op.fresh = ∅ := by
  simp only [List.Forall]; repeat' constructor
theorem hostOps1_23_keeps : (hostOps1_23 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_24_fresh : (hostOps1_24 : List (HloOp τ sig (Elt F))).Forall fun op => op.fresh = ∅ := by
  simp only [List.Forall]; repeat' constructor
theorem hostOps1_24_keeps : (hostOps1_24 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_25_fresh : (hostOps1_25 : List (HloOp τ sig (Elt F))).Forall fun op => op.fresh = ∅ := by
  simp only [List.Forall]; repeat' constructor
theorem hostOps1_25_keeps : (hostOps1_25 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_26_fresh : (hostOps1_26 : List (HloOp τ sig (Elt F))).Forall fun op => op.fresh = ∅ := by
  simp only [List.Forall]; repeat' constructor
theorem hostOps1_26_keeps : (hostOps1_26 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_27_fresh : (hostOps1_27 : List (HloOp τ sig (Elt F))).Forall fun op => op.fresh = ∅ := by
  simp only [List.Forall]; repeat' constructor
theorem hostOps1_27_keeps : (hostOps1_27 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_28_fresh : (hostOps1_28 : List (HloOp τ sig (Elt F))).Forall fun op => op.fresh = ∅ := by
  simp only [List.Forall]; repeat' constructor
theorem hostOps1_28_keeps : (hostOps1_28 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_29_fresh : (hostOps1_29 : List (HloOp τ sig (Elt F))).Forall fun op => op.fresh = ∅ := by
  simp only [List.Forall]; repeat' constructor
theorem hostOps1_29_keeps : (hostOps1_29 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_30_fresh : (hostOps1_30 : List (HloOp τ sig (Elt F))).Forall fun op => op.fresh = ∅ := by
  simp only [List.Forall]; repeat' constructor
theorem hostOps1_30_keeps : (hostOps1_30 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_31_fresh : (hostOps1_31 : List (HloOp τ sig (Elt F))).Forall fun op => op.fresh = ∅ := by
  simp only [List.Forall]; repeat' constructor
theorem hostOps1_31_keeps : (hostOps1_31 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_32_fresh : (hostOps1_32 : List (HloOp τ sig (Elt F))).Forall fun op => op.fresh = ∅ := by
  simp only [List.Forall]; repeat' constructor
theorem hostOps1_32_keeps : (hostOps1_32 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))

/-- Every host operation after the launch touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)
  · exact Pipeline.sub_ucRefs op ((List.forall_iff_forall_mem.mp hostOps1_27_sub) op hop)
  · exact Pipeline.sub_ucRefs op ((List.forall_iff_forall_mem.mp hostOps1_28_sub) op hop)
  · exact Pipeline.sub_ucRefs op ((List.forall_iff_forall_mem.mp hostOps1_29_sub) op hop)
  · exact Pipeline.sub_ucRefs op ((List.forall_iff_forall_mem.mp hostOps1_30_sub) op hop)
  · exact Pipeline.sub_ucRefs op ((List.forall_iff_forall_mem.mp hostOps1_31_sub) op hop)
  · exact Pipeline.sub_ucRefs op ((List.forall_iff_forall_mem.mp hostOps1_32_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop
  · exact (List.forall_iff_forall_mem.mp hostOps1_27_fresh) op hop
  · exact (List.forall_iff_forall_mem.mp hostOps1_28_fresh) op hop
  · exact (List.forall_iff_forall_mem.mp hostOps1_29_fresh) op hop
  · exact (List.forall_iff_forall_mem.mp hostOps1_30_fresh) op hop
  · exact (List.forall_iff_forall_mem.mp hostOps1_31_fresh) op hop
  · exact (List.forall_iff_forall_mem.mp hostOps1_32_fresh) op hop
/-- And none writes an array the launch stages: each writes its own result buffer, which is none of the three. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop
  · exact (List.forall_iff_forall_mem.mp hostOps1_24_keeps) op hop
  · exact (List.forall_iff_forall_mem.mp hostOps1_25_keeps) op hop
  · exact (List.forall_iff_forall_mem.mp hostOps1_26_keeps) op hop
  · exact (List.forall_iff_forall_mem.mp hostOps1_27_keeps) op hop
  · exact (List.forall_iff_forall_mem.mp hostOps1_28_keeps) op hop
  · exact (List.forall_iff_forall_mem.mp hostOps1_29_keeps) op hop
  · exact (List.forall_iff_forall_mem.mp hostOps1_30_keeps) op hop
  · exact (List.forall_iff_forall_mem.mp hostOps1_31_keeps) op hop
  · exact (List.forall_iff_forall_mem.mp hostOps1_32_keeps) op hop

theorem V_main_arg0 (c : Dev nD) : V m c main_arg0 = m ((c : Thread nD τ).loc main_arg0) := rfl

/-! ## The argument's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The argument's staging buffer holds the point's block of the argument at every point, for any proof data whose
    array is the launch-time one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- From a run whose final state has every staged array at what the proof data say and every other buffer as the
    host operations after the launch leave it, the argument array ends as it began: it is a staged input, whose
    final contents are its launch-time ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

end Cert.Kernel.Frame

end
-- ==== Proof.KFrameBody.lean ====
/-
  One grid point of the kernel.  The body reads the point's block of the argument (one batch element, all 1024
  channels, the 64 x 64 image) and writes two blocks: the channel sum of the image, and fifteen rows, row r holding
  for every channel the maximum of the image over the r-th square window.  Each row is one store of a whole row and
  the channel sum one store of the whole block, so after the body each output block is the overlay of its stores;
  the loads the body makes of its own output rows before overwriting them are never used.
-/
import proofs.«167076_j27771258536050_1_alg».proof.Proof.KFrameKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output block -/

/-- The whole block of the channel-sum output. -/
abbrev rSum : Rect S1x64x64 := Rect.unit (s := S1x64x64) ![0, 0, 0] S1x64x64.size inb_S1x64x64_S1x64x64_0_0_0
/-- The whole block of the argument. -/
abbrev rAll : Rect S1x1024x64x64 := (Rect.unit (s := S1x1024x64x64) ![0, 0, 0, 0] S1x1024x64x64.size inb_S1x1024x64x64_S1x1024x64x64_0_0_0_0)

/-- The channel-sum block after the body: its one store, of the sum over channels of the argument's block. -/
def outSum (x0 : Vec F S1x1024x64x64 .f32) : Vec F S1x64x64 .f32 :=
  View.canon [⟨rSum, k0_pay3 (View.ld x0 rAll)⟩]

/-- The window-maxima block after the body: its fifteen row stores, last first; row r is the maximum over the r-th
    window of the argument's block, channel by channel. -/
def outMax (x0 : Vec F S1x1024x64x64 .f32) : Vec F S1x15x1024 .f32 :=
  View.canon [⟨(Rect.unit (s := S1x15x1024) ![0, 14, 0] S1x1x1024.size inb_S1x15x1024_S1x1x1024_0_14_0), k0_pay2 (View.ld x0 (Rect.unit (s := S1x1024x64x64) ![0, 0, 32, 32] S1x1024x32x32.size inb_S1x1024x64x64_S1x1024x32x32_0_0_32_32))⟩,
    ⟨(Rect.unit (s := S1x15x1024) ![0, 13, 0] S1x1x1024.size inb_S1x15x1024_S1x1x1024_0_13_0), k0_pay1 (View.ld x0 (Rect.unit (s := S1x1024x64x64) ![0, 0, 32, 16] S1x1024x32x32.size inb_S1x1024x64x64_S1x1024x32x32_0_0_32_16))⟩,
    ⟨(Rect.unit (s := S1x15x1024) ![0, 12, 0] S1x1x1024.size inb_S1x15x1024_S1x1x1024_0_12_0), k0_pay18 (View.ld x0 (Rect.unit (s := S1x1024x64x64) ![0, 0, 32, 0] S1x1024x32x32.size inb_S1x1024x64x64_S1x1024x32x32_0_0_32_0))⟩,
    ⟨(Rect.unit (s := S1x15x1024) ![0, 11, 0] S1x1x1024.size inb_S1x15x1024_S1x1x1024_0_11_0), k0_pay17 (View.ld x0 (Rect.unit (s := S1x1024x64x64) ![0, 0, 16, 32] S1x1024x32x32.size inb_S1x1024x64x64_S1x1024x32x32_0_0_16_32))⟩,
    ⟨(Rect.unit (s := S1x15x1024) ![0, 10, 0] S1x1x1024.size inb_S1x15x1024_S1x1x1024_0_10_0), k0_pay16 (View.ld x0 (Rect.unit (s := S1x1024x64x64) ![0, 0, 16, 16] S1x1024x32x32.size inb_S1x1024x64x64_S1x1024x32x32_0_0_16_16))⟩,
    ⟨(Rect.unit (s := S1x15x1024) ![0, 9, 0] S1x1x1024.size inb_S1x15x1024_S1x1x1024_0_9_0), k0_pay15 (k0_pay14 (View.ld x0 (Rect.unit (s := S1x1024x64x64) ![0, 0, 16, 0] S1x1024x32x32.size inb_S1x1024x64x64_S1x1024x32x32_0_0_16_0)))⟩,
    ⟨(Rect.unit (s := S1x15x1024) ![0, 8, 0] S1x1x1024.size inb_S1x15x1024_S1x1x1024_0_8_0), k0_pay13 (View.ld x0 (Rect.unit (s := S1x1024x64x64) ![0, 0, 0, 32] S1x1024x32x32.size inb_S1x1024x64x64_S1x1024x32x32_0_0_0_32))⟩,
    ⟨(Rect.unit (s := S1x15x1024) ![0, 7, 0] S1x1x1024.size inb_S1x15x1024_S1x1x1024_0_7_0), k0_pay12 (View.ld x0 (Rect.unit (s := S1x1024x64x64) ![0, 0, 0, 16] S1x1024x32x32.size inb_S1x1024x64x64_S1x1024x32x32_0_0_0_16))⟩,
    ⟨(Rect.unit (s := S1x15x1024) ![0, 6, 0] S1x1x1024.size inb_S1x15x1024_S1x1x1024_0_6_0), k0_pay11 (View.ld x0 (Rect.unit (s := S1x1024x64x64) ![0, 0, 0, 0] S1x1024x32x32.size inb_S1x1024x64x64_S1x1024x32x32_0_0_0_0))⟩,
    ⟨(Rect.unit (s := S1x15x1024) ![0, 5, 0] S1x1x1024.size inb_S1x15x1024_S1x1x1024_0_5_0), k0_pay10 (View.ld x0 (Rect.unit (s := S1x1024x64x64) ![0, 0, 22, 22] S1x1024x42x42.size inb_S1x1024x64x64_S1x1024x42x42_0_0_22_22))⟩,
    ⟨(Rect.unit (s := S1x15x1024) ![0, 4, 0] S1x1x1024.size inb_S1x15x1024_S1x1x1024_0_4_0), k0_pay9 (View.ld x0 (Rect.unit (s := S1x1024x64x64) ![0, 0, 22, 0] S1x1024x42x42.size inb_S1x1024x64x64_S1x1024x42x42_0_0_22_0))⟩,
    ⟨(Rect.unit (s := S1x15x1024) ![0, 3, 0] S1x1x1024.size inb_S1x15x1024_S1x1x1024_0_3_0), k0_pay8 (View.ld x0 (Rect.unit (s := S1x1024x64x64) ![0, 0, 0, 22] S1x1024x42x42.size inb_S1x1024x64x64_S1x1024x42x42_0_0_0_22))⟩,
    ⟨(Rect.unit (s := S1x15x1024) ![0, 2, 0] S1x1x1024.size inb_S1x15x1024_S1x1x1024_0_2_0), k0_pay7 (k0_pay6 (View.ld x0 (Rect.unit (s := S1x1024x64x64) ![0, 0, 0, 0] S1x1024x42x42.size inb_S1x1024x64x64_S1x1024x42x42_0_0_0_0)))⟩,
    ⟨(Rect.unit (s := S1x15x1024) ![0, 1, 0] S1x1x1024.size inb_S1x15x1024_S1x1x1024_0_1_0), k0_pay5 (View.ld x0 (Rect.unit (s := S1x1024x64x64) ![0, 0, 0, 0] S1x1024x64x64.size inb_S1x1024x64x64_S1x1024x64x64_0_0_0_0))⟩,
    ⟨(Rect.unit (s := S1x15x1024) ![0, 0, 0] S1x1x1024.size inb_S1x15x1024_S1x1x1024_0_0_0), k0_pay4 (View.ld x0 (Rect.unit (s := S1x1024x64x64) ![0, 0, 0, 0] S1x1024x64x64.size inb_S1x1024x64x64_S1x1024x64x64_0_0_0_0))⟩]

/-- One store of the whole block covers it. -/
theorem coverSum (p0 : Vec F S1x64x64 .f32) (y : S1x64x64.Idx) :
    ∃ pc ∈ ([⟨rSum, p0⟩] : List (View.Piece (Elt F) S1x64x64 .f32)), y ∈ pc.1.set :=
  View.cover_of_tiled [⟨rSum, p0⟩] S1x64x64.size (by rfl) y

/-- The fifteen rows tile the block, so they cover it. -/
theorem coverMax (p0 p1 p2 p3 p4 p5 p6 p7 p8 p9 p10 p11 p12 p13 p14 : Vec F S1x1x1024 .f32) (y : S1x15x1024.Idx) :
    ∃ pc ∈ ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt F) S1x15x1024 .f32)), y ∈ pc.1.set :=
  View.cover_of_tiled ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt F) S1x15x1024 .f32)) S1x1x1024.size (by rfl) y

/-! ## The body's triple -/

set_option maxHeartbeats 4000000 in
/-- On whole staging buffers, the argument's holding `x0` and the outputs' anything, the body runs to its end, leaves
    the argument's buffer as it was and each output's at the overlay of the stores made into it. -/
theorem sound_kernel (c : Dev nD) (E : Set ℕ) (i : grid0.Coords) (arg1 : Memref sig .tc .vmem S1x1024x64x64 .f32) (harg1 : arg1.IsWhole) (arg2 : Memref sig .tc .vmem S1x64x64 .f32) (harg2 : arg2.IsWhole) (arg3 : Memref sig .tc .vmem S1x15x1024 .f32) (harg3 : arg3.IsWhole)
    (x0 : Vec F S1x1024x64x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outSum x0) ∗ owns (c : Thread nD τ) arg3 fullShare (outMax x0)) -∗ K ⟨⟩))
      ⊢ wp frame (wpE (defs₀ (F := F)) Variants.none c none) E (cc0__ramac_kernel i arg1 harg1 arg2 harg2 arg3 harg3) K := by
  simp only [cc0__ramac_kernel_eq_skeleton]; unfold cc0__ramac_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSum _)
  iexists _; isplitr
  swap; · iexact H2
  ipureintro
  exact View.read_writes_eq_canon _ _ _ (coverMax _ _ _ _ _ _ _ _ _ _ _ _ _ _ _)

end Cert.Kernel.Frame

end
-- ==== Proof.KFrame.lean ====
/-
  The kernel program runs to its end and leaves its argument alone.  The proof data of the launch: every staged
  array starts as the launch finds it; after the body at a grid point the argument's staging buffer still holds the
  point's block and the two output buffers hold the overlays of the body's stores, which depend on that block only.
  With the body's triple at every point and the facts about the host operations after the launch, the library's
  frame theorem for a launch followed by host operations gives the run, and the argument is a staged input whose
  final contents are its first ones.
-/
import proofs.«167076_j27771258536050_1_alg».proof.Proof.KFrameBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outSum (iblk m c 0 t)
    | ⟨2, _⟩ => outMax (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outSum (iblk m c 0 t) := by dsimp only [dats]
theorem after0_2 (c : Dev nD) (t : Fin cfg0.N) : (dats m 0 c).after 2 t = outMax (iblk m c 0 t) := by dsimp only [dats]

/-- The argument's staging buffer holds the point's block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the argument's buffer holds its block, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the entry function ends, and every final state has each staged array at what the
    proof data say and every other unscoped buffer as the host operations after the launch leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to its end and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Frame

end
-- ==== Proof.KIFrameKit.lean ====
/-
  The program's entry function is the kernel launch followed by a straight line of host operations.  This module
  holds what is said about that line once and for all: the host operations after the launch touch only unscoped
  TensorCore buffers, allocate nothing, and never write one of the three arrays the launch stages (the argument
  and the two kernel results); and the block of the argument array that each grid point is handed.
-/
import proofs.«167076_j27771258536050_1_alg».proof.Proof.Gen.KernelIdeal.Launch
import proofs.«167076_j27771258536050_1_alg».proof.Proof.Gen.KernelIdeal.Skeleton
import proofs.«167076_j27771258536050_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The host operations after the launch, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- A core's buffers when the launch is reached: as the program was started (no host operation comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The entry function reduces to the launch continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_21_fresh : (hostOps1_21 : List (HloOp τ sig (Elt F))).Forall fun op => op.fresh = ∅ := by
  simp only [List.Forall]; repeat' constructor
theorem hostOps1_21_keeps : (hostOps1_21 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_22_fresh : (hostOps1_22 : List (HloOp τ sig (Elt F))).Forall fun op => op.fresh = ∅ := by
  simp only [List.Forall]; repeat' constructor
theorem hostOps1_22_keeps : (hostOps1_22 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_23_fresh : (hostOps1_23 : List (HloOp τ sig (Elt F))).Forall fun op => op.fresh = ∅ := by
  simp only [List.Forall]; repeat' constructor
theorem hostOps1_23_keeps : (hostOps1_23 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_24_fresh : (hostOps1_24 : List (HloOp τ sig (Elt F))).Forall fun op => op.fresh = ∅ := by
  simp only [List.Forall]; repeat' constructor
theorem hostOps1_24_keeps : (hostOps1_24 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_25_fresh : (hostOps1_25 : List (HloOp τ sig (Elt F))).Forall fun op => op.fresh = ∅ := by
  simp only [List.Forall]; repeat' constructor
theorem hostOps1_25_keeps : (hostOps1_25 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_26_fresh : (hostOps1_26 : List (HloOp τ sig (Elt F))).Forall fun op => op.fresh = ∅ := by
  simp only [List.Forall]; repeat' constructor
theorem hostOps1_26_keeps : (hostOps1_26 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_27_fresh : (hostOps1_27 : List (HloOp τ sig (Elt F))).Forall fun op => op.fresh = ∅ := by
  simp only [List.Forall]; repeat' constructor
theorem hostOps1_27_keeps : (hostOps1_27 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_28_fresh : (hostOps1_28 : List (HloOp τ sig (Elt F))).Forall fun op => op.fresh = ∅ := by
  simp only [List.Forall]; repeat' constructor
theorem hostOps1_28_keeps : (hostOps1_28 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_29_fresh : (hostOps1_29 : List (HloOp τ sig (Elt F))).Forall fun op => op.fresh = ∅ := by
  simp only [List.Forall]; repeat' constructor
theorem hostOps1_29_keeps : (hostOps1_29 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_30_fresh : (hostOps1_30 : List (HloOp τ sig (Elt F))).Forall fun op => op.fresh = ∅ := by
  simp only [List.Forall]; repeat' constructor
theorem hostOps1_30_keeps : (hostOps1_30 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_31_fresh : (hostOps1_31 : List (HloOp τ sig (Elt F))).Forall fun op => op.fresh = ∅ := by
  simp only [List.Forall]; repeat' constructor
theorem hostOps1_31_keeps : (hostOps1_31 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem hostOps1_32_fresh : (hostOps1_32 : List (HloOp τ sig (Elt F))).Forall fun op => op.fresh = ∅ := by
  simp only [List.Forall]; repeat' constructor
theorem hostOps1_32_keeps : (hostOps1_32 : List (HloOp τ sig (Elt F))).Forall fun op => ∀ w, Proc.devRef .tc (Pipeline.arrRef spec0 w) ∉ op.writes := by
  simp only [List.Forall]
  repeat' apply And.intro
  all_goals (intro w; fin_cases w <;> simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))

/-- Every host operation after the launch touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)
  · exact Pipeline.sub_ucRefs op ((List.forall_iff_forall_mem.mp hostOps1_27_sub) op hop)
  · exact Pipeline.sub_ucRefs op ((List.forall_iff_forall_mem.mp hostOps1_28_sub) op hop)
  · exact Pipeline.sub_ucRefs op ((List.forall_iff_forall_mem.mp hostOps1_29_sub) op hop)
  · exact Pipeline.sub_ucRefs op ((List.forall_iff_forall_mem.mp hostOps1_30_sub) op hop)
  · exact Pipeline.sub_ucRefs op ((List.forall_iff_forall_mem.mp hostOps1_31_sub) op hop)
  · exact Pipeline.sub_ucRefs op ((List.forall_iff_forall_mem.mp hostOps1_32_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop
  · exact (List.forall_iff_forall_mem.mp hostOps1_27_fresh) op hop
  · exact (List.forall_iff_forall_mem.mp hostOps1_28_fresh) op hop
  · exact (List.forall_iff_forall_mem.mp hostOps1_29_fresh) op hop
  · exact (List.forall_iff_forall_mem.mp hostOps1_30_fresh) op hop
  · exact (List.forall_iff_forall_mem.mp hostOps1_31_fresh) op hop
  · exact (List.forall_iff_forall_mem.mp hostOps1_32_fresh) op hop
/-- And none writes an array the launch stages: each writes its own result buffer, which is none of the three. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop
  · exact (List.forall_iff_forall_mem.mp hostOps1_24_keeps) op hop
  · exact (List.forall_iff_forall_mem.mp hostOps1_25_keeps) op hop
  · exact (List.forall_iff_forall_mem.mp hostOps1_26_keeps) op hop
  · exact (List.forall_iff_forall_mem.mp hostOps1_27_keeps) op hop
  · exact (List.forall_iff_forall_mem.mp hostOps1_28_keeps) op hop
  · exact (List.forall_iff_forall_mem.mp hostOps1_29_keeps) op hop
  · exact (List.forall_iff_forall_mem.mp hostOps1_30_keeps) op hop
  · exact (List.forall_iff_forall_mem.mp hostOps1_31_keeps) op hop
  · exact (List.forall_iff_forall_mem.mp hostOps1_32_keeps) op hop

theorem V_main_arg0 (c : Dev nD) : V m c main_arg0 = m ((c : Thread nD τ).loc main_arg0) := rfl

/-! ## The argument's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The argument's staging buffer holds the point's block of the argument at every point, for any proof data whose
    array is the launch-time one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- From a run whose final state has every staged array at what the proof data say and every other buffer as the
    host operations after the launch leave it, the argument array ends as it began: it is a staged input, whose
    final contents are its launch-time ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

end Cert.KernelIdeal.Frame

end
-- ==== Proof.KIFrameBody.lean ====
/-
  One grid point of the kernel.  The body reads the point's block of the argument (one batch element, all 1024
  channels, the 64 x 64 image) and writes two blocks: the channel sum of the image, and fifteen rows, row r holding
  for every channel the maximum of the image over the r-th square window.  Each row is one store of a whole row and
  the channel sum one store of the whole block, so after the body each output block is the overlay of its stores;
  the loads the body makes of its own output rows before overwriting them are never used.
-/
import proofs.«167076_j27771258536050_1_alg».proof.Proof.KIFrameKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in each output block -/

/-- The whole block of the channel-sum output. -/
abbrev rSum : Rect S1x64x64 := Rect.unit (s := S1x64x64) ![0, 0, 0] S1x64x64.size inb_S1x64x64_S1x64x64_0_0_0
/-- The whole block of the argument. -/
abbrev rAll : Rect S1x1024x64x64 := (Rect.unit (s := S1x1024x64x64) ![0, 0, 0, 0] S1x1024x64x64.size inb_S1x1024x64x64_S1x1024x64x64_0_0_0_0)

/-- The channel-sum block after the body: its one store, of the sum over channels of the argument's block. -/
def outSum (x0 : Vec F S1x1024x64x64 .f32) : Vec F S1x64x64 .f32 :=
  View.canon [⟨rSum, k0_pay3 (View.ld x0 rAll)⟩]

/-- The window-maxima block after the body: its fifteen row stores, last first; row r is the maximum over the r-th
    window of the argument's block, channel by channel. -/
def outMax (x0 : Vec F S1x1024x64x64 .f32) : Vec F S1x15x1024 .f32 :=
  View.canon [⟨(Rect.unit (s := S1x15x1024) ![0, 14, 0] S1x1x1024.size inb_S1x15x1024_S1x1x1024_0_14_0), k0_pay2 (View.ld x0 (Rect.unit (s := S1x1024x64x64) ![0, 0, 32, 32] S1x1024x32x32.size inb_S1x1024x64x64_S1x1024x32x32_0_0_32_32))⟩,
    ⟨(Rect.unit (s := S1x15x1024) ![0, 13, 0] S1x1x1024.size inb_S1x15x1024_S1x1x1024_0_13_0), k0_pay1 (View.ld x0 (Rect.unit (s := S1x1024x64x64) ![0, 0, 32, 16] S1x1024x32x32.size inb_S1x1024x64x64_S1x1024x32x32_0_0_32_16))⟩,
    ⟨(Rect.unit (s := S1x15x1024) ![0, 12, 0] S1x1x1024.size inb_S1x15x1024_S1x1x1024_0_12_0), k0_pay18 (View.ld x0 (Rect.unit (s := S1x1024x64x64) ![0, 0, 32, 0] S1x1024x32x32.size inb_S1x1024x64x64_S1x1024x32x32_0_0_32_0))⟩,
    ⟨(Rect.unit (s := S1x15x1024) ![0, 11, 0] S1x1x1024.size inb_S1x15x1024_S1x1x1024_0_11_0), k0_pay17 (View.ld x0 (Rect.unit (s := S1x1024x64x64) ![0, 0, 16, 32] S1x1024x32x32.size inb_S1x1024x64x64_S1x1024x32x32_0_0_16_32))⟩,
    ⟨(Rect.unit (s := S1x15x1024) ![0, 10, 0] S1x1x1024.size inb_S1x15x1024_S1x1x1024_0_10_0), k0_pay16 (View.ld x0 (Rect.unit (s := S1x1024x64x64) ![0, 0, 16, 16] S1x1024x32x32.size inb_S1x1024x64x64_S1x1024x32x32_0_0_16_16))⟩,
    ⟨(Rect.unit (s := S1x15x1024) ![0, 9, 0] S1x1x1024.size inb_S1x15x1024_S1x1x1024_0_9_0), k0_pay15 (k0_pay14 (View.ld x0 (Rect.unit (s := S1x1024x64x64) ![0, 0, 16, 0] S1x1024x32x32.size inb_S1x1024x64x64_S1x1024x32x32_0_0_16_0)))⟩,
    ⟨(Rect.unit (s := S1x15x1024) ![0, 8, 0] S1x1x1024.size inb_S1x15x1024_S1x1x1024_0_8_0), k0_pay13 (View.ld x0 (Rect.unit (s := S1x1024x64x64) ![0, 0, 0, 32] S1x1024x32x32.size inb_S1x1024x64x64_S1x1024x32x32_0_0_0_32))⟩,
    ⟨(Rect.unit (s := S1x15x1024) ![0, 7, 0] S1x1x1024.size inb_S1x15x1024_S1x1x1024_0_7_0), k0_pay12 (View.ld x0 (Rect.unit (s := S1x1024x64x64) ![0, 0, 0, 16] S1x1024x32x32.size inb_S1x1024x64x64_S1x1024x32x32_0_0_0_16))⟩,
    ⟨(Rect.unit (s := S1x15x1024) ![0, 6, 0] S1x1x1024.size inb_S1x15x1024_S1x1x1024_0_6_0), k0_pay11 (View.ld x0 (Rect.unit (s := S1x1024x64x64) ![0, 0, 0, 0] S1x1024x32x32.size inb_S1x1024x64x64_S1x1024x32x32_0_0_0_0))⟩,
    ⟨(Rect.unit (s := S1x15x1024) ![0, 5, 0] S1x1x1024.size inb_S1x15x1024_S1x1x1024_0_5_0), k0_pay10 (View.ld x0 (Rect.unit (s := S1x1024x64x64) ![0, 0, 22, 22] S1x1024x42x42.size inb_S1x1024x64x64_S1x1024x42x42_0_0_22_22))⟩,
    ⟨(Rect.unit (s := S1x15x1024) ![0, 4, 0] S1x1x1024.size inb_S1x15x1024_S1x1x1024_0_4_0), k0_pay9 (View.ld x0 (Rect.unit (s := S1x1024x64x64) ![0, 0, 22, 0] S1x1024x42x42.size inb_S1x1024x64x64_S1x1024x42x42_0_0_22_0))⟩,
    ⟨(Rect.unit (s := S1x15x1024) ![0, 3, 0] S1x1x1024.size inb_S1x15x1024_S1x1x1024_0_3_0), k0_pay8 (View.ld x0 (Rect.unit (s := S1x1024x64x64) ![0, 0, 0, 22] S1x1024x42x42.size inb_S1x1024x64x64_S1x1024x42x42_0_0_0_22))⟩,
    ⟨(Rect.unit (s := S1x15x1024) ![0, 2, 0] S1x1x1024.size inb_S1x15x1024_S1x1x1024_0_2_0), k0_pay7 (k0_pay6 (View.ld x0 (Rect.unit (s := S1x1024x64x64) ![0, 0, 0, 0] S1x1024x42x42.size inb_S1x1024x64x64_S1x1024x42x42_0_0_0_0)))⟩,
    ⟨(Rect.unit (s := S1x15x1024) ![0, 1, 0] S1x1x1024.size inb_S1x15x1024_S1x1x1024_0_1_0), k0_pay5 (View.ld x0 (Rect.unit (s := S1x1024x64x64) ![0, 0, 0, 0] S1x1024x64x64.size inb_S1x1024x64x64_S1x1024x64x64_0_0_0_0))⟩,
    ⟨(Rect.unit (s := S1x15x1024) ![0, 0, 0] S1x1x1024.size inb_S1x15x1024_S1x1x1024_0_0_0), k0_pay4 (View.ld x0 (Rect.unit (s := S1x1024x64x64) ![0, 0, 0, 0] S1x1024x64x64.size inb_S1x1024x64x64_S1x1024x64x64_0_0_0_0))⟩]

/-- One store of the whole block covers it. -/
theorem coverSum (p0 : Vec F S1x64x64 .f32) (y : S1x64x64.Idx) :
    ∃ pc ∈ ([⟨rSum, p0⟩] : List (View.Piece (Elt F) S1x64x64 .f32)), y ∈ pc.1.set :=
  View.cover_of_tiled [⟨rSum, p0⟩] S1x64x64.size (by rfl) y

/-- The fifteen rows tile the block, so they cover it. -/
theorem coverMax (p0 p1 p2 p3 p4 p5 p6 p7 p8 p9 p10 p11 p12 p13 p14 : Vec F S1x1x1024 .f32) (y : S1x15x1024.Idx) :
    ∃ pc ∈ ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt F) S1x15x1024 .f32)), y ∈ pc.1.set :=
  View.cover_of_tiled ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt F) S1x15x1024 .f32)) S1x1x1024.size (by rfl) y

/-! ## The body's triple -/

set_option maxHeartbeats 4000000 in
/-- On whole staging buffers, the argument's holding `x0` and the outputs' anything, the body runs to its end, leaves
    the argument's buffer as it was and each output's at the overlay of the stores made into it. -/
theorem sound_kernel (c : Dev nD) (E : Set ℕ) (i : grid0.Coords) (arg1 : Memref sig .tc .vmem S1x1024x64x64 .f32) (harg1 : arg1.IsWhole) (arg2 : Memref sig .tc .vmem S1x64x64 .f32) (harg2 : arg2.IsWhole) (arg3 : Memref sig .tc .vmem S1x15x1024 .f32) (harg3 : arg3.IsWhole)
    (x0 : Vec F S1x1024x64x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outSum x0) ∗ owns (c : Thread nD τ) arg3 fullShare (outMax x0)) -∗ K ⟨⟩))
      ⊢ wp frame (wpE (defs₀ (F := F)) Variants.none c none) E (cc0__ramac_kernel i arg1 harg1 arg2 harg2 arg3 harg3) K := by
  simp only [cc0__ramac_kernel_eq_skeleton]; unfold cc0__ramac_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverSum _)
  iexists _; isplitr
  swap; · iexact H2
  ipureintro
  exact View.read_writes_eq_canon _ _ _ (coverMax _ _ _ _ _ _ _ _ _ _ _ _ _ _ _)

end Cert.KernelIdeal.Frame

end
-- ==== Proof.KIFrame.lean ====
/-
  The kernel program runs to its end and leaves its argument alone.  The proof data of the launch: every staged
  array starts as the launch finds it; after the body at a grid point the argument's staging buffer still holds the
  point's block and the two output buffers hold the overlays of the body's stores, which depend on that block only.
  With the body's triple at every point and the facts about the host operations after the launch, the library's
  frame theorem for a launch followed by host operations gives the run, and the argument is a staged input whose
  final contents are its first ones.
-/
import proofs.«167076_j27771258536050_1_alg».proof.Proof.KIFrameBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outSum (iblk m c 0 t)
    | ⟨2, _⟩ => outMax (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outSum (iblk m c 0 t) := by dsimp only [dats]
theorem after0_2 (c : Dev nD) (t : Fin cfg0.N) : (dats m 0 c).after 2 t = outMax (iblk m c 0 t) := by dsimp only [dats]

/-- The argument's staging buffer holds the point's block at every point. -/
theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the argument's buffer holds its block, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the entry function ends, and every final state has each staged array at what the
    proof data say and every other unscoped buffer as the host operations after the launch leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to its end and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Frame

end
-- ==== Proof.KIValue.lean ====
/-
  What the two kernel results hold after the launch, as whole-array functions of the argument.

  Grid point t is handed batch element t of the argument and writes block t of each result, and the sixteen
  blocks tile each result.  So the channel-sum result at (b, h, w) is the body's channel sum of batch element b at
  (h, w), and the window-maxima result at (b, r, k) is row r of the body's maxima of batch element b at channel k.
-/
import proofs.«167076_j27771258536050_1_alg».proof.Proof.KIFrame
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Batch element `b` of the argument, as the block a grid point is handed. -/
def blkOf (X : S16x1024x64x64.Idx → Elt F .f32) (b : Fin 16) : Vec F S1x1024x64x64 .f32 :=
  fun y => X (ix4 b (y 1) (y 2) (y 3))

/-- The channel-sum result as a function of the argument. -/
def Gsum (X : S16x1024x64x64.Idx → Elt F .f32) : S16x64x64.Idx → Elt F .f32 :=
  fun i => outSum (blkOf X (i 0)) (ix3 0 (i 1) (i 2))

/-- The window-maxima result as a function of the argument. -/
def Gmax (X : S16x1024x64x64.Idx → Elt F .f32) : S16x15x1024.Idx → Elt F .f32 :=
  fun i => outMax (blkOf X (i 0)) (ix3 0 (i 1) (i 2))

/-- The block index of every window at a grid point: the point along the batch axis, zero along the others. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point `t` writes back into the channel-sum result is block `t` of `Gsum` of the argument. -/
theorem flushedSum_eq (c : Dev nD) (t : Fin cfg0.N) :
    (dats m 0 c).flushed 1 t = ((cfg0.win 1).blk t).view.read (Elt F) (Gsum (V m c main_arg0)) := by
  show (cfg0.win 1).cut (grid0.coords t) ((dats m 0 c).after 1 t) = _
  rw [after0_1]
  obtain ⟨e00, e01, e02, e03, e10, e11, e12, e20, e21, e22⟩ := idx_facts t
  generalize hY : outSum (iblk m c 0 t) = Y
  generalize hG : Gsum (V m c main_arg0) = G
  funext j
  show Y j = G (((cfg0.win 1).blk t).view.emb j)
  rw [← hY, ← hG]
  unfold Gsum
  have hb : iblk m c 0 t = blkOf (V m c main_arg0) ((((cfg0.win 1).blk t).view.emb j) 0) := by
    funext y
    show V m c main_arg0 (((cfg0.win 0).blk t).view.emb y) = V m c main_arg0 (ix4 ((((cfg0.win 1).blk t).view.emb j) 0) (y 1) (y 2) (y 3))
    congr 1; funext a; apply Fin.ext
    have hy0 : (y 0).val < 1 := (y 0).isLt
    have hj0 : (j 0).val < 1 := (j 0).isLt
    match a with
    | ⟨0, _⟩ => show win0_0.index t (0 : Fin 4) * 1 + 1 * (y 0).val = win0_1.index t (0 : Fin 3) * 1 + 1 * (j 0).val; omega
    | ⟨1, _⟩ => show win0_0.index t (1 : Fin 4) * 1024 + 1 * (y 1).val = (y 1).val; omega
    | ⟨2, _⟩ => show win0_0.index t (2 : Fin 4) * 64 + 1 * (y 2).val = (y 2).val; omega
    | ⟨3, _⟩ => show win0_0.index t (3 : Fin 4) * 64 + 1 * (y 3).val = (y 3).val; omega
  have hj : j = ix3 0 ((((cfg0.win 1).blk t).view.emb j) 1) ((((cfg0.win 1).blk t).view.emb j) 2) := by
    funext a; apply Fin.ext
    have hj0 : (j 0).val < 1 := (j 0).isLt
    match a with
    | ⟨0, _⟩ => show (j 0).val = 0; omega
    | ⟨1, _⟩ => show (j 1).val = win0_1.index t (1 : Fin 3) * 64 + 1 * (j 1).val; omega
    | ⟨2, _⟩ => show (j 2).val = win0_1.index t (2 : Fin 3) * 64 + 1 * (j 2).val; omega
  rw [hb]; exact congrArg _ hj

set_option maxHeartbeats 8000000 in
/-- What point `t` writes back into the window-maxima result is block `t` of `Gmax` of the argument. -/
theorem flushedMax_eq (c : Dev nD) (t : Fin cfg0.N) :
    (dats m 0 c).flushed 2 t = ((cfg0.win 2).blk t).view.read (Elt F) (Gmax (V m c main_arg0)) := by
  show (cfg0.win 2).cut (grid0.coords t) ((dats m 0 c).after 2 t) = _
  rw [after0_2]
  obtain ⟨e00, e01, e02, e03, e10, e11, e12, e20, e21, e22⟩ := idx_facts t
  generalize hY : outMax (iblk m c 0 t) = Y
  generalize hG : Gmax (V m c main_arg0) = G
  funext j
  show Y j = G (((cfg0.win 2).blk t).view.emb j)
  rw [← hY, ← hG]
  unfold Gmax
  have hb : iblk m c 0 t = blkOf (V m c main_arg0) ((((cfg0.win 2).blk t).view.emb j) 0) := by
    funext y
    show V m c main_arg0 (((cfg0.win 0).blk t).view.emb y) = V m c main_arg0 (ix4 ((((cfg0.win 2).blk t).view.emb j) 0) (y 1) (y 2) (y 3))
    congr 1; funext a; apply Fin.ext
    have hy0 : (y 0).val < 1 := (y 0).isLt
    have hj0 : (j 0).val < 1 := (j 0).isLt
    match a with
    | ⟨0, _⟩ => show win0_0.index t (0 : Fin 4) * 1 + 1 * (y 0).val = win0_2.index t (0 : Fin 3) * 1 + 1 * (j 0).val; omega
    | ⟨1, _⟩ => show win0_0.index t (1 : Fin 4) * 1024 + 1 * (y 1).val = (y 1).val; omega
    | ⟨2, _⟩ => show win0_0.index t (2 : Fin 4) * 64 + 1 * (y 2).val = (y 2).val; omega
    | ⟨3, _⟩ => show win0_0.index t (3 : Fin 4) * 64 + 1 * (y 3).val = (y 3).val; omega
  have hj : j = ix3 0 ((((cfg0.win 2).blk t).view.emb j) 1) ((((cfg0.win 2).blk t).view.emb j) 2) := by
    funext a; apply Fin.ext
    have hj0 : (j 0).val < 1 := (j 0).isLt
    match a with
    | ⟨0, _⟩ => show (j 0).val = 0; omega
    | ⟨1, _⟩ => show (j 1).val = win0_2.index t (1 : Fin 3) * 15 + 1 * (j 1).val; omega
    | ⟨2, _⟩ => show (j 2).val = win0_2.index t (2 : Fin 3) * 1024 + 1 * (j 2).val; omega
  rw [hb]; exact congrArg _ hj

/-- An index of the channel-sum result is in point `t`'s block iff each coordinate is in the block's range. -/
theorem mem_blkSum (t : Fin cfg0.N) (i : S16x64x64.Idx) :
    i ∈ ((cfg0.win 1).blk t).view.set ↔ ∀ a : Fin 3, win0_1.index t a * S1x64x64.size a ≤ (i a).val ∧ (i a).val < win0_1.index t a * S1x64x64.size a + S1x64x64.size a := by
  show i ∈ ((View.whole main_v0_0).slice (win0_1.rect t)).set ↔ _
  rw [View.set_slice_whole, Rect.mem_set_unit]
  exact Iff.rfl

theorem mem_blkMax (t : Fin cfg0.N) (i : S16x15x1024.Idx) :
    i ∈ ((cfg0.win 2).blk t).view.set ↔ ∀ a : Fin 3, win0_2.index t a * S1x15x1024.size a ≤ (i a).val ∧ (i a).val < win0_2.index t a * S1x15x1024.size a + S1x15x1024.size a := by
  show i ∈ ((View.whole main_v0_1).slice (win0_2.rect t)).set ↔ _
  rw [View.set_slice_whole, Rect.mem_set_unit]
  exact Iff.rfl

/-- Every index of the channel-sum result is in the block of the point at its batch coordinate. -/
theorem coverSumArr (i : S16x64x64.Idx) :
    ∃ t : Fin cfg0.N, (cfg0.win 1).flush t = true ∧ i ∈ ((cfg0.win 1).blk t).view.set := by
  have hN : cfg0.N = 16 := N_0
  have hi0 : (i 0).val < 16 := (i 0).isLt
  have hi1 : (i 1).val < 64 := (i 1).isLt
  have hi2 : (i 2).val < 64 := (i 2).isLt
  refine ⟨⟨(i 0).val, by omega⟩, flush0_1 _, ?_⟩
  obtain ⟨e00, e01, e02, e03, e10, e11, e12, e20, e21, e22⟩ := idx_facts ⟨(i 0).val, by omega⟩
  rw [mem_blkSum]
  intro a
  match a with
  | ⟨0, _⟩ => show win0_1.index _ (0 : Fin 3) * 1 ≤ (i 0).val ∧ (i 0).val < win0_1.index _ (0 : Fin 3) * 1 + 1; simp only [e10]; omega
  | ⟨1, _⟩ => show win0_1.index _ (1 : Fin 3) * 64 ≤ (i 1).val ∧ (i 1).val < win0_1.index _ (1 : Fin 3) * 64 + 64; simp only [e11]; omega
  | ⟨2, _⟩ => show win0_1.index _ (2 : Fin 3) * 64 ≤ (i 2).val ∧ (i 2).val < win0_1.index _ (2 : Fin 3) * 64 + 64; simp only [e12]; omega

theorem coverMaxArr (i : S16x15x1024.Idx) :
    ∃ t : Fin cfg0.N, (cfg0.win 2).flush t = true ∧ i ∈ ((cfg0.win 2).blk t).view.set := by
  have hN : cfg0.N = 16 := N_0
  have hi0 : (i 0).val < 16 := (i 0).isLt
  have hi1 : (i 1).val < 15 := (i 1).isLt
  have hi2 : (i 2).val < 1024 := (i 2).isLt
  refine ⟨⟨(i 0).val, by omega⟩, flush0_2 _, ?_⟩
  obtain ⟨e00, e01, e02, e03, e10, e11, e12, e20, e21, e22⟩ := idx_facts ⟨(i 0).val, by omega⟩
  rw [mem_blkMax]
  intro a
  match a with
  | ⟨0, _⟩ => show win0_2.index _ (0 : Fin 3) * 1 ≤ (i 0).val ∧ (i 0).val < win0_2.index _ (0 : Fin 3) * 1 + 1; simp only [e20]; omega
  | ⟨1, _⟩ => show win0_2.index _ (1 : Fin 3) * 15 ≤ (i 1).val ∧ (i 1).val < win0_2.index _ (1 : Fin 3) * 15 + 15; simp only [e21]; omega
  | ⟨2, _⟩ => show win0_2.index _ (2 : Fin 3) * 1024 ≤ (i 2).val ∧ (i 2).val < win0_2.index _ (2 : Fin 3) * 1024 + 1024; simp only [e22]; omega

/-- The channel-sum result after the launch. -/
theorem finalSum (c : Dev nD) : (dats m 0 c).arrAt 1 cfg0.N = Gsum (V m c main_arg0) :=
  (dats m 0 c).arrAt_eq_of_cover 1 (Gsum (V m c main_arg0)) (fun t _ => flushedSum_eq m c t) coverSumArr

/-- The window-maxima result after the launch. -/
theorem finalMax (c : Dev nD) : (dats m 0 c).arrAt 2 cfg0.N = Gmax (V m c main_arg0) :=
  (dats m 0 c).arrAt_eq_of_cover 2 (Gmax (V m c main_arg0)) (fun t _ => flushedMax_eq m c t) coverMaxArr

end Cert.KernelIdeal.Frame

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.KITail.lean ====
/-
  The host operations after the launch, as one function of the two kernel results.

  From the channel-sum image the tail takes the mean, thresholds the image against it, and for each of the fifteen
  square windows counts the thresholded pixels in the window over all batch elements, divides by the window's area
  and zeroes the quotient when it is at most one third: the window's weight.  The fifteen weights are laid side by
  side in a vector.  From the window maxima the tail takes, per batch element and window, the Euclidean norm over
  channels, divides the maxima by the norm plus a small constant, multiplies by the window's weight and sums over
  the windows.  The terms below are the operations' own, named at the thresholded image, at each weight, at the
  weight vector and at the total; the line of operations is read in three parts: up to the weight vector's
  operands, the operation that lays them side by side, and the rest.
-/
import proofs.«167076_j27771258536050_1_alg».proof.Proof.KIFrame
import proofs.«167076_j27771258536050_1_alg».proof.Proof.LibAfterAppend

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-- The thresholded image: a pixel of the channel-sum image is marked when it exceeds the image's mean. -/
def ttK (s : (⟨S16x64x64, .f32⟩ : BufTy).Contents (Elt F)) : (⟨S16x64x64, .i1⟩ : BufTy).Contents (Elt F) :=
  cmpf .ogt (subf s (broadcastInDim S16x64x64 ![] bcast_S_S16x64x64 (Host.divf (Host.reduceAdd s (constant (F := F) S_ .f32 0x00000000#32) reducesTo_S16x64x64_S_d0_1_2 h_S_) (constant (F := F) S_ .f32 0x47800000#32)))) (broadcastInDim S16x64x64 ![] bcast_S_S16x64x64 (constant (F := F) S_ .f32 0x00000000#32))

/-- The weight of window 0: the marked pixels in the window, over its area, or zero when that is at most one third. -/
def wK0 (tt : (⟨S16x64x64, .i1⟩ : BufTy).Contents (Elt F)) : (⟨S_, .f32⟩ : BufTy).Contents (Elt F) :=
  select (cmpf .ole (Host.divf (sitofp .f32 (Host.reduce IntOp.addi (extui 32 tt natLt_1_32) (constantI S_ 32 0#32) reducesTo_S16x64x64_S_d0_1_2 h_S_)) (constant (F := F) S_ .f32 0x45800000#32)) (constant (F := F) S_ .f32 0x3EAAAAAB#32)) (constant (F := F) S_ .f32 0x00000000#32) (Host.divf (sitofp .f32 (Host.reduce IntOp.addi (extui 32 tt natLt_1_32) (constantI S_ 32 0#32) reducesTo_S16x64x64_S_d0_1_2 h_S_)) (constant (F := F) S_ .f32 0x45800000#32))

/-- The weight of window 1: the marked pixels in the window, over its area, or zero when that is at most one third. -/
def wK1 (tt : (⟨S16x64x64, .i1⟩ : BufTy).Contents (Elt F)) : (⟨S_, .f32⟩ : BufTy).Contents (Elt F) :=
  select (cmpf .ole (Host.divf (sitofp .f32 (Host.reduce IntOp.addi (extui 32 tt natLt_1_32) (constantI S_ 32 0#32) reducesTo_S16x64x64_S_d0_1_2 h_S_)) (constant (F := F) S_ .f32 0x45800000#32)) (constant (F := F) S_ .f32 0x3EAAAAAB#32)) (constant (F := F) S_ .f32 0x00000000#32) (Host.divf (sitofp .f32 (Host.reduce IntOp.addi (extui 32 tt natLt_1_32) (constantI S_ 32 0#32) reducesTo_S16x64x64_S_d0_1_2 h_S_)) (constant (F := F) S_ .f32 0x45800000#32))

/-- The weight of window 2: the marked pixels in the window, over its area, or zero when that is at most one third. -/
def wK2 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 0, 0] tt slices_S16x64x64_S16x42x42_0_0_0) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 0, 0] tt slices_S16x64x64_S16x42x42_0_0_0) natLt_1_32) (constantI S_ 32 0#32) reducesTo_S16x42x42_S_d0_1_2 h_S_)) (constant (F := F) S_ .f32 0x44DC8000#32))

/-- The weight of window 3: the marked pixels in the window, over its area, or zero when that is at most one third. -/
def wK3 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 0, 22] tt slices_S16x64x64_S16x42x42_0_0_22) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 0, 22] tt slices_S16x64x64_S16x42x42_0_0_22) natLt_1_32) (constantI S_ 32 0#32) reducesTo_S16x42x42_S_d0_1_2 h_S_)) (constant (F := F) S_ .f32 0x44DC8000#32))

/-- The weight of window 4: the marked pixels in the window, over its area, or zero when that is at most one third. -/
def wK4 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 22, 0] tt slices_S16x64x64_S16x42x42_0_22_0) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 22, 0] tt slices_S16x64x64_S16x42x42_0_22_0) natLt_1_32) (constantI S_ 32 0#32) reducesTo_S16x42x42_S_d0_1_2 h_S_)) (constant (F := F) S_ .f32 0x44DC8000#32))

/-- The weight of window 5: the marked pixels in the window, over its area, or zero when that is at most one third. -/
def wK5 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 22, 22] tt slices_S16x64x64_S16x42x42_0_22_22) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 22, 22] tt slices_S16x64x64_S16x42x42_0_22_22) natLt_1_32) (constantI S_ 32 0#32) reducesTo_S16x42x42_S_d0_1_2 h_S_)) (constant (F := F) S_ .f32 0x44DC8000#32))

/-- The weight of window 6: the marked pixels in the window, over its area, or zero when that is at most one third. -/
def wK6 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 0] tt slices_S16x64x64_S16x32x32_0_0_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 0] tt slices_S16x64x64_S16x32x32_0_0_0) natLt_1_32) (constantI S_ 32 0#32) reducesTo_S16x32x32_S_d0_1_2 h_S_)) (constant (F := F) S_ .f32 0x44800000#32))

/-- The weight of window 7: the marked pixels in the window, over its area, or zero when that is at most one third. -/
def wK7 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 16] tt slices_S16x64x64_S16x32x32_0_0_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 16] tt slices_S16x64x64_S16x32x32_0_0_16) natLt_1_32) (constantI S_ 32 0#32) reducesTo_S16x32x32_S_d0_1_2 h_S_)) (constant (F := F) S_ .f32 0x44800000#32))

/-- The weight of window 8: the marked pixels in the window, over its area, or zero when that is at most one third. -/
def wK8 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 32] tt slices_S16x64x64_S16x32x32_0_0_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 32] tt slices_S16x64x64_S16x32x32_0_0_32) natLt_1_32) (constantI S_ 32 0#32) reducesTo_S16x32x32_S_d0_1_2 h_S_)) (constant (F := F) S_ .f32 0x44800000#32))

/-- The weight of window 9: the marked pixels in the window, over its area, or zero when that is at most one third. -/
def wK9 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 0] tt slices_S16x64x64_S16x32x32_0_16_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 0] tt slices_S16x64x64_S16x32x32_0_16_0) natLt_1_32) (constantI S_ 32 0#32) reducesTo_S16x32x32_S_d0_1_2 h_S_)) (constant (F := F) S_ .f32 0x44800000#32))

/-- The weight of window 10: the marked pixels in the window, over its area, or zero when that is at most one third. -/
def wK10 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 16] tt slices_S16x64x64_S16x32x32_0_16_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 16] tt slices_S16x64x64_S16x32x32_0_16_16) natLt_1_32) (constantI S_ 32 0#32) reducesTo_S16x32x32_S_d0_1_2 h_S_)) (constant (F := F) S_ .f32 0x44800000#32))

/-- The weight of window 11: the marked pixels in the window, over its area, or zero when that is at most one third. -/
def wK11 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 32] tt slices_S16x64x64_S16x32x32_0_16_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 32] tt slices_S16x64x64_S16x32x32_0_16_32) natLt_1_32) (constantI S_ 32 0#32) reducesTo_S16x32x32_S_d0_1_2 h_S_)) (constant (F := F) S_ .f32 0x44800000#32))

/-- The weight of window 12: the marked pixels in the window, over its area, or zero when that is at most one third. -/
def wK12 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 0] tt slices_S16x64x64_S16x32x32_0_32_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 0] tt slices_S16x64x64_S16x32x32_0_32_0) natLt_1_32) (constantI S_ 32 0#32) reducesTo_S16x32x32_S_d0_1_2 h_S_)) (constant (F := F) S_ .f32 0x44800000#32))

/-- The weight of window 13: the marked pixels in the window, over its area, or zero when that is at most one third. -/
def wK13 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 16] tt slices_S16x64x64_S16x32x32_0_32_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 16] tt slices_S16x64x64_S16x32x32_0_32_16) natLt_1_32) (constantI S_ 32 0#32) reducesTo_S16x32x32_S_d0_1_2 h_S_)) (constant (F := F) S_ .f32 0x44800000#32))

/-- The weight of window 14: the marked pixels in the window, over its area, or zero when that is at most one third. -/
def wK14 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 32] tt slices_S16x64x64_S16x32x32_0_32_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 32] tt slices_S16x64x64_S16x32x32_0_32_32) natLt_1_32) (constantI S_ 32 0#32) reducesTo_S16x32x32_S_d0_1_2 h_S_)) (constant (F := F) S_ .f32 0x44800000#32))

/-- The fifteen weights side by side. -/
def wvK (w0 : (⟨S_, .f32⟩ : BufTy).Contents (Elt F)) (w1 : (⟨S_, .f32⟩ : BufTy).Contents (Elt F)) (w2 : (⟨S_, .f32⟩ : BufTy).Contents (Elt F)) (w3 : (⟨S_, .f32⟩ : BufTy).Contents (Elt F)) (w4 : (⟨S_, .f32⟩ : BufTy).Contents (Elt F)) (w5 : (⟨S_, .f32⟩ : BufTy).Contents (Elt F)) (w6 : (⟨S_, .f32⟩ : BufTy).Contents (Elt F)) (w7 : (⟨S_, .f32⟩ : BufTy).Contents (Elt F)) (w8 : (⟨S_, .f32⟩ : BufTy).Contents (Elt F)) (w9 : (⟨S_, .f32⟩ : BufTy).Contents (Elt F)) (w10 : (⟨S_, .f32⟩ : BufTy).Contents (Elt F)) (w11 : (⟨S_, .f32⟩ : BufTy).Contents (Elt F)) (w12 : (⟨S_, .f32⟩ : BufTy).Contents (Elt F)) (w13 : (⟨S_, .f32⟩ : BufTy).Contents (Elt F)) (w14 : (⟨S_, .f32⟩ : BufTy).Contents (Elt F)) : (⟨S15, .f32⟩ : BufTy).Contents (Elt F) :=
  concatenate S15 0 [⟨S1, (broadcastInDim S1 ![] bcast_S_S1 w0)⟩, ⟨S1, (broadcastInDim S1 ![] bcast_S_S1 w1)⟩, ⟨S1, (broadcastInDim S1 ![] bcast_S_S1 w2)⟩, ⟨S1, (broadcastInDim S1 ![] bcast_S_S1 w3)⟩, ⟨S1, (broadcastInDim S1 ![] bcast_S_S1 w4)⟩, ⟨S1, (broadcastInDim S1 ![] bcast_S_S1 w5)⟩, ⟨S1, (broadcastInDim S1 ![] bcast_S_S1 w6)⟩, ⟨S1, (broadcastInDim S1 ![] bcast_S_S1 w7)⟩, ⟨S1, (broadcastInDim S1 ![] bcast_S_S1 w8)⟩, ⟨S1, (broadcastInDim S1 ![] bcast_S_S1 w9)⟩, ⟨S1, (broadcastInDim S1 ![] bcast_S_S1 w10)⟩, ⟨S1, (broadcastInDim S1 ![] bcast_S_S1 w11)⟩, ⟨S1, (broadcastInDim S1 ![] bcast_S_S1 w12)⟩, ⟨S1, (broadcastInDim S1 ![] bcast_S_S1 w13)⟩, ⟨S1, (broadcastInDim S1 ![] bcast_S_S1 w14)⟩] concatenates_S1_S1_S1_S1_S1_S1_S1_S1_S1_S1_S1_S1_S1_S1_S1_S15_d0

/-- The total: the window maxima, normalised per batch element and window, weighted and summed over the windows. -/
def tailK (vt : (⟨S16x15x1024, .f32⟩ : BufTy).Contents (Elt F)) (wv : (⟨S15, .f32⟩ : BufTy).Contents (Elt F)) : (⟨S16x1024, .f32⟩ : BufTy).Contents (Elt F) :=
  Host.reduceAdd (mulf (Host.divf vt (broadcastInDim S16x15x1024 ![0, 1, 2] bcast_S16x15x1_S16x15x1024_0_1_2 (addf (Host.sqrt (broadcastInDim S16x15x1 ![0, 1] bcast_S16x15_S16x15x1_0_1 (Host.reduceAdd (mulf vt vt) (constant (F := F) S_ .f32 0x00000000#32) reducesTo_S16x15x1024_S16x15_d2 h_S_))) (broadcastInDim S16x15x1 ![] bcast_S_S16x15x1 (constant (F := F) S_ .f32 0x358637BD#32))))) (broadcastInDim S16x15x1024 ![0, 1, 2] bcast_S1x15x1_S16x15x1024_0_1_2 (broadcastInDim S1x15x1 ![1] bcast_S15_S1x15x1_1 wv))) (constant (F := F) S_ .f32 0x00000000#32) reducesTo_S16x15x1024_S16x1024_d1 h_S_

/-- The tail as a function of the channel-sum image and the window maxima. -/
def totalK (s : (⟨S16x64x64, .f32⟩ : BufTy).Contents (Elt F)) (vt : (⟨S16x15x1024, .f32⟩ : BufTy).Contents (Elt F)) : (⟨S16x1024, .f32⟩ : BufTy).Contents (Elt F) :=
  tailK vt (wvK (wK0 (ttK s)) (wK1 (ttK s)) (wK2 (ttK s)) (wK3 (ttK s)) (wK4 (ttK s)) (wK5 (ttK s)) (wK6 (ttK s)) (wK7 (ttK s)) (wK8 (ttK s)) (wK9 (ttK s)) (wK10 (ttK s)) (wK11 (ttK s)) (wK12 (ttK s)) (wK13 (ttK s)) (wK14 (ttK s)))

set_option maxHeartbeats 4000000 in
/-- The operations before the weights are laid side by side. -/
abbrev kPre : List (HloOp τ sig (Elt F)) :=
  [ StableHlo.nullary main_cst (constant S_ .f32 0x00000000#32),
    StableHlo.binary main_v0_0 main_cst main_v1 ((fun x v => Host.reduceAdd x v reducesTo_S16x64x64_S_d0_1_2 h_S_) : (⟨S16x64x64, .f32⟩ : BufTy).Contents (Elt F) → (⟨S_, .f32⟩ : BufTy).Contents (Elt F) → (⟨S_, .f32⟩ : BufTy).Contents (Elt F)),
    StableHlo.nullary main_cst_0 (constant S_ .f32 0x47800000#32),
    StableHlo.binary main_v1 main_cst_0 main_v2 (Host.divf : (⟨S_, .f32⟩ : BufTy).Contents (Elt F) → (⟨S_, .f32⟩ : BufTy).Contents (Elt F) → (⟨S_, .f32⟩ : BufTy).Contents (Elt F)),
    StableHlo.unary main_v2 main_v3 (broadcastInDim S16x64x64 ![] bcast_S_S16x64x64 : (⟨S_, .f32⟩ : BufTy).Contents (Elt F) → (⟨S16x64x64, .f32⟩ : BufTy).Contents (Elt F)),
    StableHlo.binary main_v0_0 main_v3 main_v4 (subf : (⟨S16x64x64, .f32⟩ : BufTy).Contents (Elt F) → (⟨S16x64x64, .f32⟩ : BufTy).Contents (Elt F) → (⟨S16x64x64, .f32⟩ : BufTy).Contents (Elt F)),
    StableHlo.nullary main_cst_1 (constant S_ .f32 0x00000000#32),
    StableHlo.unary main_cst_1 main_v5 (broadcastInDim S16x64x64 ![] bcast_S_S16x64x64 : (⟨S_, .f32⟩ : BufTy).Contents (Elt F) → (⟨S16x64x64, .f32⟩ : BufTy).Contents (Elt F)),
    StableHlo.binary main_v4 main_v5 main_v6 (cmpf .ogt : (⟨S16x64x64, .f32⟩ : BufTy).Contents (Elt F) → (⟨S16x64x64, .f32⟩ : BufTy).Contents (Elt F) → (⟨S16x64x64, .i1⟩ : BufTy).Contents (Elt F)),
    StableHlo.unary main_v6 main_v7 ((extui 32 · natLt_1_32) : (⟨S16x64x64, .i1⟩ : BufTy).Contents (Elt F) → (⟨S16x64x64, .i32⟩ : BufTy).Contents (Elt F)),
    StableHlo.nullary main_c (constantI S_ 32 0#32),
    StableHlo.binary main_v7 main_c main_v8 ((fun x v => Host.reduce IntOp.addi x v reducesTo_S16x64x64_S_d0_1_2 h_S_) : (⟨S16x64x64, .i32⟩ : BufTy).Contents (Elt F) → (⟨S_, .i32⟩ : BufTy).Contents (Elt F) → (⟨S_, .i32⟩ : BufTy).Contents (Elt F)),
    StableHlo.unary main_v8 main_v9 (sitofp .f32 : (⟨S_, .i32⟩ : BufTy).Contents (Elt F) → (⟨S_, .f32⟩ : BufTy).Contents (Elt F)),
    StableHlo.nullary main_cst_2 (constant S_ .f32 0x45800000#32),
    StableHlo.binary main_v9 main_cst_2 main_v10 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3EAAAAAB#32),
    StableHlo.binary main_v10 main_cst_3 main_v11 (cmpf .ole : (⟨S_, .f32⟩ : BufTy).Contents (Elt F) → (⟨S_, .f32⟩ : BufTy).Contents (Elt F) → (⟨S_, .i1⟩ : BufTy).Contents (Elt F)),
    StableHlo.nullary main_cst_4 (constant S_ .f32 0x00000000#32),
    StableHlo.TRef.ternary (.of main_v11 : StableHlo.TRef sig ⟨S_, .i1⟩) (.of main_cst_4 : StableHlo.TRef sig ⟨S_, .f32⟩) (.of main_v10 : StableHlo.TRef sig ⟨S_, .f32⟩) (.of main_v12 : StableHlo.TRef sig ⟨S_, .f32⟩) select,
    StableHlo.unary main_v6 main_v13 ((extui 32 · natLt_1_32) : (⟨S16x64x64, .i1⟩ : BufTy).Contents (Elt F) → (⟨S16x64x64, .i32⟩ : BufTy).Contents (Elt F)),
    StableHlo.nullary main_c_5 (constantI S_ 32 0#32),
    StableHlo.binary main_v13 main_c_5 main_v14 ((fun x v => Host.reduce IntOp.addi x v reducesTo_S16x64x64_S_d0_1_2 h_S_) : (⟨S16x64x64, .i32⟩ : BufTy).Contents (Elt F) → (⟨S_, .i32⟩ : BufTy).Contents (Elt F) → (⟨S_, .i32⟩ : BufTy).Contents (Elt F)),
    StableHlo.unary main_v14 main_v15 (sitofp .f32 : (⟨S_, .i32⟩ : BufTy).Contents (Elt F) → (⟨S_, .f32⟩ : BufTy).Contents (Elt F)),
    StableHlo.nullary main_cst_6 (constant S_ .f32 0x45800000#32),
    StableHlo.binary main_v15 main_cst_6 main_v16 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3EAAAAAB#32),
    StableHlo.binary main_v16 main_cst_7 main_v17 (cmpf .ole : (⟨S_, .f32⟩ : BufTy).Contents (Elt F) → (⟨S_, .f32⟩ : BufTy).Contents (Elt F) → (⟨S_, .i1⟩ : BufTy).Contents (Elt F)),
    StableHlo.nullary main_cst_8 (constant S_ .f32 0x00000000#32),
    StableHlo.TRef.ternary (.of main_v17 : StableHlo.TRef sig ⟨S_, .i1⟩) (.of main_cst_8 : StableHlo.TRef sig ⟨S_, .f32⟩) (.of main_v16 : StableHlo.TRef sig ⟨S_, .f32⟩) (.of main_v18 : StableHlo.TRef sig ⟨S_, .f32⟩) select,
    StableHlo.unary main_v6 main_v19 ((extractStridedSlice S16x42x42 ![0, 0, 0] · slices_S16x64x64_S16x42x42_0_0_0) : (⟨S16x64x64, .i1⟩ : BufTy).Contents (Elt F) → (⟨S16x42x42, .i1⟩ : BufTy).Contents (Elt F)),
    StableHlo.unary main_v19 main_v20 ((extui 32 · natLt_1_32) : (⟨S16x42x42, .i1⟩ : BufTy).Contents (Elt F) → (⟨S16x42x42, .i32⟩ : BufTy).Contents (Elt F)),
    StableHlo.nullary main_c_9 (constantI S_ 32 0#32),
    StableHlo.binary main_v20 main_c_9 main_v21 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    StableHlo.unary main_v21 main_v22 (sitofp .f32 : (⟨S_, .i32⟩ : BufTy).Contents (Elt F) → (⟨S_, .f32⟩ : BufTy).Contents (Elt F)),
    StableHlo.nullary main_cst_10 (constant S_ .f32 0x44DC8000#32),
    StableHlo.binary main_v22 main_cst_10 main_v23 (Host.divf : (⟨S_, .f32⟩ : BufTy).Contents (Elt F) → (⟨S_, .f32⟩ : BufTy).Contents (Elt F) → (⟨S_, .f32⟩ : BufTy).Contents (Elt F)),
    StableHlo.nullary main_cst_11 (constant S_ .f32 0x3EAAAAAB#32),
    StableHlo.binary main_v23 main_cst_11 main_v24 (cmpf .ole : (⟨S_, .f32⟩ : BufTy).Contents (Elt F) → (⟨S_, .f32⟩ : BufTy).Contents (Elt F) → (⟨S_, .i1⟩ : BufTy).Contents (Elt F)),
    StableHlo.nullary main_cst_12 (constant S_ .f32 0x00000000#32),
    StableHlo.TRef.ternary (.of main_v24 : StableHlo.TRef sig ⟨S_, .i1⟩) (.of main_cst_12 : StableHlo.TRef sig ⟨S_, .f32⟩) (.of main_v23 : StableHlo.TRef sig ⟨S_, .f32⟩) (.of main_v25 : StableHlo.TRef sig ⟨S_, .f32⟩) select,
    StableHlo.unary main_v6 main_v26 ((extractStridedSlice S16x42x42 ![0, 0, 22] · slices_S16x64x64_S16x42x42_0_0_22) : (⟨S16x64x64, .i1⟩ : BufTy).Contents (Elt F) → (⟨S16x42x42, .i1⟩ : BufTy).Contents (Elt F)),
    StableHlo.unary main_v26 main_v27 ((extui 32 · natLt_1_32) : (⟨S16x42x42, .i1⟩ : BufTy).Contents (Elt F) → (⟨S16x42x42, .i32⟩ : BufTy).Contents (Elt F)),
    StableHlo.nullary main_c_13 (constantI S_ 32 0#32),
    StableHlo.binary main_v27 main_c_13 main_v28 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    StableHlo.unary main_v28 main_v29 (sitofp .f32 : (⟨S_, .i32⟩ : BufTy).Contents (Elt F) → (⟨S_, .f32⟩ : BufTy).Contents (Elt F)),
    StableHlo.nullary main_cst_14 (constant S_ .f32 0x44DC8000#32),
    StableHlo.binary main_v29 main_cst_14 main_v30 (Host.divf : (⟨S_, .f32⟩ : BufTy).Contents (Elt F) → (⟨S_, .f32⟩ : BufTy).Contents (Elt F) → (⟨S_, .f32⟩ : BufTy).Contents (Elt F)),
    StableHlo.nullary main_cst_15 (constant S_ .f32 0x3EAAAAAB#32),
    StableHlo.binary main_v30 main_cst_15 main_v31 (cmpf .ole : (⟨S_, .f32⟩ : BufTy).Contents (Elt F) → (⟨S_, .f32⟩ : BufTy).Contents (Elt F) → (⟨S_, .i1⟩ : BufTy).Contents (Elt F)),
    StableHlo.nullary main_cst_16 (constant S_ .f32 0x00000000#32),
    StableHlo.TRef.ternary (.of main_v31 : StableHlo.TRef sig ⟨S_, .i1⟩) (.of main_cst_16 : StableHlo.TRef sig ⟨S_, .f32⟩) (.of main_v30 : StableHlo.TRef sig ⟨S_, .f32⟩) (.of main_v32 : StableHlo.TRef sig ⟨S_, .f32⟩) select,
    StableHlo.unary main_v6 main_v33 ((extractStridedSlice S16x42x42 ![0, 22, 0] · slices_S16x64x64_S16x42x42_0_22_0) : (⟨S16x64x64, .i1⟩ : BufTy).Contents (Elt F) → (⟨S16x42x42, .i1⟩ : BufTy).Contents (Elt F)),
    StableHlo.unary main_v33 main_v34 ((extui 32 · natLt_1_32) : (⟨S16x42x42, .i1⟩ : BufTy).Contents (Elt F) → (⟨S16x42x42, .i32⟩ : BufTy).Contents (Elt F)),
    StableHlo.nullary main_c_17 (constantI S_ 32 0#32),
    StableHlo.binary main_v34 main_c_17 main_v35 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    StableHlo.unary main_v35 main_v36 (sitofp .f32 : (⟨S_, .i32⟩ : BufTy).Contents (Elt F) → (⟨S_, .f32⟩ : BufTy).Contents (Elt F)),
    StableHlo.nullary main_cst_18 (constant S_ .f32 0x44DC8000#32),
    StableHlo.binary main_v36 main_cst_18 main_v37 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x3EAAAAAB#32),
    StableHlo.binary main_v37 main_cst_19 main_v38 (cmpf .ole : (⟨S_, .f32⟩ : BufTy).Contents (Elt F) → (⟨S_, .f32⟩ : BufTy).Contents (Elt F) → (⟨S_, .i1⟩ : BufTy).Contents (Elt F)),
    StableHlo.nullary main_cst_20 (constant S_ .f32 0x00000000#32),
    StableHlo.TRef.ternary (.of main_v38 : StableHlo.TRef sig ⟨S_, .i1⟩) (.of main_cst_20 : StableHlo.TRef sig ⟨S_, .f32⟩) (.of main_v37 : StableHlo.TRef sig ⟨S_, .f32⟩) (.of main_v39 : StableHlo.TRef sig ⟨S_, .f32⟩) select,
    StableHlo.unary main_v6 main_v40 ((extractStridedSlice S16x42x42 ![0, 22, 22] · slices_S16x64x64_S16x42x42_0_22_22) : (⟨S16x64x64, .i1⟩ : BufTy).Contents (Elt F) → (⟨S16x42x42, .i1⟩ : BufTy).Contents (Elt F)),
    StableHlo.unary main_v40 main_v41 ((extui 32 · natLt_1_32) : (⟨S16x42x42, .i1⟩ : BufTy).Contents (Elt F) → (⟨S16x42x42, .i32⟩ : BufTy).Contents (Elt F)),
    StableHlo.nullary main_c_21 (constantI S_ 32 0#32),
    StableHlo.binary main_v41 main_c_21 main_v42 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    StableHlo.unary main_v42 main_v43 (sitofp .f32 : (⟨S_, .i32⟩ : BufTy).Contents (Elt F) → (⟨S_, .f32⟩ : BufTy).Contents (Elt F)),
    StableHlo.nullary main_cst_22 (constant S_ .f32 0x44DC8000#32),
    StableHlo.binary main_v43 main_cst_22 main_v44 (Host.divf : (⟨S_, .f32⟩ : BufTy).Contents (Elt F) → (⟨S_, .f32⟩ : BufTy).Contents (Elt F) → (⟨S_, .f32⟩ : BufTy).Contents (Elt F)),
    StableHlo.nullary main_cst_23 (constant S_ .f32 0x3EAAAAAB#32),
    StableHlo.binary main_v44 main_cst_23 main_v45 (cmpf .ole : (⟨S_, .f32⟩ : BufTy).Contents (Elt F) → (⟨S_, .f32⟩ : BufTy).Contents (Elt F) → (⟨S_, .i1⟩ : BufTy).Contents (Elt F)),
    StableHlo.nullary main_cst_24 (constant S_ .f32 0x00000000#32),
    StableHlo.TRef.ternary (.of main_v45 : StableHlo.TRef sig ⟨S_, .i1⟩) (.of main_cst_24 : StableHlo.TRef sig ⟨S_, .f32⟩) (.of main_v44 : StableHlo.TRef sig ⟨S_, .f32⟩) (.of main_v46 : StableHlo.TRef sig ⟨S_, .f32⟩) select,
    StableHlo.unary main_v6 main_v47 ((extractStridedSlice S16x32x32 ![0, 0, 0] · slices_S16x64x64_S16x32x32_0_0_0) : (⟨S16x64x64, .i1⟩ : BufTy).Contents (Elt F) → (⟨S16x32x32, .i1⟩ : BufTy).Contents (Elt F)),
    StableHlo.unary main_v47 main_v48 ((extui 32 · natLt_1_32) : (⟨S16x32x32, .i1⟩ : BufTy).Contents (Elt F) → (⟨S16x32x32, .i32⟩ : BufTy).Contents (Elt F)),
    StableHlo.nullary main_c_25 (constantI S_ 32 0#32),
    StableHlo.binary main_v48 main_c_25 main_v49 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v49 main_v50 (sitofp .f32 : (⟨S_, .i32⟩ : BufTy).Contents (Elt F) → (⟨S_, .f32⟩ : BufTy).Contents (Elt F)),
    StableHlo.nullary main_cst_26 (constant S_ .f32 0x44800000#32),
    StableHlo.binary main_v50 main_cst_26 main_v51 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x3EAAAAAB#32),
    StableHlo.binary main_v51 main_cst_27 main_v52 (cmpf .ole : (⟨S_, .f32⟩ : BufTy).Contents (Elt F) → (⟨S_, .f32⟩ : BufTy).Contents (Elt F) → (⟨S_, .i1⟩ : BufTy).Contents (Elt F)),
    StableHlo.nullary main_cst_28 (constant S_ .f32 0x00000000#32),
    StableHlo.TRef.ternary (.of main_v52 : StableHlo.TRef sig ⟨S_, .i1⟩) (.of main_cst_28 : StableHlo.TRef sig ⟨S_, .f32⟩) (.of main_v51 : StableHlo.TRef sig ⟨S_, .f32⟩) (.of main_v53 : StableHlo.TRef sig ⟨S_, .f32⟩) select,
    StableHlo.unary main_v6 main_v54 ((extractStridedSlice S16x32x32 ![0, 0, 16] · slices_S16x64x64_S16x32x32_0_0_16) : (⟨S16x64x64, .i1⟩ : BufTy).Contents (Elt F) → (⟨S16x32x32, .i1⟩ : BufTy).Contents (Elt F)),
    StableHlo.unary main_v54 main_v55 ((extui 32 · natLt_1_32) : (⟨S16x32x32, .i1⟩ : BufTy).Contents (Elt F) → (⟨S16x32x32, .i32⟩ : BufTy).Contents (Elt F)),
    StableHlo.nullary main_c_29 (constantI S_ 32 0#32),
    StableHlo.binary main_v55 main_c_29 main_v56 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v56 main_v57 (sitofp .f32 : (⟨S_, .i32⟩ : BufTy).Contents (Elt F) → (⟨S_, .f32⟩ : BufTy).Contents (Elt F)),
    StableHlo.nullary main_cst_30 (constant S_ .f32 0x44800000#32),
    StableHlo.binary main_v57 main_cst_30 main_v58 (Host.divf : (⟨S_, .f32⟩ : BufTy).Contents (Elt F) → (⟨S_, .f32⟩ : BufTy).Contents (Elt F) → (⟨S_, .f32⟩ : BufTy).Contents (Elt F)),
    StableHlo.nullary main_cst_31 (constant S_ .f32 0x3EAAAAAB#32),
    StableHlo.binary main_v58 main_cst_31 main_v59 (cmpf .ole : (⟨S_, .f32⟩ : BufTy).Contents (Elt F) → (⟨S_, .f32⟩ : BufTy).Contents (Elt F) → (⟨S_, .i1⟩ : BufTy).Contents (Elt F)),
    StableHlo.nullary main_cst_32 (constant S_ .f32 0x00000000#32),
    StableHlo.TRef.ternary (.of main_v59 : StableHlo.TRef sig ⟨S_, .i1⟩) (.of main_cst_32 : StableHlo.TRef sig ⟨S_, .f32⟩) (.of main_v58 : StableHlo.TRef sig ⟨S_, .f32⟩) (.of main_v60 : StableHlo.TRef sig ⟨S_, .f32⟩) select,
    StableHlo.unary main_v6 main_v61 ((extractStridedSlice S16x32x32 ![0, 0, 32] · slices_S16x64x64_S16x32x32_0_0_32) : (⟨S16x64x64, .i1⟩ : BufTy).Contents (Elt F) → (⟨S16x32x32, .i1⟩ : BufTy).Contents (Elt F)),
    StableHlo.unary main_v61 main_v62 ((extui 32 · natLt_1_32) : (⟨S16x32x32, .i1⟩ : BufTy).Contents (Elt F) → (⟨S16x32x32, .i32⟩ : BufTy).Contents (Elt F)),
    StableHlo.nullary main_c_33 (constantI S_ 32 0#32),
    StableHlo.binary main_v62 main_c_33 main_v63 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v63 main_v64 (sitofp .f32 : (⟨S_, .i32⟩ : BufTy).Contents (Elt F) → (⟨S_, .f32⟩ : BufTy).Contents (Elt F)),
    StableHlo.nullary main_cst_34 (constant S_ .f32 0x44800000#32),
    StableHlo.binary main_v64 main_cst_34 main_v65 (Host.divf : (⟨S_, .f32⟩ : BufTy).Contents (Elt F) → (⟨S_, .f32⟩ : BufTy).Contents (Elt F) → (⟨S_, .f32⟩ : BufTy).Contents (Elt F)),
    StableHlo.nullary main_cst_35 (constant S_ .f32 0x3EAAAAAB#32),
    StableHlo.binary main_v65 main_cst_35 main_v66 (cmpf .ole : (⟨S_, .f32⟩ : BufTy).Contents (Elt F) → (⟨S_, .f32⟩ : BufTy).Contents (Elt F) → (⟨S_, .i1⟩ : BufTy).Contents (Elt F)),
    StableHlo.nullary main_cst_36 (constant S_ .f32 0x00000000#32),
    StableHlo.TRef.ternary (.of main_v66 : StableHlo.TRef sig ⟨S_, .i1⟩) (.of main_cst_36 : StableHlo.TRef sig ⟨S_, .f32⟩) (.of main_v65 : StableHlo.TRef sig ⟨S_, .f32⟩) (.of main_v67 : StableHlo.TRef sig ⟨S_, .f32⟩) select,
    StableHlo.unary main_v6 main_v68 ((extractStridedSlice S16x32x32 ![0, 16, 0] · slices_S16x64x64_S16x32x32_0_16_0) : (⟨S16x64x64, .i1⟩ : BufTy).Contents (Elt F) → (⟨S16x32x32, .i1⟩ : BufTy).Contents (Elt F)),
    StableHlo.unary main_v68 main_v69 ((extui 32 · natLt_1_32) : (⟨S16x32x32, .i1⟩ : BufTy).Contents (Elt F) → (⟨S16x32x32, .i32⟩ : BufTy).Contents (Elt F)),
    StableHlo.nullary main_c_37 (constantI S_ 32 0#32),
    StableHlo.binary main_v69 main_c_37 main_v70 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v70 main_v71 (sitofp .f32 : (⟨S_, .i32⟩ : BufTy).Contents (Elt F) → (⟨S_, .f32⟩ : BufTy).Contents (Elt F)),
    StableHlo.nullary main_cst_38 (constant S_ .f32 0x44800000#32),
    StableHlo.binary main_v71 main_cst_38 main_v72 (Host.divf : (⟨S_, .f32⟩ : BufTy).Contents (Elt F) → (⟨S_, .f32⟩ : BufTy).Contents (Elt F) → (⟨S_, .f32⟩ : BufTy).Contents (Elt F)),
    StableHlo.nullary main_cst_39 (constant S_ .f32 0x3EAAAAAB#32),
    StableHlo.binary main_v72 main_cst_39 main_v73 (cmpf .ole : (⟨S_, .f32⟩ : BufTy).Contents (Elt F) → (⟨S_, .f32⟩ : BufTy).Contents (Elt F) → (⟨S_, .i1⟩ : BufTy).Contents (Elt F)),
    StableHlo.nullary main_cst_40 (constant S_ .f32 0x00000000#32),
    StableHlo.TRef.ternary (.of main_v73 : StableHlo.TRef sig ⟨S_, .i1⟩) (.of main_cst_40 : StableHlo.TRef sig ⟨S_, .f32⟩) (.of main_v72 : StableHlo.TRef sig ⟨S_, .f32⟩) (.of main_v74 : StableHlo.TRef sig ⟨S_, .f32⟩) select,
    StableHlo.unary main_v6 main_v75 ((extractStridedSlice S16x32x32 ![0, 16, 16] · slices_S16x64x64_S16x32x32_0_16_16) : (⟨S16x64x64, .i1⟩ : BufTy).Contents (Elt F) → (⟨S16x32x32, .i1⟩ : BufTy).Contents (Elt F)),
    StableHlo.unary main_v75 main_v76 ((extui 32 · natLt_1_32) : (⟨S16x32x32, .i1⟩ : BufTy).Contents (Elt F) → (⟨S16x32x32, .i32⟩ : BufTy).Contents (Elt F)),
    StableHlo.nullary main_c_41 (constantI S_ 32 0#32),
    StableHlo.binary main_v76 main_c_41 main_v77 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v77 main_v78 (sitofp .f32 : (⟨S_, .i32⟩ : BufTy).Contents (Elt F) → (⟨S_, .f32⟩ : BufTy).Contents (Elt F)),
    StableHlo.nullary main_cst_42 (constant S_ .f32 0x44800000#32),
    StableHlo.binary main_v78 main_cst_42 main_v79 (Host.divf : (⟨S_, .f32⟩ : BufTy).Contents (Elt F) → (⟨S_, .f32⟩ : BufTy).Contents (Elt F) → (⟨S_, .f32⟩ : BufTy).Contents (Elt F)),
    StableHlo.nullary main_cst_43 (constant S_ .f32 0x3EAAAAAB#32),
    StableHlo.binary main_v79 main_cst_43 main_v80 (cmpf .ole : (⟨S_, .f32⟩ : BufTy).Contents (Elt F) → (⟨S_, .f32⟩ : BufTy).Contents (Elt F) → (⟨S_, .i1⟩ : BufTy).Contents (Elt F)),
    StableHlo.nullary main_cst_44 (constant S_ .f32 0x00000000#32),
    StableHlo.TRef.ternary (.of main_v80 : StableHlo.TRef sig ⟨S_, .i1⟩) (.of main_cst_44 : StableHlo.TRef sig ⟨S_, .f32⟩) (.of main_v79 : StableHlo.TRef sig ⟨S_, .f32⟩) (.of main_v81 : StableHlo.TRef sig ⟨S_, .f32⟩) select,
    StableHlo.unary main_v6 main_v82 ((extractStridedSlice S16x32x32 ![0, 16, 32] · slices_S16x64x64_S16x32x32_0_16_32) : (⟨S16x64x64, .i1⟩ : BufTy).Contents (Elt F) → (⟨S16x32x32, .i1⟩ : BufTy).Contents (Elt F)),
    StableHlo.unary main_v82 main_v83 ((extui 32 · natLt_1_32) : (⟨S16x32x32, .i1⟩ : BufTy).Contents (Elt F) → (⟨S16x32x32, .i32⟩ : BufTy).Contents (Elt F)),
    StableHlo.nullary main_c_45 (constantI S_ 32 0#32),
    StableHlo.binary main_v83 main_c_45 main_v84 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v84 main_v85 (sitofp .f32 : (⟨S_, .i32⟩ : BufTy).Contents (Elt F) → (⟨S_, .f32⟩ : BufTy).Contents (Elt F)),
    StableHlo.nullary main_cst_46 (constant S_ .f32 0x44800000#32),
    StableHlo.binary main_v85 main_cst_46 main_v86 (Host.divf : (⟨S_, .f32⟩ : BufTy).Contents (Elt F) → (⟨S_, .f32⟩ : BufTy).Contents (Elt F) → (⟨S_, .f32⟩ : BufTy).Contents (Elt F)),
    StableHlo.nullary main_cst_47 (constant S_ .f32 0x3EAAAAAB#32),
    StableHlo.binary main_v86 main_cst_47 main_v87 (cmpf .ole : (⟨S_, .f32⟩ : BufTy).Contents (Elt F) → (⟨S_, .f32⟩ : BufTy).Contents (Elt F) → (⟨S_, .i1⟩ : BufTy).Contents (Elt F)),
    StableHlo.nullary main_cst_48 (constant S_ .f32 0x00000000#32),
    StableHlo.TRef.ternary (.of main_v87 : StableHlo.TRef sig ⟨S_, .i1⟩) (.of main_cst_48 : StableHlo.TRef sig ⟨S_, .f32⟩) (.of main_v86 : StableHlo.TRef sig ⟨S_, .f32⟩) (.of main_v88 : StableHlo.TRef sig ⟨S_, .f32⟩) select,
    StableHlo.unary main_v6 main_v89 ((extractStridedSlice S16x32x32 ![0, 32, 0] · slices_S16x64x64_S16x32x32_0_32_0) : (⟨S16x64x64, .i1⟩ : BufTy).Contents (Elt F) → (⟨S16x32x32, .i1⟩ : BufTy).Contents (Elt F)),
    StableHlo.unary main_v89 main_v90 ((extui 32 · natLt_1_32) : (⟨S16x32x32, .i1⟩ : BufTy).Contents (Elt F) → (⟨S16x32x32, .i32⟩ : BufTy).Contents (Elt F)),
    StableHlo.nullary main_c_49 (constantI S_ 32 0#32),
    StableHlo.binary main_v90 main_c_49 main_v91 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v91 main_v92 (sitofp .f32 : (⟨S_, .i32⟩ : BufTy).Contents (Elt F) → (⟨S_, .f32⟩ : BufTy).Contents (Elt F)),
    StableHlo.nullary main_cst_50 (constant S_ .f32 0x44800000#32),
    StableHlo.binary main_v92 main_cst_50 main_v93 (Host.divf : (⟨S_, .f32⟩ : BufTy).Contents (Elt F) → (⟨S_, .f32⟩ : BufTy).Contents (Elt F) → (⟨S_, .f32⟩ : BufTy).Contents (Elt F)),
    StableHlo.nullary main_cst_51 (constant S_ .f32 0x3EAAAAAB#32),
    StableHlo.binary main_v93 main_cst_51 main_v94 (cmpf .ole : (⟨S_, .f32⟩ : BufTy).Contents (Elt F) → (⟨S_, .f32⟩ : BufTy).Contents (Elt F) → (⟨S_, .i1⟩ : BufTy).Contents (Elt F)),
    StableHlo.nullary main_cst_52 (constant S_ .f32 0x00000000#32),
    StableHlo.TRef.ternary (.of main_v94 : StableHlo.TRef sig ⟨S_, .i1⟩) (.of main_cst_52 : StableHlo.TRef sig ⟨S_, .f32⟩) (.of main_v93 : StableHlo.TRef sig ⟨S_, .f32⟩) (.of main_v95 : StableHlo.TRef sig ⟨S_, .f32⟩) select,
    StableHlo.unary main_v6 main_v96 ((extractStridedSlice S16x32x32 ![0, 32, 16] · slices_S16x64x64_S16x32x32_0_32_16) : (⟨S16x64x64, .i1⟩ : BufTy).Contents (Elt F) → (⟨S16x32x32, .i1⟩ : BufTy).Contents (Elt F)),
    StableHlo.unary main_v96 main_v97 ((extui 32 · natLt_1_32) : (⟨S16x32x32, .i1⟩ : BufTy).Contents (Elt F) → (⟨S16x32x32, .i32⟩ : BufTy).Contents (Elt F)),
    StableHlo.nullary main_c_53 (constantI S_ 32 0#32),
    StableHlo.binary main_v97 main_c_53 main_v98 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v98 main_v99 (sitofp .f32 : (⟨S_, .i32⟩ : BufTy).Contents (Elt F) → (⟨S_, .f32⟩ : BufTy).Contents (Elt F)),
    StableHlo.nullary main_cst_54 (constant S_ .f32 0x44800000#32),
    StableHlo.binary main_v99 main_cst_54 main_v100 (Host.divf : (⟨S_, .f32⟩ : BufTy).Contents (Elt F) → (⟨S_, .f32⟩ : BufTy).Contents (Elt F) → (⟨S_, .f32⟩ : BufTy).Contents (Elt F)),
    StableHlo.nullary main_cst_55 (constant S_ .f32 0x3EAAAAAB#32),
    StableHlo.binary main_v100 main_cst_55 main_v101 (cmpf .ole : (⟨S_, .f32⟩ : BufTy).Contents (Elt F) → (⟨S_, .f32⟩ : BufTy).Contents (Elt F) → (⟨S_, .i1⟩ : BufTy).Contents (Elt F)),
    StableHlo.nullary main_cst_56 (constant S_ .f32 0x00000000#32),
    StableHlo.TRef.ternary (.of main_v101 : StableHlo.TRef sig ⟨S_, .i1⟩) (.of main_cst_56 : StableHlo.TRef sig ⟨S_, .f32⟩) (.of main_v100 : StableHlo.TRef sig ⟨S_, .f32⟩) (.of main_v102 : StableHlo.TRef sig ⟨S_, .f32⟩) select,
    StableHlo.unary main_v6 main_v103 ((extractStridedSlice S16x32x32 ![0, 32, 32] · slices_S16x64x64_S16x32x32_0_32_32) : (⟨S16x64x64, .i1⟩ : BufTy).Contents (Elt F) → (⟨S16x32x32, .i1⟩ : BufTy).Contents (Elt F)),
    StableHlo.unary main_v103 main_v104 ((extui 32 · natLt_1_32) : (⟨S16x32x32, .i1⟩ : BufTy).Contents (Elt F) → (⟨S16x32x32, .i32⟩ : BufTy).Contents (Elt F)),
    StableHlo.nullary main_c_57 (constantI S_ 32 0#32),
    StableHlo.binary main_v104 main_c_57 main_v105 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    StableHlo.unary main_v105 main_v106 (sitofp .f32 : (⟨S_, .i32⟩ : BufTy).Contents (Elt F) → (⟨S_, .f32⟩ : BufTy).Contents (Elt F)),
    StableHlo.nullary main_cst_58 (constant S_ .f32 0x44800000#32),
    StableHlo.binary main_v106 main_cst_58 main_v107 (Host.divf : (⟨S_, .f32⟩ : BufTy).Contents (Elt F) → (⟨S_, .f32⟩ : BufTy).Contents (Elt F) → (⟨S_, .f32⟩ : BufTy).Contents (Elt F)),
    StableHlo.nullary main_cst_59 (constant S_ .f32 0x3EAAAAAB#32),
    StableHlo.binary main_v107 main_cst_59 main_v108 (cmpf .ole : (⟨S_, .f32⟩ : BufTy).Contents (Elt F) → (⟨S_, .f32⟩ : BufTy).Contents (Elt F) → (⟨S_, .i1⟩ : BufTy).Contents (Elt F)),
    StableHlo.nullary main_cst_60 (constant S_ .f32 0x00000000#32),
    StableHlo.TRef.ternary (.of main_v108 : StableHlo.TRef sig ⟨S_, .i1⟩) (.of main_cst_60 : StableHlo.TRef sig ⟨S_, .f32⟩) (.of main_v107 : StableHlo.TRef sig ⟨S_, .f32⟩) (.of main_v109 : StableHlo.TRef sig ⟨S_, .f32⟩) select,
    StableHlo.unary main_v12 main_v110 (broadcastInDim S1 ![] bcast_S_S1 : (⟨S_, .f32⟩ : BufTy).Contents (Elt F) → (⟨S1, .f32⟩ : BufTy).Contents (Elt F)),
    StableHlo.unary main_v18 main_v111 (broadcastInDim S1 ![] bcast_S_S1 : (⟨S_, .f32⟩ : BufTy).Contents (Elt F) → (⟨S1, .f32⟩ : BufTy).Contents (Elt F)),
    StableHlo.unary main_v25 main_v112 (broadcastInDim S1 ![] bcast_S_S1 : (⟨S_, .f32⟩ : BufTy).Contents (Elt F) → (⟨S1, .f32⟩ : BufTy).Contents (Elt F)),
    StableHlo.unary main_v32 main_v113 (broadcastInDim S1 ![] bcast_S_S1 : (⟨S_, .f32⟩ : BufTy).Contents (Elt F) → (⟨S1, .f32⟩ : BufTy).Contents (Elt F)),
    StableHlo.unary main_v39 main_v114 (broadcastInDim S1 ![] bcast_S_S1 : (⟨S_, .f32⟩ : BufTy).Contents (Elt F) → (⟨S1, .f32⟩ : BufTy).Contents (Elt F)),
    StableHlo.unary main_v46 main_v115 (broadcastInDim S1 ![] bcast_S_S1 : (⟨S_, .f32⟩ : BufTy).Contents (Elt F) → (⟨S1, .f32⟩ : BufTy).Contents (Elt F)),
    StableHlo.unary main_v53 main_v116 (broadcastInDim S1 ![] bcast_S_S1 : (⟨S_, .f32⟩ : BufTy).Contents (Elt F) → (⟨S1, .f32⟩ : BufTy).Contents (Elt F)),
    StableHlo.unary main_v60 main_v117 (broadcastInDim S1 ![] bcast_S_S1 : (⟨S_, .f32⟩ : BufTy).Contents (Elt F) → (⟨S1, .f32⟩ : BufTy).Contents (Elt F)),
    StableHlo.unary main_v67 main_v118 (broadcastInDim S1 ![] bcast_S_S1 : (⟨S_, .f32⟩ : BufTy).Contents (Elt F) → (⟨S1, .f32⟩ : BufTy).Contents (Elt F)),
    StableHlo.unary main_v74 main_v119 (broadcastInDim S1 ![] bcast_S_S1 : (⟨S_, .f32⟩ : BufTy).Contents (Elt F) → (⟨S1, .f32⟩ : BufTy).Contents (Elt F)),
    StableHlo.unary main_v81 main_v120 (broadcastInDim S1 ![] bcast_S_S1 : (⟨S_, .f32⟩ : BufTy).Contents (Elt F) → (⟨S1, .f32⟩ : BufTy).Contents (Elt F)),
    StableHlo.unary main_v88 main_v121 (broadcastInDim S1 ![] bcast_S_S1 : (⟨S_, .f32⟩ : BufTy).Contents (Elt F) → (⟨S1, .f32⟩ : BufTy).Contents (Elt F)),
    StableHlo.unary main_v95 main_v122 (broadcastInDim S1 ![] bcast_S_S1 : (⟨S_, .f32⟩ : BufTy).Contents (Elt F) → (⟨S1, .f32⟩ : BufTy).Contents (Elt F)),
    StableHlo.unary main_v102 main_v123 (broadcastInDim S1 ![] bcast_S_S1 : (⟨S_, .f32⟩ : BufTy).Contents (Elt F) → (⟨S1, .f32⟩ : BufTy).Contents (Elt F)),
    StableHlo.unary main_v109 main_v124 (broadcastInDim S1 ![] bcast_S_S1 : (⟨S_, .f32⟩ : BufTy).Contents (Elt F) → (⟨S1, .f32⟩ : BufTy).Contents (Elt F)) ]

/-- The operation that lays the weights side by side. -/
abbrev kCat : HloOp τ sig (Elt F) :=
  StableHlo.nary ![main_v110, main_v111, main_v112, main_v113, main_v114, main_v115, main_v116, main_v117, main_v118, main_v119, main_v120, main_v121, main_v122, main_v123, main_v124] main_v125 (fun u => concatenate S15 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩, ⟨S1, u 9⟩, ⟨S1, u 10⟩, ⟨S1, u 11⟩, ⟨S1, u 12⟩, ⟨S1, u 13⟩, ⟨S1, u 14⟩] concatenates_S1_S1_S1_S1_S1_S1_S1_S1_S1_S1_S1_S1_S1_S1_S1_S15_d0)

/-- The operations after it. -/
abbrev kPost : List (HloOp τ sig (Elt F)) :=
  [ StableHlo.TRef.binary (.of main_v0_1 : StableHlo.TRef sig ⟨S16x15x1024, .f32⟩) (.of main_v0_1 : StableHlo.TRef sig ⟨S16x15x1024, .f32⟩) (.of main_call15_v0 : StableHlo.TRef sig ⟨S16x15x1024, .f32⟩) mulf,
    StableHlo.TRef.nullary (.of main_call15_cst : StableHlo.TRef sig ⟨S_, .f32⟩) (constant S_ .f32 0x00000000#32),
    StableHlo.TRef.binary (.of main_call15_v0 : StableHlo.TRef sig ⟨S16x15x1024, .f32⟩) (.of main_call15_cst : StableHlo.TRef sig ⟨S_, .f32⟩) (.of main_call15_v1 : StableHlo.TRef sig ⟨S16x15, .f32⟩) (fun x v => Host.reduceAdd x v reducesTo_S16x15x1024_S16x15_d2 h_S_),
    StableHlo.TRef.unary (.of main_call15_v1 : StableHlo.TRef sig ⟨S16x15, .f32⟩) (.of main_call15_v2 : StableHlo.TRef sig ⟨S16x15x1, .f32⟩) (broadcastInDim S16x15x1 ![0, 1] bcast_S16x15_S16x15x1_0_1),
    StableHlo.TRef.unary (.of main_call15_v2 : StableHlo.TRef sig ⟨S16x15x1, .f32⟩) (.of main_v126 : StableHlo.TRef sig ⟨S16x15x1, .f32⟩) Host.sqrt,
    StableHlo.nullary main_cst_61 (constant S_ .f32 0x358637BD#32),
    StableHlo.unary main_cst_61 main_v127 (broadcastInDim S16x15x1 ![] bcast_S_S16x15x1 : (⟨S_, .f32⟩ : BufTy).Contents (Elt F) → (⟨S16x15x1, .f32⟩ : BufTy).Contents (Elt F)),
    StableHlo.binary main_v126 main_v127 main_v128 (addf : (⟨S16x15x1, .f32⟩ : BufTy).Contents (Elt F) → (⟨S16x15x1, .f32⟩ : BufTy).Contents (Elt F) → (⟨S16x15x1, .f32⟩ : BufTy).Contents (Elt F)),
    StableHlo.unary main_v128 main_v129 (broadcastInDim S16x15x1024 ![0, 1, 2] bcast_S16x15x1_S16x15x1024_0_1_2 : (⟨S16x15x1, .f32⟩ : BufTy).Contents (Elt F) → (⟨S16x15x1024, .f32⟩ : BufTy).Contents (Elt F)),
    StableHlo.binary main_v0_1 main_v129 main_v130 (Host.divf : (⟨S16x15x1024, .f32⟩ : BufTy).Contents (Elt F) → (⟨S16x15x1024, .f32⟩ : BufTy).Contents (Elt F) → (⟨S16x15x1024, .f32⟩ : BufTy).Contents (Elt F)),
    StableHlo.unary main_v125 main_v131 (broadcastInDim S1x15x1 ![1] bcast_S15_S1x15x1_1 : (⟨S15, .f32⟩ : BufTy).Contents (Elt F) → (⟨S1x15x1, .f32⟩ : BufTy).Contents (Elt F)),
    StableHlo.unary main_v131 main_v132 (broadcastInDim S16x15x1024 ![0, 1, 2] bcast_S1x15x1_S16x15x1024_0_1_2 : (⟨S1x15x1, .f32⟩ : BufTy).Contents (Elt F) → (⟨S16x15x1024, .f32⟩ : BufTy).Contents (Elt F)),
    StableHlo.binary main_v130 main_v132 main_v133 (mulf : (⟨S16x15x1024, .f32⟩ : BufTy).Contents (Elt F) → (⟨S16x15x1024, .f32⟩ : BufTy).Contents (Elt F) → (⟨S16x15x1024, .f32⟩ : BufTy).Contents (Elt F)),
    StableHlo.nullary main_cst_62 (constant S_ .f32 0x00000000#32),
    StableHlo.binary main_v133 main_cst_62 main_v134 ((fun x v => Host.reduceAdd x v reducesTo_S16x15x1024_S16x1024_d1 h_S_) : (⟨S16x15x1024, .f32⟩ : BufTy).Contents (Elt F) → (⟨S_, .f32⟩ : BufTy).Contents (Elt F) → (⟨S16x1024, .f32⟩ : BufTy).Contents (Elt F)),
    StableHlo.reshape main_v134 main_v135 rfl shapeCasts_S16x1024_S16x1024x1x1 ]

set_option maxRecDepth 200000 in
set_option maxHeartbeats 16000000 in
theorem tail_split : (tailOps (F := F)).flatten = kPre ++ kCat :: kPost := rfl

set_option maxRecDepth 200000 in
set_option maxHeartbeats 100000000 in
/-- After the first part each operand of the weight vector holds its window's weight, and the window maxima are
    as they were. -/
theorem pre_eval (W : Valuation τ sig (Elt F)) :
    after (kPre (F := F)) W (Proc.devRef .tc main_v110) = broadcastInDim S1 ![] bcast_S_S1 (wK0 (ttK (W (Proc.devRef .tc main_v0_0))))
    ∧ after (kPre (F := F)) W (Proc.devRef .tc main_v111) = broadcastInDim S1 ![] bcast_S_S1 (wK1 (ttK (W (Proc.devRef .tc main_v0_0))))
    ∧ after (kPre (F := F)) W (Proc.devRef .tc main_v112) = broadcastInDim S1 ![] bcast_S_S1 (wK2 (ttK (W (Proc.devRef .tc main_v0_0))))
    ∧ after (kPre (F := F)) W (Proc.devRef .tc main_v113) = broadcastInDim S1 ![] bcast_S_S1 (wK3 (ttK (W (Proc.devRef .tc main_v0_0))))
    ∧ after (kPre (F := F)) W (Proc.devRef .tc main_v114) = broadcastInDim S1 ![] bcast_S_S1 (wK4 (ttK (W (Proc.devRef .tc main_v0_0))))
    ∧ after (kPre (F := F)) W (Proc.devRef .tc main_v115) = broadcastInDim S1 ![] bcast_S_S1 (wK5 (ttK (W (Proc.devRef .tc main_v0_0))))
    ∧ after (kPre (F := F)) W (Proc.devRef .tc main_v116) = broadcastInDim S1 ![] bcast_S_S1 (wK6 (ttK (W (Proc.devRef .tc main_v0_0))))
    ∧ after (kPre (F := F)) W (Proc.devRef .tc main_v117) = broadcastInDim S1 ![] bcast_S_S1 (wK7 (ttK (W (Proc.devRef .tc main_v0_0))))
    ∧ after (kPre (F := F)) W (Proc.devRef .tc main_v118) = broadcastInDim S1 ![] bcast_S_S1 (wK8 (ttK (W (Proc.devRef .tc main_v0_0))))
    ∧ after (kPre (F := F)) W (Proc.devRef .tc main_v119) = broadcastInDim S1 ![] bcast_S_S1 (wK9 (ttK (W (Proc.devRef .tc main_v0_0))))
    ∧ after (kPre (F := F)) W (Proc.devRef .tc main_v120) = broadcastInDim S1 ![] bcast_S_S1 (wK10 (ttK (W (Proc.devRef .tc main_v0_0))))
    ∧ after (kPre (F := F)) W (Proc.devRef .tc main_v121) = broadcastInDim S1 ![] bcast_S_S1 (wK11 (ttK (W (Proc.devRef .tc main_v0_0))))
    ∧ after (kPre (F := F)) W (Proc.devRef .tc main_v122) = broadcastInDim S1 ![] bcast_S_S1 (wK12 (ttK (W (Proc.devRef .tc main_v0_0))))
    ∧ after (kPre (F := F)) W (Proc.devRef .tc main_v123) = broadcastInDim S1 ![] bcast_S_S1 (wK13 (ttK (W (Proc.devRef .tc main_v0_0))))
    ∧ after (kPre (F := F)) W (Proc.devRef .tc main_v124) = broadcastInDim S1 ![] bcast_S_S1 (wK14 (ttK (W (Proc.devRef .tc main_v0_0))))
    ∧ after (kPre (F := F)) W (Proc.devRef .tc main_v0_1) = W (Proc.devRef .tc main_v0_1) := by
  after_results_simp
  simp only [ttK, wK0, wK1, wK2, wK3, wK4, wK5, wK6, wK7, wK8, wK9, wK10, wK11, wK12, wK13, wK14]
  repeat' apply And.intro
  all_goals first | rfl | trivial

set_option maxRecDepth 200000 in
set_option maxHeartbeats 16000000 in
/-- The last part, from any contents of the window maxima and the weight vector. -/
theorem post_eval (W : Valuation τ sig (Elt F)) :
    after (kPost (F := F)) W (Proc.devRef .tc main_v135)
      = shapeCast S16x1024x1x1 (tailK (W (Proc.devRef .tc main_v0_1)) (W (Proc.devRef .tc main_v125))) shapeCasts_S16x1024_S16x1024x1x1 := by
  after_results_simp
  simp only [tailK]
  rfl

set_option maxRecDepth 200000 in
set_option maxHeartbeats 16000000 in
/-- The result buffer after the host operations, from any contents of the two kernel results. -/
theorem tail_eval (W : Valuation τ sig (Elt F)) :
    after (tailOps (F := F)).flatten W (Proc.devRef .tc main_v135)
      = shapeCast S16x1024x1x1 (totalK (W (Proc.devRef .tc main_v0_0)) (W (Proc.devRef .tc main_v0_1))) shapeCasts_S16x1024_S16x1024x1x1 := by
  rw [tail_split, after_append, after_cons, post_eval]
  obtain ⟨h0, h1, h2, h3, h4, h5, h6, h7, h8, h9, h10, h11, h12, h13, h14, hvt⟩ := pre_eval W
  have e1 : (kCat (F := F)).result (after kPre W) (Proc.devRef .tc main_v0_1) = W (Proc.devRef .tc main_v0_1) :=
    (nary_result_ne _ _ _ _ _ _ (by decide)).trans hvt
  have e2 : (kCat (F := F)).result (after kPre W) (Proc.devRef .tc main_v125)
      = wvK (wK0 (ttK (W (Proc.devRef .tc main_v0_0)))) (wK1 (ttK (W (Proc.devRef .tc main_v0_0)))) (wK2 (ttK (W (Proc.devRef .tc main_v0_0)))) (wK3 (ttK (W (Proc.devRef .tc main_v0_0)))) (wK4 (ttK (W (Proc.devRef .tc main_v0_0)))) (wK5 (ttK (W (Proc.devRef .tc main_v0_0)))) (wK6 (ttK (W (Proc.devRef .tc main_v0_0)))) (wK7 (ttK (W (Proc.devRef .tc main_v0_0)))) (wK8 (ttK (W (Proc.devRef .tc main_v0_0)))) (wK9 (ttK (W (Proc.devRef .tc main_v0_0)))) (wK10 (ttK (W (Proc.devRef .tc main_v0_0)))) (wK11 (ttK (W (Proc.devRef .tc main_v0_0)))) (wK12 (ttK (W (Proc.devRef .tc main_v0_0)))) (wK13 (ttK (W (Proc.devRef .tc main_v0_0)))) (wK14 (ttK (W (Proc.devRef .tc main_v0_0)))) := by
    refine (nary_result _ _ _ _ _ _).trans ?_
    show concatenate S15 0 [⟨S1, after kPre W (Proc.devRef .tc main_v110)⟩, ⟨S1, after kPre W (Proc.devRef .tc main_v111)⟩, ⟨S1, after kPre W (Proc.devRef .tc main_v112)⟩, ⟨S1, after kPre W (Proc.devRef .tc main_v113)⟩, ⟨S1, after kPre W (Proc.devRef .tc main_v114)⟩, ⟨S1, after kPre W (Proc.devRef .tc main_v115)⟩, ⟨S1, after kPre W (Proc.devRef .tc main_v116)⟩, ⟨S1, after kPre W (Proc.devRef .tc main_v117)⟩, ⟨S1, after kPre W (Proc.devRef .tc main_v118)⟩, ⟨S1, after kPre W (Proc.devRef .tc main_v119)⟩, ⟨S1, after kPre W (Proc.devRef .tc main_v120)⟩, ⟨S1, after kPre W (Proc.devRef .tc main_v121)⟩, ⟨S1, after kPre W (Proc.devRef .tc main_v122)⟩, ⟨S1, after kPre W (Proc.devRef .tc main_v123)⟩, ⟨S1, after kPre W (Proc.devRef .tc main_v124)⟩] concatenates_S1_S1_S1_S1_S1_S1_S1_S1_S1_S1_S1_S1_S1_S1_S1_S15_d0 = _
    rw [h0, h1, h2, h3, h4, h5, h6, h7, h8, h9, h10, h11, h12, h13, h14]
    rfl
  rw [e1, e2]
  rfl

end Cert.KernelIdeal.Val

end
-- ==== Proof.KIRun.lean ====
/-
  The kernel program's run with its result named: every weakly fair execution ends with the result buffer at the host
  tail's function of the two kernel results, which are the channel sums and the window maxima of the argument, and
  with the argument as it was.
-/
import proofs.«167076_j27771258536050_1_alg».proof.Proof.KIValue
import proofs.«167076_j27771258536050_1_alg».proof.Proof.KITail

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.StableHlo
open Idealize.ShloMosaic.Pipeline (Dat)

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135)
        = shapeCast S16x1024x1x1 (totalK (Gsum (m ((c.tc : Thread nD τ).loc main_arg0))) (Gmax (m ((c.tc : Thread nD τ).loc main_arg0))))
            shapeCasts_S16x1024_S16x1024x1x1
      ∧ r.2.mem ((c.tc : Thread nD τ).loc main_arg0) = m ((c.tc : Thread nD τ).loc main_arg0) := by
  refine (θ_run defs _ _).mono (fun r h c => ⟨?_, ?_⟩) (run_main m ρ)
  · have h2 := (h c).2 main_v135 (Pipeline.mem_restRefs_of main_v135 rfl (by decide))
    let W : Valuation τ sig (Elt F) :=
      Pipeline.withArrays (cfgs 0).spec c (V0 m c) (fun w => (dats m 0 c).arrAt w (cfgs 0).N)
    have e0 : W (Proc.devRef .tc main_v0_0) = Gsum (V m c main_arg0) :=
      (Pipeline.withArrays_arr spec0 launch0.win.arr_inj c _ _ (1 : Fin 3)).trans (finalSum m c)
    have e1 : W (Proc.devRef .tc main_v0_1) = Gmax (V m c main_arg0) :=
      (Pipeline.withArrays_arr spec0 launch0.win.arr_inj c _ _ (2 : Fin 3)).trans (finalMax m c)
    refine h2.trans ((tail_eval W).trans ?_)
    rw [e0, e1]
    rfl
  · exact ((h c).1 0).trans (((dats m 0 c).arrAt_in 0 rfl _).trans ((A_eq m c 0).trans (V_main_arg0 m c)))

end Cert.KernelIdeal.Val

end
-- ==== Proof.KIBridge.lean ====
/-
  The host tail of the kernel program read at an index, at the ideal values.

  At batch element b and channel k the total is the start value plus the sum over the fifteen windows of the window's
  maximum there, divided by the Euclidean norm over channels of that batch element's and window's maxima plus the small
  constant, times the window's weight; and entry r of the weight vector is weight r.
-/
import proofs.«167076_j27771258536050_1_alg».proof.Proof.KITail
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx

/-- The squared norm of one batch element's and window's maxima over channels, from the start value. -/
theorem normSq_apply (vt : S16x15x1024.Idx → EReal) (b : Fin 16) (r : Fin 15) :
    Host.reduceAdd (F := Ideal) (mulf vt vt) (constant (F := Ideal) S_ .f32 0x00000000#32) reducesTo_S16x15x1024_S16x15_d2 h_S_ (ix2 b r)
      = FloatOps.ofBits (F := Ideal) .f32 0x00000000#32 + ∑ j : Fin 1024, vt (ix3 b r j) * vt (ix3 b r j) := by
  simp only [Host.reduceAdd, Ideal.hostReduceAdd_def]
  rw [Ideal.hostReduceAdd_single reducesTo_S16x15x1024_S16x15_d2 (by decide)]
  refine congrArg (_ + ·) (Finset.sum_congr rfl fun j _ => ?_)
  have e : (Shape.Reduces.lift (by decide : S16x15x1024.Reduces [2] S16x15) (ix2 b r) j) = ix3 b r j :=
    funext fun a => Fin.ext (by match a with | ⟨0, _⟩ => rfl | ⟨1, _⟩ => rfl | ⟨2, _⟩ => rfl)
  rw [e]; rfl

/-- The divisor at (b, r, k): the square root of the squared norm plus the small constant, whatever k. -/
theorem denom_apply (vt : S16x15x1024.Idx → EReal) (b : Fin 16) (r : Fin 15) (k : Fin 1024) :
    broadcastInDim S16x15x1024 ![0, 1, 2] bcast_S16x15x1_S16x15x1024_0_1_2
        (addf (Host.sqrt (F := Ideal) (broadcastInDim S16x15x1 ![0, 1] bcast_S16x15_S16x15x1_0_1
            (Host.reduceAdd (F := Ideal) (mulf vt vt) (constant (F := Ideal) S_ .f32 0x00000000#32) reducesTo_S16x15x1024_S16x15_d2 h_S_)))
          (broadcastInDim S16x15x1 ![] bcast_S_S16x15x1 (constant (F := Ideal) S_ .f32 0x358637BD#32))) (ix3 b r k)
      = FloatOps.addf (F := Ideal) (FloatOps.hostUnary .sqrt
            (FloatOps.ofBits (F := Ideal) .f32 0x00000000#32 + ∑ j : Fin 1024, vt (ix3 b r j) * vt (ix3 b r j)))
          (FloatOps.ofBits (F := Ideal) .f32 0x358637BD#32) := by
  refine (broadcastInDim_apply _ bcast_S16x15x1_S16x15x1024_0_1_2 _ (ix3 b r k) (ix3 b r (0 : Fin 1)) (fun a => by
    match a with
    | ⟨0, _⟩ => show b.val = if (16 : Nat) = 1 then 0 else b.val; rw [if_neg (by decide)]
    | ⟨1, _⟩ => show r.val = if (15 : Nat) = 1 then 0 else r.val; rw [if_neg (by decide)]
    | ⟨2, _⟩ => show 0 = if (1 : Nat) = 1 then 0 else k.val; rw [if_pos rfl])).trans ?_
  show FloatOps.addf (F := Ideal) (FloatOps.hostUnary (F := Ideal) .sqrt ((broadcastInDim (s := S16x15) S16x15x1 ![0, 1] bcast_S16x15_S16x15x1_0_1 _) (ix3 b r (0 : Fin 1))))
      ((broadcastInDim S16x15x1 ![] bcast_S_S16x15x1 (constant (F := Ideal) S_ .f32 0x358637BD#32)) (ix3 b r (0 : Fin 1))) = _
  rw [broadcastInDim_apply _ bcast_S16x15_S16x15x1_0_1 _ (ix3 b r (0 : Fin 1)) (ix2 b r) (fun a => by
    match a with
    | ⟨0, _⟩ => show b.val = if (16 : Nat) = 1 then 0 else b.val; rw [if_neg (by decide)]
    | ⟨1, _⟩ => show r.val = if (15 : Nat) = 1 then 0 else r.val; rw [if_neg (by decide)]),
    broadcastInDim_apply _ bcast_S_S16x15x1 _ (ix3 b r (0 : Fin 1)) ix0 (fun a => a.elim0), normSq_apply]
  rfl

/-- The weight factor at (b, r, k): entry r of the weight vector, whatever b and k. -/
theorem wfac_apply (wv : S15.Idx → EReal) (b : Fin 16) (r : Fin 15) (k : Fin 1024) :
    broadcastInDim S16x15x1024 ![0, 1, 2] bcast_S1x15x1_S16x15x1024_0_1_2 (broadcastInDim S1x15x1 ![1] bcast_S15_S1x15x1_1 wv) (ix3 b r k)
      = wv (ix1 r) := by
  rw [broadcastInDim_apply _ bcast_S1x15x1_S16x15x1024_0_1_2 _ (ix3 b r k) (ix3 (0 : Fin 1) r (0 : Fin 1)) (fun a => by
    match a with
    | ⟨0, _⟩ => show 0 = if (1 : Nat) = 1 then 0 else b.val; rw [if_pos rfl]
    | ⟨1, _⟩ => show r.val = if (15 : Nat) = 1 then 0 else r.val; rw [if_neg (by decide)]
    | ⟨2, _⟩ => show 0 = if (1 : Nat) = 1 then 0 else k.val; rw [if_pos rfl]),
    broadcastInDim_apply _ bcast_S15_S1x15x1_1 _ (ix3 (0 : Fin 1) r (0 : Fin 1)) (ix1 r) (fun a => by
    match a with
    | ⟨0, _⟩ => show r.val = if (15 : Nat) = 1 then 0 else r.val; rw [if_neg (by decide)])]

/-- The total at (b, k). -/
theorem tailK_apply (vt : S16x15x1024.Idx → EReal) (wv : S15.Idx → EReal) (b : Fin 16) (k : Fin 1024) :
    tailK (F := Ideal) vt wv (ix2 b k)
      = FloatOps.ofBits (F := Ideal) .f32 0x00000000#32 + ∑ r : Fin 15,
          FloatOps.mulf (F := Ideal) (FloatOps.hostDivf (vt (ix3 b r k))
            (FloatOps.addf (F := Ideal) (FloatOps.hostUnary .sqrt
              (FloatOps.ofBits (F := Ideal) .f32 0x00000000#32 + ∑ j : Fin 1024, vt (ix3 b r j) * vt (ix3 b r j)))
              (FloatOps.ofBits (F := Ideal) .f32 0x358637BD#32)))
            (wv (ix1 r)) := by
  unfold tailK
  simp only [Host.reduceAdd, Ideal.hostReduceAdd_def]
  rw [Ideal.hostReduceAdd_single reducesTo_S16x15x1024_S16x1024_d1 (by decide)]
  refine congrArg (_ + ·) (Finset.sum_congr rfl fun r _ => ?_)
  have e : (Shape.Reduces.lift (by decide : S16x15x1024.Reduces [1] S16x1024) (ix2 b k) r) = ix3 b r k :=
    funext fun a => Fin.ext (by match a with | ⟨0, _⟩ => rfl | ⟨1, _⟩ => rfl | ⟨2, _⟩ => rfl)
  rw [e]
  show FloatOps.mulf (F := Ideal) (FloatOps.hostDivf (F := Ideal) (vt (ix3 b r k)) ((broadcastInDim (s := S16x15x1) S16x15x1024 ![0, 1, 2] bcast_S16x15x1_S16x15x1024_0_1_2 _) (ix3 b r k)))
      ((broadcastInDim (s := S1x15x1) S16x15x1024 ![0, 1, 2] bcast_S1x15x1_S16x15x1024_0_1_2 _) (ix3 b r k)) = _
  have hd := denom_apply vt b r k
  simp only [Host.reduceAdd, Ideal.hostReduceAdd_def] at hd
  rw [hd]
  exact congrArg (FloatOps.mulf (F := Ideal) _) (wfac_apply wv b r k)

end Cert.KernelIdeal.Val

end
-- ==== Proof.LibWinMax.lean ====
/-
  Maxima over a rectangular window of the last two axes, at the ideal values.

  On the extended reals the maximum, from a start value `s`, of a family indexed by two finite coordinates is the
  fold of `max` over the first coordinate of the folds over the second; it is characterised by what lies above it:
  a bound is above the double fold exactly when it is above `s` and above every member.  Two ways of taking such a
  maximum meet in that characterisation: the vector unit's two successive reductions, over the last axis and then over
  the one before it, and the host's single reduction over both axes at once, whose fold runs over all the indices that
  project to the kept coordinates.
-/
import Idealize.ShloMosaic.Lib.ValueIdx
import Idealize.ShloMosaic.PureOps.Ideal.Laws

noncomputable section

namespace Cert.LibWinMax

open Idealize.ShloMosaic Idealize.ShloMosaic.ValueIdx

/-- The maximum of a doubly indexed finite family of extended reals and a start value. -/
def foldMax2 {n m : ℕ} (s : EReal) (f : Fin n → Fin m → EReal) : EReal :=
  (Finset.univ : Finset (Fin n)).fold max s (fun p => (Finset.univ : Finset (Fin m)).fold max s (fun q => f p q))

/-- A bound is above the double maximum exactly when it is above the start value and above every member. -/
theorem foldMax2_le_iff {n m : ℕ} (s : EReal) (f : Fin n → Fin m → EReal) (c : EReal) :
    foldMax2 s f ≤ c ↔ s ≤ c ∧ ∀ p q, f p q ≤ c := by
  unfold foldMax2
  rw [Finset.fold_max_le]
  constructor
  · rintro ⟨hs, h⟩
    exact ⟨hs, fun p q => ((Finset.fold_max_le c).mp (h p (Finset.mem_univ p))).2 q (Finset.mem_univ q)⟩
  · rintro ⟨hs, h⟩
    exact ⟨hs, fun p _ => (Finset.fold_max_le c).mpr ⟨hs, fun q _ => h p q⟩⟩

/-- Two values with the same upper bounds are equal. -/
theorem eq_of_le_iff {a b : EReal} (h : ∀ c, a ≤ c ↔ b ≤ c) : a = b :=
  le_antisymm ((h b).mpr le_rfl) ((h a).mp le_rfl)

/-- The host's one-operand reduce with a maximum body over the LAST TWO axes of an `[a, b, n, m]` array, read at
    `(p, k)`: the double maximum of the entries `x (p, k, i, j)` from the initial value's element. -/
theorem hostReduce_maximumf_last2_apply {a b n m : ℕ} {u : Shape} (x : (⟨4, ![a, b, n, m]⟩ : Shape).Idx → EReal)
    (init : u.Idx → EReal) (h' : (⟨4, ![a, b, n, m]⟩ : Shape).ReducesTo [2, 3] ⟨2, ![a, b]⟩) (hu : 0 < u.numel)
    (p : Fin a) (k : Fin b) :
    Host.reduce (FloatOps.maximumf (F := Ideal) (φ := .f32)) x init h' hu (ix2 p k)
      = foldMax2 (init (Shape.Idx.first hu)) (fun i j => x (ix4 p k i j)) := by
  rw [Host.reduce_eq_fold]
  apply eq_of_le_iff
  intro c
  rw [foldMax2_le_iff]
  show Finset.fold max (init (Shape.Idx.first hu)) x (Finset.univ.filter fun i => h'.drop i = ix2 p k) ≤ c ↔ _
  rw [Finset.fold_max_le]
  refine and_congr_right fun _ => ?_
  constructor
  · intro h i j
    refine h (ix4 p k i j) (Finset.mem_filter.mpr ⟨Finset.mem_univ _, ?_⟩)
    funext ax; apply Fin.ext
    match ax with
    | ⟨0, _⟩ => rfl
    | ⟨1, _⟩ => rfl
  · intro h y hy
    have hd := (Finset.mem_filter.mp hy).2
    have e0 : (y 0).val = p.val := congrArg (fun z : (⟨2, ![a, b]⟩ : Shape).Idx => (z 0).val) hd
    have e1 : (y 1).val = k.val := congrArg (fun z : (⟨2, ![a, b]⟩ : Shape).Idx => (z 1).val) hd
    have hyx : y = ix4 p k (y 2) (y 3) := by
      funext ax; apply Fin.ext
      match ax with
      | ⟨0, _⟩ => exact e0
      | ⟨1, _⟩ => exact e1
      | ⟨2, _⟩ => rfl
      | ⟨3, _⟩ => rfl
    rw [hyx]; exact h (y 2) (y 3)

end Cert.LibWinMax

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.KIRead.lean ====
/-
  The kernel's two results read at an index, at the ideal values.

  A channel-sum entry is the sum over the 1024 channels of the argument's entries at that batch element and pixel.
  Row r of the window maxima at channel k is the maximum, from minus infinity, of the argument's entries of that
  batch element and channel over the r-th window: the body takes it as a maximum along the window's rows of the
  maxima along its columns, and stores it as one row of the block, which the later rows' stores do not touch.
-/
import proofs.«167076_j27771258536050_1_alg».proof.Proof.KIValue
import proofs.«167076_j27771258536050_1_alg».proof.Proof.LibWinMax
import proofs.«167076_j27771258536050_1_alg».proof.Proof.LibMaxReduce
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Cert.LibWinMax Cert.LibMaxReduce

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A vector cast to a row of a one-row, one-plane array, read at its one row. -/
theorem shapeCast_a_11a_apply {a : ℕ} {α : Type} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A float maximum reduction over the LAST axis of an `[a, b, c]` array, read at `(p, q)`: the running maximum of
    the entries `src (p, q, k)` from the accumulator's value. -/
theorem multiReduction_maximumf_last3_apply {a b c : ℕ} (src : FVec Ideal ⟨3, ![a, b, c]⟩ .f32) (acc : BitVec 32)
    (h : (⟨3, ![a, b, c]⟩ : Shape).Reduces [2] ⟨2, ![a, b]⟩) (hφ : FKind.Formats .f32) (hacc : acc = FKind.maximumf.neutral .f32 hφ)
    (p : Fin a) (q : Fin b) :
    multiReduction .maximumf [2] ⟨2, ![a, b]⟩ src acc h hφ hacc (ix2 p q)
      = foldMax (Ideal.ofBits .f32 acc) (fun k : Fin c => src (ix3 p q k)) := by
  refine (Ideal.multiReduction_maximumf_single src acc h hφ hacc (ix2 p q)).trans ?_
  unfold foldMax
  refine congrArg (fun f : Fin c → EReal => Finset.fold max (Ideal.ofBits .f32 acc) f Finset.univ) (funext fun k => congrArg src ?_)
  funext ax; apply Fin.ext
  match ax with
  | ⟨0, _⟩ => rfl
  | ⟨1, _⟩ => rfl
  | ⟨2, _⟩ => rfl

/-- The double maximum is the maximum along the first coordinate of the maxima along the second. -/
theorem foldMax2_eq {n m : ℕ} (s : EReal) (f : Fin n → Fin m → EReal) :
    foldMax2 s f = foldMax s (fun p => foldMax s (fun q => f p q)) := rfl

/-! ## The channel sum -/

/-- The body's channel sum of a block, at a pixel. -/
theorem paySum_apply (x0 : Vec Ideal S1x1024x64x64 .f32) (h w : Fin 64) :
    k0_pay3 (F := Ideal) x0 (ix3 (0 : Fin 1) h w) = ∑ c : Fin 1024, x0 (ix4 (0 : Fin 1) c h w) := by
  simp only [k0_pay3]
  refine (shapeCast_ab_1ab_apply _ _ (0 : Fin 1) h w).trans ?_
  refine (Ideal.multiReduction_add_single _ _ _ _ _ (ix2 h w)).trans ?_
  refine Finset.sum_congr rfl fun c _ => ?_
  refine (congrArg _ (?_ : _ = ix3 c h w)).trans (shapeCast_1abc_abc_apply _ _ c h w)
  funext ax; apply Fin.ext
  match ax with
  | ⟨0, _⟩ => rfl
  | ⟨1, _⟩ => rfl
  | ⟨2, _⟩ => rfl

/-- The channel-sum result at (b, h, w). -/
theorem Gsum_apply (X : S16x1024x64x64.Idx → EReal) (b : Fin 16) (h w : Fin 64) :
    Gsum (F := Ideal) X (ix3 b h w) = ∑ c : Fin 1024, X (ix4 b c h w) := by
  unfold Gsum outSum
  rw [View.canon_unit_zero hz3]
  simp only [View.ld_unit_zero (S := S1x1024x64x64) hz4]
  exact paySum_apply (blkOf X b) h w

/-! ## The window maxima -/

/-- The body's maxima of a loaded window, row 0's payload, at a channel. -/
theorem payMax0_apply (v : Vec Ideal S1x1024x64x64 .f32) (k : Fin 1024) :
    k0_pay4 (F := Ideal) v (ix3 (0 : Fin 1) (0 : Fin 1) k)
      = foldMax2 (Ideal.ofBits .f32 0xFF800000#32) (fun p q : Fin 64 => v (ix4 (0 : Fin 1) k p q)) := by
  simp only [k0_pay4]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 1's payload, at a channel. -/
theorem payMax1_apply (v : Vec Ideal S1x1024x64x64 .f32) (k : Fin 1024) :
    k0_pay5 (F := Ideal) v (ix3 (0 : Fin 1) (0 : Fin 1) k)
      = foldMax2 (Ideal.ofBits .f32 0xFF800000#32) (fun p q : Fin 64 => v (ix4 (0 : Fin 1) k p q)) := by
  simp only [k0_pay5]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 2's payload, at a channel. -/
theorem payMax2_apply (v : Vec Ideal S1x1024x42x42 .f32) (k : Fin 1024) :
    k0_pay7 (F := Ideal) (k0_pay6 (F := Ideal) v) (ix3 (0 : Fin 1) (0 : Fin 1) k)
      = foldMax2 (Ideal.ofBits .f32 0xFF800000#32) (fun p q : Fin 42 => v (ix4 (0 : Fin 1) k p q)) := by
  simp only [k0_pay7, k0_pay6]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 3's payload, at a channel. -/
theorem payMax3_apply (v : Vec Ideal S1x1024x42x42 .f32) (k : Fin 1024) :
    k0_pay8 (F := Ideal) v (ix3 (0 : Fin 1) (0 : Fin 1) k)
      = foldMax2 (Ideal.ofBits .f32 0xFF800000#32) (fun p q : Fin 42 => v (ix4 (0 : Fin 1) k p q)) := by
  simp only [k0_pay8]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 4's payload, at a channel. -/
theorem payMax4_apply (v : Vec Ideal S1x1024x42x42 .f32) (k : Fin 1024) :
    k0_pay9 (F := Ideal) v (ix3 (0 : Fin 1) (0 : Fin 1) k)
      = foldMax2 (Ideal.ofBits .f32 0xFF800000#32) (fun p q : Fin 42 => v (ix4 (0 : Fin 1) k p q)) := by
  simp only [k0_pay9]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 5's payload, at a channel. -/
theorem payMax5_apply (v : Vec Ideal S1x1024x42x42 .f32) (k : Fin 1024) :
    k0_pay10 (F := Ideal) v (ix3 (0 : Fin 1) (0 : Fin 1) k)
      = foldMax2 (Ideal.ofBits .f32 0xFF800000#32) (fun p q : Fin 42 => v (ix4 (0 : Fin 1) k p q)) := by
  simp only [k0_pay10]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 6's payload, at a channel. -/
theorem payMax6_apply (v : Vec Ideal S1x1024x32x32 .f32) (k : Fin 1024) :
    k0_pay11 (F := Ideal) v (ix3 (0 : Fin 1) (0 : Fin 1) k)
      = foldMax2 (Ideal.ofBits .f32 0xFF800000#32) (fun p q : Fin 32 => v (ix4 (0 : Fin 1) k p q)) := by
  simp only [k0_pay11]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 7's payload, at a channel. -/
theorem payMax7_apply (v : Vec Ideal S1x1024x32x32 .f32) (k : Fin 1024) :
    k0_pay12 (F := Ideal) v (ix3 (0 : Fin 1) (0 : Fin 1) k)
      = foldMax2 (Ideal.ofBits .f32 0xFF800000#32) (fun p q : Fin 32 => v (ix4 (0 : Fin 1) k p q)) := by
  simp only [k0_pay12]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 8's payload, at a channel. -/
theorem payMax8_apply (v : Vec Ideal S1x1024x32x32 .f32) (k : Fin 1024) :
    k0_pay13 (F := Ideal) v (ix3 (0 : Fin 1) (0 : Fin 1) k)
      = foldMax2 (Ideal.ofBits .f32 0xFF800000#32) (fun p q : Fin 32 => v (ix4 (0 : Fin 1) k p q)) := by
  simp only [k0_pay13]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 9's payload, at a channel. -/
theorem payMax9_apply (v : Vec Ideal S1x1024x32x32 .f32) (k : Fin 1024) :
    k0_pay15 (F := Ideal) (k0_pay14 (F := Ideal) v) (ix3 (0 : Fin 1) (0 : Fin 1) k)
      = foldMax2 (Ideal.ofBits .f32 0xFF800000#32) (fun p q : Fin 32 => v (ix4 (0 : Fin 1) k p q)) := by
  simp only [k0_pay15, k0_pay14]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 10's payload, at a channel. -/
theorem payMax10_apply (v : Vec Ideal S1x1024x32x32 .f32) (k : Fin 1024) :
    k0_pay16 (F := Ideal) v (ix3 (0 : Fin 1) (0 : Fin 1) k)
      = foldMax2 (Ideal.ofBits .f32 0xFF800000#32) (fun p q : Fin 32 => v (ix4 (0 : Fin 1) k p q)) := by
  simp only [k0_pay16]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 11's payload, at a channel. -/
theorem payMax11_apply (v : Vec Ideal S1x1024x32x32 .f32) (k : Fin 1024) :
    k0_pay17 (F := Ideal) v (ix3 (0 : Fin 1) (0 : Fin 1) k)
      = foldMax2 (Ideal.ofBits .f32 0xFF800000#32) (fun p q : Fin 32 => v (ix4 (0 : Fin 1) k p q)) := by
  simp only [k0_pay17]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 12's payload, at a channel. -/
theorem payMax12_apply (v : Vec Ideal S1x1024x32x32 .f32) (k : Fin 1024) :
    k0_pay18 (F := Ideal) v (ix3 (0 : Fin 1) (0 : Fin 1) k)
      = foldMax2 (Ideal.ofBits .f32 0xFF800000#32) (fun p q : Fin 32 => v (ix4 (0 : Fin 1) k p q)) := by
  simp only [k0_pay18]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 13's payload, at a channel. -/
theorem payMax13_apply (v : Vec Ideal S1x1024x32x32 .f32) (k : Fin 1024) :
    k0_pay1 (F := Ideal) v (ix3 (0 : Fin 1) (0 : Fin 1) k)
      = foldMax2 (Ideal.ofBits .f32 0xFF800000#32) (fun p q : Fin 32 => v (ix4 (0 : Fin 1) k p q)) := by
  simp only [k0_pay1]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- The body's maxima of a loaded window, row 14's payload, at a channel. -/
theorem payMax14_apply (v : Vec Ideal S1x1024x32x32 .f32) (k : Fin 1024) :
    k0_pay2 (F := Ideal) v (ix3 (0 : Fin 1) (0 : Fin 1) k)
      = foldMax2 (Ideal.ofBits .f32 0xFF800000#32) (fun p q : Fin 32 => v (ix4 (0 : Fin 1) k p q)) := by
  simp only [k0_pay2]
  refine (shapeCast_a_11a_apply _ _ (0 : Fin 1) (0 : Fin 1) k).trans ?_
  refine (multiReduction_maximumf_lastAxis_apply _ _ _ _ _ k).trans ?_
  rw [foldMax2_eq]
  refine congrArg (foldMax _) (funext fun p => ?_)
  refine (multiReduction_maximumf_last3_apply _ _ _ _ _ k p).trans ?_
  refine congrArg (foldMax _) (funext fun q => ?_)
  exact shapeCast_1abc_abc_apply _ _ k p q

/-- A row index is outside every other row's rectangle. -/
theorem row_not_mem (r : Fin 15) (r' : ℕ) (hne : r.val ≠ r') (k : Fin 1024) (inb) :
    ix3 (0 : Fin 1) r k ∉ (Rect.unit (s := S1x15x1024) ![0, r', 0] S1x1x1024.size inb).set := by
  rw [Rect.mem_set_unit]
  intro hm
  have h1 := hm (1 : Fin 3)
  have e : ((ix3 (0 : Fin 1) r k) (1 : Fin 3)).val = r.val := rfl
  have e1 : (![0, r', 0] : Fin 3 → ℕ) (1 : Fin 3) = r' := rfl
  have e2 : S1x1x1024.size (1 : Fin 3) = 1 := rfl
  rw [e1, e2] at h1
  omega

/-- A row index is its row's rectangle's image of the row-local index. -/
theorem row_emb (r : Fin 15) (k : Fin 1024) (inb) :
    ix3 (0 : Fin 1) r k
      = (Rect.unit (s := S1x15x1024) ![0, r.val, 0] S1x1x1024.size inb).emb (ix3 (0 : Fin 1) (0 : Fin 1) k) := by
  funext ax; apply Fin.ext
  match ax with
  | ⟨0, _⟩ => simp [Rect.emb_apply, ix3]
  | ⟨1, _⟩ => simp [Rect.emb_apply, ix3]
  | ⟨2, _⟩ => simp [Rect.emb_apply, ix3]

/-- Row 0 of an overlay of fifteen whole-row stores is the payload of the store into row 0. -/
theorem canon_row0 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (0 : Fin 15) k)
      = p0 (ix3 (0 : Fin 1) (0 : Fin 1) k) := by
  refine (View.canon_cons_of_not_mem ⟨_, _⟩ _ (row_not_mem (0 : Fin 15) 14 (by decide) k inb_S1x15x1024_S1x1x1024_0_14_0)).trans ?_
  refine (View.canon_cons_of_not_mem ⟨_, _⟩ _ (row_not_mem (0 : Fin 15) 13 (by decide) k inb_S1x15x1024_S1x1x1024_0_13_0)).trans ?_
  refine (View.canon_cons_of_not_mem ⟨_, _⟩ _ (row_not_mem (0 : Fin 15) 12 (by decide) k inb_S1x15x1024_S1x1x1024_0_12_0)).trans ?_
  refine (View.canon_cons_of_not_mem ⟨_, _⟩ _ (row_not_mem (0 : Fin 15) 11 (by decide) k inb_S1x15x1024_S1x1x1024_0_11_0)).trans ?_
  refine (View.canon_cons_of_not_mem ⟨_, _⟩ _ (row_not_mem (0 : Fin 15) 10 (by decide) k inb_S1x15x1024_S1x1x1024_0_10_0)).trans ?_
  refine (View.canon_cons_of_not_mem ⟨_, _⟩ _ (row_not_mem (0 : Fin 15) 9 (by decide) k inb_S1x15x1024_S1x1x1024_0_9_0)).trans ?_
  refine (View.canon_cons_of_not_mem ⟨_, _⟩ _ (row_not_mem (0 : Fin 15) 8 (by decide) k inb_S1x15x1024_S1x1x1024_0_8_0)).trans ?_
  refine (View.canon_cons_of_not_mem ⟨_, _⟩ _ (row_not_mem (0 : Fin 15) 7 (by decide) k inb_S1x15x1024_S1x1x1024_0_7_0)).trans ?_
  refine (View.canon_cons_of_not_mem ⟨_, _⟩ _ (row_not_mem (0 : Fin 15) 6 (by decide) k inb_S1x15x1024_S1x1x1024_0_6_0)).trans ?_
  refine (View.canon_cons_of_not_mem ⟨_, _⟩ _ (row_not_mem (0 : Fin 15) 5 (by decide) k inb_S1x15x1024_S1x1x1024_0_5_0)).trans ?_
  refine (View.canon_cons_of_not_mem ⟨_, _⟩ _ (row_not_mem (0 : Fin 15) 4 (by decide) k inb_S1x15x1024_S1x1x1024_0_4_0)).trans ?_
  refine (View.canon_cons_of_not_mem ⟨_, _⟩ _ (row_not_mem (0 : Fin 15) 3 (by decide) k inb_S1x15x1024_S1x1x1024_0_3_0)).trans ?_
  refine (View.canon_cons_of_not_mem ⟨_, _⟩ _ (row_not_mem (0 : Fin 15) 2 (by decide) k inb_S1x15x1024_S1x1x1024_0_2_0)).trans ?_
  refine (View.canon_cons_of_not_mem ⟨_, _⟩ _ (row_not_mem (0 : Fin 15) 1 (by decide) k inb_S1x15x1024_S1x1x1024_0_1_0)).trans ?_
  have e := row_emb (0 : Fin 15) k inb_S1x15x1024_S1x1x1024_0_0_0
  rw [e]
  exact View.canon_cons_emb _ _ _ _

/-- Row 1 of an overlay of fifteen whole-row stores is the payload of the store into row 1. -/
theorem canon_row1 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (1 : Fin 15) k)
      = p1 (ix3 (0 : Fin 1) (0 : Fin 1) k) := by
  refine (View.canon_cons_of_not_mem ⟨_, _⟩ _ (row_not_mem (1 : Fin 15) 14 (by decide) k inb_S1x15x1024_S1x1x1024_0_14_0)).trans ?_
  refine (View.canon_cons_of_not_mem ⟨_, _⟩ _ (row_not_mem (1 : Fin 15) 13 (by decide) k inb_S1x15x1024_S1x1x1024_0_13_0)).trans ?_
  refine (View.canon_cons_of_not_mem ⟨_, _⟩ _ (row_not_mem (1 : Fin 15) 12 (by decide) k inb_S1x15x1024_S1x1x1024_0_12_0)).trans ?_
  refine (View.canon_cons_of_not_mem ⟨_, _⟩ _ (row_not_mem (1 : Fin 15) 11 (by decide) k inb_S1x15x1024_S1x1x1024_0_11_0)).trans ?_
  refine (View.canon_cons_of_not_mem ⟨_, _⟩ _ (row_not_mem (1 : Fin 15) 10 (by decide) k inb_S1x15x1024_S1x1x1024_0_10_0)).trans ?_
  refine (View.canon_cons_of_not_mem ⟨_, _⟩ _ (row_not_mem (1 : Fin 15) 9 (by decide) k inb_S1x15x1024_S1x1x1024_0_9_0)).trans ?_
  refine (View.canon_cons_of_not_mem ⟨_, _⟩ _ (row_not_mem (1 : Fin 15) 8 (by decide) k inb_S1x15x1024_S1x1x1024_0_8_0)).trans ?_
  refine (View.canon_cons_of_not_mem ⟨_, _⟩ _ (row_not_mem (1 : Fin 15) 7 (by decide) k inb_S1x15x1024_S1x1x1024_0_7_0)).trans ?_
  refine (View.canon_cons_of_not_mem ⟨_, _⟩ _ (row_not_mem (1 : Fin 15) 6 (by decide) k inb_S1x15x1024_S1x1x1024_0_6_0)).trans ?_
  refine (View.canon_cons_of_not_mem ⟨_, _⟩ _ (row_not_mem (1 : Fin 15) 5 (by decide) k inb_S1x15x1024_S1x1x1024_0_5_0)).trans ?_
  refine (View.canon_cons_of_not_mem ⟨_, _⟩ _ (row_not_mem (1 : Fin 15) 4 (by decide) k inb_S1x15x1024_S1x1x1024_0_4_0)).trans ?_
  refine (View.canon_cons_of_not_mem ⟨_, _⟩ _ (row_not_mem (1 : Fin 15) 3 (by decide) k inb_S1x15x1024_S1x1x1024_0_3_0)).trans ?_
  refine (View.canon_cons_of_not_mem ⟨_, _⟩ _ (row_not_mem (1 : Fin 15) 2 (by decide) k inb_S1x15x1024_S1x1x1024_0_2_0)).trans ?_
  have e := row_emb (1 : Fin 15) k inb_S1x15x1024_S1x1x1024_0_1_0
  rw [e]
  exact View.canon_cons_emb _ _ _ _

/-- Row 2 of an overlay of fifteen whole-row stores is the payload of the store into row 2. -/
theorem canon_row2 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (2 : Fin 15) k)
      = p2 (ix3 (0 : Fin 1) (0 : Fin 1) k) := by
  refine (View.canon_cons_of_not_mem ⟨_, _⟩ _ (row_not_mem (2 : Fin 15) 14 (by decide) k inb_S1x15x1024_S1x1x1024_0_14_0)).trans ?_
  refine (View.canon_cons_of_not_mem ⟨_, _⟩ _ (row_not_mem (2 : Fin 15) 13 (by decide) k inb_S1x15x1024_S1x1x1024_0_13_0)).trans ?_
  refine (View.canon_cons_of_not_mem ⟨_, _⟩ _ (row_not_mem (2 : Fin 15) 12 (by decide) k inb_S1x15x1024_S1x1x1024_0_12_0)).trans ?_
  refine (View.canon_cons_of_not_mem ⟨_, _⟩ _ (row_not_mem (2 : Fin 15) 11 (by decide) k inb_S1x15x1024_S1x1x1024_0_11_0)).trans ?_
  refine (View.canon_cons_of_not_mem ⟨_, _⟩ _ (row_not_mem (2 : Fin 15) 10 (by decide) k inb_S1x15x1024_S1x1x1024_0_10_0)).trans ?_
  refine (View.canon_cons_of_not_mem ⟨_, _⟩ _ (row_not_mem (2 : Fin 15) 9 (by decide) k inb_S1x15x1024_S1x1x1024_0_9_0)).trans ?_
  refine (View.canon_cons_of_not_mem ⟨_, _⟩ _ (row_not_mem (2 : Fin 15) 8 (by decide) k inb_S1x15x1024_S1x1x1024_0_8_0)).trans ?_
  refine (View.canon_cons_of_not_mem ⟨_, _⟩ _ (row_not_mem (2 : Fin 15) 7 (by decide) k inb_S1x15x1024_S1x1x1024_0_7_0)).trans ?_
  refine (View.canon_cons_of_not_mem ⟨_, _⟩ _ (row_not_mem (2 : Fin 15) 6 (by decide) k inb_S1x15x1024_S1x1x1024_0_6_0)).trans ?_
  refine (View.canon_cons_of_not_mem ⟨_, _⟩ _ (row_not_mem (2 : Fin 15) 5 (by decide) k inb_S1x15x1024_S1x1x1024_0_5_0)).trans ?_
  refine (View.canon_cons_of_not_mem ⟨_, _⟩ _ (row_not_mem (2 : Fin 15) 4 (by decide) k inb_S1x15x1024_S1x1x1024_0_4_0)).trans ?_
  refine (View.canon_cons_of_not_mem ⟨_, _⟩ _ (row_not_mem (2 : Fin 15) 3 (by decide) k inb_S1x15x1024_S1x1x1024_0_3_0)).trans ?_
  have e := row_emb (2 : Fin 15) k inb_S1x15x1024_S1x1x1024_0_2_0
  rw [e]
  exact View.canon_cons_emb _ _ _ _

/-- Row 3 of an overlay of fifteen whole-row stores is the payload of the store into row 3. -/
theorem canon_row3 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (3 : Fin 15) k)
      = p3 (ix3 (0 : Fin 1) (0 : Fin 1) k) := by
  refine (View.canon_cons_of_not_mem ⟨_, _⟩ _ (row_not_mem (3 : Fin 15) 14 (by decide) k inb_S1x15x1024_S1x1x1024_0_14_0)).trans ?_
  refine (View.canon_cons_of_not_mem ⟨_, _⟩ _ (row_not_mem (3 : Fin 15) 13 (by decide) k inb_S1x15x1024_S1x1x1024_0_13_0)).trans ?_
  refine (View.canon_cons_of_not_mem ⟨_, _⟩ _ (row_not_mem (3 : Fin 15) 12 (by decide) k inb_S1x15x1024_S1x1x1024_0_12_0)).trans ?_
  refine (View.canon_cons_of_not_mem ⟨_, _⟩ _ (row_not_mem (3 : Fin 15) 11 (by decide) k inb_S1x15x1024_S1x1x1024_0_11_0)).trans ?_
  refine (View.canon_cons_of_not_mem ⟨_, _⟩ _ (row_not_mem (3 : Fin 15) 10 (by decide) k inb_S1x15x1024_S1x1x1024_0_10_0)).trans ?_
  refine (View.canon_cons_of_not_mem ⟨_, _⟩ _ (row_not_mem (3 : Fin 15) 9 (by decide) k inb_S1x15x1024_S1x1x1024_0_9_0)).trans ?_
  refine (View.canon_cons_of_not_mem ⟨_, _⟩ _ (row_not_mem (3 : Fin 15) 8 (by decide) k inb_S1x15x1024_S1x1x1024_0_8_0)).trans ?_
  refine (View.canon_cons_of_not_mem ⟨_, _⟩ _ (row_not_mem (3 : Fin 15) 7 (by decide) k inb_S1x15x1024_S1x1x1024_0_7_0)).trans ?_
  refine (View.canon_cons_of_not_mem ⟨_, _⟩ _ (row_not_mem (3 : Fin 15) 6 (by decide) k inb_S1x15x1024_S1x1x1024_0_6_0)).trans ?_
  refine (View.canon_cons_of_not_mem ⟨_, _⟩ _ (row_not_mem (3 : Fin 15) 5 (by decide) k inb_S1x15x1024_S1x1x1024_0_5_0)).trans ?_
  refine (View.canon_cons_of_not_mem ⟨_, _⟩ _ (row_not_mem (3 : Fin 15) 4 (by decide) k inb_S1x15x1024_S1x1x1024_0_4_0)).trans ?_
  have e := row_emb (3 : Fin 15) k inb_S1x15x1024_S1x1x1024_0_3_0
  rw [e]
  exact View.canon_cons_emb _ _ _ _

/-- Row 4 of an overlay of fifteen whole-row stores is the payload of the store into row 4. -/
theorem canon_row4 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (4 : Fin 15) k)
      = p4 (ix3 (0 : Fin 1) (0 : Fin 1) k) := by
  refine (View.canon_cons_of_not_mem ⟨_, _⟩ _ (row_not_mem (4 : Fin 15) 14 (by decide) k inb_S1x15x1024_S1x1x1024_0_14_0)).trans ?_
  refine (View.canon_cons_of_not_mem ⟨_, _⟩ _ (row_not_mem (4 : Fin 15) 13 (by decide) k inb_S1x15x1024_S1x1x1024_0_13_0)).trans ?_
  refine (View.canon_cons_of_not_mem ⟨_, _⟩ _ (row_not_mem (4 : Fin 15) 12 (by decide) k inb_S1x15x1024_S1x1x1024_0_12_0)).trans ?_
  refine (View.canon_cons_of_not_mem ⟨_, _⟩ _ (row_not_mem (4 : Fin 15) 11 (by decide) k inb_S1x15x1024_S1x1x1024_0_11_0)).trans ?_
  refine (View.canon_cons_of_not_mem ⟨_, _⟩ _ (row_not_mem (4 : Fin 15) 10 (by decide) k inb_S1x15x1024_S1x1x1024_0_10_0)).trans ?_
  refine (View.canon_cons_of_not_mem ⟨_, _⟩ _ (row_not_mem (4 : Fin 15) 9 (by decide) k inb_S1x15x1024_S1x1x1024_0_9_0)).trans ?_
  refine (View.canon_cons_of_not_mem ⟨_, _⟩ _ (row_not_mem (4 : Fin 15) 8 (by decide) k inb_S1x15x1024_S1x1x1024_0_8_0)).trans ?_
  refine (View.canon_cons_of_not_mem ⟨_, _⟩ _ (row_not_mem (4 : Fin 15) 7 (by decide) k inb_S1x15x1024_S1x1x1024_0_7_0)).trans ?_
  refine (View.canon_cons_of_not_mem ⟨_, _⟩ _ (row_not_mem (4 : Fin 15) 6 (by decide) k inb_S1x15x1024_S1x1x1024_0_6_0)).trans ?_
  refine (View.canon_cons_of_not_mem ⟨_, _⟩ _ (row_not_mem (4 : Fin 15) 5 (by decide) k inb_S1x15x1024_S1x1x1024_0_5_0)).trans ?_
  have e := row_emb (4 : Fin 15) k inb_S1x15x1024_S1x1x1024_0_4_0
  rw [e]
  exact View.canon_cons_emb _ _ _ _

/-- Row 5 of an overlay of fifteen whole-row stores is the payload of the store into row 5. -/
theorem canon_row5 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (5 : Fin 15) k)
      = p5 (ix3 (0 : Fin 1) (0 : Fin 1) k) := by
  refine (View.canon_cons_of_not_mem ⟨_, _⟩ _ (row_not_mem (5 : Fin 15) 14 (by decide) k inb_S1x15x1024_S1x1x1024_0_14_0)).trans ?_
  refine (View.canon_cons_of_not_mem ⟨_, _⟩ _ (row_not_mem (5 : Fin 15) 13 (by decide) k inb_S1x15x1024_S1x1x1024_0_13_0)).trans ?_
  refine (View.canon_cons_of_not_mem ⟨_, _⟩ _ (row_not_mem (5 : Fin 15) 12 (by decide) k inb_S1x15x1024_S1x1x1024_0_12_0)).trans ?_
  refine (View.canon_cons_of_not_mem ⟨_, _⟩ _ (row_not_mem (5 : Fin 15) 11 (by decide) k inb_S1x15x1024_S1x1x1024_0_11_0)).trans ?_
  refine (View.canon_cons_of_not_mem ⟨_, _⟩ _ (row_not_mem (5 : Fin 15) 10 (by decide) k inb_S1x15x1024_S1x1x1024_0_10_0)).trans ?_
  refine (View.canon_cons_of_not_mem ⟨_, _⟩ _ (row_not_mem (5 : Fin 15) 9 (by decide) k inb_S1x15x1024_S1x1x1024_0_9_0)).trans ?_
  refine (View.canon_cons_of_not_mem ⟨_, _⟩ _ (row_not_mem (5 : Fin 15) 8 (by decide) k inb_S1x15x1024_S1x1x1024_0_8_0)).trans ?_
  refine (View.canon_cons_of_not_mem ⟨_, _⟩ _ (row_not_mem (5 : Fin 15) 7 (by decide) k inb_S1x15x1024_S1x1x1024_0_7_0)).trans ?_
  refine (View.canon_cons_of_not_mem ⟨_, _⟩ _ (row_not_mem (5 : Fin 15) 6 (by decide) k inb_S1x15x1024_S1x1x1024_0_6_0)).trans ?_
  have e := row_emb (5 : Fin 15) k inb_S1x15x1024_S1x1x1024_0_5_0
  rw [e]
  exact View.canon_cons_emb _ _ _ _

/-- Row 6 of an overlay of fifteen whole-row stores is the payload of the store into row 6. -/
theorem canon_row6 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (6 : Fin 15) k)
      = p6 (ix3 (0 : Fin 1) (0 : Fin 1) k) := by
  refine (View.canon_cons_of_not_mem ⟨_, _⟩ _ (row_not_mem (6 : Fin 15) 14 (by decide) k inb_S1x15x1024_S1x1x1024_0_14_0)).trans ?_
  refine (View.canon_cons_of_not_mem ⟨_, _⟩ _ (row_not_mem (6 : Fin 15) 13 (by decide) k inb_S1x15x1024_S1x1x1024_0_13_0)).trans ?_
  refine (View.canon_cons_of_not_mem ⟨_, _⟩ _ (row_not_mem (6 : Fin 15) 12 (by decide) k inb_S1x15x1024_S1x1x1024_0_12_0)).trans ?_
  refine (View.canon_cons_of_not_mem ⟨_, _⟩ _ (row_not_mem (6 : Fin 15) 11 (by decide) k inb_S1x15x1024_S1x1x1024_0_11_0)).trans ?_
  refine (View.canon_cons_of_not_mem ⟨_, _⟩ _ (row_not_mem (6 : Fin 15) 10 (by decide) k inb_S1x15x1024_S1x1x1024_0_10_0)).trans ?_
  refine (View.canon_cons_of_not_mem ⟨_, _⟩ _ (row_not_mem (6 : Fin 15) 9 (by decide) k inb_S1x15x1024_S1x1x1024_0_9_0)).trans ?_
  refine (View.canon_cons_of_not_mem ⟨_, _⟩ _ (row_not_mem (6 : Fin 15) 8 (by decide) k inb_S1x15x1024_S1x1x1024_0_8_0)).trans ?_
  refine (View.canon_cons_of_not_mem ⟨_, _⟩ _ (row_not_mem (6 : Fin 15) 7 (by decide) k inb_S1x15x1024_S1x1x1024_0_7_0)).trans ?_
  have e := row_emb (6 : Fin 15) k inb_S1x15x1024_S1x1x1024_0_6_0
  rw [e]
  exact View.canon_cons_emb _ _ _ _

/-- Row 7 of an overlay of fifteen whole-row stores is the payload of the store into row 7. -/
theorem canon_row7 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (7 : Fin 15) k)
      = p7 (ix3 (0 : Fin 1) (0 : Fin 1) k) := by
  refine (View.canon_cons_of_not_mem ⟨_, _⟩ _ (row_not_mem (7 : Fin 15) 14 (by decide) k inb_S1x15x1024_S1x1x1024_0_14_0)).trans ?_
  refine (View.canon_cons_of_not_mem ⟨_, _⟩ _ (row_not_mem (7 : Fin 15) 13 (by decide) k inb_S1x15x1024_S1x1x1024_0_13_0)).trans ?_
  refine (View.canon_cons_of_not_mem ⟨_, _⟩ _ (row_not_mem (7 : Fin 15) 12 (by decide) k inb_S1x15x1024_S1x1x1024_0_12_0)).trans ?_
  refine (View.canon_cons_of_not_mem ⟨_, _⟩ _ (row_not_mem (7 : Fin 15) 11 (by decide) k inb_S1x15x1024_S1x1x1024_0_11_0)).trans ?_
  refine (View.canon_cons_of_not_mem ⟨_, _⟩ _ (row_not_mem (7 : Fin 15) 10 (by decide) k inb_S1x15x1024_S1x1x1024_0_10_0)).trans ?_
  refine (View.canon_cons_of_not_mem ⟨_, _⟩ _ (row_not_mem (7 : Fin 15) 9 (by decide) k inb_S1x15x1024_S1x1x1024_0_9_0)).trans ?_
  refine (View.canon_cons_of_not_mem ⟨_, _⟩ _ (row_not_mem (7 : Fin 15) 8 (by decide) k inb_S1x15x1024_S1x1x1024_0_8_0)).trans ?_
  have e := row_emb (7 : Fin 15) k inb_S1x15x1024_S1x1x1024_0_7_0
  rw [e]
  exact View.canon_cons_emb _ _ _ _

/-- Row 8 of an overlay of fifteen whole-row stores is the payload of the store into row 8. -/
theorem canon_row8 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (8 : Fin 15) k)
      = p8 (ix3 (0 : Fin 1) (0 : Fin 1) k) := by
  refine (View.canon_cons_of_not_mem ⟨_, _⟩ _ (row_not_mem (8 : Fin 15) 14 (by decide) k inb_S1x15x1024_S1x1x1024_0_14_0)).trans ?_
  refine (View.canon_cons_of_not_mem ⟨_, _⟩ _ (row_not_mem (8 : Fin 15) 13 (by decide) k inb_S1x15x1024_S1x1x1024_0_13_0)).trans ?_
  refine (View.canon_cons_of_not_mem ⟨_, _⟩ _ (row_not_mem (8 : Fin 15) 12 (by decide) k inb_S1x15x1024_S1x1x1024_0_12_0)).trans ?_
  refine (View.canon_cons_of_not_mem ⟨_, _⟩ _ (row_not_mem (8 : Fin 15) 11 (by decide) k inb_S1x15x1024_S1x1x1024_0_11_0)).trans ?_
  refine (View.canon_cons_of_not_mem ⟨_, _⟩ _ (row_not_mem (8 : Fin 15) 10 (by decide) k inb_S1x15x1024_S1x1x1024_0_10_0)).trans ?_
  refine (View.canon_cons_of_not_mem ⟨_, _⟩ _ (row_not_mem (8 : Fin 15) 9 (by decide) k inb_S1x15x1024_S1x1x1024_0_9_0)).trans ?_
  have e := row_emb (8 : Fin 15) k inb_S1x15x1024_S1x1x1024_0_8_0
  rw [e]
  exact View.canon_cons_emb _ _ _ _

/-- Row 9 of an overlay of fifteen whole-row stores is the payload of the store into row 9. -/
theorem canon_row9 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (9 : Fin 15) k)
      = p9 (ix3 (0 : Fin 1) (0 : Fin 1) k) := by
  refine (View.canon_cons_of_not_mem ⟨_, _⟩ _ (row_not_mem (9 : Fin 15) 14 (by decide) k inb_S1x15x1024_S1x1x1024_0_14_0)).trans ?_
  refine (View.canon_cons_of_not_mem ⟨_, _⟩ _ (row_not_mem (9 : Fin 15) 13 (by decide) k inb_S1x15x1024_S1x1x1024_0_13_0)).trans ?_
  refine (View.canon_cons_of_not_mem ⟨_, _⟩ _ (row_not_mem (9 : Fin 15) 12 (by decide) k inb_S1x15x1024_S1x1x1024_0_12_0)).trans ?_
  refine (View.canon_cons_of_not_mem ⟨_, _⟩ _ (row_not_mem (9 : Fin 15) 11 (by decide) k inb_S1x15x1024_S1x1x1024_0_11_0)).trans ?_
  refine (View.canon_cons_of_not_mem ⟨_, _⟩ _ (row_not_mem (9 : Fin 15) 10 (by decide) k inb_S1x15x1024_S1x1x1024_0_10_0)).trans ?_
  have e := row_emb (9 : Fin 15) k inb_S1x15x1024_S1x1x1024_0_9_0
  rw [e]
  exact View.canon_cons_emb _ _ _ _

/-- Row 10 of an overlay of fifteen whole-row stores is the payload of the store into row 10. -/
theorem canon_row10 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (10 : Fin 15) k)
      = p10 (ix3 (0 : Fin 1) (0 : Fin 1) k) := by
  refine (View.canon_cons_of_not_mem ⟨_, _⟩ _ (row_not_mem (10 : Fin 15) 14 (by decide) k inb_S1x15x1024_S1x1x1024_0_14_0)).trans ?_
  refine (View.canon_cons_of_not_mem ⟨_, _⟩ _ (row_not_mem (10 : Fin 15) 13 (by decide) k inb_S1x15x1024_S1x1x1024_0_13_0)).trans ?_
  refine (View.canon_cons_of_not_mem ⟨_, _⟩ _ (row_not_mem (10 : Fin 15) 12 (by decide) k inb_S1x15x1024_S1x1x1024_0_12_0)).trans ?_
  refine (View.canon_cons_of_not_mem ⟨_, _⟩ _ (row_not_mem (10 : Fin 15) 11 (by decide) k inb_S1x15x1024_S1x1x1024_0_11_0)).trans ?_
  have e := row_emb (10 : Fin 15) k inb_S1x15x1024_S1x1x1024_0_10_0
  rw [e]
  exact View.canon_cons_emb _ _ _ _

/-- Row 11 of an overlay of fifteen whole-row stores is the payload of the store into row 11. -/
theorem canon_row11 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (11 : Fin 15) k)
      = p11 (ix3 (0 : Fin 1) (0 : Fin 1) k) := by
  refine (View.canon_cons_of_not_mem ⟨_, _⟩ _ (row_not_mem (11 : Fin 15) 14 (by decide) k inb_S1x15x1024_S1x1x1024_0_14_0)).trans ?_
  refine (View.canon_cons_of_not_mem ⟨_, _⟩ _ (row_not_mem (11 : Fin 15) 13 (by decide) k inb_S1x15x1024_S1x1x1024_0_13_0)).trans ?_
  refine (View.canon_cons_of_not_mem ⟨_, _⟩ _ (row_not_mem (11 : Fin 15) 12 (by decide) k inb_S1x15x1024_S1x1x1024_0_12_0)).trans ?_
  have e := row_emb (11 : Fin 15) k inb_S1x15x1024_S1x1x1024_0_11_0
  rw [e]
  exact View.canon_cons_emb _ _ _ _

/-- Row 12 of an overlay of fifteen whole-row stores is the payload of the store into row 12. -/
theorem canon_row12 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (12 : Fin 15) k)
      = p12 (ix3 (0 : Fin 1) (0 : Fin 1) k) := by
  refine (View.canon_cons_of_not_mem ⟨_, _⟩ _ (row_not_mem (12 : Fin 15) 14 (by decide) k inb_S1x15x1024_S1x1x1024_0_14_0)).trans ?_
  refine (View.canon_cons_of_not_mem ⟨_, _⟩ _ (row_not_mem (12 : Fin 15) 13 (by decide) k inb_S1x15x1024_S1x1x1024_0_13_0)).trans ?_
  have e := row_emb (12 : Fin 15) k inb_S1x15x1024_S1x1x1024_0_12_0
  rw [e]
  exact View.canon_cons_emb _ _ _ _

/-- Row 13 of an overlay of fifteen whole-row stores is the payload of the store into row 13. -/
theorem canon_row13 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (13 : Fin 15) k)
      = p13 (ix3 (0 : Fin 1) (0 : Fin 1) k) := by
  refine (View.canon_cons_of_not_mem ⟨_, _⟩ _ (row_not_mem (13 : Fin 15) 14 (by decide) k inb_S1x15x1024_S1x1x1024_0_14_0)).trans ?_
  have e := row_emb (13 : Fin 15) k inb_S1x15x1024_S1x1x1024_0_13_0
  rw [e]
  exact View.canon_cons_emb _ _ _ _

/-- Row 14 of an overlay of fifteen whole-row stores is the payload of the store into row 14. -/
theorem canon_row14 (p0 p1 p2 p3 p4 p5 p6 p7 p8 p9 p10 p11 p12 p13 p14 : Vec Ideal S1x1x1024 .f32) (k : Fin 1024) :
    View.canon ([⟨(Rect.unit (s := S1x15x1024) ![0, 14, 0] S1x1x1024.size inb_S1x15x1024_S1x1x1024_0_14_0), p14⟩, ⟨(Rect.unit (s := S1x15x1024) ![0, 13, 0] S1x1x1024.size inb_S1x15x1024_S1x1x1024_0_13_0), p13⟩, ⟨(Rect.unit (s := S1x15x1024) ![0, 12, 0] S1x1x1024.size inb_S1x15x1024_S1x1x1024_0_12_0), p12⟩, ⟨(Rect.unit (s := S1x15x1024) ![0, 11, 0] S1x1x1024.size inb_S1x15x1024_S1x1x1024_0_11_0), p11⟩, ⟨(Rect.unit (s := S1x15x1024) ![0, 10, 0] S1x1x1024.size inb_S1x15x1024_S1x1x1024_0_10_0), p10⟩, ⟨(Rect.unit (s := S1x15x1024) ![0, 9, 0] S1x1x1024.size inb_S1x15x1024_S1x1x1024_0_9_0), p9⟩, ⟨(Rect.unit (s := S1x15x1024) ![0, 8, 0] S1x1x1024.size inb_S1x15x1024_S1x1x1024_0_8_0), p8⟩, ⟨(Rect.unit (s := S1x15x1024) ![0, 7, 0] S1x1x1024.size inb_S1x15x1024_S1x1x1024_0_7_0), p7⟩, ⟨(Rect.unit (s := S1x15x1024) ![0, 6, 0] S1x1x1024.size inb_S1x15x1024_S1x1x1024_0_6_0), p6⟩, ⟨(Rect.unit (s := S1x15x1024) ![0, 5, 0] S1x1x1024.size inb_S1x15x1024_S1x1x1024_0_5_0), p5⟩, ⟨(Rect.unit (s := S1x15x1024) ![0, 4, 0] S1x1x1024.size inb_S1x15x1024_S1x1x1024_0_4_0), p4⟩, ⟨(Rect.unit (s := S1x15x1024) ![0, 3, 0] S1x1x1024.size inb_S1x15x1024_S1x1x1024_0_3_0), p3⟩, ⟨(Rect.unit (s := S1x15x1024) ![0, 2, 0] S1x1x1024.size inb_S1x15x1024_S1x1x1024_0_2_0), p2⟩, ⟨(Rect.unit (s := S1x15x1024) ![0, 1, 0] S1x1x1024.size inb_S1x15x1024_S1x1x1024_0_1_0), p1⟩, ⟨(Rect.unit (s := S1x15x1024) ![0, 0, 0] S1x1x1024.size inb_S1x15x1024_S1x1x1024_0_0_0), p0⟩] : List (View.Piece (Elt Ideal) S1x15x1024 .f32)) (ix3 (0 : Fin 1) (14 : Fin 15) k)
      = p14 (ix3 (0 : Fin 1) (0 : Fin 1) k) := by

  have e := row_emb (14 : Fin 15) k inb_S1x15x1024_S1x1x1024_0_14_0
  rw [e]
  exact View.canon_cons_emb _ _ _ _

/-- Row 0 of the block of window maxima, at channel k: the maximum over the window at offsets (0, 0) of side 64. -/
theorem outMax_row0 (x0 : Vec Ideal S1x1024x64x64 .f32) (k : Fin 1024) :
    outMax (F := Ideal) x0 (ix3 (0 : Fin 1) (0 : Fin 15) k)
      = foldMax2 (Ideal.ofBits .f32 0xFF800000#32) (fun p q : Fin 64 => x0 (ix4 (0 : Fin 1) k ⟨0 + p.val, by omega⟩ ⟨0 + q.val, by omega⟩)) := by
  unfold outMax
  refine (canon_row0 _ _ _ _ _ _ _ _ _ _ _ _ _ _ _ k).trans ?_
  refine (payMax0_apply _ k).trans ?_
  refine congrArg (foldMax2 _) (funext fun p => funext fun q => ?_)
  show x0 ((Rect.unit (s := S1x1024x64x64) ![0, 0, 0, 0] S1x1024x64x64.size inb_S1x1024x64x64_S1x1024x64x64_0_0_0_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 1 of the block of window maxima, at channel k: the maximum over the window at offsets (0, 0) of side 64. -/
theorem outMax_row1 (x0 : Vec Ideal S1x1024x64x64 .f32) (k : Fin 1024) :
    outMax (F := Ideal) x0 (ix3 (0 : Fin 1) (1 : Fin 15) k)
      = foldMax2 (Ideal.ofBits .f32 0xFF800000#32) (fun p q : Fin 64 => x0 (ix4 (0 : Fin 1) k ⟨0 + p.val, by omega⟩ ⟨0 + q.val, by omega⟩)) := by
  unfold outMax
  refine (canon_row1 _ _ _ _ _ _ _ _ _ _ _ _ _ _ _ k).trans ?_
  refine (payMax1_apply _ k).trans ?_
  refine congrArg (foldMax2 _) (funext fun p => funext fun q => ?_)
  show x0 ((Rect.unit (s := S1x1024x64x64) ![0, 0, 0, 0] S1x1024x64x64.size inb_S1x1024x64x64_S1x1024x64x64_0_0_0_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 2 of the block of window maxima, at channel k: the maximum over the window at offsets (0, 0) of side 42. -/
theorem outMax_row2 (x0 : Vec Ideal S1x1024x64x64 .f32) (k : Fin 1024) :
    outMax (F := Ideal) x0 (ix3 (0 : Fin 1) (2 : Fin 15) k)
      = foldMax2 (Ideal.ofBits .f32 0xFF800000#32) (fun p q : Fin 42 => x0 (ix4 (0 : Fin 1) k ⟨0 + p.val, by omega⟩ ⟨0 + q.val, by omega⟩)) := by
  unfold outMax
  refine (canon_row2 _ _ _ _ _ _ _ _ _ _ _ _ _ _ _ k).trans ?_
  refine (payMax2_apply _ k).trans ?_
  refine congrArg (foldMax2 _) (funext fun p => funext fun q => ?_)
  show x0 ((Rect.unit (s := S1x1024x64x64) ![0, 0, 0, 0] S1x1024x42x42.size inb_S1x1024x64x64_S1x1024x42x42_0_0_0_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 3 of the block of window maxima, at channel k: the maximum over the window at offsets (0, 22) of side 42. -/
theorem outMax_row3 (x0 : Vec Ideal S1x1024x64x64 .f32) (k : Fin 1024) :
    outMax (F := Ideal) x0 (ix3 (0 : Fin 1) (3 : Fin 15) k)
      = foldMax2 (Ideal.ofBits .f32 0xFF800000#32) (fun p q : Fin 42 => x0 (ix4 (0 : Fin 1) k ⟨0 + p.val, by omega⟩ ⟨22 + q.val, by omega⟩)) := by
  unfold outMax
  refine (canon_row3 _ _ _ _ _ _ _ _ _ _ _ _ _ _ _ k).trans ?_
  refine (payMax3_apply _ k).trans ?_
  refine congrArg (foldMax2 _) (funext fun p => funext fun q => ?_)
  show x0 ((Rect.unit (s := S1x1024x64x64) ![0, 0, 0, 22] S1x1024x42x42.size inb_S1x1024x64x64_S1x1024x42x42_0_0_0_22).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 4 of the block of window maxima, at channel k: the maximum over the window at offsets (22, 0) of side 42. -/
theorem outMax_row4 (x0 : Vec Ideal S1x1024x64x64 .f32) (k : Fin 1024) :
    outMax (F := Ideal) x0 (ix3 (0 : Fin 1) (4 : Fin 15) k)
      = foldMax2 (Ideal.ofBits .f32 0xFF800000#32) (fun p q : Fin 42 => x0 (ix4 (0 : Fin 1) k ⟨22 + p.val, by omega⟩ ⟨0 + q.val, by omega⟩)) := by
  unfold outMax
  refine (canon_row4 _ _ _ _ _ _ _ _ _ _ _ _ _ _ _ k).trans ?_
  refine (payMax4_apply _ k).trans ?_
  refine congrArg (foldMax2 _) (funext fun p => funext fun q => ?_)
  show x0 ((Rect.unit (s := S1x1024x64x64) ![0, 0, 22, 0] S1x1024x42x42.size inb_S1x1024x64x64_S1x1024x42x42_0_0_22_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 5 of the block of window maxima, at channel k: the maximum over the window at offsets (22, 22) of side 42. -/
theorem outMax_row5 (x0 : Vec Ideal S1x1024x64x64 .f32) (k : Fin 1024) :
    outMax (F := Ideal) x0 (ix3 (0 : Fin 1) (5 : Fin 15) k)
      = foldMax2 (Ideal.ofBits .f32 0xFF800000#32) (fun p q : Fin 42 => x0 (ix4 (0 : Fin 1) k ⟨22 + p.val, by omega⟩ ⟨22 + q.val, by omega⟩)) := by
  unfold outMax
  refine (canon_row5 _ _ _ _ _ _ _ _ _ _ _ _ _ _ _ k).trans ?_
  refine (payMax5_apply _ k).trans ?_
  refine congrArg (foldMax2 _) (funext fun p => funext fun q => ?_)
  show x0 ((Rect.unit (s := S1x1024x64x64) ![0, 0, 22, 22] S1x1024x42x42.size inb_S1x1024x64x64_S1x1024x42x42_0_0_22_22).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 6 of the block of window maxima, at channel k: the maximum over the window at offsets (0, 0) of side 32. -/
theorem outMax_row6 (x0 : Vec Ideal S1x1024x64x64 .f32) (k : Fin 1024) :
    outMax (F := Ideal) x0 (ix3 (0 : Fin 1) (6 : Fin 15) k)
      = foldMax2 (Ideal.ofBits .f32 0xFF800000#32) (fun p q : Fin 32 => x0 (ix4 (0 : Fin 1) k ⟨0 + p.val, by omega⟩ ⟨0 + q.val, by omega⟩)) := by
  unfold outMax
  refine (canon_row6 _ _ _ _ _ _ _ _ _ _ _ _ _ _ _ k).trans ?_
  refine (payMax6_apply _ k).trans ?_
  refine congrArg (foldMax2 _) (funext fun p => funext fun q => ?_)
  show x0 ((Rect.unit (s := S1x1024x64x64) ![0, 0, 0, 0] S1x1024x32x32.size inb_S1x1024x64x64_S1x1024x32x32_0_0_0_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 7 of the block of window maxima, at channel k: the maximum over the window at offsets (0, 16) of side 32. -/
theorem outMax_row7 (x0 : Vec Ideal S1x1024x64x64 .f32) (k : Fin 1024) :
    outMax (F := Ideal) x0 (ix3 (0 : Fin 1) (7 : Fin 15) k)
      = foldMax2 (Ideal.ofBits .f32 0xFF800000#32) (fun p q : Fin 32 => x0 (ix4 (0 : Fin 1) k ⟨0 + p.val, by omega⟩ ⟨16 + q.val, by omega⟩)) := by
  unfold outMax
  refine (canon_row7 _ _ _ _ _ _ _ _ _ _ _ _ _ _ _ k).trans ?_
  refine (payMax7_apply _ k).trans ?_
  refine congrArg (foldMax2 _) (funext fun p => funext fun q => ?_)
  show x0 ((Rect.unit (s := S1x1024x64x64) ![0, 0, 0, 16] S1x1024x32x32.size inb_S1x1024x64x64_S1x1024x32x32_0_0_0_16).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 8 of the block of window maxima, at channel k: the maximum over the window at offsets (0, 32) of side 32. -/
theorem outMax_row8 (x0 : Vec Ideal S1x1024x64x64 .f32) (k : Fin 1024) :
    outMax (F := Ideal) x0 (ix3 (0 : Fin 1) (8 : Fin 15) k)
      = foldMax2 (Ideal.ofBits .f32 0xFF800000#32) (fun p q : Fin 32 => x0 (ix4 (0 : Fin 1) k ⟨0 + p.val, by omega⟩ ⟨32 + q.val, by omega⟩)) := by
  unfold outMax
  refine (canon_row8 _ _ _ _ _ _ _ _ _ _ _ _ _ _ _ k).trans ?_
  refine (payMax8_apply _ k).trans ?_
  refine congrArg (foldMax2 _) (funext fun p => funext fun q => ?_)
  show x0 ((Rect.unit (s := S1x1024x64x64) ![0, 0, 0, 32] S1x1024x32x32.size inb_S1x1024x64x64_S1x1024x32x32_0_0_0_32).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 9 of the block of window maxima, at channel k: the maximum over the window at offsets (16, 0) of side 32. -/
theorem outMax_row9 (x0 : Vec Ideal S1x1024x64x64 .f32) (k : Fin 1024) :
    outMax (F := Ideal) x0 (ix3 (0 : Fin 1) (9 : Fin 15) k)
      = foldMax2 (Ideal.ofBits .f32 0xFF800000#32) (fun p q : Fin 32 => x0 (ix4 (0 : Fin 1) k ⟨16 + p.val, by omega⟩ ⟨0 + q.val, by omega⟩)) := by
  unfold outMax
  refine (canon_row9 _ _ _ _ _ _ _ _ _ _ _ _ _ _ _ k).trans ?_
  refine (payMax9_apply _ k).trans ?_
  refine congrArg (foldMax2 _) (funext fun p => funext fun q => ?_)
  show x0 ((Rect.unit (s := S1x1024x64x64) ![0, 0, 16, 0] S1x1024x32x32.size inb_S1x1024x64x64_S1x1024x32x32_0_0_16_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 10 of the block of window maxima, at channel k: the maximum over the window at offsets (16, 16) of side 32. -/
theorem outMax_row10 (x0 : Vec Ideal S1x1024x64x64 .f32) (k : Fin 1024) :
    outMax (F := Ideal) x0 (ix3 (0 : Fin 1) (10 : Fin 15) k)
      = foldMax2 (Ideal.ofBits .f32 0xFF800000#32) (fun p q : Fin 32 => x0 (ix4 (0 : Fin 1) k ⟨16 + p.val, by omega⟩ ⟨16 + q.val, by omega⟩)) := by
  unfold outMax
  refine (canon_row10 _ _ _ _ _ _ _ _ _ _ _ _ _ _ _ k).trans ?_
  refine (payMax10_apply _ k).trans ?_
  refine congrArg (foldMax2 _) (funext fun p => funext fun q => ?_)
  show x0 ((Rect.unit (s := S1x1024x64x64) ![0, 0, 16, 16] S1x1024x32x32.size inb_S1x1024x64x64_S1x1024x32x32_0_0_16_16).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 11 of the block of window maxima, at channel k: the maximum over the window at offsets (16, 32) of side 32. -/
theorem outMax_row11 (x0 : Vec Ideal S1x1024x64x64 .f32) (k : Fin 1024) :
    outMax (F := Ideal) x0 (ix3 (0 : Fin 1) (11 : Fin 15) k)
      = foldMax2 (Ideal.ofBits .f32 0xFF800000#32) (fun p q : Fin 32 => x0 (ix4 (0 : Fin 1) k ⟨16 + p.val, by omega⟩ ⟨32 + q.val, by omega⟩)) := by
  unfold outMax
  refine (canon_row11 _ _ _ _ _ _ _ _ _ _ _ _ _ _ _ k).trans ?_
  refine (payMax11_apply _ k).trans ?_
  refine congrArg (foldMax2 _) (funext fun p => funext fun q => ?_)
  show x0 ((Rect.unit (s := S1x1024x64x64) ![0, 0, 16, 32] S1x1024x32x32.size inb_S1x1024x64x64_S1x1024x32x32_0_0_16_32).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 12 of the block of window maxima, at channel k: the maximum over the window at offsets (32, 0) of side 32. -/
theorem outMax_row12 (x0 : Vec Ideal S1x1024x64x64 .f32) (k : Fin 1024) :
    outMax (F := Ideal) x0 (ix3 (0 : Fin 1) (12 : Fin 15) k)
      = foldMax2 (Ideal.ofBits .f32 0xFF800000#32) (fun p q : Fin 32 => x0 (ix4 (0 : Fin 1) k ⟨32 + p.val, by omega⟩ ⟨0 + q.val, by omega⟩)) := by
  unfold outMax
  refine (canon_row12 _ _ _ _ _ _ _ _ _ _ _ _ _ _ _ k).trans ?_
  refine (payMax12_apply _ k).trans ?_
  refine congrArg (foldMax2 _) (funext fun p => funext fun q => ?_)
  show x0 ((Rect.unit (s := S1x1024x64x64) ![0, 0, 32, 0] S1x1024x32x32.size inb_S1x1024x64x64_S1x1024x32x32_0_0_32_0).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 13 of the block of window maxima, at channel k: the maximum over the window at offsets (32, 16) of side 32. -/
theorem outMax_row13 (x0 : Vec Ideal S1x1024x64x64 .f32) (k : Fin 1024) :
    outMax (F := Ideal) x0 (ix3 (0 : Fin 1) (13 : Fin 15) k)
      = foldMax2 (Ideal.ofBits .f32 0xFF800000#32) (fun p q : Fin 32 => x0 (ix4 (0 : Fin 1) k ⟨32 + p.val, by omega⟩ ⟨16 + q.val, by omega⟩)) := by
  unfold outMax
  refine (canon_row13 _ _ _ _ _ _ _ _ _ _ _ _ _ _ _ k).trans ?_
  refine (payMax13_apply _ k).trans ?_
  refine congrArg (foldMax2 _) (funext fun p => funext fun q => ?_)
  show x0 ((Rect.unit (s := S1x1024x64x64) ![0, 0, 32, 16] S1x1024x32x32.size inb_S1x1024x64x64_S1x1024x32x32_0_0_32_16).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

/-- Row 14 of the block of window maxima, at channel k: the maximum over the window at offsets (32, 32) of side 32. -/
theorem outMax_row14 (x0 : Vec Ideal S1x1024x64x64 .f32) (k : Fin 1024) :
    outMax (F := Ideal) x0 (ix3 (0 : Fin 1) (14 : Fin 15) k)
      = foldMax2 (Ideal.ofBits .f32 0xFF800000#32) (fun p q : Fin 32 => x0 (ix4 (0 : Fin 1) k ⟨32 + p.val, by omega⟩ ⟨32 + q.val, by omega⟩)) := by
  unfold outMax
  refine (canon_row14 _ _ _ _ _ _ _ _ _ _ _ _ _ _ _ k).trans ?_
  refine (payMax14_apply _ k).trans ?_
  refine congrArg (foldMax2 _) (funext fun p => funext fun q => ?_)
  show x0 ((Rect.unit (s := S1x1024x64x64) ![0, 0, 32, 32] S1x1024x32x32.size inb_S1x1024x64x64_S1x1024x32x32_0_0_32_32).emb (ix4 (0 : Fin 1) k p q)) = _
  refine congrArg x0 ?_
  funext ax; apply Fin.ext
  match ax with
  | ⟨0, _⟩ => simp [Rect.emb_apply, ix4]
  | ⟨1, _⟩ => simp [Rect.emb_apply, ix4]
  | ⟨2, _⟩ => simp [Rect.emb_apply, ix4]
  | ⟨3, _⟩ => simp [Rect.emb_apply, ix4]

end Cert.KernelIdeal.Frame

end
-- ==== Proof.RefRun.lean ====
/-
  The reference program as a line of host operations, and its run.

  The reference is straight-line: a prelude that sums the argument over channels, takes the mean of that image and
  thresholds the image against it; then one stretch per square window, each computing the window's channel-wise
  maxima, their Euclidean norm over channels, the window's weight from the thresholded image, and adding the
  weighted, normalised maxima to a running total; and a final reshape.  The operations are listed stretch by
  stretch (the first stretch holds the prelude and the two whole-image windows), the entry function is the
  sequence of the flattened list, and every weakly fair execution ends with each buffer at the fold of the
  operations over the launch contents — in particular the argument, which no operation writes, unchanged.
-/
import proofs.«167076_j27771258536050_1_alg».proof.Proof.Gen.ReferenceIdeal
import Idealize.ShloMosaic.Lib.StableHlo.Run
import proofs.«167076_j27771258536050_1_alg».proof.Proof.LibAfterAppend

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 2000000 in
abbrev opsA0 : List (HloOp τ sig (Elt F)) :=
  [ nullary main_cst (constant S_ .f32 0x00000000#32),
    binary main_arg0 main_cst main_v0 ((fun x v => Host.reduceAdd x v reducesTo_S16x1024x64x64_S16x64x64_d1 h_S_) : (⟨S16x1024x64x64, .f32⟩ : BufTy).Contents (Elt F) → (⟨S_, .f32⟩ : BufTy).Contents (Elt F) → (⟨S16x64x64, .f32⟩ : BufTy).Contents (Elt F)),
    nullary main_cst_0 (constant S_ .f32 0x00000000#32),
    binary main_v0 main_cst_0 main_v1 ((fun x v => Host.reduceAdd x v reducesTo_S16x64x64_S_d0_1_2 h_S_) : (⟨S16x64x64, .f32⟩ : BufTy).Contents (Elt F) → (⟨S_, .f32⟩ : BufTy).Contents (Elt F) → (⟨S_, .f32⟩ : BufTy).Contents (Elt F)),
    nullary main_cst_1 (constant S_ .f32 0x47800000#32),
    binary main_v1 main_cst_1 main_v2 (Host.divf : (⟨S_, .f32⟩ : BufTy).Contents (Elt F) → (⟨S_, .f32⟩ : BufTy).Contents (Elt F) → (⟨S_, .f32⟩ : BufTy).Contents (Elt F)),
    unary main_v2 main_v3 (broadcastInDim S16x64x64 ![] bcast_S_S16x64x64 : (⟨S_, .f32⟩ : BufTy).Contents (Elt F) → (⟨S16x64x64, .f32⟩ : BufTy).Contents (Elt F)),
    binary main_v0 main_v3 main_v4 (subf : (⟨S16x64x64, .f32⟩ : BufTy).Contents (Elt F) → (⟨S16x64x64, .f32⟩ : BufTy).Contents (Elt F) → (⟨S16x64x64, .f32⟩ : BufTy).Contents (Elt F)),
    nullary main_cst_2 (constant S_ .f32 0x00000000#32),
    unary main_cst_2 main_v5 (broadcastInDim S16x64x64 ![] bcast_S_S16x64x64 : (⟨S_, .f32⟩ : BufTy).Contents (Elt F) → (⟨S16x64x64, .f32⟩ : BufTy).Contents (Elt F)),
    binary main_v4 main_v5 main_v6 (cmpf .ogt : (⟨S16x64x64, .f32⟩ : BufTy).Contents (Elt F) → (⟨S16x64x64, .f32⟩ : BufTy).Contents (Elt F) → (⟨S16x64x64, .i1⟩ : BufTy).Contents (Elt F)),
    nullary main_cst_3 (constant S_ .f32 0xFF800000#32),
    binary main_arg0 main_cst_3 main_v7 ((fun x v => Host.reduce FloatOps.maximumf x v reducesTo_S16x1024x64x64_S16x1024_d2_3 h_S_) : (⟨S16x1024x64x64, .f32⟩ : BufTy).Contents (Elt F) → (⟨S_, .f32⟩ : BufTy).Contents (Elt F) → (⟨S16x1024, .f32⟩ : BufTy).Contents (Elt F)),
    unary main_v6 main_v8 ((extui 32 · natLt_1_32) : (⟨S16x64x64, .i1⟩ : BufTy).Contents (Elt F) → (⟨S16x64x64, .i32⟩ : BufTy).Contents (Elt F)),
    nullary main_c (constantI S_ 32 0#32),
    binary main_v8 main_c main_v9 ((fun x v => Host.reduce IntOp.addi x v reducesTo_S16x64x64_S_d0_1_2 h_S_) : (⟨S16x64x64, .i32⟩ : BufTy).Contents (Elt F) → (⟨S_, .i32⟩ : BufTy).Contents (Elt F) → (⟨S_, .i32⟩ : BufTy).Contents (Elt F)),
    unary main_v9 main_v10 (sitofp .f32 : (⟨S_, .i32⟩ : BufTy).Contents (Elt F) → (⟨S_, .f32⟩ : BufTy).Contents (Elt F)),
    nullary main_cst_4 (constant S_ .f32 0x45800000#32),
    binary main_v10 main_cst_4 main_v11 (Host.divf : (⟨S_, .f32⟩ : BufTy).Contents (Elt F) → (⟨S_, .f32⟩ : BufTy).Contents (Elt F) → (⟨S_, .f32⟩ : BufTy).Contents (Elt F)),
    nullary main_cst_5 (constant S_ .f32 0x3EAAAAAB#32),
    binary main_v11 main_cst_5 main_v12 (cmpf .ole : (⟨S_, .f32⟩ : BufTy).Contents (Elt F) → (⟨S_, .f32⟩ : BufTy).Contents (Elt F) → (⟨S_, .i1⟩ : BufTy).Contents (Elt F)),
    nullary main_cst_6 (constant S_ .f32 0x00000000#32),
    TRef.ternary (TRef.of (T := ⟨S_, .i1⟩) main_v12) (TRef.of (T := ⟨S_, .f32⟩) main_cst_6) (TRef.of (T := ⟨S_, .f32⟩) main_v11) (TRef.of (T := ⟨S_, .f32⟩) main_v13) select ]
theorem opsA0_sub : (opsA0 : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., binary_bufs_sub .., nullary_bufs_sub .., unary_bufs_sub .., binary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA0_fresh : (opsA0 : List (HloOp τ sig (Elt F))).Forall fun op => op.fresh = ∅ := by
  simp only [List.Forall]; repeat' constructor
theorem opsA0_keeps : (opsA0 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB0 : List (HloOp τ sig (Elt F)) :=
  [ TRef.binary (TRef.of (T := ⟨S16x1024, .f32⟩) main_v7) (TRef.of (T := ⟨S16x1024, .f32⟩) main_v7) (TRef.of (T := ⟨S16x1024, .f32⟩) main_call1_v0) mulf,
    TRef.nullary (TRef.of (T := ⟨S_, .f32⟩) main_call1_cst) (constant S_ .f32 0x00000000#32),
    TRef.binary (TRef.of (T := ⟨S16x1024, .f32⟩) main_call1_v0) (TRef.of (T := ⟨S_, .f32⟩) main_call1_cst) (TRef.of (T := ⟨S16, .f32⟩) main_call1_v1) (fun x v => Host.reduceAdd x v reducesTo_S16x1024_S16_d1 h_S_),
    TRef.unary (TRef.of (T := ⟨S16, .f32⟩) main_call1_v1) (TRef.of (T := ⟨S16x1, .f32⟩) main_call1_v2) (broadcastInDim S16x1 ![0] bcast_S16_S16x1_0),
    TRef.unary (TRef.of (T := ⟨S16x1, .f32⟩) main_call1_v2) (TRef.of (T := ⟨S16x1, .f32⟩) main_v14) Host.sqrt,
    nullary main_cst_7 (constant S_ .f32 0x358637BD#32),
    unary main_cst_7 main_v15 (broadcastInDim S16x1 ![] bcast_S_S16x1 : (⟨S_, .f32⟩ : BufTy).Contents (Elt F) → (⟨S16x1, .f32⟩ : BufTy).Contents (Elt F)),
    binary main_v14 main_v15 main_v16 (addf : (⟨S16x1, .f32⟩ : BufTy).Contents (Elt F) → (⟨S16x1, .f32⟩ : BufTy).Contents (Elt F) → (⟨S16x1, .f32⟩ : BufTy).Contents (Elt F)),
    unary main_v16 main_v17 (broadcastInDim S16x1024 ![0, 1] bcast_S16x1_S16x1024_0_1 : (⟨S16x1, .f32⟩ : BufTy).Contents (Elt F) → (⟨S16x1024, .f32⟩ : BufTy).Contents (Elt F)),
    binary main_v7 main_v17 main_v18 (Host.divf : (⟨S16x1024, .f32⟩ : BufTy).Contents (Elt F) → (⟨S16x1024, .f32⟩ : BufTy).Contents (Elt F) → (⟨S16x1024, .f32⟩ : BufTy).Contents (Elt F)),
    unary main_v13 main_v19 (broadcastInDim S16x1024 ![] bcast_S_S16x1024 : (⟨S_, .f32⟩ : BufTy).Contents (Elt F) → (⟨S16x1024, .f32⟩ : BufTy).Contents (Elt F)),
    binary main_v18 main_v19 main_v20 (mulf : (⟨S16x1024, .f32⟩ : BufTy).Contents (Elt F) → (⟨S16x1024, .f32⟩ : BufTy).Contents (Elt F) → (⟨S16x1024, .f32⟩ : BufTy).Contents (Elt F)) ]
theorem opsB0_sub : (opsB0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub ..⟩
theorem opsB0_fresh : (opsB0 : List (HloOp τ sig (Elt F))).Forall fun op => op.fresh = ∅ := by
  simp only [List.Forall]; repeat' constructor
theorem opsB0_keeps : (opsB0 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA1 : List (HloOp τ sig (Elt F)) :=
  [ nullary main_cst_8 (constant S_ .f32 0xFF800000#32),
    binary main_arg0 main_cst_8 main_v21 ((fun x v => Host.reduce FloatOps.maximumf x v reducesTo_S16x1024x64x64_S16x1024_d2_3 h_S_) : (⟨S16x1024x64x64, .f32⟩ : BufTy).Contents (Elt F) → (⟨S_, .f32⟩ : BufTy).Contents (Elt F) → (⟨S16x1024, .f32⟩ : BufTy).Contents (Elt F)),
    unary main_v6 main_v22 ((extui 32 · natLt_1_32) : (⟨S16x64x64, .i1⟩ : BufTy).Contents (Elt F) → (⟨S16x64x64, .i32⟩ : BufTy).Contents (Elt F)),
    nullary main_c_9 (constantI S_ 32 0#32),
    binary main_v22 main_c_9 main_v23 ((fun x v => Host.reduce IntOp.addi x v reducesTo_S16x64x64_S_d0_1_2 h_S_) : (⟨S16x64x64, .i32⟩ : BufTy).Contents (Elt F) → (⟨S_, .i32⟩ : BufTy).Contents (Elt F) → (⟨S_, .i32⟩ : BufTy).Contents (Elt F)),
    unary main_v23 main_v24 (sitofp .f32 : (⟨S_, .i32⟩ : BufTy).Contents (Elt F) → (⟨S_, .f32⟩ : BufTy).Contents (Elt F)),
    nullary main_cst_10 (constant S_ .f32 0x45800000#32),
    binary main_v24 main_cst_10 main_v25 (Host.divf : (⟨S_, .f32⟩ : BufTy).Contents (Elt F) → (⟨S_, .f32⟩ : BufTy).Contents (Elt F) → (⟨S_, .f32⟩ : BufTy).Contents (Elt F)),
    nullary main_cst_11 (constant S_ .f32 0x3EAAAAAB#32),
    binary main_v25 main_cst_11 main_v26 (cmpf .ole : (⟨S_, .f32⟩ : BufTy).Contents (Elt F) → (⟨S_, .f32⟩ : BufTy).Contents (Elt F) → (⟨S_, .i1⟩ : BufTy).Contents (Elt F)),
    nullary main_cst_12 (constant S_ .f32 0x00000000#32),
    TRef.ternary (TRef.of (T := ⟨S_, .i1⟩) main_v26) (TRef.of (T := ⟨S_, .f32⟩) main_cst_12) (TRef.of (T := ⟨S_, .f32⟩) main_v25) (TRef.of (T := ⟨S_, .f32⟩) main_v27) select ]
theorem opsA1_sub : (opsA1 : List (HloOp τ sig (Elt F))).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA1_fresh : (opsA1 : List (HloOp τ sig (Elt F))).Forall fun op => op.fresh = ∅ := by
  simp only [List.Forall]; repeat' constructor
theorem opsA1_keeps : (opsA1 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB1 : List (HloOp τ sig (Elt F)) :=
  [ TRef.binary (TRef.of (T := ⟨S16x1024, .f32⟩) main_v21) (TRef.of (T := ⟨S16x1024, .f32⟩) main_v21) (TRef.of (T := ⟨S16x1024, .f32⟩) main_call3_v0) mulf,
    TRef.nullary (TRef.of (T := ⟨S_, .f32⟩) main_call3_cst) (constant S_ .f32 0x00000000#32),
    TRef.binary (TRef.of (T := ⟨S16x1024, .f32⟩) main_call3_v0) (TRef.of (T := ⟨S_, .f32⟩) main_call3_cst) (TRef.of (T := ⟨S16, .f32⟩) main_call3_v1) (fun x v => Host.reduceAdd x v reducesTo_S16x1024_S16_d1 h_S_),
    TRef.unary (TRef.of (T := ⟨S16, .f32⟩) main_call3_v1) (TRef.of (T := ⟨S16x1, .f32⟩) main_call3_v2) (broadcastInDim S16x1 ![0] bcast_S16_S16x1_0),
    TRef.unary (TRef.of (T := ⟨S16x1, .f32⟩) main_call3_v2) (TRef.of (T := ⟨S16x1, .f32⟩) main_v28) Host.sqrt,
    nullary main_cst_13 (constant S_ .f32 0x358637BD#32),
    unary main_cst_13 main_v29 (broadcastInDim S16x1 ![] bcast_S_S16x1 : (⟨S_, .f32⟩ : BufTy).Contents (Elt F) → (⟨S16x1, .f32⟩ : BufTy).Contents (Elt F)),
    binary main_v28 main_v29 main_v30 (addf : (⟨S16x1, .f32⟩ : BufTy).Contents (Elt F) → (⟨S16x1, .f32⟩ : BufTy).Contents (Elt F) → (⟨S16x1, .f32⟩ : BufTy).Contents (Elt F)),
    unary main_v30 main_v31 (broadcastInDim S16x1024 ![0, 1] bcast_S16x1_S16x1024_0_1 : (⟨S16x1, .f32⟩ : BufTy).Contents (Elt F) → (⟨S16x1024, .f32⟩ : BufTy).Contents (Elt F)),
    binary main_v21 main_v31 main_v32 (Host.divf : (⟨S16x1024, .f32⟩ : BufTy).Contents (Elt F) → (⟨S16x1024, .f32⟩ : BufTy).Contents (Elt F) → (⟨S16x1024, .f32⟩ : BufTy).Contents (Elt F)),
    unary main_v27 main_v33 (broadcastInDim S16x1024 ![] bcast_S_S16x1024 : (⟨S_, .f32⟩ : BufTy).Contents (Elt F) → (⟨S16x1024, .f32⟩ : BufTy).Contents (Elt F)),
    binary main_v32 main_v33 main_v34 (mulf : (⟨S16x1024, .f32⟩ : BufTy).Contents (Elt F) → (⟨S16x1024, .f32⟩ : BufTy).Contents (Elt F) → (⟨S16x1024, .f32⟩ : BufTy).Contents (Elt F)),
    binary main_v20 main_v34 main_v35 (addf : (⟨S16x1024, .f32⟩ : BufTy).Contents (Elt F) → (⟨S16x1024, .f32⟩ : BufTy).Contents (Elt F) → (⟨S16x1024, .f32⟩ : BufTy).Contents (Elt F)) ]
theorem opsB1_sub : (opsB1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB1_fresh : (opsB1 : List (HloOp τ sig (Elt F))).Forall fun op => op.fresh = ∅ := by
  simp only [List.Forall]; repeat' constructor
theorem opsB1_keeps : (opsB1 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA2 : List (HloOp τ sig (Elt F)) :=
  [ unary main_arg0 main_v36 ((extractStridedSlice S16x1024x42x42 ![0, 0, 0, 0] · slices_S16x1024x64x64_S16x1024x42x42_0_0_0_0) : (⟨S16x1024x64x64, .f32⟩ : BufTy).Contents (Elt F) → (⟨S16x1024x42x42, .f32⟩ : BufTy).Contents (Elt F)),
    unary main_v6 main_v37 ((extractStridedSlice S16x42x42 ![0, 0, 0] · slices_S16x64x64_S16x42x42_0_0_0) : (⟨S16x64x64, .i1⟩ : BufTy).Contents (Elt F) → (⟨S16x42x42, .i1⟩ : BufTy).Contents (Elt F)),
    nullary main_cst_14 (constant S_ .f32 0xFF800000#32),
    binary main_v36 main_cst_14 main_v38 ((fun x v => Host.reduce FloatOps.maximumf x v reducesTo_S16x1024x42x42_S16x1024_d2_3 h_S_) : (⟨S16x1024x42x42, .f32⟩ : BufTy).Contents (Elt F) → (⟨S_, .f32⟩ : BufTy).Contents (Elt F) → (⟨S16x1024, .f32⟩ : BufTy).Contents (Elt F)),
    unary main_v37 main_v39 ((extui 32 · natLt_1_32) : (⟨S16x42x42, .i1⟩ : BufTy).Contents (Elt F) → (⟨S16x42x42, .i32⟩ : BufTy).Contents (Elt F)),
    nullary main_c_15 (constantI S_ 32 0#32),
    binary main_v39 main_c_15 main_v40 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    unary main_v40 main_v41 (sitofp .f32 : (⟨S_, .i32⟩ : BufTy).Contents (Elt F) → (⟨S_, .f32⟩ : BufTy).Contents (Elt F)),
    nullary main_cst_16 (constant S_ .f32 0x44DC8000#32),
    binary main_v41 main_cst_16 main_v42 (Host.divf : (⟨S_, .f32⟩ : BufTy).Contents (Elt F) → (⟨S_, .f32⟩ : BufTy).Contents (Elt F) → (⟨S_, .f32⟩ : BufTy).Contents (Elt F)),
    nullary main_cst_17 (constant S_ .f32 0x3EAAAAAB#32),
    binary main_v42 main_cst_17 main_v43 (cmpf .ole : (⟨S_, .f32⟩ : BufTy).Contents (Elt F) → (⟨S_, .f32⟩ : BufTy).Contents (Elt F) → (⟨S_, .i1⟩ : BufTy).Contents (Elt F)),
    nullary main_cst_18 (constant S_ .f32 0x00000000#32),
    TRef.ternary (TRef.of (T := ⟨S_, .i1⟩) main_v43) (TRef.of (T := ⟨S_, .f32⟩) main_cst_18) (TRef.of (T := ⟨S_, .f32⟩) main_v42) (TRef.of (T := ⟨S_, .f32⟩) main_v44) select ]
theorem opsA2_sub : (opsA2 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA2_fresh : (opsA2 : List (HloOp τ sig (Elt F))).Forall fun op => op.fresh = ∅ := by
  simp only [List.Forall]; repeat' constructor
theorem opsA2_keeps : (opsA2 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB2 : List (HloOp τ sig (Elt F)) :=
  [ TRef.binary (TRef.of (T := ⟨S16x1024, .f32⟩) main_v38) (TRef.of (T := ⟨S16x1024, .f32⟩) main_v38) (TRef.of (T := ⟨S16x1024, .f32⟩) main_call5_v0) mulf,
    TRef.nullary (TRef.of (T := ⟨S_, .f32⟩) main_call5_cst) (constant S_ .f32 0x00000000#32),
    TRef.binary (TRef.of (T := ⟨S16x1024, .f32⟩) main_call5_v0) (TRef.of (T := ⟨S_, .f32⟩) main_call5_cst) (TRef.of (T := ⟨S16, .f32⟩) main_call5_v1) (fun x v => Host.reduceAdd x v reducesTo_S16x1024_S16_d1 h_S_),
    TRef.unary (TRef.of (T := ⟨S16, .f32⟩) main_call5_v1) (TRef.of (T := ⟨S16x1, .f32⟩) main_call5_v2) (broadcastInDim S16x1 ![0] bcast_S16_S16x1_0),
    TRef.unary (TRef.of (T := ⟨S16x1, .f32⟩) main_call5_v2) (TRef.of (T := ⟨S16x1, .f32⟩) main_v45) Host.sqrt,
    nullary main_cst_19 (constant S_ .f32 0x358637BD#32),
    unary main_cst_19 main_v46 (broadcastInDim S16x1 ![] bcast_S_S16x1 : (⟨S_, .f32⟩ : BufTy).Contents (Elt F) → (⟨S16x1, .f32⟩ : BufTy).Contents (Elt F)),
    binary main_v45 main_v46 main_v47 (addf : (⟨S16x1, .f32⟩ : BufTy).Contents (Elt F) → (⟨S16x1, .f32⟩ : BufTy).Contents (Elt F) → (⟨S16x1, .f32⟩ : BufTy).Contents (Elt F)),
    unary main_v47 main_v48 (broadcastInDim S16x1024 ![0, 1] bcast_S16x1_S16x1024_0_1 : (⟨S16x1, .f32⟩ : BufTy).Contents (Elt F) → (⟨S16x1024, .f32⟩ : BufTy).Contents (Elt F)),
    binary main_v38 main_v48 main_v49 (Host.divf : (⟨S16x1024, .f32⟩ : BufTy).Contents (Elt F) → (⟨S16x1024, .f32⟩ : BufTy).Contents (Elt F) → (⟨S16x1024, .f32⟩ : BufTy).Contents (Elt F)),
    unary main_v44 main_v50 (broadcastInDim S16x1024 ![] bcast_S_S16x1024 : (⟨S_, .f32⟩ : BufTy).Contents (Elt F) → (⟨S16x1024, .f32⟩ : BufTy).Contents (Elt F)),
    binary main_v49 main_v50 main_v51 (mulf : (⟨S16x1024, .f32⟩ : BufTy).Contents (Elt F) → (⟨S16x1024, .f32⟩ : BufTy).Contents (Elt F) → (⟨S16x1024, .f32⟩ : BufTy).Contents (Elt F)),
    binary main_v35 main_v51 main_v52 (addf : (⟨S16x1024, .f32⟩ : BufTy).Contents (Elt F) → (⟨S16x1024, .f32⟩ : BufTy).Contents (Elt F) → (⟨S16x1024, .f32⟩ : BufTy).Contents (Elt F)) ]
theorem opsB2_sub : (opsB2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB2_fresh : (opsB2 : List (HloOp τ sig (Elt F))).Forall fun op => op.fresh = ∅ := by
  simp only [List.Forall]; repeat' constructor
theorem opsB2_keeps : (opsB2 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA3 : List (HloOp τ sig (Elt F)) :=
  [ unary main_arg0 main_v53 ((extractStridedSlice S16x1024x42x42 ![0, 0, 0, 22] · slices_S16x1024x64x64_S16x1024x42x42_0_0_0_22) : (⟨S16x1024x64x64, .f32⟩ : BufTy).Contents (Elt F) → (⟨S16x1024x42x42, .f32⟩ : BufTy).Contents (Elt F)),
    unary main_v6 main_v54 ((extractStridedSlice S16x42x42 ![0, 0, 22] · slices_S16x64x64_S16x42x42_0_0_22) : (⟨S16x64x64, .i1⟩ : BufTy).Contents (Elt F) → (⟨S16x42x42, .i1⟩ : BufTy).Contents (Elt F)),
    nullary main_cst_20 (constant S_ .f32 0xFF800000#32),
    binary main_v53 main_cst_20 main_v55 ((fun x v => Host.reduce FloatOps.maximumf x v reducesTo_S16x1024x42x42_S16x1024_d2_3 h_S_) : (⟨S16x1024x42x42, .f32⟩ : BufTy).Contents (Elt F) → (⟨S_, .f32⟩ : BufTy).Contents (Elt F) → (⟨S16x1024, .f32⟩ : BufTy).Contents (Elt F)),
    unary main_v54 main_v56 ((extui 32 · natLt_1_32) : (⟨S16x42x42, .i1⟩ : BufTy).Contents (Elt F) → (⟨S16x42x42, .i32⟩ : BufTy).Contents (Elt F)),
    nullary main_c_21 (constantI S_ 32 0#32),
    binary main_v56 main_c_21 main_v57 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    unary main_v57 main_v58 (sitofp .f32 : (⟨S_, .i32⟩ : BufTy).Contents (Elt F) → (⟨S_, .f32⟩ : BufTy).Contents (Elt F)),
    nullary main_cst_22 (constant S_ .f32 0x44DC8000#32),
    binary main_v58 main_cst_22 main_v59 (Host.divf : (⟨S_, .f32⟩ : BufTy).Contents (Elt F) → (⟨S_, .f32⟩ : BufTy).Contents (Elt F) → (⟨S_, .f32⟩ : BufTy).Contents (Elt F)),
    nullary main_cst_23 (constant S_ .f32 0x3EAAAAAB#32),
    binary main_v59 main_cst_23 main_v60 (cmpf .ole : (⟨S_, .f32⟩ : BufTy).Contents (Elt F) → (⟨S_, .f32⟩ : BufTy).Contents (Elt F) → (⟨S_, .i1⟩ : BufTy).Contents (Elt F)),
    nullary main_cst_24 (constant S_ .f32 0x00000000#32),
    TRef.ternary (TRef.of (T := ⟨S_, .i1⟩) main_v60) (TRef.of (T := ⟨S_, .f32⟩) main_cst_24) (TRef.of (T := ⟨S_, .f32⟩) main_v59) (TRef.of (T := ⟨S_, .f32⟩) main_v61) select ]
theorem opsA3_sub : (opsA3 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA3_fresh : (opsA3 : List (HloOp τ sig (Elt F))).Forall fun op => op.fresh = ∅ := by
  simp only [List.Forall]; repeat' constructor
theorem opsA3_keeps : (opsA3 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB3 : List (HloOp τ sig (Elt F)) :=
  [ TRef.binary (TRef.of (T := ⟨S16x1024, .f32⟩) main_v55) (TRef.of (T := ⟨S16x1024, .f32⟩) main_v55) (TRef.of (T := ⟨S16x1024, .f32⟩) main_call7_v0) mulf,
    TRef.nullary (TRef.of (T := ⟨S_, .f32⟩) main_call7_cst) (constant S_ .f32 0x00000000#32),
    TRef.binary (TRef.of (T := ⟨S16x1024, .f32⟩) main_call7_v0) (TRef.of (T := ⟨S_, .f32⟩) main_call7_cst) (TRef.of (T := ⟨S16, .f32⟩) main_call7_v1) (fun x v => Host.reduceAdd x v reducesTo_S16x1024_S16_d1 h_S_),
    TRef.unary (TRef.of (T := ⟨S16, .f32⟩) main_call7_v1) (TRef.of (T := ⟨S16x1, .f32⟩) main_call7_v2) (broadcastInDim S16x1 ![0] bcast_S16_S16x1_0),
    TRef.unary (TRef.of (T := ⟨S16x1, .f32⟩) main_call7_v2) (TRef.of (T := ⟨S16x1, .f32⟩) main_v62) Host.sqrt,
    nullary main_cst_25 (constant S_ .f32 0x358637BD#32),
    unary main_cst_25 main_v63 (broadcastInDim S16x1 ![] bcast_S_S16x1 : (⟨S_, .f32⟩ : BufTy).Contents (Elt F) → (⟨S16x1, .f32⟩ : BufTy).Contents (Elt F)),
    binary main_v62 main_v63 main_v64 (addf : (⟨S16x1, .f32⟩ : BufTy).Contents (Elt F) → (⟨S16x1, .f32⟩ : BufTy).Contents (Elt F) → (⟨S16x1, .f32⟩ : BufTy).Contents (Elt F)),
    unary main_v64 main_v65 (broadcastInDim S16x1024 ![0, 1] bcast_S16x1_S16x1024_0_1 : (⟨S16x1, .f32⟩ : BufTy).Contents (Elt F) → (⟨S16x1024, .f32⟩ : BufTy).Contents (Elt F)),
    binary main_v55 main_v65 main_v66 (Host.divf : (⟨S16x1024, .f32⟩ : BufTy).Contents (Elt F) → (⟨S16x1024, .f32⟩ : BufTy).Contents (Elt F) → (⟨S16x1024, .f32⟩ : BufTy).Contents (Elt F)),
    unary main_v61 main_v67 (broadcastInDim S16x1024 ![] bcast_S_S16x1024 : (⟨S_, .f32⟩ : BufTy).Contents (Elt F) → (⟨S16x1024, .f32⟩ : BufTy).Contents (Elt F)),
    binary main_v66 main_v67 main_v68 (mulf : (⟨S16x1024, .f32⟩ : BufTy).Contents (Elt F) → (⟨S16x1024, .f32⟩ : BufTy).Contents (Elt F) → (⟨S16x1024, .f32⟩ : BufTy).Contents (Elt F)),
    binary main_v52 main_v68 main_v69 (addf : (⟨S16x1024, .f32⟩ : BufTy).Contents (Elt F) → (⟨S16x1024, .f32⟩ : BufTy).Contents (Elt F) → (⟨S16x1024, .f32⟩ : BufTy).Contents (Elt F)) ]
theorem opsB3_sub : (opsB3 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB3_fresh : (opsB3 : List (HloOp τ sig (Elt F))).Forall fun op => op.fresh = ∅ := by
  simp only [List.Forall]; repeat' constructor
theorem opsB3_keeps : (opsB3 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA4 : List (HloOp τ sig (Elt F)) :=
  [ unary main_arg0 main_v70 ((extractStridedSlice S16x1024x42x42 ![0, 0, 22, 0] · slices_S16x1024x64x64_S16x1024x42x42_0_0_22_0) : (⟨S16x1024x64x64, .f32⟩ : BufTy).Contents (Elt F) → (⟨S16x1024x42x42, .f32⟩ : BufTy).Contents (Elt F)),
    unary main_v6 main_v71 ((extractStridedSlice S16x42x42 ![0, 22, 0] · slices_S16x64x64_S16x42x42_0_22_0) : (⟨S16x64x64, .i1⟩ : BufTy).Contents (Elt F) → (⟨S16x42x42, .i1⟩ : BufTy).Contents (Elt F)),
    nullary main_cst_26 (constant S_ .f32 0xFF800000#32),
    binary main_v70 main_cst_26 main_v72 ((fun x v => Host.reduce FloatOps.maximumf x v reducesTo_S16x1024x42x42_S16x1024_d2_3 h_S_) : (⟨S16x1024x42x42, .f32⟩ : BufTy).Contents (Elt F) → (⟨S_, .f32⟩ : BufTy).Contents (Elt F) → (⟨S16x1024, .f32⟩ : BufTy).Contents (Elt F)),
    unary main_v71 main_v73 ((extui 32 · natLt_1_32) : (⟨S16x42x42, .i1⟩ : BufTy).Contents (Elt F) → (⟨S16x42x42, .i32⟩ : BufTy).Contents (Elt F)),
    nullary main_c_27 (constantI S_ 32 0#32),
    binary main_v73 main_c_27 main_v74 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    unary main_v74 main_v75 (sitofp .f32 : (⟨S_, .i32⟩ : BufTy).Contents (Elt F) → (⟨S_, .f32⟩ : BufTy).Contents (Elt F)),
    nullary main_cst_28 (constant S_ .f32 0x44DC8000#32),
    binary main_v75 main_cst_28 main_v76 (Host.divf : (⟨S_, .f32⟩ : BufTy).Contents (Elt F) → (⟨S_, .f32⟩ : BufTy).Contents (Elt F) → (⟨S_, .f32⟩ : BufTy).Contents (Elt F)),
    nullary main_cst_29 (constant S_ .f32 0x3EAAAAAB#32),
    binary main_v76 main_cst_29 main_v77 (cmpf .ole : (⟨S_, .f32⟩ : BufTy).Contents (Elt F) → (⟨S_, .f32⟩ : BufTy).Contents (Elt F) → (⟨S_, .i1⟩ : BufTy).Contents (Elt F)),
    nullary main_cst_30 (constant S_ .f32 0x00000000#32),
    TRef.ternary (TRef.of (T := ⟨S_, .i1⟩) main_v77) (TRef.of (T := ⟨S_, .f32⟩) main_cst_30) (TRef.of (T := ⟨S_, .f32⟩) main_v76) (TRef.of (T := ⟨S_, .f32⟩) main_v78) select ]
theorem opsA4_sub : (opsA4 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA4_fresh : (opsA4 : List (HloOp τ sig (Elt F))).Forall fun op => op.fresh = ∅ := by
  simp only [List.Forall]; repeat' constructor
theorem opsA4_keeps : (opsA4 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB4 : List (HloOp τ sig (Elt F)) :=
  [ TRef.binary (TRef.of (T := ⟨S16x1024, .f32⟩) main_v72) (TRef.of (T := ⟨S16x1024, .f32⟩) main_v72) (TRef.of (T := ⟨S16x1024, .f32⟩) main_call9_v0) mulf,
    TRef.nullary (TRef.of (T := ⟨S_, .f32⟩) main_call9_cst) (constant S_ .f32 0x00000000#32),
    TRef.binary (TRef.of (T := ⟨S16x1024, .f32⟩) main_call9_v0) (TRef.of (T := ⟨S_, .f32⟩) main_call9_cst) (TRef.of (T := ⟨S16, .f32⟩) main_call9_v1) (fun x v => Host.reduceAdd x v reducesTo_S16x1024_S16_d1 h_S_),
    TRef.unary (TRef.of (T := ⟨S16, .f32⟩) main_call9_v1) (TRef.of (T := ⟨S16x1, .f32⟩) main_call9_v2) (broadcastInDim S16x1 ![0] bcast_S16_S16x1_0),
    TRef.unary (TRef.of (T := ⟨S16x1, .f32⟩) main_call9_v2) (TRef.of (T := ⟨S16x1, .f32⟩) main_v79) Host.sqrt,
    nullary main_cst_31 (constant S_ .f32 0x358637BD#32),
    unary main_cst_31 main_v80 (broadcastInDim S16x1 ![] bcast_S_S16x1 : (⟨S_, .f32⟩ : BufTy).Contents (Elt F) → (⟨S16x1, .f32⟩ : BufTy).Contents (Elt F)),
    binary main_v79 main_v80 main_v81 (addf : (⟨S16x1, .f32⟩ : BufTy).Contents (Elt F) → (⟨S16x1, .f32⟩ : BufTy).Contents (Elt F) → (⟨S16x1, .f32⟩ : BufTy).Contents (Elt F)),
    unary main_v81 main_v82 (broadcastInDim S16x1024 ![0, 1] bcast_S16x1_S16x1024_0_1 : (⟨S16x1, .f32⟩ : BufTy).Contents (Elt F) → (⟨S16x1024, .f32⟩ : BufTy).Contents (Elt F)),
    binary main_v72 main_v82 main_v83 (Host.divf : (⟨S16x1024, .f32⟩ : BufTy).Contents (Elt F) → (⟨S16x1024, .f32⟩ : BufTy).Contents (Elt F) → (⟨S16x1024, .f32⟩ : BufTy).Contents (Elt F)),
    unary main_v78 main_v84 (broadcastInDim S16x1024 ![] bcast_S_S16x1024 : (⟨S_, .f32⟩ : BufTy).Contents (Elt F) → (⟨S16x1024, .f32⟩ : BufTy).Contents (Elt F)),
    binary main_v83 main_v84 main_v85 (mulf : (⟨S16x1024, .f32⟩ : BufTy).Contents (Elt F) → (⟨S16x1024, .f32⟩ : BufTy).Contents (Elt F) → (⟨S16x1024, .f32⟩ : BufTy).Contents (Elt F)),
    binary main_v69 main_v85 main_v86 (addf : (⟨S16x1024, .f32⟩ : BufTy).Contents (Elt F) → (⟨S16x1024, .f32⟩ : BufTy).Contents (Elt F) → (⟨S16x1024, .f32⟩ : BufTy).Contents (Elt F)) ]
theorem opsB4_sub : (opsB4 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB4_fresh : (opsB4 : List (HloOp τ sig (Elt F))).Forall fun op => op.fresh = ∅ := by
  simp only [List.Forall]; repeat' constructor
theorem opsB4_keeps : (opsB4 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA5 : List (HloOp τ sig (Elt F)) :=
  [ unary main_arg0 main_v87 ((extractStridedSlice S16x1024x42x42 ![0, 0, 22, 22] · slices_S16x1024x64x64_S16x1024x42x42_0_0_22_22) : (⟨S16x1024x64x64, .f32⟩ : BufTy).Contents (Elt F) → (⟨S16x1024x42x42, .f32⟩ : BufTy).Contents (Elt F)),
    unary main_v6 main_v88 ((extractStridedSlice S16x42x42 ![0, 22, 22] · slices_S16x64x64_S16x42x42_0_22_22) : (⟨S16x64x64, .i1⟩ : BufTy).Contents (Elt F) → (⟨S16x42x42, .i1⟩ : BufTy).Contents (Elt F)),
    nullary main_cst_32 (constant S_ .f32 0xFF800000#32),
    binary main_v87 main_cst_32 main_v89 ((fun x v => Host.reduce FloatOps.maximumf x v reducesTo_S16x1024x42x42_S16x1024_d2_3 h_S_) : (⟨S16x1024x42x42, .f32⟩ : BufTy).Contents (Elt F) → (⟨S_, .f32⟩ : BufTy).Contents (Elt F) → (⟨S16x1024, .f32⟩ : BufTy).Contents (Elt F)),
    unary main_v88 main_v90 ((extui 32 · natLt_1_32) : (⟨S16x42x42, .i1⟩ : BufTy).Contents (Elt F) → (⟨S16x42x42, .i32⟩ : BufTy).Contents (Elt F)),
    nullary main_c_33 (constantI S_ 32 0#32),
    binary main_v90 main_c_33 main_v91 ((fun x v => Host.reduce IntOp.addi x v reducesTo_S16x42x42_S_d0_1_2 h_S_) : (⟨S16x42x42, .i32⟩ : BufTy).Contents (Elt F) → (⟨S_, .i32⟩ : BufTy).Contents (Elt F) → (⟨S_, .i32⟩ : BufTy).Contents (Elt F)),
    unary main_v91 main_v92 (sitofp .f32 : (⟨S_, .i32⟩ : BufTy).Contents (Elt F) → (⟨S_, .f32⟩ : BufTy).Contents (Elt F)),
    nullary main_cst_34 (constant S_ .f32 0x44DC8000#32),
    binary main_v92 main_cst_34 main_v93 (Host.divf : (⟨S_, .f32⟩ : BufTy).Contents (Elt F) → (⟨S_, .f32⟩ : BufTy).Contents (Elt F) → (⟨S_, .f32⟩ : BufTy).Contents (Elt F)),
    nullary main_cst_35 (constant S_ .f32 0x3EAAAAAB#32),
    binary main_v93 main_cst_35 main_v94 (cmpf .ole : (⟨S_, .f32⟩ : BufTy).Contents (Elt F) → (⟨S_, .f32⟩ : BufTy).Contents (Elt F) → (⟨S_, .i1⟩ : BufTy).Contents (Elt F)),
    nullary main_cst_36 (constant S_ .f32 0x00000000#32),
    TRef.ternary (TRef.of (T := ⟨S_, .i1⟩) main_v94) (TRef.of (T := ⟨S_, .f32⟩) main_cst_36) (TRef.of (T := ⟨S_, .f32⟩) main_v93) (TRef.of (T := ⟨S_, .f32⟩) main_v95) select ]
theorem opsA5_sub : (opsA5 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA5_fresh : (opsA5 : List (HloOp τ sig (Elt F))).Forall fun op => op.fresh = ∅ := by
  simp only [List.Forall]; repeat' constructor
theorem opsA5_keeps : (opsA5 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB5 : List (HloOp τ sig (Elt F)) :=
  [ TRef.binary (TRef.of (T := ⟨S16x1024, .f32⟩) main_v89) (TRef.of (T := ⟨S16x1024, .f32⟩) main_v89) (TRef.of (T := ⟨S16x1024, .f32⟩) main_call11_v0) mulf,
    TRef.nullary (TRef.of (T := ⟨S_, .f32⟩) main_call11_cst) (constant S_ .f32 0x00000000#32),
    TRef.binary (TRef.of (T := ⟨S16x1024, .f32⟩) main_call11_v0) (TRef.of (T := ⟨S_, .f32⟩) main_call11_cst) (TRef.of (T := ⟨S16, .f32⟩) main_call11_v1) (fun x v => Host.reduceAdd x v reducesTo_S16x1024_S16_d1 h_S_),
    TRef.unary (TRef.of (T := ⟨S16, .f32⟩) main_call11_v1) (TRef.of (T := ⟨S16x1, .f32⟩) main_call11_v2) (broadcastInDim S16x1 ![0] bcast_S16_S16x1_0),
    TRef.unary (TRef.of (T := ⟨S16x1, .f32⟩) main_call11_v2) (TRef.of (T := ⟨S16x1, .f32⟩) main_v96) Host.sqrt,
    nullary main_cst_37 (constant S_ .f32 0x358637BD#32),
    unary main_cst_37 main_v97 (broadcastInDim S16x1 ![] bcast_S_S16x1 : (⟨S_, .f32⟩ : BufTy).Contents (Elt F) → (⟨S16x1, .f32⟩ : BufTy).Contents (Elt F)),
    binary main_v96 main_v97 main_v98 (addf : (⟨S16x1, .f32⟩ : BufTy).Contents (Elt F) → (⟨S16x1, .f32⟩ : BufTy).Contents (Elt F) → (⟨S16x1, .f32⟩ : BufTy).Contents (Elt F)),
    unary main_v98 main_v99 (broadcastInDim S16x1024 ![0, 1] bcast_S16x1_S16x1024_0_1 : (⟨S16x1, .f32⟩ : BufTy).Contents (Elt F) → (⟨S16x1024, .f32⟩ : BufTy).Contents (Elt F)),
    binary main_v89 main_v99 main_v100 (Host.divf : (⟨S16x1024, .f32⟩ : BufTy).Contents (Elt F) → (⟨S16x1024, .f32⟩ : BufTy).Contents (Elt F) → (⟨S16x1024, .f32⟩ : BufTy).Contents (Elt F)),
    unary main_v95 main_v101 (broadcastInDim S16x1024 ![] bcast_S_S16x1024 : (⟨S_, .f32⟩ : BufTy).Contents (Elt F) → (⟨S16x1024, .f32⟩ : BufTy).Contents (Elt F)),
    binary main_v100 main_v101 main_v102 (mulf : (⟨S16x1024, .f32⟩ : BufTy).Contents (Elt F) → (⟨S16x1024, .f32⟩ : BufTy).Contents (Elt F) → (⟨S16x1024, .f32⟩ : BufTy).Contents (Elt F)),
    binary main_v86 main_v102 main_v103 (addf : (⟨S16x1024, .f32⟩ : BufTy).Contents (Elt F) → (⟨S16x1024, .f32⟩ : BufTy).Contents (Elt F) → (⟨S16x1024, .f32⟩ : BufTy).Contents (Elt F)) ]
theorem opsB5_sub : (opsB5 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB5_fresh : (opsB5 : List (HloOp τ sig (Elt F))).Forall fun op => op.fresh = ∅ := by
  simp only [List.Forall]; repeat' constructor
theorem opsB5_keeps : (opsB5 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA6 : List (HloOp τ sig (Elt F)) :=
  [ unary main_arg0 main_v104 ((extractStridedSlice S16x1024x32x32 ![0, 0, 0, 0] · slices_S16x1024x64x64_S16x1024x32x32_0_0_0_0) : (⟨S16x1024x64x64, .f32⟩ : BufTy).Contents (Elt F) → (⟨S16x1024x32x32, .f32⟩ : BufTy).Contents (Elt F)),
    unary main_v6 main_v105 ((extractStridedSlice S16x32x32 ![0, 0, 0] · slices_S16x64x64_S16x32x32_0_0_0) : (⟨S16x64x64, .i1⟩ : BufTy).Contents (Elt F) → (⟨S16x32x32, .i1⟩ : BufTy).Contents (Elt F)),
    nullary main_cst_38 (constant S_ .f32 0xFF800000#32),
    binary main_v104 main_cst_38 main_v106 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v105 main_v107 ((extui 32 · natLt_1_32) : (⟨S16x32x32, .i1⟩ : BufTy).Contents (Elt F) → (⟨S16x32x32, .i32⟩ : BufTy).Contents (Elt F)),
    nullary main_c_39 (constantI S_ 32 0#32),
    binary main_v107 main_c_39 main_v108 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v108 main_v109 (sitofp .f32 : (⟨S_, .i32⟩ : BufTy).Contents (Elt F) → (⟨S_, .f32⟩ : BufTy).Contents (Elt F)),
    nullary main_cst_40 (constant S_ .f32 0x44800000#32),
    binary main_v109 main_cst_40 main_v110 (Host.divf : (⟨S_, .f32⟩ : BufTy).Contents (Elt F) → (⟨S_, .f32⟩ : BufTy).Contents (Elt F) → (⟨S_, .f32⟩ : BufTy).Contents (Elt F)),
    nullary main_cst_41 (constant S_ .f32 0x3EAAAAAB#32),
    binary main_v110 main_cst_41 main_v111 (cmpf .ole : (⟨S_, .f32⟩ : BufTy).Contents (Elt F) → (⟨S_, .f32⟩ : BufTy).Contents (Elt F) → (⟨S_, .i1⟩ : BufTy).Contents (Elt F)),
    nullary main_cst_42 (constant S_ .f32 0x00000000#32),
    TRef.ternary (TRef.of (T := ⟨S_, .i1⟩) main_v111) (TRef.of (T := ⟨S_, .f32⟩) main_cst_42) (TRef.of (T := ⟨S_, .f32⟩) main_v110) (TRef.of (T := ⟨S_, .f32⟩) main_v112) select ]
theorem opsA6_sub : (opsA6 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA6_fresh : (opsA6 : List (HloOp τ sig (Elt F))).Forall fun op => op.fresh = ∅ := by
  simp only [List.Forall]; repeat' constructor
theorem opsA6_keeps : (opsA6 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB6 : List (HloOp τ sig (Elt F)) :=
  [ TRef.binary (TRef.of (T := ⟨S16x1024, .f32⟩) main_v106) (TRef.of (T := ⟨S16x1024, .f32⟩) main_v106) (TRef.of (T := ⟨S16x1024, .f32⟩) main_call13_v0) mulf,
    TRef.nullary (TRef.of (T := ⟨S_, .f32⟩) main_call13_cst) (constant S_ .f32 0x00000000#32),
    TRef.binary (TRef.of (T := ⟨S16x1024, .f32⟩) main_call13_v0) (TRef.of (T := ⟨S_, .f32⟩) main_call13_cst) (TRef.of (T := ⟨S16, .f32⟩) main_call13_v1) (fun x v => Host.reduceAdd x v reducesTo_S16x1024_S16_d1 h_S_),
    TRef.unary (TRef.of (T := ⟨S16, .f32⟩) main_call13_v1) (TRef.of (T := ⟨S16x1, .f32⟩) main_call13_v2) (broadcastInDim S16x1 ![0] bcast_S16_S16x1_0),
    TRef.unary (TRef.of (T := ⟨S16x1, .f32⟩) main_call13_v2) (TRef.of (T := ⟨S16x1, .f32⟩) main_v113) Host.sqrt,
    nullary main_cst_43 (constant S_ .f32 0x358637BD#32),
    unary main_cst_43 main_v114 (broadcastInDim S16x1 ![] bcast_S_S16x1 : (⟨S_, .f32⟩ : BufTy).Contents (Elt F) → (⟨S16x1, .f32⟩ : BufTy).Contents (Elt F)),
    binary main_v113 main_v114 main_v115 (addf : (⟨S16x1, .f32⟩ : BufTy).Contents (Elt F) → (⟨S16x1, .f32⟩ : BufTy).Contents (Elt F) → (⟨S16x1, .f32⟩ : BufTy).Contents (Elt F)),
    unary main_v115 main_v116 (broadcastInDim S16x1024 ![0, 1] bcast_S16x1_S16x1024_0_1 : (⟨S16x1, .f32⟩ : BufTy).Contents (Elt F) → (⟨S16x1024, .f32⟩ : BufTy).Contents (Elt F)),
    binary main_v106 main_v116 main_v117 (Host.divf : (⟨S16x1024, .f32⟩ : BufTy).Contents (Elt F) → (⟨S16x1024, .f32⟩ : BufTy).Contents (Elt F) → (⟨S16x1024, .f32⟩ : BufTy).Contents (Elt F)),
    unary main_v112 main_v118 (broadcastInDim S16x1024 ![] bcast_S_S16x1024 : (⟨S_, .f32⟩ : BufTy).Contents (Elt F) → (⟨S16x1024, .f32⟩ : BufTy).Contents (Elt F)),
    binary main_v117 main_v118 main_v119 (mulf : (⟨S16x1024, .f32⟩ : BufTy).Contents (Elt F) → (⟨S16x1024, .f32⟩ : BufTy).Contents (Elt F) → (⟨S16x1024, .f32⟩ : BufTy).Contents (Elt F)),
    binary main_v103 main_v119 main_v120 (addf : (⟨S16x1024, .f32⟩ : BufTy).Contents (Elt F) → (⟨S16x1024, .f32⟩ : BufTy).Contents (Elt F) → (⟨S16x1024, .f32⟩ : BufTy).Contents (Elt F)) ]
theorem opsB6_sub : (opsB6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB6_fresh : (opsB6 : List (HloOp τ sig (Elt F))).Forall fun op => op.fresh = ∅ := by
  simp only [List.Forall]; repeat' constructor
theorem opsB6_keeps : (opsB6 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA7 : List (HloOp τ sig (Elt F)) :=
  [ unary main_arg0 main_v121 ((extractStridedSlice S16x1024x32x32 ![0, 0, 0, 16] · slices_S16x1024x64x64_S16x1024x32x32_0_0_0_16) : (⟨S16x1024x64x64, .f32⟩ : BufTy).Contents (Elt F) → (⟨S16x1024x32x32, .f32⟩ : BufTy).Contents (Elt F)),
    unary main_v6 main_v122 ((extractStridedSlice S16x32x32 ![0, 0, 16] · slices_S16x64x64_S16x32x32_0_0_16) : (⟨S16x64x64, .i1⟩ : BufTy).Contents (Elt F) → (⟨S16x32x32, .i1⟩ : BufTy).Contents (Elt F)),
    nullary main_cst_44 (constant S_ .f32 0xFF800000#32),
    binary main_v121 main_cst_44 main_v123 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v122 main_v124 ((extui 32 · natLt_1_32) : (⟨S16x32x32, .i1⟩ : BufTy).Contents (Elt F) → (⟨S16x32x32, .i32⟩ : BufTy).Contents (Elt F)),
    nullary main_c_45 (constantI S_ 32 0#32),
    binary main_v124 main_c_45 main_v125 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v125 main_v126 (sitofp .f32 : (⟨S_, .i32⟩ : BufTy).Contents (Elt F) → (⟨S_, .f32⟩ : BufTy).Contents (Elt F)),
    nullary main_cst_46 (constant S_ .f32 0x44800000#32),
    binary main_v126 main_cst_46 main_v127 (Host.divf : (⟨S_, .f32⟩ : BufTy).Contents (Elt F) → (⟨S_, .f32⟩ : BufTy).Contents (Elt F) → (⟨S_, .f32⟩ : BufTy).Contents (Elt F)),
    nullary main_cst_47 (constant S_ .f32 0x3EAAAAAB#32),
    binary main_v127 main_cst_47 main_v128 (cmpf .ole : (⟨S_, .f32⟩ : BufTy).Contents (Elt F) → (⟨S_, .f32⟩ : BufTy).Contents (Elt F) → (⟨S_, .i1⟩ : BufTy).Contents (Elt F)),
    nullary main_cst_48 (constant S_ .f32 0x00000000#32),
    TRef.ternary (TRef.of (T := ⟨S_, .i1⟩) main_v128) (TRef.of (T := ⟨S_, .f32⟩) main_cst_48) (TRef.of (T := ⟨S_, .f32⟩) main_v127) (TRef.of (T := ⟨S_, .f32⟩) main_v129) select ]
theorem opsA7_sub : (opsA7 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA7_fresh : (opsA7 : List (HloOp τ sig (Elt F))).Forall fun op => op.fresh = ∅ := by
  simp only [List.Forall]; repeat' constructor
theorem opsA7_keeps : (opsA7 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB7 : List (HloOp τ sig (Elt F)) :=
  [ TRef.binary (TRef.of (T := ⟨S16x1024, .f32⟩) main_v123) (TRef.of (T := ⟨S16x1024, .f32⟩) main_v123) (TRef.of (T := ⟨S16x1024, .f32⟩) main_call15_v0) mulf,
    TRef.nullary (TRef.of (T := ⟨S_, .f32⟩) main_call15_cst) (constant S_ .f32 0x00000000#32),
    TRef.binary (TRef.of (T := ⟨S16x1024, .f32⟩) main_call15_v0) (TRef.of (T := ⟨S_, .f32⟩) main_call15_cst) (TRef.of (T := ⟨S16, .f32⟩) main_call15_v1) (fun x v => Host.reduceAdd x v reducesTo_S16x1024_S16_d1 h_S_),
    TRef.unary (TRef.of (T := ⟨S16, .f32⟩) main_call15_v1) (TRef.of (T := ⟨S16x1, .f32⟩) main_call15_v2) (broadcastInDim S16x1 ![0] bcast_S16_S16x1_0),
    TRef.unary (TRef.of (T := ⟨S16x1, .f32⟩) main_call15_v2) (TRef.of (T := ⟨S16x1, .f32⟩) main_v130) Host.sqrt,
    nullary main_cst_49 (constant S_ .f32 0x358637BD#32),
    unary main_cst_49 main_v131 (broadcastInDim S16x1 ![] bcast_S_S16x1 : (⟨S_, .f32⟩ : BufTy).Contents (Elt F) → (⟨S16x1, .f32⟩ : BufTy).Contents (Elt F)),
    binary main_v130 main_v131 main_v132 (addf : (⟨S16x1, .f32⟩ : BufTy).Contents (Elt F) → (⟨S16x1, .f32⟩ : BufTy).Contents (Elt F) → (⟨S16x1, .f32⟩ : BufTy).Contents (Elt F)),
    unary main_v132 main_v133 (broadcastInDim S16x1024 ![0, 1] bcast_S16x1_S16x1024_0_1 : (⟨S16x1, .f32⟩ : BufTy).Contents (Elt F) → (⟨S16x1024, .f32⟩ : BufTy).Contents (Elt F)),
    binary main_v123 main_v133 main_v134 (Host.divf : (⟨S16x1024, .f32⟩ : BufTy).Contents (Elt F) → (⟨S16x1024, .f32⟩ : BufTy).Contents (Elt F) → (⟨S16x1024, .f32⟩ : BufTy).Contents (Elt F)),
    unary main_v129 main_v135 (broadcastInDim S16x1024 ![] bcast_S_S16x1024 : (⟨S_, .f32⟩ : BufTy).Contents (Elt F) → (⟨S16x1024, .f32⟩ : BufTy).Contents (Elt F)),
    binary main_v134 main_v135 main_v136 (mulf : (⟨S16x1024, .f32⟩ : BufTy).Contents (Elt F) → (⟨S16x1024, .f32⟩ : BufTy).Contents (Elt F) → (⟨S16x1024, .f32⟩ : BufTy).Contents (Elt F)),
    binary main_v120 main_v136 main_v137 (addf : (⟨S16x1024, .f32⟩ : BufTy).Contents (Elt F) → (⟨S16x1024, .f32⟩ : BufTy).Contents (Elt F) → (⟨S16x1024, .f32⟩ : BufTy).Contents (Elt F)) ]
theorem opsB7_sub : (opsB7 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB7_fresh : (opsB7 : List (HloOp τ sig (Elt F))).Forall fun op => op.fresh = ∅ := by
  simp only [List.Forall]; repeat' constructor
theorem opsB7_keeps : (opsB7 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA8 : List (HloOp τ sig (Elt F)) :=
  [ unary main_arg0 main_v138 ((extractStridedSlice S16x1024x32x32 ![0, 0, 0, 32] · slices_S16x1024x64x64_S16x1024x32x32_0_0_0_32) : (⟨S16x1024x64x64, .f32⟩ : BufTy).Contents (Elt F) → (⟨S16x1024x32x32, .f32⟩ : BufTy).Contents (Elt F)),
    unary main_v6 main_v139 ((extractStridedSlice S16x32x32 ![0, 0, 32] · slices_S16x64x64_S16x32x32_0_0_32) : (⟨S16x64x64, .i1⟩ : BufTy).Contents (Elt F) → (⟨S16x32x32, .i1⟩ : BufTy).Contents (Elt F)),
    nullary main_cst_50 (constant S_ .f32 0xFF800000#32),
    binary main_v138 main_cst_50 main_v140 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v139 main_v141 ((extui 32 · natLt_1_32) : (⟨S16x32x32, .i1⟩ : BufTy).Contents (Elt F) → (⟨S16x32x32, .i32⟩ : BufTy).Contents (Elt F)),
    nullary main_c_51 (constantI S_ 32 0#32),
    binary main_v141 main_c_51 main_v142 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v142 main_v143 (sitofp .f32 : (⟨S_, .i32⟩ : BufTy).Contents (Elt F) → (⟨S_, .f32⟩ : BufTy).Contents (Elt F)),
    nullary main_cst_52 (constant S_ .f32 0x44800000#32),
    binary main_v143 main_cst_52 main_v144 (Host.divf : (⟨S_, .f32⟩ : BufTy).Contents (Elt F) → (⟨S_, .f32⟩ : BufTy).Contents (Elt F) → (⟨S_, .f32⟩ : BufTy).Contents (Elt F)),
    nullary main_cst_53 (constant S_ .f32 0x3EAAAAAB#32),
    binary main_v144 main_cst_53 main_v145 (cmpf .ole : (⟨S_, .f32⟩ : BufTy).Contents (Elt F) → (⟨S_, .f32⟩ : BufTy).Contents (Elt F) → (⟨S_, .i1⟩ : BufTy).Contents (Elt F)),
    nullary main_cst_54 (constant S_ .f32 0x00000000#32),
    TRef.ternary (TRef.of (T := ⟨S_, .i1⟩) main_v145) (TRef.of (T := ⟨S_, .f32⟩) main_cst_54) (TRef.of (T := ⟨S_, .f32⟩) main_v144) (TRef.of (T := ⟨S_, .f32⟩) main_v146) select ]
theorem opsA8_sub : (opsA8 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA8_fresh : (opsA8 : List (HloOp τ sig (Elt F))).Forall fun op => op.fresh = ∅ := by
  simp only [List.Forall]; repeat' constructor
theorem opsA8_keeps : (opsA8 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB8 : List (HloOp τ sig (Elt F)) :=
  [ TRef.binary (TRef.of (T := ⟨S16x1024, .f32⟩) main_v140) (TRef.of (T := ⟨S16x1024, .f32⟩) main_v140) (TRef.of (T := ⟨S16x1024, .f32⟩) main_call17_v0) mulf,
    TRef.nullary (TRef.of (T := ⟨S_, .f32⟩) main_call17_cst) (constant S_ .f32 0x00000000#32),
    TRef.binary (TRef.of (T := ⟨S16x1024, .f32⟩) main_call17_v0) (TRef.of (T := ⟨S_, .f32⟩) main_call17_cst) (TRef.of (T := ⟨S16, .f32⟩) main_call17_v1) (fun x v => Host.reduceAdd x v reducesTo_S16x1024_S16_d1 h_S_),
    TRef.unary (TRef.of (T := ⟨S16, .f32⟩) main_call17_v1) (TRef.of (T := ⟨S16x1, .f32⟩) main_call17_v2) (broadcastInDim S16x1 ![0] bcast_S16_S16x1_0),
    TRef.unary (TRef.of (T := ⟨S16x1, .f32⟩) main_call17_v2) (TRef.of (T := ⟨S16x1, .f32⟩) main_v147) Host.sqrt,
    nullary main_cst_55 (constant S_ .f32 0x358637BD#32),
    unary main_cst_55 main_v148 (broadcastInDim S16x1 ![] bcast_S_S16x1 : (⟨S_, .f32⟩ : BufTy).Contents (Elt F) → (⟨S16x1, .f32⟩ : BufTy).Contents (Elt F)),
    binary main_v147 main_v148 main_v149 (addf : (⟨S16x1, .f32⟩ : BufTy).Contents (Elt F) → (⟨S16x1, .f32⟩ : BufTy).Contents (Elt F) → (⟨S16x1, .f32⟩ : BufTy).Contents (Elt F)),
    unary main_v149 main_v150 (broadcastInDim S16x1024 ![0, 1] bcast_S16x1_S16x1024_0_1 : (⟨S16x1, .f32⟩ : BufTy).Contents (Elt F) → (⟨S16x1024, .f32⟩ : BufTy).Contents (Elt F)),
    binary main_v140 main_v150 main_v151 (Host.divf : (⟨S16x1024, .f32⟩ : BufTy).Contents (Elt F) → (⟨S16x1024, .f32⟩ : BufTy).Contents (Elt F) → (⟨S16x1024, .f32⟩ : BufTy).Contents (Elt F)),
    unary main_v146 main_v152 (broadcastInDim S16x1024 ![] bcast_S_S16x1024 : (⟨S_, .f32⟩ : BufTy).Contents (Elt F) → (⟨S16x1024, .f32⟩ : BufTy).Contents (Elt F)),
    binary main_v151 main_v152 main_v153 (mulf : (⟨S16x1024, .f32⟩ : BufTy).Contents (Elt F) → (⟨S16x1024, .f32⟩ : BufTy).Contents (Elt F) → (⟨S16x1024, .f32⟩ : BufTy).Contents (Elt F)),
    binary main_v137 main_v153 main_v154 (addf : (⟨S16x1024, .f32⟩ : BufTy).Contents (Elt F) → (⟨S16x1024, .f32⟩ : BufTy).Contents (Elt F) → (⟨S16x1024, .f32⟩ : BufTy).Contents (Elt F)) ]
theorem opsB8_sub : (opsB8 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB8_fresh : (opsB8 : List (HloOp τ sig (Elt F))).Forall fun op => op.fresh = ∅ := by
  simp only [List.Forall]; repeat' constructor
theorem opsB8_keeps : (opsB8 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA9 : List (HloOp τ sig (Elt F)) :=
  [ unary main_arg0 main_v155 ((extractStridedSlice S16x1024x32x32 ![0, 0, 16, 0] · slices_S16x1024x64x64_S16x1024x32x32_0_0_16_0) : (⟨S16x1024x64x64, .f32⟩ : BufTy).Contents (Elt F) → (⟨S16x1024x32x32, .f32⟩ : BufTy).Contents (Elt F)),
    unary main_v6 main_v156 ((extractStridedSlice S16x32x32 ![0, 16, 0] · slices_S16x64x64_S16x32x32_0_16_0) : (⟨S16x64x64, .i1⟩ : BufTy).Contents (Elt F) → (⟨S16x32x32, .i1⟩ : BufTy).Contents (Elt F)),
    nullary main_cst_56 (constant S_ .f32 0xFF800000#32),
    binary main_v155 main_cst_56 main_v157 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v156 main_v158 ((extui 32 · natLt_1_32) : (⟨S16x32x32, .i1⟩ : BufTy).Contents (Elt F) → (⟨S16x32x32, .i32⟩ : BufTy).Contents (Elt F)),
    nullary main_c_57 (constantI S_ 32 0#32),
    binary main_v158 main_c_57 main_v159 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v159 main_v160 (sitofp .f32 : (⟨S_, .i32⟩ : BufTy).Contents (Elt F) → (⟨S_, .f32⟩ : BufTy).Contents (Elt F)),
    nullary main_cst_58 (constant S_ .f32 0x44800000#32),
    binary main_v160 main_cst_58 main_v161 (Host.divf : (⟨S_, .f32⟩ : BufTy).Contents (Elt F) → (⟨S_, .f32⟩ : BufTy).Contents (Elt F) → (⟨S_, .f32⟩ : BufTy).Contents (Elt F)),
    nullary main_cst_59 (constant S_ .f32 0x3EAAAAAB#32),
    binary main_v161 main_cst_59 main_v162 (cmpf .ole : (⟨S_, .f32⟩ : BufTy).Contents (Elt F) → (⟨S_, .f32⟩ : BufTy).Contents (Elt F) → (⟨S_, .i1⟩ : BufTy).Contents (Elt F)),
    nullary main_cst_60 (constant S_ .f32 0x00000000#32),
    TRef.ternary (TRef.of (T := ⟨S_, .i1⟩) main_v162) (TRef.of (T := ⟨S_, .f32⟩) main_cst_60) (TRef.of (T := ⟨S_, .f32⟩) main_v161) (TRef.of (T := ⟨S_, .f32⟩) main_v163) select ]
theorem opsA9_sub : (opsA9 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA9_fresh : (opsA9 : List (HloOp τ sig (Elt F))).Forall fun op => op.fresh = ∅ := by
  simp only [List.Forall]; repeat' constructor
theorem opsA9_keeps : (opsA9 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB9 : List (HloOp τ sig (Elt F)) :=
  [ TRef.binary (TRef.of (T := ⟨S16x1024, .f32⟩) main_v157) (TRef.of (T := ⟨S16x1024, .f32⟩) main_v157) (TRef.of (T := ⟨S16x1024, .f32⟩) main_call19_v0) mulf,
    TRef.nullary (TRef.of (T := ⟨S_, .f32⟩) main_call19_cst) (constant S_ .f32 0x00000000#32),
    TRef.binary (TRef.of (T := ⟨S16x1024, .f32⟩) main_call19_v0) (TRef.of (T := ⟨S_, .f32⟩) main_call19_cst) (TRef.of (T := ⟨S16, .f32⟩) main_call19_v1) (fun x v => Host.reduceAdd x v reducesTo_S16x1024_S16_d1 h_S_),
    TRef.unary (TRef.of (T := ⟨S16, .f32⟩) main_call19_v1) (TRef.of (T := ⟨S16x1, .f32⟩) main_call19_v2) (broadcastInDim S16x1 ![0] bcast_S16_S16x1_0),
    TRef.unary (TRef.of (T := ⟨S16x1, .f32⟩) main_call19_v2) (TRef.of (T := ⟨S16x1, .f32⟩) main_v164) Host.sqrt,
    nullary main_cst_61 (constant S_ .f32 0x358637BD#32),
    unary main_cst_61 main_v165 (broadcastInDim S16x1 ![] bcast_S_S16x1 : (⟨S_, .f32⟩ : BufTy).Contents (Elt F) → (⟨S16x1, .f32⟩ : BufTy).Contents (Elt F)),
    binary main_v164 main_v165 main_v166 (addf : (⟨S16x1, .f32⟩ : BufTy).Contents (Elt F) → (⟨S16x1, .f32⟩ : BufTy).Contents (Elt F) → (⟨S16x1, .f32⟩ : BufTy).Contents (Elt F)),
    unary main_v166 main_v167 (broadcastInDim S16x1024 ![0, 1] bcast_S16x1_S16x1024_0_1 : (⟨S16x1, .f32⟩ : BufTy).Contents (Elt F) → (⟨S16x1024, .f32⟩ : BufTy).Contents (Elt F)),
    binary main_v157 main_v167 main_v168 (Host.divf : (⟨S16x1024, .f32⟩ : BufTy).Contents (Elt F) → (⟨S16x1024, .f32⟩ : BufTy).Contents (Elt F) → (⟨S16x1024, .f32⟩ : BufTy).Contents (Elt F)),
    unary main_v163 main_v169 (broadcastInDim S16x1024 ![] bcast_S_S16x1024 : (⟨S_, .f32⟩ : BufTy).Contents (Elt F) → (⟨S16x1024, .f32⟩ : BufTy).Contents (Elt F)),
    binary main_v168 main_v169 main_v170 (mulf : (⟨S16x1024, .f32⟩ : BufTy).Contents (Elt F) → (⟨S16x1024, .f32⟩ : BufTy).Contents (Elt F) → (⟨S16x1024, .f32⟩ : BufTy).Contents (Elt F)),
    binary main_v154 main_v170 main_v171 (addf : (⟨S16x1024, .f32⟩ : BufTy).Contents (Elt F) → (⟨S16x1024, .f32⟩ : BufTy).Contents (Elt F) → (⟨S16x1024, .f32⟩ : BufTy).Contents (Elt F)) ]
theorem opsB9_sub : (opsB9 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB9_fresh : (opsB9 : List (HloOp τ sig (Elt F))).Forall fun op => op.fresh = ∅ := by
  simp only [List.Forall]; repeat' constructor
theorem opsB9_keeps : (opsB9 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA10 : List (HloOp τ sig (Elt F)) :=
  [ unary main_arg0 main_v172 ((extractStridedSlice S16x1024x32x32 ![0, 0, 16, 16] · slices_S16x1024x64x64_S16x1024x32x32_0_0_16_16) : (⟨S16x1024x64x64, .f32⟩ : BufTy).Contents (Elt F) → (⟨S16x1024x32x32, .f32⟩ : BufTy).Contents (Elt F)),
    unary main_v6 main_v173 ((extractStridedSlice S16x32x32 ![0, 16, 16] · slices_S16x64x64_S16x32x32_0_16_16) : (⟨S16x64x64, .i1⟩ : BufTy).Contents (Elt F) → (⟨S16x32x32, .i1⟩ : BufTy).Contents (Elt F)),
    nullary main_cst_62 (constant S_ .f32 0xFF800000#32),
    binary main_v172 main_cst_62 main_v174 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v173 main_v175 ((extui 32 · natLt_1_32) : (⟨S16x32x32, .i1⟩ : BufTy).Contents (Elt F) → (⟨S16x32x32, .i32⟩ : BufTy).Contents (Elt F)),
    nullary main_c_63 (constantI S_ 32 0#32),
    binary main_v175 main_c_63 main_v176 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v176 main_v177 (sitofp .f32 : (⟨S_, .i32⟩ : BufTy).Contents (Elt F) → (⟨S_, .f32⟩ : BufTy).Contents (Elt F)),
    nullary main_cst_64 (constant S_ .f32 0x44800000#32),
    binary main_v177 main_cst_64 main_v178 (Host.divf : (⟨S_, .f32⟩ : BufTy).Contents (Elt F) → (⟨S_, .f32⟩ : BufTy).Contents (Elt F) → (⟨S_, .f32⟩ : BufTy).Contents (Elt F)),
    nullary main_cst_65 (constant S_ .f32 0x3EAAAAAB#32),
    binary main_v178 main_cst_65 main_v179 (cmpf .ole : (⟨S_, .f32⟩ : BufTy).Contents (Elt F) → (⟨S_, .f32⟩ : BufTy).Contents (Elt F) → (⟨S_, .i1⟩ : BufTy).Contents (Elt F)),
    nullary main_cst_66 (constant S_ .f32 0x00000000#32),
    TRef.ternary (TRef.of (T := ⟨S_, .i1⟩) main_v179) (TRef.of (T := ⟨S_, .f32⟩) main_cst_66) (TRef.of (T := ⟨S_, .f32⟩) main_v178) (TRef.of (T := ⟨S_, .f32⟩) main_v180) select ]
theorem opsA10_sub : (opsA10 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA10_fresh : (opsA10 : List (HloOp τ sig (Elt F))).Forall fun op => op.fresh = ∅ := by
  simp only [List.Forall]; repeat' constructor
theorem opsA10_keeps : (opsA10 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB10 : List (HloOp τ sig (Elt F)) :=
  [ TRef.binary (TRef.of (T := ⟨S16x1024, .f32⟩) main_v174) (TRef.of (T := ⟨S16x1024, .f32⟩) main_v174) (TRef.of (T := ⟨S16x1024, .f32⟩) main_call21_v0) mulf,
    TRef.nullary (TRef.of (T := ⟨S_, .f32⟩) main_call21_cst) (constant S_ .f32 0x00000000#32),
    TRef.binary (TRef.of (T := ⟨S16x1024, .f32⟩) main_call21_v0) (TRef.of (T := ⟨S_, .f32⟩) main_call21_cst) (TRef.of (T := ⟨S16, .f32⟩) main_call21_v1) (fun x v => Host.reduceAdd x v reducesTo_S16x1024_S16_d1 h_S_),
    TRef.unary (TRef.of (T := ⟨S16, .f32⟩) main_call21_v1) (TRef.of (T := ⟨S16x1, .f32⟩) main_call21_v2) (broadcastInDim S16x1 ![0] bcast_S16_S16x1_0),
    TRef.unary (TRef.of (T := ⟨S16x1, .f32⟩) main_call21_v2) (TRef.of (T := ⟨S16x1, .f32⟩) main_v181) Host.sqrt,
    nullary main_cst_67 (constant S_ .f32 0x358637BD#32),
    unary main_cst_67 main_v182 (broadcastInDim S16x1 ![] bcast_S_S16x1 : (⟨S_, .f32⟩ : BufTy).Contents (Elt F) → (⟨S16x1, .f32⟩ : BufTy).Contents (Elt F)),
    binary main_v181 main_v182 main_v183 (addf : (⟨S16x1, .f32⟩ : BufTy).Contents (Elt F) → (⟨S16x1, .f32⟩ : BufTy).Contents (Elt F) → (⟨S16x1, .f32⟩ : BufTy).Contents (Elt F)),
    unary main_v183 main_v184 (broadcastInDim S16x1024 ![0, 1] bcast_S16x1_S16x1024_0_1 : (⟨S16x1, .f32⟩ : BufTy).Contents (Elt F) → (⟨S16x1024, .f32⟩ : BufTy).Contents (Elt F)),
    binary main_v174 main_v184 main_v185 (Host.divf : (⟨S16x1024, .f32⟩ : BufTy).Contents (Elt F) → (⟨S16x1024, .f32⟩ : BufTy).Contents (Elt F) → (⟨S16x1024, .f32⟩ : BufTy).Contents (Elt F)),
    unary main_v180 main_v186 (broadcastInDim S16x1024 ![] bcast_S_S16x1024 : (⟨S_, .f32⟩ : BufTy).Contents (Elt F) → (⟨S16x1024, .f32⟩ : BufTy).Contents (Elt F)),
    binary main_v185 main_v186 main_v187 (mulf : (⟨S16x1024, .f32⟩ : BufTy).Contents (Elt F) → (⟨S16x1024, .f32⟩ : BufTy).Contents (Elt F) → (⟨S16x1024, .f32⟩ : BufTy).Contents (Elt F)),
    binary main_v171 main_v187 main_v188 (addf : (⟨S16x1024, .f32⟩ : BufTy).Contents (Elt F) → (⟨S16x1024, .f32⟩ : BufTy).Contents (Elt F) → (⟨S16x1024, .f32⟩ : BufTy).Contents (Elt F)) ]
theorem opsB10_sub : (opsB10 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB10_fresh : (opsB10 : List (HloOp τ sig (Elt F))).Forall fun op => op.fresh = ∅ := by
  simp only [List.Forall]; repeat' constructor
theorem opsB10_keeps : (opsB10 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA11 : List (HloOp τ sig (Elt F)) :=
  [ unary main_arg0 main_v189 ((extractStridedSlice S16x1024x32x32 ![0, 0, 16, 32] · slices_S16x1024x64x64_S16x1024x32x32_0_0_16_32) : (⟨S16x1024x64x64, .f32⟩ : BufTy).Contents (Elt F) → (⟨S16x1024x32x32, .f32⟩ : BufTy).Contents (Elt F)),
    unary main_v6 main_v190 ((extractStridedSlice S16x32x32 ![0, 16, 32] · slices_S16x64x64_S16x32x32_0_16_32) : (⟨S16x64x64, .i1⟩ : BufTy).Contents (Elt F) → (⟨S16x32x32, .i1⟩ : BufTy).Contents (Elt F)),
    nullary main_cst_68 (constant S_ .f32 0xFF800000#32),
    binary main_v189 main_cst_68 main_v191 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v190 main_v192 ((extui 32 · natLt_1_32) : (⟨S16x32x32, .i1⟩ : BufTy).Contents (Elt F) → (⟨S16x32x32, .i32⟩ : BufTy).Contents (Elt F)),
    nullary main_c_69 (constantI S_ 32 0#32),
    binary main_v192 main_c_69 main_v193 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v193 main_v194 (sitofp .f32 : (⟨S_, .i32⟩ : BufTy).Contents (Elt F) → (⟨S_, .f32⟩ : BufTy).Contents (Elt F)),
    nullary main_cst_70 (constant S_ .f32 0x44800000#32),
    binary main_v194 main_cst_70 main_v195 (Host.divf : (⟨S_, .f32⟩ : BufTy).Contents (Elt F) → (⟨S_, .f32⟩ : BufTy).Contents (Elt F) → (⟨S_, .f32⟩ : BufTy).Contents (Elt F)),
    nullary main_cst_71 (constant S_ .f32 0x3EAAAAAB#32),
    binary main_v195 main_cst_71 main_v196 (cmpf .ole : (⟨S_, .f32⟩ : BufTy).Contents (Elt F) → (⟨S_, .f32⟩ : BufTy).Contents (Elt F) → (⟨S_, .i1⟩ : BufTy).Contents (Elt F)),
    nullary main_cst_72 (constant S_ .f32 0x00000000#32),
    TRef.ternary (TRef.of (T := ⟨S_, .i1⟩) main_v196) (TRef.of (T := ⟨S_, .f32⟩) main_cst_72) (TRef.of (T := ⟨S_, .f32⟩) main_v195) (TRef.of (T := ⟨S_, .f32⟩) main_v197) select ]
theorem opsA11_sub : (opsA11 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA11_fresh : (opsA11 : List (HloOp τ sig (Elt F))).Forall fun op => op.fresh = ∅ := by
  simp only [List.Forall]; repeat' constructor
theorem opsA11_keeps : (opsA11 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB11 : List (HloOp τ sig (Elt F)) :=
  [ TRef.binary (TRef.of (T := ⟨S16x1024, .f32⟩) main_v191) (TRef.of (T := ⟨S16x1024, .f32⟩) main_v191) (TRef.of (T := ⟨S16x1024, .f32⟩) main_call23_v0) mulf,
    TRef.nullary (TRef.of (T := ⟨S_, .f32⟩) main_call23_cst) (constant S_ .f32 0x00000000#32),
    TRef.binary (TRef.of (T := ⟨S16x1024, .f32⟩) main_call23_v0) (TRef.of (T := ⟨S_, .f32⟩) main_call23_cst) (TRef.of (T := ⟨S16, .f32⟩) main_call23_v1) (fun x v => Host.reduceAdd x v reducesTo_S16x1024_S16_d1 h_S_),
    TRef.unary (TRef.of (T := ⟨S16, .f32⟩) main_call23_v1) (TRef.of (T := ⟨S16x1, .f32⟩) main_call23_v2) (broadcastInDim S16x1 ![0] bcast_S16_S16x1_0),
    TRef.unary (TRef.of (T := ⟨S16x1, .f32⟩) main_call23_v2) (TRef.of (T := ⟨S16x1, .f32⟩) main_v198) Host.sqrt,
    nullary main_cst_73 (constant S_ .f32 0x358637BD#32),
    unary main_cst_73 main_v199 (broadcastInDim S16x1 ![] bcast_S_S16x1 : (⟨S_, .f32⟩ : BufTy).Contents (Elt F) → (⟨S16x1, .f32⟩ : BufTy).Contents (Elt F)),
    binary main_v198 main_v199 main_v200 (addf : (⟨S16x1, .f32⟩ : BufTy).Contents (Elt F) → (⟨S16x1, .f32⟩ : BufTy).Contents (Elt F) → (⟨S16x1, .f32⟩ : BufTy).Contents (Elt F)),
    unary main_v200 main_v201 (broadcastInDim S16x1024 ![0, 1] bcast_S16x1_S16x1024_0_1 : (⟨S16x1, .f32⟩ : BufTy).Contents (Elt F) → (⟨S16x1024, .f32⟩ : BufTy).Contents (Elt F)),
    binary main_v191 main_v201 main_v202 (Host.divf : (⟨S16x1024, .f32⟩ : BufTy).Contents (Elt F) → (⟨S16x1024, .f32⟩ : BufTy).Contents (Elt F) → (⟨S16x1024, .f32⟩ : BufTy).Contents (Elt F)),
    unary main_v197 main_v203 (broadcastInDim S16x1024 ![] bcast_S_S16x1024 : (⟨S_, .f32⟩ : BufTy).Contents (Elt F) → (⟨S16x1024, .f32⟩ : BufTy).Contents (Elt F)),
    binary main_v202 main_v203 main_v204 (mulf : (⟨S16x1024, .f32⟩ : BufTy).Contents (Elt F) → (⟨S16x1024, .f32⟩ : BufTy).Contents (Elt F) → (⟨S16x1024, .f32⟩ : BufTy).Contents (Elt F)),
    binary main_v188 main_v204 main_v205 (addf : (⟨S16x1024, .f32⟩ : BufTy).Contents (Elt F) → (⟨S16x1024, .f32⟩ : BufTy).Contents (Elt F) → (⟨S16x1024, .f32⟩ : BufTy).Contents (Elt F)) ]
theorem opsB11_sub : (opsB11 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB11_fresh : (opsB11 : List (HloOp τ sig (Elt F))).Forall fun op => op.fresh = ∅ := by
  simp only [List.Forall]; repeat' constructor
theorem opsB11_keeps : (opsB11 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA12 : List (HloOp τ sig (Elt F)) :=
  [ unary main_arg0 main_v206 ((extractStridedSlice S16x1024x32x32 ![0, 0, 32, 0] · slices_S16x1024x64x64_S16x1024x32x32_0_0_32_0) : (⟨S16x1024x64x64, .f32⟩ : BufTy).Contents (Elt F) → (⟨S16x1024x32x32, .f32⟩ : BufTy).Contents (Elt F)),
    unary main_v6 main_v207 ((extractStridedSlice S16x32x32 ![0, 32, 0] · slices_S16x64x64_S16x32x32_0_32_0) : (⟨S16x64x64, .i1⟩ : BufTy).Contents (Elt F) → (⟨S16x32x32, .i1⟩ : BufTy).Contents (Elt F)),
    nullary main_cst_74 (constant S_ .f32 0xFF800000#32),
    binary main_v206 main_cst_74 main_v208 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v207 main_v209 ((extui 32 · natLt_1_32) : (⟨S16x32x32, .i1⟩ : BufTy).Contents (Elt F) → (⟨S16x32x32, .i32⟩ : BufTy).Contents (Elt F)),
    nullary main_c_75 (constantI S_ 32 0#32),
    binary main_v209 main_c_75 main_v210 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v210 main_v211 (sitofp .f32 : (⟨S_, .i32⟩ : BufTy).Contents (Elt F) → (⟨S_, .f32⟩ : BufTy).Contents (Elt F)),
    nullary main_cst_76 (constant S_ .f32 0x44800000#32),
    binary main_v211 main_cst_76 main_v212 (Host.divf : (⟨S_, .f32⟩ : BufTy).Contents (Elt F) → (⟨S_, .f32⟩ : BufTy).Contents (Elt F) → (⟨S_, .f32⟩ : BufTy).Contents (Elt F)),
    nullary main_cst_77 (constant S_ .f32 0x3EAAAAAB#32),
    binary main_v212 main_cst_77 main_v213 (cmpf .ole : (⟨S_, .f32⟩ : BufTy).Contents (Elt F) → (⟨S_, .f32⟩ : BufTy).Contents (Elt F) → (⟨S_, .i1⟩ : BufTy).Contents (Elt F)),
    nullary main_cst_78 (constant S_ .f32 0x00000000#32),
    TRef.ternary (TRef.of (T := ⟨S_, .i1⟩) main_v213) (TRef.of (T := ⟨S_, .f32⟩) main_cst_78) (TRef.of (T := ⟨S_, .f32⟩) main_v212) (TRef.of (T := ⟨S_, .f32⟩) main_v214) select ]
theorem opsA12_sub : (opsA12 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA12_fresh : (opsA12 : List (HloOp τ sig (Elt F))).Forall fun op => op.fresh = ∅ := by
  simp only [List.Forall]; repeat' constructor
theorem opsA12_keeps : (opsA12 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB12 : List (HloOp τ sig (Elt F)) :=
  [ TRef.binary (TRef.of (T := ⟨S16x1024, .f32⟩) main_v208) (TRef.of (T := ⟨S16x1024, .f32⟩) main_v208) (TRef.of (T := ⟨S16x1024, .f32⟩) main_call25_v0) mulf,
    TRef.nullary (TRef.of (T := ⟨S_, .f32⟩) main_call25_cst) (constant S_ .f32 0x00000000#32),
    TRef.binary (TRef.of (T := ⟨S16x1024, .f32⟩) main_call25_v0) (TRef.of (T := ⟨S_, .f32⟩) main_call25_cst) (TRef.of (T := ⟨S16, .f32⟩) main_call25_v1) (fun x v => Host.reduceAdd x v reducesTo_S16x1024_S16_d1 h_S_),
    TRef.unary (TRef.of (T := ⟨S16, .f32⟩) main_call25_v1) (TRef.of (T := ⟨S16x1, .f32⟩) main_call25_v2) (broadcastInDim S16x1 ![0] bcast_S16_S16x1_0),
    TRef.unary (TRef.of (T := ⟨S16x1, .f32⟩) main_call25_v2) (TRef.of (T := ⟨S16x1, .f32⟩) main_v215) Host.sqrt,
    nullary main_cst_79 (constant S_ .f32 0x358637BD#32),
    unary main_cst_79 main_v216 (broadcastInDim S16x1 ![] bcast_S_S16x1 : (⟨S_, .f32⟩ : BufTy).Contents (Elt F) → (⟨S16x1, .f32⟩ : BufTy).Contents (Elt F)),
    binary main_v215 main_v216 main_v217 (addf : (⟨S16x1, .f32⟩ : BufTy).Contents (Elt F) → (⟨S16x1, .f32⟩ : BufTy).Contents (Elt F) → (⟨S16x1, .f32⟩ : BufTy).Contents (Elt F)),
    unary main_v217 main_v218 (broadcastInDim S16x1024 ![0, 1] bcast_S16x1_S16x1024_0_1 : (⟨S16x1, .f32⟩ : BufTy).Contents (Elt F) → (⟨S16x1024, .f32⟩ : BufTy).Contents (Elt F)),
    binary main_v208 main_v218 main_v219 (Host.divf : (⟨S16x1024, .f32⟩ : BufTy).Contents (Elt F) → (⟨S16x1024, .f32⟩ : BufTy).Contents (Elt F) → (⟨S16x1024, .f32⟩ : BufTy).Contents (Elt F)),
    unary main_v214 main_v220 (broadcastInDim S16x1024 ![] bcast_S_S16x1024 : (⟨S_, .f32⟩ : BufTy).Contents (Elt F) → (⟨S16x1024, .f32⟩ : BufTy).Contents (Elt F)),
    binary main_v219 main_v220 main_v221 (mulf : (⟨S16x1024, .f32⟩ : BufTy).Contents (Elt F) → (⟨S16x1024, .f32⟩ : BufTy).Contents (Elt F) → (⟨S16x1024, .f32⟩ : BufTy).Contents (Elt F)),
    binary main_v205 main_v221 main_v222 (addf : (⟨S16x1024, .f32⟩ : BufTy).Contents (Elt F) → (⟨S16x1024, .f32⟩ : BufTy).Contents (Elt F) → (⟨S16x1024, .f32⟩ : BufTy).Contents (Elt F)) ]
theorem opsB12_sub : (opsB12 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB12_fresh : (opsB12 : List (HloOp τ sig (Elt F))).Forall fun op => op.fresh = ∅ := by
  simp only [List.Forall]; repeat' constructor
theorem opsB12_keeps : (opsB12 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA13 : List (HloOp τ sig (Elt F)) :=
  [ unary main_arg0 main_v223 ((extractStridedSlice S16x1024x32x32 ![0, 0, 32, 16] · slices_S16x1024x64x64_S16x1024x32x32_0_0_32_16) : (⟨S16x1024x64x64, .f32⟩ : BufTy).Contents (Elt F) → (⟨S16x1024x32x32, .f32⟩ : BufTy).Contents (Elt F)),
    unary main_v6 main_v224 ((extractStridedSlice S16x32x32 ![0, 32, 16] · slices_S16x64x64_S16x32x32_0_32_16) : (⟨S16x64x64, .i1⟩ : BufTy).Contents (Elt F) → (⟨S16x32x32, .i1⟩ : BufTy).Contents (Elt F)),
    nullary main_cst_80 (constant S_ .f32 0xFF800000#32),
    binary main_v223 main_cst_80 main_v225 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v224 main_v226 ((extui 32 · natLt_1_32) : (⟨S16x32x32, .i1⟩ : BufTy).Contents (Elt F) → (⟨S16x32x32, .i32⟩ : BufTy).Contents (Elt F)),
    nullary main_c_81 (constantI S_ 32 0#32),
    binary main_v226 main_c_81 main_v227 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v227 main_v228 (sitofp .f32 : (⟨S_, .i32⟩ : BufTy).Contents (Elt F) → (⟨S_, .f32⟩ : BufTy).Contents (Elt F)),
    nullary main_cst_82 (constant S_ .f32 0x44800000#32),
    binary main_v228 main_cst_82 main_v229 (Host.divf : (⟨S_, .f32⟩ : BufTy).Contents (Elt F) → (⟨S_, .f32⟩ : BufTy).Contents (Elt F) → (⟨S_, .f32⟩ : BufTy).Contents (Elt F)),
    nullary main_cst_83 (constant S_ .f32 0x3EAAAAAB#32),
    binary main_v229 main_cst_83 main_v230 (cmpf .ole : (⟨S_, .f32⟩ : BufTy).Contents (Elt F) → (⟨S_, .f32⟩ : BufTy).Contents (Elt F) → (⟨S_, .i1⟩ : BufTy).Contents (Elt F)),
    nullary main_cst_84 (constant S_ .f32 0x00000000#32),
    TRef.ternary (TRef.of (T := ⟨S_, .i1⟩) main_v230) (TRef.of (T := ⟨S_, .f32⟩) main_cst_84) (TRef.of (T := ⟨S_, .f32⟩) main_v229) (TRef.of (T := ⟨S_, .f32⟩) main_v231) select ]
theorem opsA13_sub : (opsA13 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA13_fresh : (opsA13 : List (HloOp τ sig (Elt F))).Forall fun op => op.fresh = ∅ := by
  simp only [List.Forall]; repeat' constructor
theorem opsA13_keeps : (opsA13 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB13 : List (HloOp τ sig (Elt F)) :=
  [ TRef.binary (TRef.of (T := ⟨S16x1024, .f32⟩) main_v225) (TRef.of (T := ⟨S16x1024, .f32⟩) main_v225) (TRef.of (T := ⟨S16x1024, .f32⟩) main_call27_v0) mulf,
    TRef.nullary (TRef.of (T := ⟨S_, .f32⟩) main_call27_cst) (constant S_ .f32 0x00000000#32),
    TRef.binary (TRef.of (T := ⟨S16x1024, .f32⟩) main_call27_v0) (TRef.of (T := ⟨S_, .f32⟩) main_call27_cst) (TRef.of (T := ⟨S16, .f32⟩) main_call27_v1) (fun x v => Host.reduceAdd x v reducesTo_S16x1024_S16_d1 h_S_),
    TRef.unary (TRef.of (T := ⟨S16, .f32⟩) main_call27_v1) (TRef.of (T := ⟨S16x1, .f32⟩) main_call27_v2) (broadcastInDim S16x1 ![0] bcast_S16_S16x1_0),
    TRef.unary (TRef.of (T := ⟨S16x1, .f32⟩) main_call27_v2) (TRef.of (T := ⟨S16x1, .f32⟩) main_v232) Host.sqrt,
    nullary main_cst_85 (constant S_ .f32 0x358637BD#32),
    unary main_cst_85 main_v233 (broadcastInDim S16x1 ![] bcast_S_S16x1 : (⟨S_, .f32⟩ : BufTy).Contents (Elt F) → (⟨S16x1, .f32⟩ : BufTy).Contents (Elt F)),
    binary main_v232 main_v233 main_v234 (addf : (⟨S16x1, .f32⟩ : BufTy).Contents (Elt F) → (⟨S16x1, .f32⟩ : BufTy).Contents (Elt F) → (⟨S16x1, .f32⟩ : BufTy).Contents (Elt F)),
    unary main_v234 main_v235 (broadcastInDim S16x1024 ![0, 1] bcast_S16x1_S16x1024_0_1 : (⟨S16x1, .f32⟩ : BufTy).Contents (Elt F) → (⟨S16x1024, .f32⟩ : BufTy).Contents (Elt F)),
    binary main_v225 main_v235 main_v236 (Host.divf : (⟨S16x1024, .f32⟩ : BufTy).Contents (Elt F) → (⟨S16x1024, .f32⟩ : BufTy).Contents (Elt F) → (⟨S16x1024, .f32⟩ : BufTy).Contents (Elt F)),
    unary main_v231 main_v237 (broadcastInDim S16x1024 ![] bcast_S_S16x1024 : (⟨S_, .f32⟩ : BufTy).Contents (Elt F) → (⟨S16x1024, .f32⟩ : BufTy).Contents (Elt F)),
    binary main_v236 main_v237 main_v238 (mulf : (⟨S16x1024, .f32⟩ : BufTy).Contents (Elt F) → (⟨S16x1024, .f32⟩ : BufTy).Contents (Elt F) → (⟨S16x1024, .f32⟩ : BufTy).Contents (Elt F)),
    binary main_v222 main_v238 main_v239 (addf : (⟨S16x1024, .f32⟩ : BufTy).Contents (Elt F) → (⟨S16x1024, .f32⟩ : BufTy).Contents (Elt F) → (⟨S16x1024, .f32⟩ : BufTy).Contents (Elt F)) ]
theorem opsB13_sub : (opsB13 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB13_fresh : (opsB13 : List (HloOp τ sig (Elt F))).Forall fun op => op.fresh = ∅ := by
  simp only [List.Forall]; repeat' constructor
theorem opsB13_keeps : (opsB13 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsA14 : List (HloOp τ sig (Elt F)) :=
  [ unary main_arg0 main_v240 ((extractStridedSlice S16x1024x32x32 ![0, 0, 32, 32] · slices_S16x1024x64x64_S16x1024x32x32_0_0_32_32) : (⟨S16x1024x64x64, .f32⟩ : BufTy).Contents (Elt F) → (⟨S16x1024x32x32, .f32⟩ : BufTy).Contents (Elt F)),
    unary main_v6 main_v241 ((extractStridedSlice S16x32x32 ![0, 32, 32] · slices_S16x64x64_S16x32x32_0_32_32) : (⟨S16x64x64, .i1⟩ : BufTy).Contents (Elt F) → (⟨S16x32x32, .i1⟩ : BufTy).Contents (Elt F)),
    nullary main_cst_86 (constant S_ .f32 0xFF800000#32),
    binary main_v240 main_cst_86 main_v242 ((fun x v => Host.reduce FloatOps.maximumf x v reducesTo_S16x1024x32x32_S16x1024_d2_3 h_S_) : (⟨S16x1024x32x32, .f32⟩ : BufTy).Contents (Elt F) → (⟨S_, .f32⟩ : BufTy).Contents (Elt F) → (⟨S16x1024, .f32⟩ : BufTy).Contents (Elt F)),
    unary main_v241 main_v243 ((extui 32 · natLt_1_32) : (⟨S16x32x32, .i1⟩ : BufTy).Contents (Elt F) → (⟨S16x32x32, .i32⟩ : BufTy).Contents (Elt F)),
    nullary main_c_87 (constantI S_ 32 0#32),
    binary main_v243 main_c_87 main_v244 ((fun x v => Host.reduce IntOp.addi x v reducesTo_S16x32x32_S_d0_1_2 h_S_) : (⟨S16x32x32, .i32⟩ : BufTy).Contents (Elt F) → (⟨S_, .i32⟩ : BufTy).Contents (Elt F) → (⟨S_, .i32⟩ : BufTy).Contents (Elt F)),
    unary main_v244 main_v245 (sitofp .f32 : (⟨S_, .i32⟩ : BufTy).Contents (Elt F) → (⟨S_, .f32⟩ : BufTy).Contents (Elt F)),
    nullary main_cst_88 (constant S_ .f32 0x44800000#32),
    binary main_v245 main_cst_88 main_v246 (Host.divf : (⟨S_, .f32⟩ : BufTy).Contents (Elt F) → (⟨S_, .f32⟩ : BufTy).Contents (Elt F) → (⟨S_, .f32⟩ : BufTy).Contents (Elt F)),
    nullary main_cst_89 (constant S_ .f32 0x3EAAAAAB#32),
    binary main_v246 main_cst_89 main_v247 (cmpf .ole : (⟨S_, .f32⟩ : BufTy).Contents (Elt F) → (⟨S_, .f32⟩ : BufTy).Contents (Elt F) → (⟨S_, .i1⟩ : BufTy).Contents (Elt F)),
    nullary main_cst_90 (constant S_ .f32 0x00000000#32),
    TRef.ternary (TRef.of (T := ⟨S_, .i1⟩) main_v247) (TRef.of (T := ⟨S_, .f32⟩) main_cst_90) (TRef.of (T := ⟨S_, .f32⟩) main_v246) (TRef.of (T := ⟨S_, .f32⟩) main_v248) select ]
theorem opsA14_sub : (opsA14 : List (HloOp τ sig (Elt F))).Forall fun op => op.bufs ⊆ tcRefs τ sig :=
  ⟨unary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., nullary_bufs_sub .., ternary_bufs_sub ..⟩
theorem opsA14_fresh : (opsA14 : List (HloOp τ sig (Elt F))).Forall fun op => op.fresh = ∅ := by
  simp only [List.Forall]; repeat' constructor
theorem opsA14_keeps : (opsA14 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsB14 : List (HloOp τ sig (Elt F)) :=
  [ TRef.binary (TRef.of (T := ⟨S16x1024, .f32⟩) main_v242) (TRef.of (T := ⟨S16x1024, .f32⟩) main_v242) (TRef.of (T := ⟨S16x1024, .f32⟩) main_call29_v0) mulf,
    TRef.nullary (TRef.of (T := ⟨S_, .f32⟩) main_call29_cst) (constant S_ .f32 0x00000000#32),
    TRef.binary (TRef.of (T := ⟨S16x1024, .f32⟩) main_call29_v0) (TRef.of (T := ⟨S_, .f32⟩) main_call29_cst) (TRef.of (T := ⟨S16, .f32⟩) main_call29_v1) (fun x v => Host.reduceAdd x v reducesTo_S16x1024_S16_d1 h_S_),
    TRef.unary (TRef.of (T := ⟨S16, .f32⟩) main_call29_v1) (TRef.of (T := ⟨S16x1, .f32⟩) main_call29_v2) (broadcastInDim S16x1 ![0] bcast_S16_S16x1_0),
    TRef.unary (TRef.of (T := ⟨S16x1, .f32⟩) main_call29_v2) (TRef.of (T := ⟨S16x1, .f32⟩) main_v249) Host.sqrt,
    nullary main_cst_91 (constant S_ .f32 0x358637BD#32),
    unary main_cst_91 main_v250 (broadcastInDim S16x1 ![] bcast_S_S16x1 : (⟨S_, .f32⟩ : BufTy).Contents (Elt F) → (⟨S16x1, .f32⟩ : BufTy).Contents (Elt F)),
    binary main_v249 main_v250 main_v251 (addf : (⟨S16x1, .f32⟩ : BufTy).Contents (Elt F) → (⟨S16x1, .f32⟩ : BufTy).Contents (Elt F) → (⟨S16x1, .f32⟩ : BufTy).Contents (Elt F)),
    unary main_v251 main_v252 (broadcastInDim S16x1024 ![0, 1] bcast_S16x1_S16x1024_0_1 : (⟨S16x1, .f32⟩ : BufTy).Contents (Elt F) → (⟨S16x1024, .f32⟩ : BufTy).Contents (Elt F)),
    binary main_v242 main_v252 main_v253 (Host.divf : (⟨S16x1024, .f32⟩ : BufTy).Contents (Elt F) → (⟨S16x1024, .f32⟩ : BufTy).Contents (Elt F) → (⟨S16x1024, .f32⟩ : BufTy).Contents (Elt F)),
    unary main_v248 main_v254 (broadcastInDim S16x1024 ![] bcast_S_S16x1024 : (⟨S_, .f32⟩ : BufTy).Contents (Elt F) → (⟨S16x1024, .f32⟩ : BufTy).Contents (Elt F)),
    binary main_v253 main_v254 main_v255 (mulf : (⟨S16x1024, .f32⟩ : BufTy).Contents (Elt F) → (⟨S16x1024, .f32⟩ : BufTy).Contents (Elt F) → (⟨S16x1024, .f32⟩ : BufTy).Contents (Elt F)),
    binary main_v239 main_v255 main_v256 (addf : (⟨S16x1024, .f32⟩ : BufTy).Contents (Elt F) → (⟨S16x1024, .f32⟩ : BufTy).Contents (Elt F) → (⟨S16x1024, .f32⟩ : BufTy).Contents (Elt F)) ]
theorem opsB14_sub : (opsB14 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub ..⟩
theorem opsB14_fresh : (opsB14 : List (HloOp τ sig (Elt F))).Forall fun op => op.fresh = ∅ := by
  simp only [List.Forall]; repeat' constructor
theorem opsB14_keeps : (opsB14 : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

set_option maxHeartbeats 2000000 in
abbrev opsLast : List (HloOp τ sig (Elt F)) :=
  [ reshape main_v256 main_v257 rfl shapeCasts_S16x1024_S16x1024x1x1 ]
theorem opsLast_sub : (opsLast : List (HloOp τ sig (Elt F))).Forall fun op => op.bufs ⊆ tcRefs τ sig :=
  reshape_bufs_sub ..
theorem opsLast_fresh : (opsLast : List (HloOp τ sig (Elt F))).Forall fun op => op.fresh = ∅ := by
  simp only [List.Forall]; repeat' constructor
theorem opsLast_keeps : (opsLast : List (HloOp τ sig (Elt F))).Forall fun op => Proc.devRef .tc main_arg0 ∉ op.writes := by
  simp only [List.Forall]
  repeat' apply And.intro
  all_goals (simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (by decide))

/-- The stretches in program order. -/
abbrev stretches : List (List (HloOp τ sig (Elt F))) := [opsA0, opsB0, opsA1, opsB1, opsA2, opsB2, opsA3, opsB3, opsA4, opsB4, opsA5, opsB5, opsA6, opsB6, opsA7, opsB7, opsA8, opsB8, opsA9, opsB9, opsA10, opsB10, opsA11, opsB11, opsA12, opsB12, opsA13, opsB13, opsA14, opsB14, opsLast]

/-- The program's operations, in order. -/
abbrev ops : List (HloOp τ sig (Elt F)) := (stretches (F := F)).flatten

set_option maxRecDepth 8192 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of every stretch holds of every operation of the program. -/
theorem forall_ops {P : HloOp τ sig (Elt F) → Prop}
    (h : ∀ l ∈ (stretches : List (List (HloOp τ sig (Elt F)))), l.Forall P) : ∀ op ∈ (ops : List (HloOp τ sig (Elt F))), P op := by
  intro op hop
  obtain ⟨l, hl, hol⟩ := List.mem_flatten.mp hop
  exact (List.forall_iff_forall_mem.mp (h l hl)) op hol

theorem stretches_sub : ∀ l ∈ (stretches : List (List (HloOp τ sig (Elt F)))), l.Forall fun op => op.bufs ⊆ tcRefs τ sig := by
  intro l hl
  simp only [List.mem_cons, List.mem_nil_iff, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [opsA0_sub, opsB0_sub, opsA1_sub, opsB1_sub, opsA2_sub, opsB2_sub, opsA3_sub, opsB3_sub, opsA4_sub, opsB4_sub, opsA5_sub, opsB5_sub, opsA6_sub, opsB6_sub, opsA7_sub, opsB7_sub, opsA8_sub, opsB8_sub, opsA9_sub, opsB9_sub, opsA10_sub, opsB10_sub, opsA11_sub, opsB11_sub, opsA12_sub, opsB12_sub, opsA13_sub, opsB13_sub, opsA14_sub, opsB14_sub, opsLast_sub]
theorem stretches_fresh : ∀ l ∈ (stretches : List (List (HloOp τ sig (Elt F)))), l.Forall fun op => op.fresh = ∅ := by
  intro l hl
  simp only [List.mem_cons, List.mem_nil_iff, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [opsA0_fresh, opsB0_fresh, opsA1_fresh, opsB1_fresh, opsA2_fresh, opsB2_fresh, opsA3_fresh, opsB3_fresh, opsA4_fresh, opsB4_fresh, opsA5_fresh, opsB5_fresh, opsA6_fresh, opsB6_fresh, opsA7_fresh, opsB7_fresh, opsA8_fresh, opsB8_fresh, opsA9_fresh, opsB9_fresh, opsA10_fresh, opsB10_fresh, opsA11_fresh, opsB11_fresh, opsA12_fresh, opsB12_fresh, opsA13_fresh, opsB13_fresh, opsA14_fresh, opsB14_fresh, opsLast_fresh]
theorem stretches_keeps : ∀ l ∈ (stretches : List (List (HloOp τ sig (Elt F)))), l.Forall fun op => Proc.devRef .tc main_arg0 ∉ op.writes := by
  intro l hl
  simp only [List.mem_cons, List.mem_nil_iff, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [opsA0_keeps, opsB0_keeps, opsA1_keeps, opsB1_keeps, opsA2_keeps, opsB2_keeps, opsA3_keeps, opsB3_keeps, opsA4_keeps, opsB4_keeps, opsA5_keeps, opsB5_keeps, opsA6_keeps, opsB6_keeps, opsA7_keeps, opsB7_keeps, opsA8_keeps, opsB8_keeps, opsA9_keeps, opsB9_keeps, opsA10_keeps, opsB10_keeps, opsA11_keeps, opsB11_keeps, opsA12_keeps, opsB12_keeps, opsA13_keeps, opsB13_keeps, opsA14_keeps, opsB14_keeps, opsLast_keeps]

/-- Every weakly fair execution of the reference ends; its result buffer then holds the fold of the operations over
    the launch contents, and its argument is as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v257) = after ops (launchContents m c) (Proc.devRef .tc main_v257)
      ∧ r.2.mem ((c.tc : Thread nD τ).loc main_arg0) = m ((c.tc : Thread nD τ).loc main_arg0) :=
  (θ_run defs _ _).mono (fun _ h c => ⟨h c main_v257,
      (h c main_arg0).trans (after_of_forall_not_mem ops _ (forall_ops stretches_keeps))⟩)
    (run_seq scopedRefs_eq scopedSems_eq defs main (fun _ => ops) main_eq
      (fun _ => List.forall_iff_forall_mem.mpr (forall_ops stretches_sub)) m ρ
      (fun _ => forall_ops stretches_fresh))

end Cert.ReferenceIdeal.Hand

end
-- ==== Proof.RefEval.lean ====
/-
  The reference program as one function of its argument.

  The channel-sum image, the thresholded image and each window's weight are computed exactly as the kernel program's
  host operations compute them from the kernel's channel-sum result.  Each window's channel-wise maxima are one
  maximum over both image axes of the window cut out of the argument.  Each window contributes its maxima divided by
  their Euclidean norm over channels plus a small constant, times the window's weight, and the contributions are
  added one after the other.
-/
import proofs.«167076_j27771258536050_1_alg».proof.Proof.RefRun

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The channel-sum image. -/
def sR (x : (⟨S16x1024x64x64, .f32⟩ : BufTy).Contents (Elt F)) : (⟨S16x64x64, .f32⟩ : BufTy).Contents (Elt F) :=
  Host.reduceAdd x (constant (F := F) S_ .f32 0x00000000#32) reducesTo_S16x1024x64x64_S16x64x64_d1 h_S_

/-- The thresholded image. -/
def ttR (s : (⟨S16x64x64, .f32⟩ : BufTy).Contents (Elt F)) : (⟨S16x64x64, .i1⟩ : BufTy).Contents (Elt F) :=
  cmpf .ogt (subf s (broadcastInDim S16x64x64 ![] bcast_S_S16x64x64 (Host.divf (Host.reduceAdd s (constant (F := F) S_ .f32 0x00000000#32) reducesTo_S16x64x64_S_d0_1_2 h_S_) (constant (F := F) S_ .f32 0x47800000#32)))) (broadcastInDim S16x64x64 ![] bcast_S_S16x64x64 (constant (F := F) S_ .f32 0x00000000#32))

def wR0 (tt : (⟨S16x64x64, .i1⟩ : BufTy).Contents (Elt F)) : (⟨S_, .f32⟩ : BufTy).Contents (Elt F) :=
  select (cmpf .ole (Host.divf (sitofp .f32 (Host.reduce IntOp.addi (extui 32 tt natLt_1_32) (constantI S_ 32 0#32) reducesTo_S16x64x64_S_d0_1_2 h_S_)) (constant (F := F) S_ .f32 0x45800000#32)) (constant (F := F) S_ .f32 0x3EAAAAAB#32)) (constant (F := F) S_ .f32 0x00000000#32) (Host.divf (sitofp .f32 (Host.reduce IntOp.addi (extui 32 tt natLt_1_32) (constantI S_ 32 0#32) reducesTo_S16x64x64_S_d0_1_2 h_S_)) (constant (F := F) S_ .f32 0x45800000#32))

def wR1 (tt : (⟨S16x64x64, .i1⟩ : BufTy).Contents (Elt F)) : (⟨S_, .f32⟩ : BufTy).Contents (Elt F) :=
  select (cmpf .ole (Host.divf (sitofp .f32 (Host.reduce IntOp.addi (extui 32 tt natLt_1_32) (constantI S_ 32 0#32) reducesTo_S16x64x64_S_d0_1_2 h_S_)) (constant (F := F) S_ .f32 0x45800000#32)) (constant (F := F) S_ .f32 0x3EAAAAAB#32)) (constant (F := F) S_ .f32 0x00000000#32) (Host.divf (sitofp .f32 (Host.reduce IntOp.addi (extui 32 tt natLt_1_32) (constantI S_ 32 0#32) reducesTo_S16x64x64_S_d0_1_2 h_S_)) (constant (F := F) S_ .f32 0x45800000#32))

def wR2 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 0, 0] tt slices_S16x64x64_S16x42x42_0_0_0) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 0, 0] tt slices_S16x64x64_S16x42x42_0_0_0) natLt_1_32) (constantI S_ 32 0#32) reducesTo_S16x42x42_S_d0_1_2 h_S_)) (constant (F := F) S_ .f32 0x44DC8000#32))

def wR3 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 0, 22] tt slices_S16x64x64_S16x42x42_0_0_22) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 0, 22] tt slices_S16x64x64_S16x42x42_0_0_22) natLt_1_32) (constantI S_ 32 0#32) reducesTo_S16x42x42_S_d0_1_2 h_S_)) (constant (F := F) S_ .f32 0x44DC8000#32))

def wR4 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 22, 0] tt slices_S16x64x64_S16x42x42_0_22_0) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 22, 0] tt slices_S16x64x64_S16x42x42_0_22_0) natLt_1_32) (constantI S_ 32 0#32) reducesTo_S16x42x42_S_d0_1_2 h_S_)) (constant (F := F) S_ .f32 0x44DC8000#32))

def wR5 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x42x42 ![0, 22, 22] tt slices_S16x64x64_S16x42x42_0_22_22) natLt_1_32) (constantI S_ 32 0#32) reducesTo_S16x42x42_S_d0_1_2 h_S_)) (constant (F := F) S_ .f32 0x44DC8000#32)) (constant (F := F) S_ .f32 0x3EAAAAAB#32)) (constant (F := F) S_ .f32 0x00000000#32) (Host.divf (sitofp .f32 (Host.reduce IntOp.addi (extui 32 (extractStridedSlice S16x42x42 ![0, 22, 22] tt slices_S16x64x64_S16x42x42_0_22_22) natLt_1_32) (constantI S_ 32 0#32) reducesTo_S16x42x42_S_d0_1_2 h_S_)) (constant (F := F) S_ .f32 0x44DC8000#32))

def wR6 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 0] tt slices_S16x64x64_S16x32x32_0_0_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 0] tt slices_S16x64x64_S16x32x32_0_0_0) natLt_1_32) (constantI S_ 32 0#32) reducesTo_S16x32x32_S_d0_1_2 h_S_)) (constant (F := F) S_ .f32 0x44800000#32))

def wR7 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 16] tt slices_S16x64x64_S16x32x32_0_0_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 16] tt slices_S16x64x64_S16x32x32_0_0_16) natLt_1_32) (constantI S_ 32 0#32) reducesTo_S16x32x32_S_d0_1_2 h_S_)) (constant (F := F) S_ .f32 0x44800000#32))

def wR8 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 0, 32] tt slices_S16x64x64_S16x32x32_0_0_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 0, 32] tt slices_S16x64x64_S16x32x32_0_0_32) natLt_1_32) (constantI S_ 32 0#32) reducesTo_S16x32x32_S_d0_1_2 h_S_)) (constant (F := F) S_ .f32 0x44800000#32))

def wR9 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 0] tt slices_S16x64x64_S16x32x32_0_16_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 0] tt slices_S16x64x64_S16x32x32_0_16_0) natLt_1_32) (constantI S_ 32 0#32) reducesTo_S16x32x32_S_d0_1_2 h_S_)) (constant (F := F) S_ .f32 0x44800000#32))

def wR10 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 16] tt slices_S16x64x64_S16x32x32_0_16_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 16] tt slices_S16x64x64_S16x32x32_0_16_16) natLt_1_32) (constantI S_ 32 0#32) reducesTo_S16x32x32_S_d0_1_2 h_S_)) (constant (F := F) S_ .f32 0x44800000#32))

def wR11 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 16, 32] tt slices_S16x64x64_S16x32x32_0_16_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 16, 32] tt slices_S16x64x64_S16x32x32_0_16_32) natLt_1_32) (constantI S_ 32 0#32) reducesTo_S16x32x32_S_d0_1_2 h_S_)) (constant (F := F) S_ .f32 0x44800000#32))

def wR12 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 0] tt slices_S16x64x64_S16x32x32_0_32_0) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 0] tt slices_S16x64x64_S16x32x32_0_32_0) natLt_1_32) (constantI S_ 32 0#32) reducesTo_S16x32x32_S_d0_1_2 h_S_)) (constant (F := F) S_ .f32 0x44800000#32))

def wR13 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 16] tt slices_S16x64x64_S16x32x32_0_32_16) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 16] tt slices_S16x64x64_S16x32x32_0_32_16) natLt_1_32) (constantI S_ 32 0#32) reducesTo_S16x32x32_S_d0_1_2 h_S_)) (constant (F := F) S_ .f32 0x44800000#32))

def wR14 (tt : (⟨S16x64x64, .i1⟩ : BufTy).Contents (Elt F)) : (⟨S_, .f32⟩ : BufTy).Contents (Elt F) :=
  select (cmpf .ole (Host.divf (sitofp .f32 (Host.reduce IntOp.addi (extui 32 (extractStridedSlice S16x32x32 ![0, 32, 32] tt slices_S16x64x64_S16x32x32_0_32_32) natLt_1_32) (constantI S_ 32 0#32) reducesTo_S16x32x32_S_d0_1_2 h_S_)) (constant (F := F) S_ .f32 0x44800000#32)) (constant (F := F) S_ .f32 0x3EAAAAAB#32)) (constant (F := F) S_ .f32 0x00000000#32) (Host.divf (sitofp .f32 (Host.reduce IntOp.addi (extui 32 (extractStridedSlice S16x32x32 ![0, 32, 32] tt slices_S16x64x64_S16x32x32_0_32_32) natLt_1_32) (constantI S_ 32 0#32) reducesTo_S16x32x32_S_d0_1_2 h_S_)) (constant (F := F) S_ .f32 0x44800000#32))

def vtR0 (x : (⟨S16x1024x64x64, .f32⟩ : BufTy).Contents (Elt F)) : (⟨S16x1024, .f32⟩ : BufTy).Contents (Elt F) :=
  Host.reduce FloatOps.maximumf x (constant (F := F) S_ .f32 0xFF800000#32) reducesTo_S16x1024x64x64_S16x1024_d2_3 h_S_

def vtR1 (x : (⟨S16x1024x64x64, .f32⟩ : BufTy).Contents (Elt F)) : (⟨S16x1024, .f32⟩ : BufTy).Contents (Elt F) :=
  Host.reduce FloatOps.maximumf x (constant (F := F) S_ .f32 0xFF800000#32) reducesTo_S16x1024x64x64_S16x1024_d2_3 h_S_

def vtR2 (x : (⟨S16x1024x64x64, .f32⟩ : BufTy).Contents (Elt F)) : (⟨S16x1024, .f32⟩ : BufTy).Contents (Elt F) :=
  Host.reduce FloatOps.maximumf (extractStridedSlice S16x1024x42x42 ![0, 0, 0, 0] x slices_S16x1024x64x64_S16x1024x42x42_0_0_0_0) (constant (F := F) S_ .f32 0xFF800000#32) reducesTo_S16x1024x42x42_S16x1024_d2_3 h_S_

def vtR3 (x : (⟨S16x1024x64x64, .f32⟩ : BufTy).Contents (Elt F)) : (⟨S16x1024, .f32⟩ : BufTy).Contents (Elt F) :=
  Host.reduce FloatOps.maximumf (extractStridedSlice S16x1024x42x42 ![0, 0, 0, 22] x slices_S16x1024x64x64_S16x1024x42x42_0_0_0_22) (constant (F := F) S_ .f32 0xFF800000#32) reducesTo_S16x1024x42x42_S16x1024_d2_3 h_S_

def vtR4 (x : (⟨S16x1024x64x64, .f32⟩ : BufTy).Contents (Elt F)) : (⟨S16x1024, .f32⟩ : BufTy).Contents (Elt F) :=
  Host.reduce FloatOps.maximumf (extractStridedSlice S16x1024x42x42 ![0, 0, 22, 0] x slices_S16x1024x64x64_S16x1024x42x42_0_0_22_0) (constant (F := F) S_ .f32 0xFF800000#32) reducesTo_S16x1024x42x42_S16x1024_d2_3 h_S_

def vtR5 (x : (⟨S16x1024x64x64, .f32⟩ : BufTy).Contents (Elt F)) : (⟨S16x1024, .f32⟩ : BufTy).Contents (Elt F) :=
  Host.reduce FloatOps.maximumf (extractStridedSlice S16x1024x42x42 ![0, 0, 22, 22] x slices_S16x1024x64x64_S16x1024x42x42_0_0_22_22) (constant (F := F) S_ .f32 0xFF800000#32) reducesTo_S16x1024x42x42_S16x1024_d2_3 h_S_

def vtR6 (x : (⟨S16x1024x64x64, .f32⟩ : BufTy).Contents (Elt F)) : (⟨S16x1024, .f32⟩ : BufTy).Contents (Elt F) :=
  Host.reduce FloatOps.maximumf (extractStridedSlice S16x1024x32x32 ![0, 0, 0, 0] x slices_S16x1024x64x64_S16x1024x32x32_0_0_0_0) (constant (F := F) S_ .f32 0xFF800000#32) reducesTo_S16x1024x32x32_S16x1024_d2_3 h_S_

def vtR7 (x : (⟨S16x1024x64x64, .f32⟩ : BufTy).Contents (Elt F)) : (⟨S16x1024, .f32⟩ : BufTy).Contents (Elt F) :=
  Host.reduce FloatOps.maximumf (extractStridedSlice S16x1024x32x32 ![0, 0, 0, 16] x slices_S16x1024x64x64_S16x1024x32x32_0_0_0_16) (constant (F := F) S_ .f32 0xFF800000#32) reducesTo_S16x1024x32x32_S16x1024_d2_3 h_S_

def vtR8 (x : (⟨S16x1024x64x64, .f32⟩ : BufTy).Contents (Elt F)) : (⟨S16x1024, .f32⟩ : BufTy).Contents (Elt F) :=
  Host.reduce FloatOps.maximumf (extractStridedSlice S16x1024x32x32 ![0, 0, 0, 32] x slices_S16x1024x64x64_S16x1024x32x32_0_0_0_32) (constant (F := F) S_ .f32 0xFF800000#32) reducesTo_S16x1024x32x32_S16x1024_d2_3 h_S_

def vtR9 (x : (⟨S16x1024x64x64, .f32⟩ : BufTy).Contents (Elt F)) : (⟨S16x1024, .f32⟩ : BufTy).Contents (Elt F) :=
  Host.reduce FloatOps.maximumf (extractStridedSlice S16x1024x32x32 ![0, 0, 16, 0] x slices_S16x1024x64x64_S16x1024x32x32_0_0_16_0) (constant (F := F) S_ .f32 0xFF800000#32) reducesTo_S16x1024x32x32_S16x1024_d2_3 h_S_

def vtR10 (x : (⟨S16x1024x64x64, .f32⟩ : BufTy).Contents (Elt F)) : (⟨S16x1024, .f32⟩ : BufTy).Contents (Elt F) :=
  Host.reduce FloatOps.maximumf (extractStridedSlice S16x1024x32x32 ![0, 0, 16, 16] x slices_S16x1024x64x64_S16x1024x32x32_0_0_16_16) (constant (F := F) S_ .f32 0xFF800000#32) reducesTo_S16x1024x32x32_S16x1024_d2_3 h_S_

def vtR11 (x : (⟨S16x1024x64x64, .f32⟩ : BufTy).Contents (Elt F)) : (⟨S16x1024, .f32⟩ : BufTy).Contents (Elt F) :=
  Host.reduce FloatOps.maximumf (extractStridedSlice S16x1024x32x32 ![0, 0, 16, 32] x slices_S16x1024x64x64_S16x1024x32x32_0_0_16_32) (constant (F := F) S_ .f32 0xFF800000#32) reducesTo_S16x1024x32x32_S16x1024_d2_3 h_S_

def vtR12 (x : (⟨S16x1024x64x64, .f32⟩ : BufTy).Contents (Elt F)) : (⟨S16x1024, .f32⟩ : BufTy).Contents (Elt F) :=
  Host.reduce FloatOps.maximumf (extractStridedSlice S16x1024x32x32 ![0, 0, 32, 0] x slices_S16x1024x64x64_S16x1024x32x32_0_0_32_0) (constant (F := F) S_ .f32 0xFF800000#32) reducesTo_S16x1024x32x32_S16x1024_d2_3 h_S_

def vtR13 (x : (⟨S16x1024x64x64, .f32⟩ : BufTy).Contents (Elt F)) : (⟨S16x1024, .f32⟩ : BufTy).Contents (Elt F) :=
  Host.reduce FloatOps.maximumf (extractStridedSlice S16x1024x32x32 ![0, 0, 32, 16] x slices_S16x1024x64x64_S16x1024x32x32_0_0_32_16) (constant (F := F) S_ .f32 0xFF800000#32) reducesTo_S16x1024x32x32_S16x1024_d2_3 h_S_

def vtR14 (x : (⟨S16x1024x64x64, .f32⟩ : BufTy).Contents (Elt F)) : (⟨S16x1024, .f32⟩ : BufTy).Contents (Elt F) :=
  Host.reduce FloatOps.maximumf (extractStridedSlice S16x1024x32x32 ![0, 0, 32, 32] x slices_S16x1024x64x64_S16x1024x32x32_0_0_32_32) (constant (F := F) S_ .f32 0xFF800000#32) reducesTo_S16x1024x32x32_S16x1024_d2_3 h_S_

/-- One window's contribution: the maxima over the norm plus the constant, times the weight. -/
def regR (VT : (⟨S16x1024, .f32⟩ : BufTy).Contents (Elt F)) (w : (⟨S_, .f32⟩ : BufTy).Contents (Elt F)) : (⟨S16x1024, .f32⟩ : BufTy).Contents (Elt F) :=
  mulf (Host.divf VT (broadcastInDim S16x1024 ![0, 1] bcast_S16x1_S16x1024_0_1 (addf (Host.sqrt (broadcastInDim S16x1 ![0] bcast_S16_S16x1_0 (Host.reduceAdd (mulf VT VT) (constant (F := F) S_ .f32 0x00000000#32) reducesTo_S16x1024_S16_d1 h_S_))) (broadcastInDim S16x1 ![] bcast_S_S16x1 (constant (F := F) S_ .f32 0x358637BD#32))))) (broadcastInDim S16x1024 ![] bcast_S_S16x1024 w)

/-- The contributions added in program order. -/
def accR (T0 : (⟨S16x1024, .f32⟩ : BufTy).Contents (Elt F)) (T1 : (⟨S16x1024, .f32⟩ : BufTy).Contents (Elt F)) (T2 : (⟨S16x1024, .f32⟩ : BufTy).Contents (Elt F)) (T3 : (⟨S16x1024, .f32⟩ : BufTy).Contents (Elt F)) (T4 : (⟨S16x1024, .f32⟩ : BufTy).Contents (Elt F)) (T5 : (⟨S16x1024, .f32⟩ : BufTy).Contents (Elt F)) (T6 : (⟨S16x1024, .f32⟩ : BufTy).Contents (Elt F)) (T7 : (⟨S16x1024, .f32⟩ : BufTy).Contents (Elt F)) (T8 : (⟨S16x1024, .f32⟩ : BufTy).Contents (Elt F)) (T9 : (⟨S16x1024, .f32⟩ : BufTy).Contents (Elt F)) (T10 : (⟨S16x1024, .f32⟩ : BufTy).Contents (Elt F)) (T11 : (⟨S16x1024, .f32⟩ : BufTy).Contents (Elt F)) (T12 : (⟨S16x1024, .f32⟩ : BufTy).Contents (Elt F)) (T13 : (⟨S16x1024, .f32⟩ : BufTy).Contents (Elt F)) (T14 : (⟨S16x1024, .f32⟩ : BufTy).Contents (Elt F)) : (⟨S16x1024, .f32⟩ : BufTy).Contents (Elt F) :=
  addf (addf (addf (addf (addf (addf (addf (addf (addf (addf (addf (addf (addf (addf T0 T1) T2) T3) T4) T5) T6) T7) T8) T9) T10) T11) T12) T13) T14

/-- The reference's result before the final reshape, as a function of the argument. -/
def totalR (x : (⟨S16x1024x64x64, .f32⟩ : BufTy).Contents (Elt F)) : (⟨S16x1024, .f32⟩ : BufTy).Contents (Elt F) :=
  accR (regR (vtR0 x) (wR0 (ttR (sR x)))) (regR (vtR1 x) (wR1 (ttR (sR x)))) (regR (vtR2 x) (wR2 (ttR (sR x)))) (regR (vtR3 x) (wR3 (ttR (sR x)))) (regR (vtR4 x) (wR4 (ttR (sR x)))) (regR (vtR5 x) (wR5 (ttR (sR x)))) (regR (vtR6 x) (wR6 (ttR (sR x)))) (regR (vtR7 x) (wR7 (ttR (sR x)))) (regR (vtR8 x) (wR8 (ttR (sR x)))) (regR (vtR9 x) (wR9 (ttR (sR x)))) (regR (vtR10 x) (wR10 (ttR (sR x)))) (regR (vtR11 x) (wR11 (ttR (sR x)))) (regR (vtR12 x) (wR12 (ttR (sR x)))) (regR (vtR13 x) (wR13 (ttR (sR x)))) (regR (vtR14 x) (wR14 (ttR (sR x))))

set_option maxRecDepth 100000 in
set_option maxHeartbeats 64000000 in
/-- The prelude and the first window's maxima and weight. -/
theorem evalA0 (W : Valuation τ sig (Elt F)) :
    after (opsA0 (F := F)) W (Proc.devRef .tc main_v6) = ttR (sR (W (Proc.devRef .tc main_arg0)))
    ∧ after (opsA0 (F := F)) W (Proc.devRef .tc main_v7) = vtR0 (W (Proc.devRef .tc main_arg0))
    ∧ after (opsA0 (F := F)) W (Proc.devRef .tc main_v13) = wR0 (ttR (sR (W (Proc.devRef .tc main_arg0))))
    ∧ after (opsA0 (F := F)) W (Proc.devRef .tc main_arg0) = (W (Proc.devRef .tc main_arg0)) := by
  after_results_simp
  repeat' apply And.intro
  all_goals first | rfl | trivial

set_option maxRecDepth 100000 in
set_option maxHeartbeats 64000000 in
/-- The first window's contribution. -/
theorem evalB0 (W : Valuation τ sig (Elt F)) :
    after (opsB0 (F := F)) W (Proc.devRef .tc main_v20) = regR (W (Proc.devRef .tc main_v7)) (W (Proc.devRef .tc main_v13))
    ∧ after (opsB0 (F := F)) W (Proc.devRef .tc main_arg0) = (W (Proc.devRef .tc main_arg0))
    ∧ after (opsB0 (F := F)) W (Proc.devRef .tc main_v6) = (W (Proc.devRef .tc main_v6)) := by
  after_results_simp
  repeat' apply And.intro
  all_goals first | rfl | trivial

set_option maxRecDepth 100000 in
set_option maxHeartbeats 64000000 in
/-- The second window's maxima and weight. -/
theorem evalA1 (W : Valuation τ sig (Elt F)) :
    after (opsA1 (F := F)) W (Proc.devRef .tc main_v21) = vtR1 (W (Proc.devRef .tc main_arg0))
    ∧ after (opsA1 (F := F)) W (Proc.devRef .tc main_v27) = wR1 (W (Proc.devRef .tc main_v6))
    ∧ after (opsA1 (F := F)) W (Proc.devRef .tc main_arg0) = (W (Proc.devRef .tc main_arg0))
    ∧ after (opsA1 (F := F)) W (Proc.devRef .tc main_v6) = (W (Proc.devRef .tc main_v6))
    ∧ after (opsA1 (F := F)) W (Proc.devRef .tc main_v20) = (W (Proc.devRef .tc main_v20)) := by
  after_results_simp
  repeat' apply And.intro
  all_goals first | rfl | trivial

set_option maxRecDepth 100000 in
set_option maxHeartbeats 64000000 in
/-- The second window's contribution added to the first. -/
theorem evalB1 (W : Valuation τ sig (Elt F)) :
    after (opsB1 (F := F)) W (Proc.devRef .tc main_v35) = addf (W (Proc.devRef .tc main_v20)) (regR (W (Proc.devRef .tc main_v21)) (W (Proc.devRef .tc main_v27)))
    ∧ after (opsB1 (F := F)) W (Proc.devRef .tc main_arg0) = (W (Proc.devRef .tc main_arg0))
    ∧ after (opsB1 (F := F)) W (Proc.devRef .tc main_v6) = (W (Proc.devRef .tc main_v6)) := by
  after_results_simp
  repeat' apply And.intro
  all_goals first | rfl | trivial

set_option maxRecDepth 100000 in
set_option maxHeartbeats 64000000 in
/-- Window 2's maxima and weight. -/
theorem evalA2 (W : Valuation τ sig (Elt F)) :
    after (opsA2 (F := F)) W (Proc.devRef .tc main_v38) = vtR2 (W (Proc.devRef .tc main_arg0))
    ∧ after (opsA2 (F := F)) W (Proc.devRef .tc main_v44) = wR2 (W (Proc.devRef .tc main_v6))
    ∧ after (opsA2 (F := F)) W (Proc.devRef .tc main_arg0) = (W (Proc.devRef .tc main_arg0))
    ∧ after (opsA2 (F := F)) W (Proc.devRef .tc main_v6) = (W (Proc.devRef .tc main_v6))
    ∧ after (opsA2 (F := F)) W (Proc.devRef .tc main_v35) = (W (Proc.devRef .tc main_v35)) := by
  after_results_simp
  repeat' apply And.intro
  all_goals first | rfl | trivial

set_option maxRecDepth 100000 in
set_option maxHeartbeats 64000000 in
/-- Window 2's contribution added to the running total. -/
theorem evalB2 (W : Valuation τ sig (Elt F)) :
    after (opsB2 (F := F)) W (Proc.devRef .tc main_v52) = addf (W (Proc.devRef .tc main_v35)) (regR (W (Proc.devRef .tc main_v38)) (W (Proc.devRef .tc main_v44)))
    ∧ after (opsB2 (F := F)) W (Proc.devRef .tc main_arg0) = (W (Proc.devRef .tc main_arg0))
    ∧ after (opsB2 (F := F)) W (Proc.devRef .tc main_v6) = (W (Proc.devRef .tc main_v6)) := by
  after_results_simp
  repeat' apply And.intro
  all_goals first | rfl | trivial

set_option maxRecDepth 100000 in
set_option maxHeartbeats 64000000 in
/-- Window 3's maxima and weight. -/
theorem evalA3 (W : Valuation τ sig (Elt F)) :
    after (opsA3 (F := F)) W (Proc.devRef .tc main_v55) = vtR3 (W (Proc.devRef .tc main_arg0))
    ∧ after (opsA3 (F := F)) W (Proc.devRef .tc main_v61) = wR3 (W (Proc.devRef .tc main_v6))
    ∧ after (opsA3 (F := F)) W (Proc.devRef .tc main_arg0) = (W (Proc.devRef .tc main_arg0))
    ∧ after (opsA3 (F := F)) W (Proc.devRef .tc main_v6) = (W (Proc.devRef .tc main_v6))
    ∧ after (opsA3 (F := F)) W (Proc.devRef .tc main_v52) = (W (Proc.devRef .tc main_v52)) := by
  after_results_simp
  repeat' apply And.intro
  all_goals first | rfl | trivial

set_option maxRecDepth 100000 in
set_option maxHeartbeats 64000000 in
/-- Window 3's contribution added to the running total. -/
theorem evalB3 (W : Valuation τ sig (Elt F)) :
    after (opsB3 (F := F)) W (Proc.devRef .tc main_v69) = addf (W (Proc.devRef .tc main_v52)) (regR (W (Proc.devRef .tc main_v55)) (W (Proc.devRef .tc main_v61)))
    ∧ after (opsB3 (F := F)) W (Proc.devRef .tc main_arg0) = (W (Proc.devRef .tc main_arg0))
    ∧ after (opsB3 (F := F)) W (Proc.devRef .tc main_v6) = (W (Proc.devRef .tc main_v6)) := by
  after_results_simp
  repeat' apply And.intro
  all_goals first | rfl | trivial

set_option maxRecDepth 100000 in
set_option maxHeartbeats 64000000 in
/-- Window 4's maxima and weight. -/
theorem evalA4 (W : Valuation τ sig (Elt F)) :
    after (opsA4 (F := F)) W (Proc.devRef .tc main_v72) = vtR4 (W (Proc.devRef .tc main_arg0))
    ∧ after (opsA4 (F := F)) W (Proc.devRef .tc main_v78) = wR4 (W (Proc.devRef .tc main_v6))
    ∧ after (opsA4 (F := F)) W (Proc.devRef .tc main_arg0) = (W (Proc.devRef .tc main_arg0))
    ∧ after (opsA4 (F := F)) W (Proc.devRef .tc main_v6) = (W (Proc.devRef .tc main_v6))
    ∧ after (opsA4 (F := F)) W (Proc.devRef .tc main_v69) = (W (Proc.devRef .tc main_v69)) := by
  after_results_simp
  repeat' apply And.intro
  all_goals first | rfl | trivial

set_option maxRecDepth 100000 in
set_option maxHeartbeats 64000000 in
/-- Window 4's contribution added to the running total. -/
theorem evalB4 (W : Valuation τ sig (Elt F)) :
    after (opsB4 (F := F)) W (Proc.devRef .tc main_v86) = addf (W (Proc.devRef .tc main_v69)) (regR (W (Proc.devRef .tc main_v72)) (W (Proc.devRef .tc main_v78)))
    ∧ after (opsB4 (F := F)) W (Proc.devRef .tc main_arg0) = (W (Proc.devRef .tc main_arg0))
    ∧ after (opsB4 (F := F)) W (Proc.devRef .tc main_v6) = (W (Proc.devRef .tc main_v6)) := by
  after_results_simp
  repeat' apply And.intro
  all_goals first | rfl | trivial

set_option maxRecDepth 100000 in
set_option maxHeartbeats 64000000 in
/-- Window 5's maxima and weight. -/
theorem evalA5 (W : Valuation τ sig (Elt F)) :
    after (opsA5 (F := F)) W (Proc.devRef .tc main_v89) = vtR5 (W (Proc.devRef .tc main_arg0))
    ∧ after (opsA5 (F := F)) W (Proc.devRef .tc main_v95) = wR5 (W (Proc.devRef .tc main_v6))
    ∧ after (opsA5 (F := F)) W (Proc.devRef .tc main_arg0) = (W (Proc.devRef .tc main_arg0))
    ∧ after (opsA5 (F := F)) W (Proc.devRef .tc main_v6) = (W (Proc.devRef .tc main_v6))
    ∧ after (opsA5 (F := F)) W (Proc.devRef .tc main_v86) = (W (Proc.devRef .tc main_v86)) := by
  after_results_simp
  repeat' apply And.intro
  all_goals first | rfl | trivial

set_option maxRecDepth 100000 in
set_option maxHeartbeats 64000000 in
/-- Window 5's contribution added to the running total. -/
theorem evalB5 (W : Valuation τ sig (Elt F)) :
    after (opsB5 (F := F)) W (Proc.devRef .tc main_v103) = addf (W (Proc.devRef .tc main_v86)) (regR (W (Proc.devRef .tc main_v89)) (W (Proc.devRef .tc main_v95)))
    ∧ after (opsB5 (F := F)) W (Proc.devRef .tc main_arg0) = (W (Proc.devRef .tc main_arg0))
    ∧ after (opsB5 (F := F)) W (Proc.devRef .tc main_v6) = (W (Proc.devRef .tc main_v6)) := by
  after_results_simp
  repeat' apply And.intro
  all_goals first | rfl | trivial

set_option maxRecDepth 100000 in
set_option maxHeartbeats 64000000 in
/-- Window 6's maxima and weight. -/
theorem evalA6 (W : Valuation τ sig (Elt F)) :
    after (opsA6 (F := F)) W (Proc.devRef .tc main_v106) = vtR6 (W (Proc.devRef .tc main_arg0))
    ∧ after (opsA6 (F := F)) W (Proc.devRef .tc main_v112) = wR6 (W (Proc.devRef .tc main_v6))
    ∧ after (opsA6 (F := F)) W (Proc.devRef .tc main_arg0) = (W (Proc.devRef .tc main_arg0))
    ∧ after (opsA6 (F := F)) W (Proc.devRef .tc main_v6) = (W (Proc.devRef .tc main_v6))
    ∧ after (opsA6 (F := F)) W (Proc.devRef .tc main_v103) = (W (Proc.devRef .tc main_v103)) := by
  after_results_simp
  repeat' apply And.intro
  all_goals first | rfl | trivial

set_option maxRecDepth 100000 in
set_option maxHeartbeats 64000000 in
/-- Window 6's contribution added to the running total. -/
theorem evalB6 (W : Valuation τ sig (Elt F)) :
    after (opsB6 (F := F)) W (Proc.devRef .tc main_v120) = addf (W (Proc.devRef .tc main_v103)) (regR (W (Proc.devRef .tc main_v106)) (W (Proc.devRef .tc main_v112)))
    ∧ after (opsB6 (F := F)) W (Proc.devRef .tc main_arg0) = (W (Proc.devRef .tc main_arg0))
    ∧ after (opsB6 (F := F)) W (Proc.devRef .tc main_v6) = (W (Proc.devRef .tc main_v6)) := by
  after_results_simp
  repeat' apply And.intro
  all_goals first | rfl | trivial

set_option maxRecDepth 100000 in
set_option maxHeartbeats 64000000 in
/-- Window 7's maxima and weight. -/
theorem evalA7 (W : Valuation τ sig (Elt F)) :
    after (opsA7 (F := F)) W (Proc.devRef .tc main_v123) = vtR7 (W (Proc.devRef .tc main_arg0))
    ∧ after (opsA7 (F := F)) W (Proc.devRef .tc main_v129) = wR7 (W (Proc.devRef .tc main_v6))
    ∧ after (opsA7 (F := F)) W (Proc.devRef .tc main_arg0) = (W (Proc.devRef .tc main_arg0))
    ∧ after (opsA7 (F := F)) W (Proc.devRef .tc main_v6) = (W (Proc.devRef .tc main_v6))
    ∧ after (opsA7 (F := F)) W (Proc.devRef .tc main_v120) = (W (Proc.devRef .tc main_v120)) := by
  after_results_simp
  repeat' apply And.intro
  all_goals first | rfl | trivial

set_option maxRecDepth 100000 in
set_option maxHeartbeats 64000000 in
/-- Window 7's contribution added to the running total. -/
theorem evalB7 (W : Valuation τ sig (Elt F)) :
    after (opsB7 (F := F)) W (Proc.devRef .tc main_v137) = addf (W (Proc.devRef .tc main_v120)) (regR (W (Proc.devRef .tc main_v123)) (W (Proc.devRef .tc main_v129)))
    ∧ after (opsB7 (F := F)) W (Proc.devRef .tc main_arg0) = (W (Proc.devRef .tc main_arg0))
    ∧ after (opsB7 (F := F)) W (Proc.devRef .tc main_v6) = (W (Proc.devRef .tc main_v6)) := by
  after_results_simp
  repeat' apply And.intro
  all_goals first | rfl | trivial

set_option maxRecDepth 100000 in
set_option maxHeartbeats 64000000 in
/-- Window 8's maxima and weight. -/
theorem evalA8 (W : Valuation τ sig (Elt F)) :
    after (opsA8 (F := F)) W (Proc.devRef .tc main_v140) = vtR8 (W (Proc.devRef .tc main_arg0))
    ∧ after (opsA8 (F := F)) W (Proc.devRef .tc main_v146) = wR8 (W (Proc.devRef .tc main_v6))
    ∧ after (opsA8 (F := F)) W (Proc.devRef .tc main_arg0) = (W (Proc.devRef .tc main_arg0))
    ∧ after (opsA8 (F := F)) W (Proc.devRef .tc main_v6) = (W (Proc.devRef .tc main_v6))
    ∧ after (opsA8 (F := F)) W (Proc.devRef .tc main_v137) = (W (Proc.devRef .tc main_v137)) := by
  after_results_simp
  repeat' apply And.intro
  all_goals first | rfl | trivial

set_option maxRecDepth 100000 in
set_option maxHeartbeats 64000000 in
/-- Window 8's contribution added to the running total. -/
theorem evalB8 (W : Valuation τ sig (Elt F)) :
    after (opsB8 (F := F)) W (Proc.devRef .tc main_v154) = addf (W (Proc.devRef .tc main_v137)) (regR (W (Proc.devRef .tc main_v140)) (W (Proc.devRef .tc main_v146)))
    ∧ after (opsB8 (F := F)) W (Proc.devRef .tc main_arg0) = (W (Proc.devRef .tc main_arg0))
    ∧ after (opsB8 (F := F)) W (Proc.devRef .tc main_v6) = (W (Proc.devRef .tc main_v6)) := by
  after_results_simp
  repeat' apply And.intro
  all_goals first | rfl | trivial

set_option maxRecDepth 100000 in
set_option maxHeartbeats 64000000 in
/-- Window 9's maxima and weight. -/
theorem evalA9 (W : Valuation τ sig (Elt F)) :
    after (opsA9 (F := F)) W (Proc.devRef .tc main_v157) = vtR9 (W (Proc.devRef .tc main_arg0))
    ∧ after (opsA9 (F := F)) W (Proc.devRef .tc main_v163) = wR9 (W (Proc.devRef .tc main_v6))
    ∧ after (opsA9 (F := F)) W (Proc.devRef .tc main_arg0) = (W (Proc.devRef .tc main_arg0))
    ∧ after (opsA9 (F := F)) W (Proc.devRef .tc main_v6) = (W (Proc.devRef .tc main_v6))
    ∧ after (opsA9 (F := F)) W (Proc.devRef .tc main_v154) = (W (Proc.devRef .tc main_v154)) := by
  after_results_simp
  repeat' apply And.intro
  all_goals first | rfl | trivial

set_option maxRecDepth 100000 in
set_option maxHeartbeats 64000000 in
/-- Window 9's contribution added to the running total. -/
theorem evalB9 (W : Valuation τ sig (Elt F)) :
    after (opsB9 (F := F)) W (Proc.devRef .tc main_v171) = addf (W (Proc.devRef .tc main_v154)) (regR (W (Proc.devRef .tc main_v157)) (W (Proc.devRef .tc main_v163)))
    ∧ after (opsB9 (F := F)) W (Proc.devRef .tc main_arg0) = (W (Proc.devRef .tc main_arg0))
    ∧ after (opsB9 (F := F)) W (Proc.devRef .tc main_v6) = (W (Proc.devRef .tc main_v6)) := by
  after_results_simp
  repeat' apply And.intro
  all_goals first | rfl | trivial

set_option maxRecDepth 100000 in
set_option maxHeartbeats 64000000 in
/-- Window 10's maxima and weight. -/
theorem evalA10 (W : Valuation τ sig (Elt F)) :
    after (opsA10 (F := F)) W (Proc.devRef .tc main_v174) = vtR10 (W (Proc.devRef .tc main_arg0))
    ∧ after (opsA10 (F := F)) W (Proc.devRef .tc main_v180) = wR10 (W (Proc.devRef .tc main_v6))
    ∧ after (opsA10 (F := F)) W (Proc.devRef .tc main_arg0) = (W (Proc.devRef .tc main_arg0))
    ∧ after (opsA10 (F := F)) W (Proc.devRef .tc main_v6) = (W (Proc.devRef .tc main_v6))
    ∧ after (opsA10 (F := F)) W (Proc.devRef .tc main_v171) = (W (Proc.devRef .tc main_v171)) := by
  after_results_simp
  repeat' apply And.intro
  all_goals first | rfl | trivial

set_option maxRecDepth 100000 in
set_option maxHeartbeats 64000000 in
/-- Window 10's contribution added to the running total. -/
theorem evalB10 (W : Valuation τ sig (Elt F)) :
    after (opsB10 (F := F)) W (Proc.devRef .tc main_v188) = addf (W (Proc.devRef .tc main_v171)) (regR (W (Proc.devRef .tc main_v174)) (W (Proc.devRef .tc main_v180)))
    ∧ after (opsB10 (F := F)) W (Proc.devRef .tc main_arg0) = (W (Proc.devRef .tc main_arg0))
    ∧ after (opsB10 (F := F)) W (Proc.devRef .tc main_v6) = (W (Proc.devRef .tc main_v6)) := by
  after_results_simp
  repeat' apply And.intro
  all_goals first | rfl | trivial

set_option maxRecDepth 100000 in
set_option maxHeartbeats 64000000 in
/-- Window 11's maxima and weight. -/
theorem evalA11 (W : Valuation τ sig (Elt F)) :
    after (opsA11 (F := F)) W (Proc.devRef .tc main_v191) = vtR11 (W (Proc.devRef .tc main_arg0))
    ∧ after (opsA11 (F := F)) W (Proc.devRef .tc main_v197) = wR11 (W (Proc.devRef .tc main_v6))
    ∧ after (opsA11 (F := F)) W (Proc.devRef .tc main_arg0) = (W (Proc.devRef .tc main_arg0))
    ∧ after (opsA11 (F := F)) W (Proc.devRef .tc main_v6) = (W (Proc.devRef .tc main_v6))
    ∧ after (opsA11 (F := F)) W (Proc.devRef .tc main_v188) = (W (Proc.devRef .tc main_v188)) := by
  after_results_simp
  repeat' apply And.intro
  all_goals first | rfl | trivial

set_option maxRecDepth 100000 in
set_option maxHeartbeats 64000000 in
/-- Window 11's contribution added to the running total. -/
theorem evalB11 (W : Valuation τ sig (Elt F)) :
    after (opsB11 (F := F)) W (Proc.devRef .tc main_v205) = addf (W (Proc.devRef .tc main_v188)) (regR (W (Proc.devRef .tc main_v191)) (W (Proc.devRef .tc main_v197)))
    ∧ after (opsB11 (F := F)) W (Proc.devRef .tc main_arg0) = (W (Proc.devRef .tc main_arg0))
    ∧ after (opsB11 (F := F)) W (Proc.devRef .tc main_v6) = (W (Proc.devRef .tc main_v6)) := by
  after_results_simp
  repeat' apply And.intro
  all_goals first | rfl | trivial

set_option maxRecDepth 100000 in
set_option maxHeartbeats 64000000 in
/-- Window 12's maxima and weight. -/
theorem evalA12 (W : Valuation τ sig (Elt F)) :
    after (opsA12 (F := F)) W (Proc.devRef .tc main_v208) = vtR12 (W (Proc.devRef .tc main_arg0))
    ∧ after (opsA12 (F := F)) W (Proc.devRef .tc main_v214) = wR12 (W (Proc.devRef .tc main_v6))
    ∧ after (opsA12 (F := F)) W (Proc.devRef .tc main_arg0) = (W (Proc.devRef .tc main_arg0))
    ∧ after (opsA12 (F := F)) W (Proc.devRef .tc main_v6) = (W (Proc.devRef .tc main_v6))
    ∧ after (opsA12 (F := F)) W (Proc.devRef .tc main_v205) = (W (Proc.devRef .tc main_v205)) := by
  after_results_simp
  repeat' apply And.intro
  all_goals first | rfl | trivial

set_option maxRecDepth 100000 in
set_option maxHeartbeats 64000000 in
/-- Window 12's contribution added to the running total. -/
theorem evalB12 (W : Valuation τ sig (Elt F)) :
    after (opsB12 (F := F)) W (Proc.devRef .tc main_v222) = addf (W (Proc.devRef .tc main_v205)) (regR (W (Proc.devRef .tc main_v208)) (W (Proc.devRef .tc main_v214)))
    ∧ after (opsB12 (F := F)) W (Proc.devRef .tc main_arg0) = (W (Proc.devRef .tc main_arg0))
    ∧ after (opsB12 (F := F)) W (Proc.devRef .tc main_v6) = (W (Proc.devRef .tc main_v6)) := by
  after_results_simp
  repeat' apply And.intro
  all_goals first | rfl | trivial

set_option maxRecDepth 100000 in
set_option maxHeartbeats 64000000 in
/-- Window 13's maxima and weight. -/
theorem evalA13 (W : Valuation τ sig (Elt F)) :
    after (opsA13 (F := F)) W (Proc.devRef .tc main_v225) = vtR13 (W (Proc.devRef .tc main_arg0))
    ∧ after (opsA13 (F := F)) W (Proc.devRef .tc main_v231) = wR13 (W (Proc.devRef .tc main_v6))
    ∧ after (opsA13 (F := F)) W (Proc.devRef .tc main_arg0) = (W (Proc.devRef .tc main_arg0))
    ∧ after (opsA13 (F := F)) W (Proc.devRef .tc main_v6) = (W (Proc.devRef .tc main_v6))
    ∧ after (opsA13 (F := F)) W (Proc.devRef .tc main_v222) = (W (Proc.devRef .tc main_v222)) := by
  after_results_simp
  repeat' apply And.intro
  all_goals first | rfl | trivial

set_option maxRecDepth 100000 in
set_option maxHeartbeats 64000000 in
/-- Window 13's contribution added to the running total. -/
theorem evalB13 (W : Valuation τ sig (Elt F)) :
    after (opsB13 (F := F)) W (Proc.devRef .tc main_v239) = addf (W (Proc.devRef .tc main_v222)) (regR (W (Proc.devRef .tc main_v225)) (W (Proc.devRef .tc main_v231)))
    ∧ after (opsB13 (F := F)) W (Proc.devRef .tc main_arg0) = (W (Proc.devRef .tc main_arg0))
    ∧ after (opsB13 (F := F)) W (Proc.devRef .tc main_v6) = (W (Proc.devRef .tc main_v6)) := by
  after_results_simp
  repeat' apply And.intro
  all_goals first | rfl | trivial

set_option maxRecDepth 100000 in
set_option maxHeartbeats 64000000 in
/-- Window 14's maxima and weight. -/
theorem evalA14 (W : Valuation τ sig (Elt F)) :
    after (opsA14 (F := F)) W (Proc.devRef .tc main_v242) = vtR14 (W (Proc.devRef .tc main_arg0))
    ∧ after (opsA14 (F := F)) W (Proc.devRef .tc main_v248) = wR14 (W (Proc.devRef .tc main_v6))
    ∧ after (opsA14 (F := F)) W (Proc.devRef .tc main_arg0) = (W (Proc.devRef .tc main_arg0))
    ∧ after (opsA14 (F := F)) W (Proc.devRef .tc main_v6) = (W (Proc.devRef .tc main_v6))
    ∧ after (opsA14 (F := F)) W (Proc.devRef .tc main_v239) = (W (Proc.devRef .tc main_v239)) := by
  after_results_simp
  repeat' apply And.intro
  all_goals first | rfl | trivial

set_option maxRecDepth 100000 in
set_option maxHeartbeats 64000000 in
/-- Window 14's contribution added to the running total. -/
theorem evalB14 (W : Valuation τ sig (Elt F)) :
    after (opsB14 (F := F)) W (Proc.devRef .tc main_v256) = addf (W (Proc.devRef .tc main_v239)) (regR (W (Proc.devRef .tc main_v242)) (W (Proc.devRef .tc main_v248)))
    ∧ after (opsB14 (F := F)) W (Proc.devRef .tc main_arg0) = (W (Proc.devRef .tc main_arg0))
    ∧ after (opsB14 (F := F)) W (Proc.devRef .tc main_v6) = (W (Proc.devRef .tc main_v6)) := by
  after_results_simp
  repeat' apply And.intro
  all_goals first | rfl | trivial

/-- The final reshape. -/
theorem last_eval (W : Valuation τ sig (Elt F)) :
    after (opsLast (F := F)) W (Proc.devRef .tc main_v257)
      = shapeCast S16x1024x1x1 (W (Proc.devRef .tc main_v256)) shapeCasts_S16x1024_S16x1024x1x1 := by
  after_results_simp
  rfl

set_option maxRecDepth 100000 in
set_option maxHeartbeats 64000000 in
/-- The result buffer after the program's operations, from any contents of the argument: the stretches one after
    the other. -/
theorem ref_eval (W : Valuation τ sig (Elt F)) :
    after (ops (F := F)) W (Proc.devRef .tc main_v257)
      = shapeCast S16x1024x1x1 (totalR (W (Proc.devRef .tc main_arg0))) shapeCasts_S16x1024_S16x1024x1x1 := by
  simp only [ops, stretches, List.flatten_cons, List.flatten_nil, List.append_nil, after_append]
  obtain ⟨t0, v0, w0, x0⟩ := evalA0 W
  obtain ⟨a0, x0', t0'⟩ := evalB0 (after opsA0 W)
  rw [v0, w0] at a0; rw [x0] at x0'; rw [t0] at t0'
  obtain ⟨v1, w1, x1, t1, k1⟩ := evalA1 (after opsB0 (after opsA0 W))
  rw [x0'] at v1 x1; rw [t0'] at w1 t1; rw [a0] at k1
  obtain ⟨a1, x1', t1'⟩ := evalB1 (after opsA1 (after opsB0 (after opsA0 W)))
  rw [k1, v1, w1] at a1; rw [x1] at x1'; rw [t1] at t1'
  obtain ⟨v2, w2, x2, t2, k2⟩ := evalA2 (after opsB1 (after opsA1 (after opsB0 (after opsA0 W))))
  rw [x1'] at v2 x2; rw [t1'] at w2 t2; rw [a1] at k2
  obtain ⟨a2, x2', t2'⟩ := evalB2 (after opsA2 (after opsB1 (after opsA1 (after opsB0 (after opsA0 W)))))
  rw [k2, v2, w2] at a2; rw [x2] at x2'; rw [t2] at t2'
  obtain ⟨v3, w3, x3, t3, k3⟩ := evalA3 (after opsB2 (after opsA2 (after opsB1 (after opsA1 (after opsB0 (after opsA0 W))))))
  rw [x2'] at v3 x3; rw [t2'] at w3 t3; rw [a2] at k3
  obtain ⟨a3, x3', t3'⟩ := evalB3 (after opsA3 (after opsB2 (after opsA2 (after opsB1 (after opsA1 (after opsB0 (after opsA0 W)))))))
  rw [k3, v3, w3] at a3; rw [x3] at x3'; rw [t3] at t3'
  obtain ⟨v4, w4, x4, t4, k4⟩ := evalA4 (after opsB3 (after opsA3 (after opsB2 (after opsA2 (after opsB1 (after opsA1 (after opsB0 (after opsA0 W))))))))
  rw [x3'] at v4 x4; rw [t3'] at w4 t4; rw [a3] at k4
  obtain ⟨a4, x4', t4'⟩ := evalB4 (after opsA4 (after opsB3 (after opsA3 (after opsB2 (after opsA2 (after opsB1 (after opsA1 (after opsB0 (after opsA0 W)))))))))
  rw [k4, v4, w4] at a4; rw [x4] at x4'; rw [t4] at t4'
  obtain ⟨v5, w5, x5, t5, k5⟩ := evalA5 (after opsB4 (after opsA4 (after opsB3 (after opsA3 (after opsB2 (after opsA2 (after opsB1 (after opsA1 (after opsB0 (after opsA0 W))))))))))
  rw [x4'] at v5 x5; rw [t4'] at w5 t5; rw [a4] at k5
  obtain ⟨a5, x5', t5'⟩ := evalB5 (after opsA5 (after opsB4 (after opsA4 (after opsB3 (after opsA3 (after opsB2 (after opsA2 (after opsB1 (after opsA1 (after opsB0 (after opsA0 W)))))))))))
  rw [k5, v5, w5] at a5; rw [x5] at x5'; rw [t5] at t5'
  obtain ⟨v6, w6, x6, t6, k6⟩ := evalA6 (after opsB5 (after opsA5 (after opsB4 (after opsA4 (after opsB3 (after opsA3 (after opsB2 (after opsA2 (after opsB1 (after opsA1 (after opsB0 (after opsA0 W))))))))))))
  rw [x5'] at v6 x6; rw [t5'] at w6 t6; rw [a5] at k6
  obtain ⟨a6, x6', t6'⟩ := evalB6 (after opsA6 (after opsB5 (after opsA5 (after opsB4 (after opsA4 (after opsB3 (after opsA3 (after opsB2 (after opsA2 (after opsB1 (after opsA1 (after opsB0 (after opsA0 W)))))))))))))
  rw [k6, v6, w6] at a6; rw [x6] at x6'; rw [t6] at t6'
  obtain ⟨v7, w7, x7, t7, k7⟩ := evalA7 (after opsB6 (after opsA6 (after opsB5 (after opsA5 (after opsB4 (after opsA4 (after opsB3 (after opsA3 (after opsB2 (after opsA2 (after opsB1 (after opsA1 (after opsB0 (after opsA0 W))))))))))))))
  rw [x6'] at v7 x7; rw [t6'] at w7 t7; rw [a6] at k7
  obtain ⟨a7, x7', t7'⟩ := evalB7 (after opsA7 (after opsB6 (after opsA6 (after opsB5 (after opsA5 (after opsB4 (after opsA4 (after opsB3 (after opsA3 (after opsB2 (after opsA2 (after opsB1 (after opsA1 (after opsB0 (after opsA0 W)))))))))))))))
  rw [k7, v7, w7] at a7; rw [x7] at x7'; rw [t7] at t7'
  obtain ⟨v8, w8, x8, t8, k8⟩ := evalA8 (after opsB7 (after opsA7 (after opsB6 (after opsA6 (after opsB5 (after opsA5 (after opsB4 (after opsA4 (after opsB3 (after opsA3 (after opsB2 (after opsA2 (after opsB1 (after opsA1 (after opsB0 (after opsA0 W))))))))))))))))
  rw [x7'] at v8 x8; rw [t7'] at w8 t8; rw [a7] at k8
  obtain ⟨a8, x8', t8'⟩ := evalB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))
  rw [k8, v8, w8] at a8; rw [x8] at x8'; rw [t8] at t8'
  obtain ⟨v9, w9, x9, t9, k9⟩ := evalA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))
  rw [x8'] at v9 x9; rw [t8'] at w9 t9; rw [a8] at k9
  obtain ⟨a9, x9', t9'⟩ := evalB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))
  rw [k9, v9, w9] at a9; rw [x9] at x9'; rw [t9] at t9'
  obtain ⟨v10, w10, x10, t10, k10⟩ := evalA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))))
  rw [x9'] at v10 x10; rw [t9'] at w10 t10; rw [a9] at k10
  obtain ⟨a10, x10', t10'⟩ := evalB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))))
  rw [k10, v10, w10] at a10; rw [x10] at x10'; rw [t10] at t10'
  obtain ⟨v11, w11, x11, t11, k11⟩ := evalA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))))))
  rw [x10'] at v11 x11; rw [t10'] at w11 t11; rw [a10] at k11
  obtain ⟨a11, x11', t11'⟩ := evalB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))))))
  rw [k11, v11, w11] at a11; rw [x11] at x11'; rw [t11] at t11'
  obtain ⟨v12, w12, x12, t12, k12⟩ := evalA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))))))))
  rw [x11'] at v12 x12; rw [t11'] at w12 t12; rw [a11] at k12
  obtain ⟨a12, x12', t12'⟩ := evalB12 (after opsA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))))))))
  rw [k12, v12, w12] at a12; rw [x12] at x12'; rw [t12] at t12'
  obtain ⟨v13, w13, x13, t13, k13⟩ := evalA13 (after opsB12 (after opsA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))))))))))
  rw [x12'] at v13 x13; rw [t12'] at w13 t13; rw [a12] at k13
  obtain ⟨a13, x13', t13'⟩ := evalB13 (after opsA13 (after opsB12 (after opsA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))))))))))
  rw [k13, v13, w13] at a13; rw [x13] at x13'; rw [t13] at t13'
  obtain ⟨v14, w14, x14, t14, k14⟩ := evalA14 (after opsB13 (after opsA13 (after opsB12 (after opsA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W))))))))))))))))))))))))))))
  rw [x13'] at v14 x14; rw [t13'] at w14 t14; rw [a13] at k14
  obtain ⟨a14, x14', t14'⟩ := evalB14 (after opsA14 (after opsB13 (after opsA13 (after opsB12 (after opsA12 (after opsB11 (after opsA11 (after opsB10 (after opsA10 (after opsB9 (after opsA9 (after opsB8 (after opsA8 (after opsB7 (after opsA7 (after opsB6 (after opsA6 (after opsB5 (after opsA5 (after opsB4 (after opsA4 (after opsB3 (after opsA3 (after opsB2 (after opsA2 (after opsB1 (after opsA1 (after opsB0 (after opsA0 W)))))))))))))))))))))))))))))
  rw [k14, v14, w14] at a14; rw [x14] at x14'; rw [t14] at t14'
  rw [last_eval, a14]
  rfl

end Cert.ReferenceIdeal.Hand

end
-- ==== Proof.RefRead.lean ====
/-
  The reference program read at an index, at the ideal values.

  The channel-sum image at (b, h, w) is the start value plus the sum over channels of the argument's entries.  A
  window's maxima at (b, k) are the maximum, from minus infinity, of the argument's entries of that batch element and
  channel over the window.  A window's contribution at (b, k) is its maximum there, divided by the Euclidean norm over
  channels of that batch element's maxima plus the small constant, times the window's weight.
-/
import proofs.«167076_j27771258536050_1_alg».proof.Proof.RefEval
import proofs.«167076_j27771258536050_1_alg».proof.Proof.LibWinMax
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.LibWinMax

/-- The channel-sum image at (b, h, w). -/
theorem sR_apply (x : S16x1024x64x64.Idx → EReal) (b : Fin 16) (h w : Fin 64) :
    sR (F := Ideal) x (ix3 b h w)
      = FloatOps.ofBits (F := Ideal) .f32 0x00000000#32 + ∑ c : Fin 1024, x (ix4 b c h w) := by
  unfold sR
  simp only [Host.reduceAdd, Ideal.hostReduceAdd_def]
  rw [Ideal.hostReduceAdd_single reducesTo_S16x1024x64x64_S16x64x64_d1 (by decide)]
  refine congrArg (_ + ·) (Finset.sum_congr rfl fun c _ => ?_)
  exact congrArg x (funext fun a => Fin.ext (by match a with | ⟨0, _⟩ => rfl | ⟨1, _⟩ => rfl | ⟨2, _⟩ => rfl | ⟨3, _⟩ => rfl))

/-- Window 0 (the whole image) at (b, k). -/
theorem vtR0_apply (x : S16x1024x64x64.Idx → EReal) (b : Fin 16) (k : Fin 1024) :
    vtR0 (F := Ideal) x (ix2 b k)
      = foldMax2 (Ideal.ofBits .f32 0xFF800000#32) (fun p q : Fin 64 => x (ix4 b k ⟨0 + p.val, by omega⟩ ⟨0 + q.val, by omega⟩)) := by
  unfold vtR0
  refine (hostReduce_maximumf_last2_apply x _ reducesTo_S16x1024x64x64_S16x1024_d2_3 h_S_ b k).trans ?_
  refine congrArg₂ foldMax2 rfl (funext fun p => funext fun q => congrArg x ?_)
  funext a; apply Fin.ext
  match a with
  | ⟨0, _⟩ => rfl
  | ⟨1, _⟩ => rfl
  | ⟨2, _⟩ => show p.val = 0 + p.val; omega
  | ⟨3, _⟩ => show q.val = 0 + q.val; omega

/-- Window 1 (the whole image) at (b, k). -/
theorem vtR1_apply (x : S16x1024x64x64.Idx → EReal) (b : Fin 16) (k : Fin 1024) :
    vtR1 (F := Ideal) x (ix2 b k)
      = foldMax2 (Ideal.ofBits .f32 0xFF800000#32) (fun p q : Fin 64 => x (ix4 b k ⟨0 + p.val, by omega⟩ ⟨0 + q.val, by omega⟩)) := by
  unfold vtR1
  refine (hostReduce_maximumf_last2_apply x _ reducesTo_S16x1024x64x64_S16x1024_d2_3 h_S_ b k).trans ?_
  refine congrArg₂ foldMax2 rfl (funext fun p => funext fun q => congrArg x ?_)
  funext a; apply Fin.ext
  match a with
  | ⟨0, _⟩ => rfl
  | ⟨1, _⟩ => rfl
  | ⟨2, _⟩ => show p.val = 0 + p.val; omega
  | ⟨3, _⟩ => show q.val = 0 + q.val; omega

/-- Window 2 (offsets (0, 0), side 42) at (b, k). -/
theorem vtR2_apply (x : S16x1024x64x64.Idx → EReal) (b : Fin 16) (k : Fin 1024) :
    vtR2 (F := Ideal) x (ix2 b k)
      = foldMax2 (Ideal.ofBits .f32 0xFF800000#32) (fun p q : Fin 42 => x (ix4 b k ⟨0 + p.val, by omega⟩ ⟨0 + q.val, by omega⟩)) := by
  unfold vtR2
  refine (hostReduce_maximumf_last2_apply _ _ reducesTo_S16x1024x42x42_S16x1024_d2_3 h_S_ b k).trans ?_
  refine congrArg₂ foldMax2 rfl (funext fun p => funext fun q => ?_)
  exact extractStridedSlice_apply ![0, 0, 0, 0] x slices_S16x1024x64x64_S16x1024x42x42_0_0_0_0 (ix4 b k p q) (ix4 b k ⟨0 + p.val, by omega⟩ ⟨0 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 3 (offsets (0, 22), side 42) at (b, k). -/
theorem vtR3_apply (x : S16x1024x64x64.Idx → EReal) (b : Fin 16) (k : Fin 1024) :
    vtR3 (F := Ideal) x (ix2 b k)
      = foldMax2 (Ideal.ofBits .f32 0xFF800000#32) (fun p q : Fin 42 => x (ix4 b k ⟨0 + p.val, by omega⟩ ⟨22 + q.val, by omega⟩)) := by
  unfold vtR3
  refine (hostReduce_maximumf_last2_apply _ _ reducesTo_S16x1024x42x42_S16x1024_d2_3 h_S_ b k).trans ?_
  refine congrArg₂ foldMax2 rfl (funext fun p => funext fun q => ?_)
  exact extractStridedSlice_apply ![0, 0, 0, 22] x slices_S16x1024x64x64_S16x1024x42x42_0_0_0_22 (ix4 b k p q) (ix4 b k ⟨0 + p.val, by omega⟩ ⟨22 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 4 (offsets (22, 0), side 42) at (b, k). -/
theorem vtR4_apply (x : S16x1024x64x64.Idx → EReal) (b : Fin 16) (k : Fin 1024) :
    vtR4 (F := Ideal) x (ix2 b k)
      = foldMax2 (Ideal.ofBits .f32 0xFF800000#32) (fun p q : Fin 42 => x (ix4 b k ⟨22 + p.val, by omega⟩ ⟨0 + q.val, by omega⟩)) := by
  unfold vtR4
  refine (hostReduce_maximumf_last2_apply _ _ reducesTo_S16x1024x42x42_S16x1024_d2_3 h_S_ b k).trans ?_
  refine congrArg₂ foldMax2 rfl (funext fun p => funext fun q => ?_)
  exact extractStridedSlice_apply ![0, 0, 22, 0] x slices_S16x1024x64x64_S16x1024x42x42_0_0_22_0 (ix4 b k p q) (ix4 b k ⟨22 + p.val, by omega⟩ ⟨0 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 5 (offsets (22, 22), side 42) at (b, k). -/
theorem vtR5_apply (x : S16x1024x64x64.Idx → EReal) (b : Fin 16) (k : Fin 1024) :
    vtR5 (F := Ideal) x (ix2 b k)
      = foldMax2 (Ideal.ofBits .f32 0xFF800000#32) (fun p q : Fin 42 => x (ix4 b k ⟨22 + p.val, by omega⟩ ⟨22 + q.val, by omega⟩)) := by
  unfold vtR5
  refine (hostReduce_maximumf_last2_apply _ _ reducesTo_S16x1024x42x42_S16x1024_d2_3 h_S_ b k).trans ?_
  refine congrArg₂ foldMax2 rfl (funext fun p => funext fun q => ?_)
  exact extractStridedSlice_apply ![0, 0, 22, 22] x slices_S16x1024x64x64_S16x1024x42x42_0_0_22_22 (ix4 b k p q) (ix4 b k ⟨22 + p.val, by omega⟩ ⟨22 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 6 (offsets (0, 0), side 32) at (b, k). -/
theorem vtR6_apply (x : S16x1024x64x64.Idx → EReal) (b : Fin 16) (k : Fin 1024) :
    vtR6 (F := Ideal) x (ix2 b k)
      = foldMax2 (Ideal.ofBits .f32 0xFF800000#32) (fun p q : Fin 32 => x (ix4 b k ⟨0 + p.val, by omega⟩ ⟨0 + q.val, by omega⟩)) := by
  unfold vtR6
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 0, 0] x slices_S16x1024x64x64_S16x1024x32x32_0_0_0_0 (ix4 b k p q) (ix4 b k ⟨0 + p.val, by omega⟩ ⟨0 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 7 (offsets (0, 16), side 32) at (b, k). -/
theorem vtR7_apply (x : S16x1024x64x64.Idx → EReal) (b : Fin 16) (k : Fin 1024) :
    vtR7 (F := Ideal) x (ix2 b k)
      = foldMax2 (Ideal.ofBits .f32 0xFF800000#32) (fun p q : Fin 32 => x (ix4 b k ⟨0 + p.val, by omega⟩ ⟨16 + q.val, by omega⟩)) := by
  unfold vtR7
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 0, 16] x slices_S16x1024x64x64_S16x1024x32x32_0_0_0_16 (ix4 b k p q) (ix4 b k ⟨0 + p.val, by omega⟩ ⟨16 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 8 (offsets (0, 32), side 32) at (b, k). -/
theorem vtR8_apply (x : S16x1024x64x64.Idx → EReal) (b : Fin 16) (k : Fin 1024) :
    vtR8 (F := Ideal) x (ix2 b k)
      = foldMax2 (Ideal.ofBits .f32 0xFF800000#32) (fun p q : Fin 32 => x (ix4 b k ⟨0 + p.val, by omega⟩ ⟨32 + q.val, by omega⟩)) := by
  unfold vtR8
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 0, 32] x slices_S16x1024x64x64_S16x1024x32x32_0_0_0_32 (ix4 b k p q) (ix4 b k ⟨0 + p.val, by omega⟩ ⟨32 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 9 (offsets (16, 0), side 32) at (b, k). -/
theorem vtR9_apply (x : S16x1024x64x64.Idx → EReal) (b : Fin 16) (k : Fin 1024) :
    vtR9 (F := Ideal) x (ix2 b k)
      = foldMax2 (Ideal.ofBits .f32 0xFF800000#32) (fun p q : Fin 32 => x (ix4 b k ⟨16 + p.val, by omega⟩ ⟨0 + q.val, by omega⟩)) := by
  unfold vtR9
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 16, 0] x slices_S16x1024x64x64_S16x1024x32x32_0_0_16_0 (ix4 b k p q) (ix4 b k ⟨16 + p.val, by omega⟩ ⟨0 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 10 (offsets (16, 16), side 32) at (b, k). -/
theorem vtR10_apply (x : S16x1024x64x64.Idx → EReal) (b : Fin 16) (k : Fin 1024) :
    vtR10 (F := Ideal) x (ix2 b k)
      = foldMax2 (Ideal.ofBits .f32 0xFF800000#32) (fun p q : Fin 32 => x (ix4 b k ⟨16 + p.val, by omega⟩ ⟨16 + q.val, by omega⟩)) := by
  unfold vtR10
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 16, 16] x slices_S16x1024x64x64_S16x1024x32x32_0_0_16_16 (ix4 b k p q) (ix4 b k ⟨16 + p.val, by omega⟩ ⟨16 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 11 (offsets (16, 32), side 32) at (b, k). -/
theorem vtR11_apply (x : S16x1024x64x64.Idx → EReal) (b : Fin 16) (k : Fin 1024) :
    vtR11 (F := Ideal) x (ix2 b k)
      = foldMax2 (Ideal.ofBits .f32 0xFF800000#32) (fun p q : Fin 32 => x (ix4 b k ⟨16 + p.val, by omega⟩ ⟨32 + q.val, by omega⟩)) := by
  unfold vtR11
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 16, 32] x slices_S16x1024x64x64_S16x1024x32x32_0_0_16_32 (ix4 b k p q) (ix4 b k ⟨16 + p.val, by omega⟩ ⟨32 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 12 (offsets (32, 0), side 32) at (b, k). -/
theorem vtR12_apply (x : S16x1024x64x64.Idx → EReal) (b : Fin 16) (k : Fin 1024) :
    vtR12 (F := Ideal) x (ix2 b k)
      = foldMax2 (Ideal.ofBits .f32 0xFF800000#32) (fun p q : Fin 32 => x (ix4 b k ⟨32 + p.val, by omega⟩ ⟨0 + q.val, by omega⟩)) := by
  unfold vtR12
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 32, 0] x slices_S16x1024x64x64_S16x1024x32x32_0_0_32_0 (ix4 b k p q) (ix4 b k ⟨32 + p.val, by omega⟩ ⟨0 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 13 (offsets (32, 16), side 32) at (b, k). -/
theorem vtR13_apply (x : S16x1024x64x64.Idx → EReal) (b : Fin 16) (k : Fin 1024) :
    vtR13 (F := Ideal) x (ix2 b k)
      = foldMax2 (Ideal.ofBits .f32 0xFF800000#32) (fun p q : Fin 32 => x (ix4 b k ⟨32 + p.val, by omega⟩ ⟨16 + q.val, by omega⟩)) := by
  unfold vtR13
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 32, 16] x slices_S16x1024x64x64_S16x1024x32x32_0_0_32_16 (ix4 b k p q) (ix4 b k ⟨32 + p.val, by omega⟩ ⟨16 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- Window 14 (offsets (32, 32), side 32) at (b, k). -/
theorem vtR14_apply (x : S16x1024x64x64.Idx → EReal) (b : Fin 16) (k : Fin 1024) :
    vtR14 (F := Ideal) x (ix2 b k)
      = foldMax2 (Ideal.ofBits .f32 0xFF800000#32) (fun p q : Fin 32 => x (ix4 b k ⟨32 + p.val, by omega⟩ ⟨32 + q.val, by omega⟩)) := by
  unfold vtR14
  refine (hostReduce_maximumf_last2_apply _ _ reducesTo_S16x1024x32x32_S16x1024_d2_3 h_S_ b k).trans ?_
  refine congrArg₂ foldMax2 rfl (funext fun p => funext fun q => ?_)
  exact extractStridedSlice_apply ![0, 0, 32, 32] x slices_S16x1024x64x64_S16x1024x32x32_0_0_32_32 (ix4 b k p q) (ix4 b k ⟨32 + p.val, by omega⟩ ⟨32 + q.val, by omega⟩) (fun a => by
    match a with
    | ⟨0, _⟩ => show b.val = 0 + b.val; omega
    | ⟨1, _⟩ => show k.val = 0 + k.val; omega
    | ⟨2, _⟩ => rfl
    | ⟨3, _⟩ => rfl)

/-- A window's contribution at (b, k). -/
theorem regR_apply (VT : S16x1024.Idx → EReal) (w : S_.Idx → EReal) (b : Fin 16) (k : Fin 1024) :
    regR (F := Ideal) VT w (ix2 b k)
      = FloatOps.mulf (F := Ideal) (FloatOps.hostDivf (VT (ix2 b k))
          (FloatOps.addf (F := Ideal) (FloatOps.hostUnary .sqrt
            (FloatOps.ofBits (F := Ideal) .f32 0x00000000#32 + ∑ j : Fin 1024, VT (ix2 b j) * VT (ix2 b j)))
            (FloatOps.ofBits (F := Ideal) .f32 0x358637BD#32)))
          (w ix0) := by
  unfold regR
  show FloatOps.mulf (F := Ideal) (FloatOps.hostDivf (F := Ideal) (VT (ix2 b k)) ((broadcastInDim (s := S16x1) S16x1024 ![0, 1] bcast_S16x1_S16x1024_0_1 _) (ix2 b k)))
      ((broadcastInDim S16x1024 ![] bcast_S_S16x1024 w) (ix2 b k)) = _
  rw [broadcastInDim_apply _ bcast_S16x1_S16x1024_0_1 _ (ix2 b k) (ix2 b (0 : Fin 1)) (fun a => by
    match a with
    | ⟨0, _⟩ => show b.val = if (16 : Nat) = 1 then 0 else b.val; rw [if_neg (by decide)]
    | ⟨1, _⟩ => show 0 = if (1 : Nat) = 1 then 0 else k.val; rw [if_pos rfl]),
    broadcastInDim_apply _ bcast_S_S16x1024 w (ix2 b k) ix0 (fun a => a.elim0)]
  show FloatOps.mulf (F := Ideal) (FloatOps.hostDivf (F := Ideal) (VT (ix2 b k)) (FloatOps.addf (F := Ideal) (FloatOps.hostUnary (F := Ideal) .sqrt
      ((broadcastInDim (s := S16) S16x1 ![0] bcast_S16_S16x1_0 _) (ix2 b (0 : Fin 1))))
      ((broadcastInDim S16x1 ![] bcast_S_S16x1 (constant (F := Ideal) S_ .f32 0x358637BD#32)) (ix2 b (0 : Fin 1))))) (w ix0) = _
  rw [broadcastInDim_apply _ bcast_S16_S16x1_0 _ (ix2 b (0 : Fin 1)) (ix1 b) (fun a => by
    match a with
    | ⟨0, _⟩ => show b.val = if (16 : Nat) = 1 then 0 else b.val; rw [if_neg (by decide)]),
    broadcastInDim_apply _ bcast_S_S16x1 _ (ix2 b (0 : Fin 1)) ix0 (fun a => a.elim0)]
  simp only [Host.reduceAdd, Ideal.hostReduceAdd_def]
  rw [Ideal.hostReduceAdd_single reducesTo_S16x1024_S16_d1 (by decide)]
  refine congrArg (fun z => FloatOps.mulf (F := Ideal) (FloatOps.hostDivf (F := Ideal) (VT (ix2 b k))
    (FloatOps.addf (F := Ideal) (FloatOps.hostUnary (F := Ideal) .sqrt z) (FloatOps.ofBits (F := Ideal) .f32 0x358637BD#32))) (w ix0)) ?_
  refine congrArg (_ + ·) (Finset.sum_congr rfl fun j _ => ?_)
  have e : (Shape.Reduces.lift (by decide : S16x1024.Reduces [1] S16) (ix1 b) j) = ix2 b j :=
    funext fun a => Fin.ext (by match a with | ⟨0, _⟩ => rfl | ⟨1, _⟩ => rfl)
  rw [e]; rfl

/-- The contributions added in program order, at an index. -/
theorem accR_apply (T0 T1 T2 T3 T4 T5 T6 T7 T8 T9 T10 T11 T12 T13 T14 : S16x1024.Idx → EReal) (i : S16x1024.Idx) :
    accR (F := Ideal) T0 T1 T2 T3 T4 T5 T6 T7 T8 T9 T10 T11 T12 T13 T14 i
      = ((((((((((((((T0 i + T1 i) + T2 i) + T3 i) + T4 i) + T5 i) + T6 i) + T7 i) + T8 i) + T9 i) + T10 i) + T11 i) + T12 i) + T13 i) + T14 i) := rfl

end Cert.ReferenceIdeal.Hand

end
-- ==== Proof.Equal.lean ====
/-
  The two programs compute one function of the argument, at the ideal values.

  The kernel's channel sums are the reference's (a sum over channels, from a zero start value).  Row r of the kernel's
  window maxima is the reference's maxima of window r (both are the maximum over the window from minus infinity, taken
  along rows of the maxima along columns, or over both axes at once).  The weights are the same operations of the same
  channel-sum image.  And a sum over the fifteen windows from a zero start value is the fifteen contributions added one
  after the other.
-/
import proofs.«167076_j27771258536050_1_alg».proof.Proof.KIBridge
import proofs.«167076_j27771258536050_1_alg».proof.Proof.KIRead
import proofs.«167076_j27771258536050_1_alg».proof.Proof.RefRead

set_option maxRecDepth 16384

noncomputable section

namespace Cert.Proof.Equal

open Idealize.ShloMosaic Idealize.ShloMosaic.TcCoe Idealize.ShloMosaic.ValueIdx
open Cert.LibWinMax
open Cert.KernelIdeal Cert.KernelIdeal.Gen Cert.KernelIdeal.Frame Cert.KernelIdeal.Val
open Cert.ReferenceIdeal.Hand

/-- A sum over fifteen terms, written out from the left. -/
theorem sum15 (g : Fin 15 → EReal) :
    ∑ r, g r = ((((((((((((((g 0 + g 1) + g 2) + g 3) + g 4) + g 5) + g 6) + g 7) + g 8) + g 9) + g 10) + g 11) + g 12) + g 13) + g 14) := by
  simp only [Fin.sum_univ_succ, Fin.sum_univ_zero, add_zero]
  simp only [← add_assoc]
  rfl

/-- The kernel's channel sums are the reference's channel-sum image. -/
theorem sum_eq (x : S16x1024x64x64.Idx → EReal) : Gsum (F := Ideal) x = sR (F := Ideal) x := by
  funext i
  obtain ⟨b, h, w, rfl⟩ : ∃ (b : Fin 16) (h w : Fin 64), i = ix3 b h w := ⟨i 0, i 1, i 2, eq_ix3 i⟩
  rw [Gsum_apply]
  refine ((sR_apply x b h w).trans ?_).symm
  rw [Ideal.ofBits_def, Ideal.ofBits_zero_f32, zero_add]

/-- Row 0 of the kernel's window maxima is the reference's maxima of window 0. -/
theorem max_eq0 (x : S16x1024x64x64.Idx → EReal) (b : Fin 16) (k : Fin 1024) :
    Gmax (F := Ideal) x (ix3 b (0 : Fin 15) k) = vtR0 (F := Ideal) x (ix2 b k) := by
  refine ((outMax_row0 (blkOf x b) k).trans ?_).trans (vtR0_apply x b k).symm
  rfl

/-- Weight 0: the same operations of the same image in both programs. -/
theorem w_eq0 (s : S16x64x64.Idx → EReal) : wK0 (F := Ideal) (ttK s) = wR0 (F := Ideal) (ttR s) := rfl

set_option maxHeartbeats 2000000 in
/-- Entry 0 of the weight vector. -/
theorem wvK_apply0 (w0 w1 w2 w3 w4 w5 w6 w7 w8 w9 w10 w11 w12 w13 w14 : S_.Idx → EReal) :
    wvK (F := Ideal) w0 w1 w2 w3 w4 w5 w6 w7 w8 w9 w10 w11 w12 w13 w14 (ix1 (0 : Fin 15)) = w0 ix0 := by
  unfold wvK
  refine Eq.trans (concatenate_apply_piece (0 : Fin 1) _ _
    (ix1 (0 : Fin 15)) 0 (by show (0 : ℕ) < 15; decide) S1 _ rfl rfl 0 rfl (ix1 (0 : Fin 1)) (fun b hb => absurd (Subsingleton.elim _ _) hb) rfl) ?_
  exact broadcastInDim_apply _ bcast_S_S1 w0 (ix1 (0 : Fin 1)) ix0 (fun a => a.elim0)

/-- Row 1 of the kernel's window maxima is the reference's maxima of window 1. -/
theorem max_eq1 (x : S16x1024x64x64.Idx → EReal) (b : Fin 16) (k : Fin 1024) :
    Gmax (F := Ideal) x (ix3 b (1 : Fin 15) k) = vtR1 (F := Ideal) x (ix2 b k) := by
  refine ((outMax_row1 (blkOf x b) k).trans ?_).trans (vtR1_apply x b k).symm
  rfl

/-- Weight 1: the same operations of the same image in both programs. -/
theorem w_eq1 (s : S16x64x64.Idx → EReal) : wK1 (F := Ideal) (ttK s) = wR1 (F := Ideal) (ttR s) := rfl

set_option maxHeartbeats 2000000 in
/-- Entry 1 of the weight vector. -/
theorem wvK_apply1 (w0 w1 w2 w3 w4 w5 w6 w7 w8 w9 w10 w11 w12 w13 w14 : S_.Idx → EReal) :
    wvK (F := Ideal) w0 w1 w2 w3 w4 w5 w6 w7 w8 w9 w10 w11 w12 w13 w14 (ix1 (1 : Fin 15)) = w1 ix0 := by
  unfold wvK
  refine Eq.trans (concatenate_apply_piece (0 : Fin 1) _ _
    (ix1 (1 : Fin 15)) 1 (by show (1 : ℕ) < 15; decide) S1 _ rfl rfl 1 rfl (ix1 (0 : Fin 1)) (fun b hb => absurd (Subsingleton.elim _ _) hb) rfl) ?_
  exact broadcastInDim_apply _ bcast_S_S1 w1 (ix1 (0 : Fin 1)) ix0 (fun a => a.elim0)

/-- Row 2 of the kernel's window maxima is the reference's maxima of window 2. -/
theorem max_eq2 (x : S16x1024x64x64.Idx → EReal) (b : Fin 16) (k : Fin 1024) :
    Gmax (F := Ideal) x (ix3 b (2 : Fin 15) k) = vtR2 (F := Ideal) x (ix2 b k) := by
  refine ((outMax_row2 (blkOf x b) k).trans ?_).trans (vtR2_apply x b k).symm
  rfl

/-- Weight 2: the same operations of the same image in both programs. -/
theorem w_eq2 (s : S16x64x64.Idx → EReal) : wK2 (F := Ideal) (ttK s) = wR2 (F := Ideal) (ttR s) := rfl

set_option maxHeartbeats 2000000 in
/-- Entry 2 of the weight vector. -/
theorem wvK_apply2 (w0 w1 w2 w3 w4 w5 w6 w7 w8 w9 w10 w11 w12 w13 w14 : S_.Idx → EReal) :
    wvK (F := Ideal) w0 w1 w2 w3 w4 w5 w6 w7 w8 w9 w10 w11 w12 w13 w14 (ix1 (2 : Fin 15)) = w2 ix0 := by
  unfold wvK
  refine Eq.trans (concatenate_apply_piece (0 : Fin 1) _ _
    (ix1 (2 : Fin 15)) 2 (by show (2 : ℕ) < 15; decide) S1 _ rfl rfl 2 rfl (ix1 (0 : Fin 1)) (fun b hb => absurd (Subsingleton.elim _ _) hb) rfl) ?_
  exact broadcastInDim_apply _ bcast_S_S1 w2 (ix1 (0 : Fin 1)) ix0 (fun a => a.elim0)

/-- Row 3 of the kernel's window maxima is the reference's maxima of window 3. -/
theorem max_eq3 (x : S16x1024x64x64.Idx → EReal) (b : Fin 16) (k : Fin 1024) :
    Gmax (F := Ideal) x (ix3 b (3 : Fin 15) k) = vtR3 (F := Ideal) x (ix2 b k) := by
  refine ((outMax_row3 (blkOf x b) k).trans ?_).trans (vtR3_apply x b k).symm
  rfl

/-- Weight 3: the same operations of the same image in both programs. -/
theorem w_eq3 (s : S16x64x64.Idx → EReal) : wK3 (F := Ideal) (ttK s) = wR3 (F := Ideal) (ttR s) := rfl

set_option maxHeartbeats 2000000 in
/-- Entry 3 of the weight vector. -/
theorem wvK_apply3 (w0 w1 w2 w3 w4 w5 w6 w7 w8 w9 w10 w11 w12 w13 w14 : S_.Idx → EReal) :
    wvK (F := Ideal) w0 w1 w2 w3 w4 w5 w6 w7 w8 w9 w10 w11 w12 w13 w14 (ix1 (3 : Fin 15)) = w3 ix0 := by
  unfold wvK
  refine Eq.trans (concatenate_apply_piece (0 : Fin 1) _ _
    (ix1 (3 : Fin 15)) 3 (by show (3 : ℕ) < 15; decide) S1 _ rfl rfl 3 rfl (ix1 (0 : Fin 1)) (fun b hb => absurd (Subsingleton.elim _ _) hb) rfl) ?_
  exact broadcastInDim_apply _ bcast_S_S1 w3 (ix1 (0 : Fin 1)) ix0 (fun a => a.elim0)

/-- Row 4 of the kernel's window maxima is the reference's maxima of window 4. -/
theorem max_eq4 (x : S16x1024x64x64.Idx → EReal) (b : Fin 16) (k : Fin 1024) :
    Gmax (F := Ideal) x (ix3 b (4 : Fin 15) k) = vtR4 (F := Ideal) x (ix2 b k) := by
  refine ((outMax_row4 (blkOf x b) k).trans ?_).trans (vtR4_apply x b k).symm
  rfl

/-- Weight 4: the same operations of the same image in both programs. -/
theorem w_eq4 (s : S16x64x64.Idx → EReal) : wK4 (F := Ideal) (ttK s) = wR4 (F := Ideal) (ttR s) := rfl

set_option maxHeartbeats 2000000 in
/-- Entry 4 of the weight vector. -/
theorem wvK_apply4 (w0 w1 w2 w3 w4 w5 w6 w7 w8 w9 w10 w11 w12 w13 w14 : S_.Idx → EReal) :
    wvK (F := Ideal) w0 w1 w2 w3 w4 w5 w6 w7 w8 w9 w10 w11 w12 w13 w14 (ix1 (4 : Fin 15)) = w4 ix0 := by
  unfold wvK
  refine Eq.trans (concatenate_apply_piece (0 : Fin 1) _ _
    (ix1 (4 : Fin 15)) 4 (by show (4 : ℕ) < 15; decide) S1 _ rfl rfl 4 rfl (ix1 (0 : Fin 1)) (fun b hb => absurd (Subsingleton.elim _ _) hb) rfl) ?_
  exact broadcastInDim_apply _ bcast_S_S1 w4 (ix1 (0 : Fin 1)) ix0 (fun a => a.elim0)

/-- Row 5 of the kernel's window maxima is the reference's maxima of window 5. -/
theorem max_eq5 (x : S16x1024x64x64.Idx → EReal) (b : Fin 16) (k : Fin 1024) :
    Gmax (F := Ideal) x (ix3 b (5 : Fin 15) k) = vtR5 (F := Ideal) x (ix2 b k) := by
  refine ((outMax_row5 (blkOf x b) k).trans ?_).trans (vtR5_apply x b k).symm
  rfl

/-- Weight 5: the same operations of the same image in both programs. -/
theorem w_eq5 (s : S16x64x64.Idx → EReal) : wK5 (F := Ideal) (ttK s) = wR5 (F := Ideal) (ttR s) := rfl

set_option maxHeartbeats 2000000 in
/-- Entry 5 of the weight vector. -/
theorem wvK_apply5 (w0 w1 w2 w3 w4 w5 w6 w7 w8 w9 w10 w11 w12 w13 w14 : S_.Idx → EReal) :
    wvK (F := Ideal) w0 w1 w2 w3 w4 w5 w6 w7 w8 w9 w10 w11 w12 w13 w14 (ix1 (5 : Fin 15)) = w5 ix0 := by
  unfold wvK
  refine Eq.trans (concatenate_apply_piece (0 : Fin 1) _ _
    (ix1 (5 : Fin 15)) 5 (by show (5 : ℕ) < 15; decide) S1 _ rfl rfl 5 rfl (ix1 (0 : Fin 1)) (fun b hb => absurd (Subsingleton.elim _ _) hb) rfl) ?_
  exact broadcastInDim_apply _ bcast_S_S1 w5 (ix1 (0 : Fin 1)) ix0 (fun a => a.elim0)

/-- Row 6 of the kernel's window maxima is the reference's maxima of window 6. -/
theorem max_eq6 (x : S16x1024x64x64.Idx → EReal) (b : Fin 16) (k : Fin 1024) :
    Gmax (F := Ideal) x (ix3 b (6 : Fin 15) k) = vtR6 (F := Ideal) x (ix2 b k) := by
  refine ((outMax_row6 (blkOf x b) k).trans ?_).trans (vtR6_apply x b k).symm
  rfl

/-- Weight 6: the same operations of the same image in both programs. -/
theorem w_eq6 (s : S16x64x64.Idx → EReal) : wK6 (F := Ideal) (ttK s) = wR6 (F := Ideal) (ttR s) := rfl

set_option maxHeartbeats 2000000 in
/-- Entry 6 of the weight vector. -/
theorem wvK_apply6 (w0 w1 w2 w3 w4 w5 w6 w7 w8 w9 w10 w11 w12 w13 w14 : S_.Idx → EReal) :
    wvK (F := Ideal) w0 w1 w2 w3 w4 w5 w6 w7 w8 w9 w10 w11 w12 w13 w14 (ix1 (6 : Fin 15)) = w6 ix0 := by
  unfold wvK
  refine Eq.trans (concatenate_apply_piece (0 : Fin 1) _ _
    (ix1 (6 : Fin 15)) 6 (by show (6 : ℕ) < 15; decide) S1 _ rfl rfl 6 rfl (ix1 (0 : Fin 1)) (fun b hb => absurd (Subsingleton.elim _ _) hb) rfl) ?_
  exact broadcastInDim_apply _ bcast_S_S1 w6 (ix1 (0 : Fin 1)) ix0 (fun a => a.elim0)

/-- Row 7 of the kernel's window maxima is the reference's maxima of window 7. -/
theorem max_eq7 (x : S16x1024x64x64.Idx → EReal) (b : Fin 16) (k : Fin 1024) :
    Gmax (F := Ideal) x (ix3 b (7 : Fin 15) k) = vtR7 (F := Ideal) x (ix2 b k) := by
  refine ((outMax_row7 (blkOf x b) k).trans ?_).trans (vtR7_apply x b k).symm
  rfl

/-- Weight 7: the same operations of the same image in both programs. -/
theorem w_eq7 (s : S16x64x64.Idx → EReal) : wK7 (F := Ideal) (ttK s) = wR7 (F := Ideal) (ttR s) := rfl

set_option maxHeartbeats 2000000 in
/-- Entry 7 of the weight vector. -/
theorem wvK_apply7 (w0 w1 w2 w3 w4 w5 w6 w7 w8 w9 w10 w11 w12 w13 w14 : S_.Idx → EReal) :
    wvK (F := Ideal) w0 w1 w2 w3 w4 w5 w6 w7 w8 w9 w10 w11 w12 w13 w14 (ix1 (7 : Fin 15)) = w7 ix0 := by
  unfold wvK
  refine Eq.trans (concatenate_apply_piece (0 : Fin 1) _ _
    (ix1 (7 : Fin 15)) 7 (by show (7 : ℕ) < 15; decide) S1 _ rfl rfl 7 rfl (ix1 (0 : Fin 1)) (fun b hb => absurd (Subsingleton.elim _ _) hb) rfl) ?_
  exact broadcastInDim_apply _ bcast_S_S1 w7 (ix1 (0 : Fin 1)) ix0 (fun a => a.elim0)

/-- Row 8 of the kernel's window maxima is the reference's maxima of window 8. -/
theorem max_eq8 (x : S16x1024x64x64.Idx → EReal) (b : Fin 16) (k : Fin 1024) :
    Gmax (F := Ideal) x (ix3 b (8 : Fin 15) k) = vtR8 (F := Ideal) x (ix2 b k) := by
  refine ((outMax_row8 (blkOf x b) k).trans ?_).trans (vtR8_apply x b k).symm
  rfl

/-- Weight 8: the same operations of the same image in both programs. -/
theorem w_eq8 (s : S16x64x64.Idx → EReal) : wK8 (F := Ideal) (ttK s) = wR8 (F := Ideal) (ttR s) := rfl

set_option maxHeartbeats 2000000 in
/-- Entry 8 of the weight vector. -/
theorem wvK_apply8 (w0 w1 w2 w3 w4 w5 w6 w7 w8 w9 w10 w11 w12 w13 w14 : S_.Idx → EReal) :
    wvK (F := Ideal) w0 w1 w2 w3 w4 w5 w6 w7 w8 w9 w10 w11 w12 w13 w14 (ix1 (8 : Fin 15)) = w8 ix0 := by
  unfold wvK
  refine Eq.trans (concatenate_apply_piece (0 : Fin 1) _ _
    (ix1 (8 : Fin 15)) 8 (by show (8 : ℕ) < 15; decide) S1 _ rfl rfl 8 rfl (ix1 (0 : Fin 1)) (fun b hb => absurd (Subsingleton.elim _ _) hb) rfl) ?_
  exact broadcastInDim_apply _ bcast_S_S1 w8 (ix1 (0 : Fin 1)) ix0 (fun a => a.elim0)

/-- Row 9 of the kernel's window maxima is the reference's maxima of window 9. -/
theorem max_eq9 (x : S16x1024x64x64.Idx → EReal) (b : Fin 16) (k : Fin 1024) :
    Gmax (F := Ideal) x (ix3 b (9 : Fin 15) k) = vtR9 (F := Ideal) x (ix2 b k) := by
  refine ((outMax_row9 (blkOf x b) k).trans ?_).trans (vtR9_apply x b k).symm
  rfl

/-- Weight 9: the same operations of the same image in both programs. -/
theorem w_eq9 (s : S16x64x64.Idx → EReal) : wK9 (F := Ideal) (ttK s) = wR9 (F := Ideal) (ttR s) := rfl

set_option maxHeartbeats 2000000 in
/-- Entry 9 of the weight vector. -/
theorem wvK_apply9 (w0 w1 w2 w3 w4 w5 w6 w7 w8 w9 w10 w11 w12 w13 w14 : S_.Idx → EReal) :
    wvK (F := Ideal) w0 w1 w2 w3 w4 w5 w6 w7 w8 w9 w10 w11 w12 w13 w14 (ix1 (9 : Fin 15)) = w9 ix0 := by
  unfold wvK
  refine Eq.trans (concatenate_apply_piece (0 : Fin 1) _ _
    (ix1 (9 : Fin 15)) 9 (by show (9 : ℕ) < 15; decide) S1 _ rfl rfl 9 rfl (ix1 (0 : Fin 1)) (fun b hb => absurd (Subsingleton.elim _ _) hb) rfl) ?_
  exact broadcastInDim_apply _ bcast_S_S1 w9 (ix1 (0 : Fin 1)) ix0 (fun a => a.elim0)

/-- Row 10 of the kernel's window maxima is the reference's maxima of window 10. -/
theorem max_eq10 (x : S16x1024x64x64.Idx → EReal) (b : Fin 16) (k : Fin 1024) :
    Gmax (F := Ideal) x (ix3 b (10 : Fin 15) k) = vtR10 (F := Ideal) x (ix2 b k) := by
  refine ((outMax_row10 (blkOf x b) k).trans ?_).trans (vtR10_apply x b k).symm
  rfl

/-- Weight 10: the same operations of the same image in both programs. -/
theorem w_eq10 (s : S16x64x64.Idx → EReal) : wK10 (F := Ideal) (ttK s) = wR10 (F := Ideal) (ttR s) := rfl

set_option maxHeartbeats 2000000 in
/-- Entry 10 of the weight vector. -/
theorem wvK_apply10 (w0 w1 w2 w3 w4 w5 w6 w7 w8 w9 w10 w11 w12 w13 w14 : S_.Idx → EReal) :
    wvK (F := Ideal) w0 w1 w2 w3 w4 w5 w6 w7 w8 w9 w10 w11 w12 w13 w14 (ix1 (10 : Fin 15)) = w10 ix0 := by
  unfold wvK
  refine Eq.trans (concatenate_apply_piece (0 : Fin 1) _ _
    (ix1 (10 : Fin 15)) 10 (by show (10 : ℕ) < 15; decide) S1 _ rfl rfl 10 rfl (ix1 (0 : Fin 1)) (fun b hb => absurd (Subsingleton.elim _ _) hb) rfl) ?_
  exact broadcastInDim_apply _ bcast_S_S1 w10 (ix1 (0 : Fin 1)) ix0 (fun a => a.elim0)

/-- Row 11 of the kernel's window maxima is the reference's maxima of window 11. -/
theorem max_eq11 (x : S16x1024x64x64.Idx → EReal) (b : Fin 16) (k : Fin 1024) :
    Gmax (F := Ideal) x (ix3 b (11 : Fin 15) k) = vtR11 (F := Ideal) x (ix2 b k) := by
  refine ((outMax_row11 (blkOf x b) k).trans ?_).trans (vtR11_apply x b k).symm
  rfl

/-- Weight 11: the same operations of the same image in both programs. -/
theorem w_eq11 (s : S16x64x64.Idx → EReal) : wK11 (F := Ideal) (ttK s) = wR11 (F := Ideal) (ttR s) := rfl

set_option maxHeartbeats 2000000 in
/-- Entry 11 of the weight vector. -/
theorem wvK_apply11 (w0 w1 w2 w3 w4 w5 w6 w7 w8 w9 w10 w11 w12 w13 w14 : S_.Idx → EReal) :
    wvK (F := Ideal) w0 w1 w2 w3 w4 w5 w6 w7 w8 w9 w10 w11 w12 w13 w14 (ix1 (11 : Fin 15)) = w11 ix0 := by
  unfold wvK
  refine Eq.trans (concatenate_apply_piece (0 : Fin 1) _ _
    (ix1 (11 : Fin 15)) 11 (by show (11 : ℕ) < 15; decide) S1 _ rfl rfl 11 rfl (ix1 (0 : Fin 1)) (fun b hb => absurd (Subsingleton.elim _ _) hb) rfl) ?_
  exact broadcastInDim_apply _ bcast_S_S1 w11 (ix1 (0 : Fin 1)) ix0 (fun a => a.elim0)

/-- Row 12 of the kernel's window maxima is the reference's maxima of window 12. -/
theorem max_eq12 (x : S16x1024x64x64.Idx → EReal) (b : Fin 16) (k : Fin 1024) :
    Gmax (F := Ideal) x (ix3 b (12 : Fin 15) k) = vtR12 (F := Ideal) x (ix2 b k) := by
  refine ((outMax_row12 (blkOf x b) k).trans ?_).trans (vtR12_apply x b k).symm
  rfl

/-- Weight 12: the same operations of the same image in both programs. -/
theorem w_eq12 (s : S16x64x64.Idx → EReal) : wK12 (F := Ideal) (ttK s) = wR12 (F := Ideal) (ttR s) := rfl

set_option maxHeartbeats 2000000 in
/-- Entry 12 of the weight vector. -/
theorem wvK_apply12 (w0 w1 w2 w3 w4 w5 w6 w7 w8 w9 w10 w11 w12 w13 w14 : S_.Idx → EReal) :
    wvK (F := Ideal) w0 w1 w2 w3 w4 w5 w6 w7 w8 w9 w10 w11 w12 w13 w14 (ix1 (12 : Fin 15)) = w12 ix0 := by
  unfold wvK
  refine Eq.trans (concatenate_apply_piece (0 : Fin 1) _ _
    (ix1 (12 : Fin 15)) 12 (by show (12 : ℕ) < 15; decide) S1 _ rfl rfl 12 rfl (ix1 (0 : Fin 1)) (fun b hb => absurd (Subsingleton.elim _ _) hb) rfl) ?_
  exact broadcastInDim_apply _ bcast_S_S1 w12 (ix1 (0 : Fin 1)) ix0 (fun a => a.elim0)

/-- Row 13 of the kernel's window maxima is the reference's maxima of window 13. -/
theorem max_eq13 (x : S16x1024x64x64.Idx → EReal) (b : Fin 16) (k : Fin 1024) :
    Gmax (F := Ideal) x (ix3 b (13 : Fin 15) k) = vtR13 (F := Ideal) x (ix2 b k) := by
  refine ((outMax_row13 (blkOf x b) k).trans ?_).trans (vtR13_apply x b k).symm
  rfl

/-- Weight 13: the same operations of the same image in both programs. -/
theorem w_eq13 (s : S16x64x64.Idx → EReal) : wK13 (F := Ideal) (ttK s) = wR13 (F := Ideal) (ttR s) := rfl

set_option maxHeartbeats 2000000 in
/-- Entry 13 of the weight vector. -/
theorem wvK_apply13 (w0 w1 w2 w3 w4 w5 w6 w7 w8 w9 w10 w11 w12 w13 w14 : S_.Idx → EReal) :
    wvK (F := Ideal) w0 w1 w2 w3 w4 w5 w6 w7 w8 w9 w10 w11 w12 w13 w14 (ix1 (13 : Fin 15)) = w13 ix0 := by
  unfold wvK
  refine Eq.trans (concatenate_apply_piece (0 : Fin 1) _ _
    (ix1 (13 : Fin 15)) 13 (by show (13 : ℕ) < 15; decide) S1 _ rfl rfl 13 rfl (ix1 (0 : Fin 1)) (fun b hb => absurd (Subsingleton.elim _ _) hb) rfl) ?_
  exact broadcastInDim_apply _ bcast_S_S1 w13 (ix1 (0 : Fin 1)) ix0 (fun a => a.elim0)

/-- Row 14 of the kernel's window maxima is the reference's maxima of window 14. -/
theorem max_eq14 (x : S16x1024x64x64.Idx → EReal) (b : Fin 16) (k : Fin 1024) :
    Gmax (F := Ideal) x (ix3 b (14 : Fin 15) k) = vtR14 (F := Ideal) x (ix2 b k) := by
  refine ((outMax_row14 (blkOf x b) k).trans ?_).trans (vtR14_apply x b k).symm
  rfl

/-- Weight 14: the same operations of the same image in both programs. -/
theorem w_eq14 (s : S16x64x64.Idx → EReal) : wK14 (F := Ideal) (ttK s) = wR14 (F := Ideal) (ttR s) := rfl

set_option maxHeartbeats 2000000 in
/-- Entry 14 of the weight vector. -/
theorem wvK_apply14 (w0 w1 w2 w3 w4 w5 w6 w7 w8 w9 w10 w11 w12 w13 w14 : S_.Idx → EReal) :
    wvK (F := Ideal) w0 w1 w2 w3 w4 w5 w6 w7 w8 w9 w10 w11 w12 w13 w14 (ix1 (14 : Fin 15)) = w14 ix0 := by
  unfold wvK
  refine Eq.trans (concatenate_apply_piece (0 : Fin 1) _ _
    (ix1 (14 : Fin 15)) 14 (by show (14 : ℕ) < 15; decide) S1 _ rfl rfl 14 rfl (ix1 (0 : Fin 1)) (fun b hb => absurd (Subsingleton.elim _ _) hb) rfl) ?_
  exact broadcastInDim_apply _ bcast_S_S1 w14 (ix1 (0 : Fin 1)) ix0 (fun a => a.elim0)

/-- The two totals are equal. -/
theorem total_eq (x : S16x1024x64x64.Idx → EReal) :
    totalK (F := Ideal) (Gsum (F := Ideal) x) (Gmax (F := Ideal) x) = totalR (F := Ideal) x := by
  funext i
  obtain ⟨b, k, rfl⟩ : ∃ (b : Fin 16) (k : Fin 1024), i = ix2 b k := ⟨i 0, i 1, eq_ix2 i⟩
  unfold totalK totalR
  rw [tailK_apply, accR_apply, sum15]
  simp only [wvK_apply0, wvK_apply1, wvK_apply2, wvK_apply3, wvK_apply4, wvK_apply5, wvK_apply6, wvK_apply7, wvK_apply8, wvK_apply9, wvK_apply10, wvK_apply11, wvK_apply12, wvK_apply13, wvK_apply14, regR_apply, max_eq0 x b, max_eq1 x b, max_eq2 x b, max_eq3 x b, max_eq4 x b, max_eq5 x b, max_eq6 x b, max_eq7 x b, max_eq8 x b, max_eq9 x b, max_eq10 x b, max_eq11 x b, max_eq12 x b, max_eq13 x b, max_eq14 x b]
  rw [sum_eq x]
  simp only [w_eq0, w_eq1, w_eq2, w_eq3, w_eq4, w_eq5, w_eq6, w_eq7, w_eq8, w_eq9, w_eq10, w_eq11, w_eq12, w_eq13, w_eq14]
  rw [Ideal.ofBits_def, Ideal.ofBits_zero_f32]
  simp only [zero_add]

end Cert.Proof.Equal

end
-- ==== Proof.lean ====
/-
  The certificate: a kernel that, for each batch element, sums a [1024, 64, 64] image over its channels and takes
  its channel-wise maxima over fifteen square windows, followed on the host by a thresholding of the channel sums
  against their mean, a weight per window from the thresholded image, and a weighted sum over the windows of the
  maxima normalised by their Euclidean norm over channels; against a reference that does all of it on the host,
  window by window.

  Each program runs to its end and leaves its argument alone: the kernel programs by the frame of a launch followed
  by host operations, the body's stores covering each output block; the reference as a straight line of host
  operations.  The idealised kernel program is the kernel program's own text, so nothing is owed for the
  idealisation.  At the ideal values the two results agree entry by entry: channel sums and window maxima are the same
  sums and maxima however they are grouped, the weights are the same operations of the same image, and a sum over the
  windows from zero is the contributions added one after the other.  No step uses that the inputs are finite.
-/
import proofs.«167076_j27771258536050_1_alg».proof.Defs
import proofs.«167076_j27771258536050_1_alg».proof.Proof.Gen.Kernel
import proofs.«167076_j27771258536050_1_alg».proof.Proof.Gen.KernelIdeal
import proofs.«167076_j27771258536050_1_alg».proof.Proof.Gen.ReferenceIdeal
import proofs.«167076_j27771258536050_1_alg».proof.Proof.Gen.Pre_finite_inputs
import proofs.«167076_j27771258536050_1_alg».proof.Proof.KFrame
import proofs.«167076_j27771258536050_1_alg».proof.Proof.KIRun
import proofs.«167076_j27771258536050_1_alg».proof.Proof.Equal

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Val.run (F := Ideal) m ρ, ?_⟩
  refine (θ_run Cert.ReferenceIdeal.defs _ _).mono (fun _ h c => ⟨(h c).1.trans ?_, (h c).2⟩)
    (Cert.ReferenceIdeal.Hand.run (F := Ideal) m' ρ')
  refine (Cert.ReferenceIdeal.Hand.ref_eval _).trans ?_
  show shapeCast _ (Cert.ReferenceIdeal.Hand.totalR (m' ((c.tc : Thread Cert.ReferenceIdeal.nD Cert.ReferenceIdeal.τ).loc Cert.ReferenceIdeal.main_arg0))) _ = _
  rw [hagree c, ← Cert.Proof.Equal.total_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
